-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S3x256x256 : Shape := ⟨3, ![3, 256, 256]⟩
abbrev S3x256 : Shape := ⟨2, ![3, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg4 : FVec F S3x256 .f32) (main_arg5 : FVec F S3x256 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg4
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg5
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  main_v28

def fn {F : FTy → Type} [FloatOps F] (main_arg0 : FVec F S50000x256 .f32) (main_arg1 : FVec F S800000 .f32) (main_arg2 : FVec F S3x256x256 .f32) (main_arg3 : FVec F S3x256 .f32) (main_arg4 : FVec F S3x256 .f32) (main_arg5 : FVec F S3x256 .f32) (main_arg6 : IVec S800000 32) (main_arg7 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x256x256 .f32 := Host.absf main_arg2
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg3
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg4 main_arg5 main_v13 main_v16
-- ==== Kernel.lean ====
abbrev S50000x256 : Shape := ⟨2, ![50000, 256]⟩
abbrev S800000 : Shape := ⟨1, ![800000]⟩
abbrev S3x256x256 : Shape := ⟨3, ![3, 256, 256]⟩
abbrev S3x256 : Shape := ⟨2, ![3, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S50000x768 : Shape := ⟨2, ![50000, 768]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩

abbrev nBuf : Space → Nat
  | .hbm => 110
  | .vmem => 54
  | .smem => 0
  | _ => 0

abbrev bufTy : (tb : Table) → Fin (tcTables nBuf tb) → BufTy
  | .hbm, ⟨0, _⟩ => ⟨S50000x256, .f32⟩
  | .hbm, ⟨1, _⟩ => ⟨S800000, .f32⟩
  | .hbm, ⟨2, _⟩ => ⟨S3x256x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x256, .f32⟩
  | .hbm, ⟨30, _⟩ => ⟨S800000x1, .f32⟩
  | .hbm, ⟨31, _⟩ => ⟨S800000x256, .f32⟩
  | .hbm, ⟨32, _⟩ => ⟨S800000x256, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S50000x1, .f32⟩
  | .hbm, ⟨38, _⟩ => ⟨S50000x256, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x1, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x1, .f32⟩
  | .hbm, ⟨57, _⟩ => ⟨S50000x256, .f32⟩
  | .hbm, ⟨58, _⟩ => ⟨S50000x256, .f32⟩
  | .hbm, ⟨59, _⟩ => ⟨S3x256x256, .bf16⟩
  | .hbm, ⟨60, _⟩ => ⟨S_, .f32⟩
  | .hbm, ⟨61, _⟩ => ⟨S50000x768, .f32⟩
  | .hbm, ⟨62, _⟩ => ⟨S50000x256, .bf16⟩
  | .hbm, ⟨63, _⟩ => ⟨S1x256x256, .bf16⟩
  | .hbm, ⟨64, _⟩ => ⟨S256x256, .bf16⟩
  | .hbm, ⟨65, _⟩ => ⟨S1x256, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S1x256x256, .bf16⟩
  | .hbm, ⟨70, _⟩ => ⟨S256x256, .bf16⟩
  | .hbm, ⟨71, _⟩ => ⟨S1x256, .f32⟩
  | .hbm, ⟨72, _⟩ => ⟨S256, .f32⟩
  | .hbm, ⟨73, _⟩ => ⟨S1x256, .f32⟩
  | .hbm, ⟨74, _⟩ => ⟨S256, .f32⟩
  | .hbm, ⟨75, _⟩ => ⟨S1x256, .f32⟩
  | .hbm, ⟨76, _⟩ => ⟨S256, .f32⟩
  | .hbm, ⟨77, _⟩ => ⟨S50000x768, .f32⟩
  | .hbm, ⟨78, _⟩ => ⟨S50000x256, .bf16⟩
  | .hbm, ⟨79, _⟩ => ⟨S1x256x256, .bf16⟩
  | .hbm, ⟨80, _⟩ => ⟨S256x256, .bf16⟩
  | .hbm, ⟨81, _⟩ => ⟨S1x256, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S1x256x256, .bf16⟩
  | .hbm, ⟨86, _⟩ => ⟨S256x256, .bf16⟩
  | .hbm, ⟨87, _⟩ => ⟨S1x256, .f32⟩
  | .hbm, ⟨88, _⟩ => ⟨S256, .f32⟩
  | .hbm, ⟨89, _⟩ => ⟨S1x256, .f32⟩
  | .hbm, ⟨90, _⟩ => ⟨S256, .f32⟩
  | .hbm, ⟨91, _⟩ => ⟨S1x256, .f32⟩
  | .hbm, ⟨92, _⟩ => ⟨S256, .f32⟩
  | .hbm, ⟨93, _⟩ => ⟨S50000x768, .f32⟩
  | .hbm, ⟨94, _⟩ => ⟨S50000x256, .bf16⟩
  | .hbm, ⟨95, _⟩ => ⟨S1x256x256, .bf16⟩
  | .hbm, ⟨96, _⟩ => ⟨S256x256, .bf16⟩
  | .hbm, ⟨97, _⟩ => ⟨S1x256, .f32⟩
  | .hbm, ⟨98, _⟩ => ⟨S256, .f32⟩
  | .hbm, ⟨99, _⟩ => ⟨S256, .f32⟩
  | .hbm, ⟨100, _⟩ => ⟨S256, .f32⟩
  | .hbm, ⟨101, _⟩ => ⟨S1x256x256, .bf16⟩
  | .hbm, ⟨102, _⟩ => ⟨S256x256, .bf16⟩
  | .hbm, ⟨103, _⟩ => ⟨S1x256, .f32⟩
  | .hbm, ⟨104, _⟩ => ⟨S256, .f32⟩
  | .hbm, ⟨105, _⟩ => ⟨S1x256, .f32⟩
  | .hbm, ⟨106, _⟩ => ⟨S256, .f32⟩
  | .hbm, ⟨107, _⟩ => ⟨S1x256, .f32⟩
  | .hbm, ⟨108, _⟩ => ⟨S256, .f32⟩
  | .hbm, ⟨109, _⟩ => ⟨S50000x768, .f32⟩
  | .local _ .vmem, ⟨0, _⟩ => ⟨S2000x256, .bf16⟩
  | .local _ .vmem, ⟨1, _⟩ => ⟨S2000x256, .bf16⟩
  | .local _ .vmem, ⟨2, _⟩ => ⟨S256x256, .bf16⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S1x256, .f32⟩
  | .local _ .vmem, ⟨7, _⟩ => ⟨S1x256, .f32⟩
  | .local _ .vmem, ⟨8, _⟩ => ⟨S2000x256, .bf16⟩
  | .local _ .vmem, ⟨9, _⟩ => ⟨S2000x256, .bf16⟩
  | .local _ .vmem, ⟨10, _⟩ => ⟨S256x256, .bf16⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .bf16⟩
  | .local _ .vmem, ⟨19, _⟩ => ⟨S2000x256, .bf16⟩
  | .local _ .vmem, ⟨20, _⟩ => ⟨S256x256, .bf16⟩
  | .local _ .vmem, ⟨21, _⟩ => ⟨S256, .f32⟩
  | .local _ .vmem, ⟨22, _⟩ => ⟨S256, .f32⟩
  | .local _ .vmem, ⟨23, _⟩ => ⟨S256, .f32⟩
  | .local _ .vmem, ⟨24, _⟩ => ⟨S1x256, .f32⟩
  | .local _ .vmem, ⟨25, _⟩ => ⟨S1x256, .f32⟩
  | .local _ .vmem, ⟨26, _⟩ => ⟨S2000x256, .bf16⟩
  | .local _ .vmem, ⟨27, _⟩ => ⟨S2000x256, .bf16⟩
  | .local _ .vmem, ⟨28, _⟩ => ⟨S256x256, .bf16⟩
  | .local _ .vmem, ⟨29, _⟩ => ⟨S256, .f32⟩
  | .local _ .vmem, ⟨30, _⟩ => ⟨S256, .f32⟩
  | .local _ .vmem, ⟨31, _⟩ => ⟨S256, .f32⟩
  | .local _ .vmem, ⟨32, _⟩ => ⟨S256, .f32⟩
  | .local _ .vmem, ⟨33, _⟩ => ⟨S256, .f32⟩
  | .local _ .vmem, ⟨34, _⟩ => ⟨S2000x256, .f32⟩
  | .local _ .vmem, ⟨35, _⟩ => ⟨S2000x256, .f32⟩
  | .local _ .vmem, ⟨36, _⟩ => ⟨S2000x256, .bf16⟩
  | .local _ .vmem, ⟨37, _⟩ => ⟨S2000x256, .bf16⟩
  | .local _ .vmem, ⟨38, _⟩ => ⟨S256x256, .bf16⟩
  | .local _ .vmem, ⟨39, _⟩ => ⟨S256, .f32⟩
  | .local _ .vmem, ⟨40, _⟩ => ⟨S256, .f32⟩
  | .local _ .vmem, ⟨41, _⟩ => ⟨S256, .f32⟩
  | .local _ .vmem, ⟨42, _⟩ => ⟨S1x256, .f32⟩
  | .local _ .vmem, ⟨43, _⟩ => ⟨S1x256, .f32⟩
  | .local _ .vmem, ⟨44, _⟩ => ⟨S2000x256, .bf16⟩
  | .local _ .vmem, ⟨45, _⟩ => ⟨S2000x256, .bf16⟩
  | .local _ .vmem, ⟨46, _⟩ => ⟨S256x256, .bf16⟩
  | .local _ .vmem, ⟨47, _⟩ => ⟨S256, .f32⟩
  | .local _ .vmem, ⟨48, _⟩ => ⟨S256, .f32⟩
  | .local _ .vmem, ⟨49, _⟩ => ⟨S256, .f32⟩
  | .local _ .vmem, ⟨50, _⟩ => ⟨S256, .f32⟩
  | .local _ .vmem, ⟨51, _⟩ => ⟨S256, .f32⟩
  | .local _ .vmem, ⟨52, _⟩ => ⟨S2000x256, .f32⟩
  | .local _ .vmem, ⟨53, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61_0 : Ref sig .tc := ⟨.hbm, 83, rfl⟩
abbrev main_v61_1 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76_0 : Ref sig .tc := ⟨.hbm, 99, rfl⟩
abbrev main_v76_1 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_scratch0 : Ref sig .tc := ⟨.vmem, 24, rfl⟩
abbrev cc2_scratch1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_scratch0 : Ref sig .tc := ⟨.vmem, 42, rfl⟩
abbrev cc4_scratch1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem7_0 : DmaSem sig := 46
abbrev cc5_sem7_1 : DmaSem sig := 47

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_16 : BitVec 32 := 0#32
  let v32 : BitVec 1 := Scalar.cmpi .ne v31 c0_i32_16
  v32

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_16 : BitVec 32 := 0#32
  let v32 : BitVec 1 := Scalar.cmpi .ne v31 c0_i32_16
  v32

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage5_0 : Fin 2 → Memref sig .tc .vmem S2000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bitsLt_bf16_f32 : FTy.bits .bf16 < FTy.bits .f32
  bcast_S_S50000x768 : S_.BroadcastsInDim S50000x768 (![] : Fin 0 → Fin S50000x768.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  reduces_S2000x256_S256 : S2000x256.Reduces [0] S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_8 i = cc1_transform_8 i'
  hinb1_7 : ∀ (i : grid1.Coords) a, (cc1_transform_8 i a + 1) * S2000x256.size a ≤ S50000x768.size a
  hwx1_7 : ∀ i : grid1.Coords, EltTy.bits .f32 = 32 ∨ (Rect.block (s := S50000x768) S2000x256.size (cc1_transform_8 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .bf16 = 32 ∨ (Rect.block (s := S50000x256) S2000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256.size a ≤ S256.size a
  hwx3_6 : ∀ i : grid3.Coords, EltTy.bits .f32 = 32 ∨ (Rect.block (s := S256) S256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_8 i = cc3_transform_8 i'
  hinb3_7 : ∀ (i : grid3.Coords) a, (cc3_transform_8 i a + 1) * S2000x256.size a ≤ S50000x768.size a
  hwx3_7 : ∀ i : grid3.Coords, EltTy.bits .f32 = 32 ∨ (Rect.block (s := S50000x768) S2000x256.size (cc3_transform_8 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .bf16 = 32 ∨ (Rect.block (s := S50000x256) S2000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .bf16 = 32 ∨ (Rect.block (s := S50000x256) S2000x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .bf16 = 32 ∨ (Rect.block (s := S256x256) S256x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256.size a ≤ S256.size a
  hwx5_4 : ∀ i : grid5.Coords, EltTy.bits .f32 = 32 ∨ (Rect.block (s := S256) S256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256.size a ≤ S256.size a
  hwx5_5 : ∀ i : grid5.Coords, EltTy.bits .f32 = 32 ∨ (Rect.block (s := S256) S256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256.size a ≤ S256.size a
  hwx5_6 : ∀ i : grid5.Coords, EltTy.bits .f32 = 32 ∨ (Rect.block (s := S256) S256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_8 i = cc5_transform_8 i'
  hinb5_7 : ∀ (i : grid5.Coords) a, (cc5_transform_8 i a + 1) * S2000x256.size a ≤ S50000x768.size a
  hwx5_7 : ∀ i : grid5.Coords, EltTy.bits .f32 = 32 ∨ (Rect.block (s := S50000x768) S2000x256.size (cc5_transform_8 i) (hinb5_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v41) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46_0) S256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46_1) S256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46_0) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_1) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S2000x256.size cc1_transform_8 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v56) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61_0) S256.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61_1) S256.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v56) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61_0) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61_1) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v70) S2000x256.size cc3_transform_8 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v71) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76_0) S256.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76_1) S256.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v71) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76_0) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76_1) S256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v82) S256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v84) S256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v85) S2000x256.size cc5_transform_8 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x256 : Shape := ⟨2, ![50000, 256]⟩
abbrev S800000 : Shape := ⟨1, ![800000]⟩
abbrev S3x256x256 : Shape := ⟨3, ![3, 256, 256]⟩
abbrev S3x256 : Shape := ⟨2, ![3, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S50000x768 : Shape := ⟨2, ![50000, 768]⟩

abbrev nBuf : Space → Nat
  | .hbm => 237
  | .vmem => 0
  | .smem => 0
  | _ => 0

abbrev hbmTy0_0 (i : Nat) : BufTy := match i % 128 with
  | 0 => ⟨S50000x256, .f32⟩
  | 1 => ⟨S800000, .f32⟩
  | 2 => ⟨S3x256x256, .f32⟩
  | 3 => ⟨S3x256, .f32⟩
  | 4 => ⟨S3x256, .f32⟩
  | 5 => ⟨S3x256, .f32⟩
  | 6 => ⟨S800000, .i32⟩
  | 7 => ⟨S800000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S_, .f32⟩
  | 16 => ⟨S50000, .f32⟩
  | 17 => ⟨S50000, .f32⟩
  | 18 => ⟨S_, .f32⟩
  | 19 => ⟨S50000, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x256, .f32⟩
  | 30 => ⟨S800000x1, .f32⟩
  | 31 => ⟨S800000x256, .f32⟩
  | 32 => ⟨S800000x256, .f32⟩
  | 33 => ⟨S_, .f32⟩
  | 34 => ⟨S50000x256, .f32⟩
  | 35 => ⟨S800000x1, .i32⟩
  | 36 => ⟨S50000x256, .f32⟩
  | 37 => ⟨S50000x1, .f32⟩
  | 38 => ⟨S50000x256, .f32⟩
  | 39 => ⟨S50000x256, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x256, .f32⟩
  | 49 => ⟨S800000x1, .f32⟩
  | 50 => ⟨S800000x256, .f32⟩
  | 51 => ⟨S800000x256, .f32⟩
  | 52 => ⟨S_, .f32⟩
  | 53 => ⟨S50000x256, .f32⟩
  | 54 => ⟨S800000x1, .i32⟩
  | 55 => ⟨S50000x256, .f32⟩
  | 56 => ⟨S50000x1, .f32⟩
  | 57 => ⟨S50000x256, .f32⟩
  | 58 => ⟨S50000x256, .f32⟩
  | 59 => ⟨S1x256x256, .f32⟩
  | 60 => ⟨S256x256, .f32⟩
  | 61 => ⟨S50000x256, .f32⟩
  | 62 => ⟨S1x256, .f32⟩
  | 63 => ⟨S256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S_, .f32⟩
  | 71 => ⟨S256, .f32⟩
  | 72 => ⟨S_, .f32⟩
  | 73 => ⟨S256, .f32⟩
  | 74 => ⟨S256, .f32⟩
  | 75 => ⟨S_, .i32⟩
  | 76 => ⟨S_, .f32⟩
  | 77 => ⟨S256, .f32⟩
  | 78 => ⟨S1x256, .f32⟩
  | 79 => ⟨S_, .f32⟩
  | 80 => ⟨S1x256, .f32⟩
  | 81 => ⟨S1x256, .f32⟩
  | 82 => ⟨S50000x256, .f32⟩
  | 83 => ⟨S50000x256, .f32⟩
  | 84 => ⟨S50000x256, .f32⟩
  | 85 => ⟨S_, .f32⟩
  | 86 => ⟨S_, .f32⟩
  | 87 => ⟨S_, .f32⟩
  | 88 => ⟨S_, .f32⟩
  | 89 => ⟨S256, .f32⟩
  | 90 => ⟨S256, .f32⟩
  | 91 => ⟨S256, .f32⟩
  | 92 => ⟨S_, .f32⟩
  | 93 => ⟨S_, .i1⟩
  | 94 => ⟨S_, .f32⟩
  | 95 => ⟨S_, .f32⟩
  | 96 => ⟨S256, .f32⟩
  | 97 => ⟨S256, .f32⟩
  | 98 => ⟨S1x256, .f32⟩
  | 99 => ⟨S50000x256, .f32⟩
  | 100 => ⟨S50000x256, .f32⟩
  | 101 => ⟨S_, .f32⟩
  | 102 => ⟨S256, .f32⟩
  | 103 => ⟨S256, .f32⟩
  | 104 => ⟨S256, .f32⟩
  | 105 => ⟨S1x256, .f32⟩
  | 106 => ⟨S50000x256, .f32⟩
  | 107 => ⟨S50000x256, .f32⟩
  | 108 => ⟨S1x256, .f32⟩
  | 109 => ⟨S256, .f32⟩
  | 110 => ⟨S1x256, .f32⟩
  | 111 => ⟨S50000x256, .f32⟩
  | 112 => ⟨S50000x256, .f32⟩
  | 113 => ⟨S1x256, .f32⟩
  | 114 => ⟨S256, .f32⟩
  | 115 => ⟨S1x256, .f32⟩
  | 116 => ⟨S50000x256, .f32⟩
  | 117 => ⟨S50000x256, .f32⟩
  | 118 => ⟨S1x256x256, .f32⟩
  | 119 => ⟨S256x256, .f32⟩
  | 120 => ⟨S50000x256, .f32⟩
  | 121 => ⟨S1x256, .f32⟩
  | 122 => ⟨S256, .f32⟩
  | 123 => ⟨S1x256, .f32⟩
  | 124 => ⟨S50000x256, .f32⟩
  | 125 => ⟨S50000x256, .f32⟩
  | 126 => ⟨S_, .f32⟩
  | 127 => ⟨S50000x256, .f32⟩
  | _ => ⟨S50000x256, .f32⟩

abbrev hbmTy0_1 (i : Nat) : BufTy := match i % 128 with
  | 0 => ⟨S50000x256, .f32⟩
  | 1 => ⟨S_, .f32⟩
  | 2 => ⟨S256, .f32⟩
  | 3 => ⟨S_, .f32⟩
  | 4 => ⟨S256, .f32⟩
  | 5 => ⟨S256, .f32⟩
  | 6 => ⟨S_, .i32⟩
  | 7 => ⟨S_, .f32⟩
  | 8 => ⟨S256, .f32⟩
  | 9 => ⟨S1x256, .f32⟩
  | 10 => ⟨S_, .f32⟩
  | 11 => ⟨S1x256, .f32⟩
  | 12 => ⟨S1x256, .f32⟩
  | 13 => ⟨S50000x256, .f32⟩
  | 14 => ⟨S50000x256, .f32⟩
  | 15 => ⟨S50000x256, .f32⟩
  | 16 => ⟨S_, .f32⟩
  | 17 => ⟨S_, .f32⟩
  | 18 => ⟨S_, .f32⟩
  | 19 => ⟨S_, .f32⟩
  | 20 => ⟨S256, .f32⟩
  | 21 => ⟨S256, .f32⟩
  | 22 => ⟨S256, .f32⟩
  | 23 => ⟨S_, .f32⟩
  | 24 => ⟨S_, .i1⟩
  | 25 => ⟨S_, .f32⟩
  | 26 => ⟨S_, .f32⟩
  | 27 => ⟨S256, .f32⟩
  | 28 => ⟨S256, .f32⟩
  | 29 => ⟨S1x256, .f32⟩
  | 30 => ⟨S50000x256, .f32⟩
  | 31 => ⟨S50000x256, .f32⟩
  | 32 => ⟨S_, .f32⟩
  | 33 => ⟨S256, .f32⟩
  | 34 => ⟨S256, .f32⟩
  | 35 => ⟨S256, .f32⟩
  | 36 => ⟨S1x256, .f32⟩
  | 37 => ⟨S50000x256, .f32⟩
  | 38 => ⟨S50000x256, .f32⟩
  | 39 => ⟨S1x256, .f32⟩
  | 40 => ⟨S256, .f32⟩
  | 41 => ⟨S1x256, .f32⟩
  | 42 => ⟨S50000x256, .f32⟩
  | 43 => ⟨S50000x256, .f32⟩
  | 44 => ⟨S1x256, .f32⟩
  | 45 => ⟨S256, .f32⟩
  | 46 => ⟨S1x256, .f32⟩
  | 47 => ⟨S50000x256, .f32⟩
  | 48 => ⟨S50000x256, .f32⟩
  | 49 => ⟨S1x256x256, .f32⟩
  | 50 => ⟨S256x256, .f32⟩
  | 51 => ⟨S50000x256, .f32⟩
  | 52 => ⟨S1x256, .f32⟩
  | 53 => ⟨S256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S_, .f32⟩
  | 61 => ⟨S256, .f32⟩
  | 62 => ⟨S_, .f32⟩
  | 63 => ⟨S256, .f32⟩
  | 64 => ⟨S256, .f32⟩
  | 65 => ⟨S_, .i32⟩
  | 66 => ⟨S_, .f32⟩
  | 67 => ⟨S256, .f32⟩
  | 68 => ⟨S1x256, .f32⟩
  | 69 => ⟨S_, .f32⟩
  | 70 => ⟨S1x256, .f32⟩
  | 71 => ⟨S1x256, .f32⟩
  | 72 => ⟨S50000x256, .f32⟩
  | 73 => ⟨S50000x256, .f32⟩
  | 74 => ⟨S50000x256, .f32⟩
  | 75 => ⟨S_, .f32⟩
  | 76 => ⟨S_, .f32⟩
  | 77 => ⟨S_, .f32⟩
  | 78 => ⟨S_, .f32⟩
  | 79 => ⟨S256, .f32⟩
  | 80 => ⟨S256, .f32⟩
  | 81 => ⟨S256, .f32⟩
  | 82 => ⟨S_, .f32⟩
  | 83 => ⟨S_, .i1⟩
  | 84 => ⟨S_, .f32⟩
  | 85 => ⟨S_, .f32⟩
  | 86 => ⟨S256, .f32⟩
  | 87 => ⟨S256, .f32⟩
  | 88 => ⟨S1x256, .f32⟩
  | 89 => ⟨S50000x256, .f32⟩
  | 90 => ⟨S50000x256, .f32⟩
  | 91 => ⟨S_, .f32⟩
  | 92 => ⟨S256, .f32⟩
  | 93 => ⟨S256, .f32⟩
  | 94 => ⟨S256, .f32⟩
  | 95 => ⟨S1x256, .f32⟩
  | 96 => ⟨S50000x256, .f32⟩
  | 97 => ⟨S50000x256, .f32⟩
  | 98 => ⟨S1x256, .f32⟩
  | 99 => ⟨S256, .f32⟩
  | 100 => ⟨S1x256, .f32⟩
  | 101 => ⟨S50000x256, .f32⟩
  | 102 => ⟨S50000x256, .f32⟩
  | 103 => ⟨S1x256, .f32⟩
  | 104 => ⟨S256, .f32⟩
  | 105 => ⟨S1x256, .f32⟩
  | 106 => ⟨S50000x256, .f32⟩
  | 107 => ⟨S50000x256, .f32⟩
  | 108 => ⟨S50000x768, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_cst_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_cst_2 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_cst_3 : Ref sig .tc := ⟨.hbm, 92, rfl⟩
abbrev main_call2_v12 : Ref sig .tc := ⟨.hbm, 93, rfl⟩
abbrev main_call2_cst_4 : Ref sig .tc := ⟨.hbm, 94, rfl⟩
abbrev main_call2_call0_v0 : Ref sig .tc := ⟨.hbm, 95, rfl⟩
abbrev main_call2_call0_v1 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_11 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_call3_cst : Ref sig .tc := ⟨.hbm, 126, rfl⟩
abbrev main_call3_v0 : Ref sig .tc := ⟨.hbm, 127, rfl⟩
abbrev main_v79 : Ref sig .tc := ⟨.hbm, 128, rfl⟩
abbrev main_cst_12 : Ref sig .tc := ⟨.hbm, 129, rfl⟩
abbrev main_v80 : Ref sig .tc := ⟨.hbm, 130, rfl⟩
abbrev main_cst_13 : Ref sig .tc := ⟨.hbm, 131, rfl⟩
abbrev main_v81 : Ref sig .tc := ⟨.hbm, 132, rfl⟩
abbrev main_v82 : Ref sig .tc := ⟨.hbm, 133, rfl⟩
abbrev main_c_14 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_cst_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_v6 : Ref sig .tc := ⟨.hbm, 143, rfl⟩
abbrev main_call4_v7 : Ref sig .tc := ⟨.hbm, 144, rfl⟩
abbrev main_call4_cst_1 : Ref sig .tc := ⟨.hbm, 145, rfl⟩
abbrev main_call4_v8 : Ref sig .tc := ⟨.hbm, 146, rfl⟩
abbrev main_call4_cst_2 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_cst_3 : Ref sig .tc := ⟨.hbm, 151, rfl⟩
abbrev main_call4_v12 : Ref sig .tc := ⟨.hbm, 152, rfl⟩
abbrev main_call4_cst_4 : Ref sig .tc := ⟨.hbm, 153, rfl⟩
abbrev main_call4_call0_v0 : Ref sig .tc := ⟨.hbm, 154, rfl⟩
abbrev main_call4_call0_v1 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_cst_15 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_call5_cst : Ref sig .tc := ⟨.hbm, 185, rfl⟩
abbrev main_call5_v0 : Ref sig .tc := ⟨.hbm, 186, rfl⟩
abbrev main_v111 : Ref sig .tc := ⟨.hbm, 187, rfl⟩
abbrev main_cst_16 : Ref sig .tc := ⟨.hbm, 188, rfl⟩
abbrev main_v112 : Ref sig .tc := ⟨.hbm, 189, rfl⟩
abbrev main_cst_17 : Ref sig .tc := ⟨.hbm, 190, rfl⟩
abbrev main_v113 : Ref sig .tc := ⟨.hbm, 191, rfl⟩
abbrev main_v114 : Ref sig .tc := ⟨.hbm, 192, rfl⟩
abbrev main_c_18 : Ref sig .tc := ⟨.hbm, 193, rfl⟩
abbrev main_call6_cst : Ref sig .tc := ⟨.hbm, 194, rfl⟩
abbrev main_call6_v0 : Ref sig .tc := ⟨.hbm, 195, rfl⟩
abbrev main_call6_v1 : Ref sig .tc := ⟨.hbm, 196, rfl⟩
abbrev main_call6_cst_0 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_call6_v5 : Ref sig .tc := ⟨.hbm, 201, rfl⟩
abbrev main_call6_v6 : Ref sig .tc := ⟨.hbm, 202, rfl⟩
abbrev main_call6_v7 : Ref sig .tc := ⟨.hbm, 203, rfl⟩
abbrev main_call6_cst_1 : Ref sig .tc := ⟨.hbm, 204, rfl⟩
abbrev main_call6_v8 : Ref sig .tc := ⟨.hbm, 205, rfl⟩
abbrev main_call6_cst_2 : Ref sig .tc := ⟨.hbm, 206, rfl⟩
abbrev main_call6_v9 : Ref sig .tc := ⟨.hbm, 207, rfl⟩
abbrev main_call6_v10 : Ref sig .tc := ⟨.hbm, 208, rfl⟩
abbrev main_call6_v11 : Ref sig .tc := ⟨.hbm, 209, rfl⟩
abbrev main_call6_cst_3 : Ref sig .tc := ⟨.hbm, 210, rfl⟩
abbrev main_call6_v12 : Ref sig .tc := ⟨.hbm, 211, rfl⟩
abbrev main_call6_cst_4 : Ref sig .tc := ⟨.hbm, 212, rfl⟩
abbrev main_call6_call0_v0 : Ref sig .tc := ⟨.hbm, 213, rfl⟩
abbrev main_call6_call0_v1 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_cst_19 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  concatenates_S50000x256_S50000x256_S50000x256_S50000x768_d1 : Shape.Concatenates [S50000x256, S50000x256, S50000x256] S50000x768 1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.StatsCommon.lean ====
import proofs.«115305_j43688407335088_2_alg».proof.Proof.Gen.KernelIdeal.Launch
import proofs.«115305_j43688407335088_2_alg».proof.Proof.Gen.KernelIdeal.Skeleton
import proofs.«115305_j43688407335088_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernels: what one grid point computes, as pure functions

Shared by the three statistics regions (their bodies are one text up to the region's number). -/

/-! ## Whole-shape rectangles

A load through the unit-stride rectangle of the shape's own sizes at zero offsets reads the contents as they are,
and a store through it leaves its payload. -/

theorem unit_zero_emb {s : Shape} {off : Fin s.rank → ℕ} (h0 : ∀ a, off a = 0)
    (inb : ∀ a, off a + s.size a ≤ s.size a) (x : (Rect.unit (s := s) off s.size inb).shape.Idx) :
    (Rect.unit (s := s) off s.size inb).emb x = x := by
  funext a; apply Fin.ext
  show off a + 1 * (x a : ℕ) = x a
  rw [h0 a]; omega

theorem ld_unit_zero {s : Shape} {e : EltTy} {Val : EltTy → Type} (X : s.Idx → Val e) {off : Fin s.rank → ℕ} (h0 : ∀ a, off a = 0)
    (inb : ∀ a, off a + s.size a ≤ s.size a) :
    View.ld X (Rect.unit (s := s) off s.size inb) = X := by
  funext x
  show X ((Rect.unit (s := s) off s.size inb).emb x) = X x
  rw [unit_zero_emb h0]

theorem canon_unit_zero {s : Shape} {e : EltTy} {Val : EltTy → Type} [∀ e, Nonempty (Val e)] {off : Fin s.rank → ℕ} (h0 : ∀ a, off a = 0)
    (inb : ∀ a, off a + s.size a ≤ s.size a) (p : s.Idx → Val e) (L : List (View.Piece Val s e)) :
    View.canon ((⟨Rect.unit (s := s) off s.size inb, p⟩ : View.Piece Val s e) :: L) = p := by
  funext x
  have h := View.canon_cons_emb (Rect.unit (s := s) off s.size inb) p L x
  rwa [unit_zero_emb h0] at h

theorem cover_unit_zero {s : Shape} {e : EltTy} {Val : EltTy → Type} {off : Fin s.rank → ℕ} (h0 : ∀ a, off a = 0)
    (inb : ∀ a, off a + s.size a ≤ s.size a) (p : s.Idx → Val e) (L : List (View.Piece Val s e)) (y : s.Idx) :
    ∃ pc ∈ ((⟨Rect.unit (s := s) off s.size inb, p⟩ : View.Piece Val s e) :: L), y ∈ pc.1.set :=
  ⟨_, List.mem_cons_self, by
    rw [Rect.mem_set_unit]; intro a; rw [h0 a]; exact ⟨Nat.zero_le _, by have := (y a).isLt; omega⟩⟩

/-- What a view reads after a whole-shape store on top of any earlier stores: the payload. -/
theorem read_writes_unit_zero {sig' : RefSig} {κ : Kind} {sp : Space} {s : Shape} {e : EltTy} {Val : EltTy → Type} [∀ e, Nonempty (Val e)]
    (v : View sig' κ sp s e) (f : v.ty.Contents Val) {off : Fin s.rank → ℕ} (h0 : ∀ a, off a = 0)
    (inb : ∀ a, off a + s.size a ≤ s.size a) (p : s.Idx → Val e) (L : List (View.Piece Val s e)) :
    v.read Val (v.writes Val f ((⟨Rect.unit (s := s) off s.size inb, p⟩ : View.Piece Val s e) :: L)) = p :=
  (View.read_writes_eq_canon v f _ (cover_unit_zero h0 inb p L)).trans (canon_unit_zero h0 inb p L)

theorem zero2 : ∀ a : Fin 2, (![0, 0] : Fin 2 → ℕ) a = 0 := by decide
theorem zero1 : ∀ a : Fin 1, (![0] : Fin 1 → ℕ) a = 0 := by decide

theorem ld_S2000x256 {e : EltTy} {Val : EltTy → Type} (X : S2000x256.Idx → Val e) (inb : ∀ a, (![0, 0] : Fin 2 → ℕ) a + S2000x256.size a ≤ S2000x256.size a) :
    View.ld X (Rect.unit (s := S2000x256) ![0, 0] S2000x256.size inb) = X := ld_unit_zero (s := S2000x256) X zero2 inb
theorem ld_S256x256 {e : EltTy} {Val : EltTy → Type} (X : S256x256.Idx → Val e) (inb : ∀ a, (![0, 0] : Fin 2 → ℕ) a + S256x256.size a ≤ S256x256.size a) :
    View.ld X (Rect.unit (s := S256x256) ![0, 0] S256x256.size inb) = X := ld_unit_zero (s := S256x256) X zero2 inb
theorem ld_S1x256 {e : EltTy} {Val : EltTy → Type} (X : S1x256.Idx → Val e) (inb : ∀ a, (![0, 0] : Fin 2 → ℕ) a + S1x256.size a ≤ S1x256.size a) :
    View.ld X (Rect.unit (s := S1x256) ![0, 0] S1x256.size inb) = X := ld_unit_zero (s := S1x256) X zero2 inb
theorem ld_S256 {e : EltTy} {Val : EltTy → Type} (X : S256.Idx → Val e) (inb : ∀ a, (![0] : Fin 1 → ℕ) a + S256.size a ≤ S256.size a) :
    View.ld X (Rect.unit (s := S256) ![0] S256.size inb) = X := ld_unit_zero (s := S256) X zero1 inb

theorem readAt_S2000x256 {sig' : RefSig} {κ : Kind} {sp : Space} {e : EltTy} {Val : EltTy → Type} (v : View sig' κ sp S2000x256 e) (f : v.ty.Contents Val)
    (inb : ∀ a, (![0, 0] : Fin 2 → ℕ) a + S2000x256.size a ≤ S2000x256.size a) :
    v.readAt Val (Rect.unit (s := S2000x256) ![0, 0] S2000x256.size inb).toLoadRect f = v.read Val f := ld_S2000x256 (v.read Val f) inb
theorem readAt_S256x256 {sig' : RefSig} {κ : Kind} {sp : Space} {e : EltTy} {Val : EltTy → Type} (v : View sig' κ sp S256x256 e) (f : v.ty.Contents Val)
    (inb : ∀ a, (![0, 0] : Fin 2 → ℕ) a + S256x256.size a ≤ S256x256.size a) :
    v.readAt Val (Rect.unit (s := S256x256) ![0, 0] S256x256.size inb).toLoadRect f = v.read Val f := ld_S256x256 (v.read Val f) inb
theorem readAt_S1x256 {sig' : RefSig} {κ : Kind} {sp : Space} {e : EltTy} {Val : EltTy → Type} (v : View sig' κ sp S1x256 e) (f : v.ty.Contents Val)
    (inb : ∀ a, (![0, 0] : Fin 2 → ℕ) a + S1x256.size a ≤ S1x256.size a) :
    v.readAt Val (Rect.unit (s := S1x256) ![0, 0] S1x256.size inb).toLoadRect f = v.read Val f := ld_S1x256 (v.read Val f) inb
theorem readAt_S256 {sig' : RefSig} {κ : Kind} {sp : Space} {e : EltTy} {Val : EltTy → Type} (v : View sig' κ sp S256 e) (f : v.ty.Contents Val)
    (inb : ∀ a, (![0] : Fin 1 → ℕ) a + S256.size a ≤ S256.size a) :
    v.readAt Val (Rect.unit (s := S256) ![0] S256.size inb).toLoadRect f = v.read Val f := ld_S256 (v.read Val f) inb

/-- What a view of `S1x256` reads after a whole-shape store on top of any earlier stores: the payload. -/
theorem rw_S1x256 {sig' : RefSig} {κ : Kind} {sp : Space} {e : EltTy} {Val : EltTy → Type} [∀ e, Nonempty (Val e)]
    (v : View sig' κ sp S1x256 e) (f : v.ty.Contents Val) (inb : ∀ a, (![0, 0] : Fin 2 → ℕ) a + S1x256.size a ≤ S1x256.size a)
    (p : S1x256.Idx → Val e) (L : List (View.Piece Val S1x256 e)) :
    v.read Val (v.writes Val f ((⟨Rect.unit (s := S1x256) ![0, 0] S1x256.size inb, p⟩ : View.Piece Val S1x256 e) :: L)) = p :=
  read_writes_unit_zero (s := S1x256) v f zero2 inb p L
theorem rw_S256 {sig' : RefSig} {κ : Kind} {sp : Space} {e : EltTy} {Val : EltTy → Type} [∀ e, Nonempty (Val e)]
    (v : View sig' κ sp S256 e) (f : v.ty.Contents Val) (inb : ∀ a, (![0] : Fin 1 → ℕ) a + S256.size a ≤ S256.size a)
    (p : S256.Idx → Val e) (L : List (View.Piece Val S256 e)) :
    v.read Val (v.writes Val f ((⟨Rect.unit (s := S256) ![0] S256.size inb, p⟩ : View.Piece Val S256 e) :: L)) = p :=
  read_writes_unit_zero (s := S256) v f zero1 inb p L

/-! ## One point's arithmetic -/

/-- The activation of one row tile: `max(x · w + b, 0)`, the product accumulated into zeros, the bias row broadcast down the rows. -/
def hStats (x : Vec F S2000x256 .bf16) (w : Vec F S256x256 .bf16) (b : Vec F S256 .f32) : FVec F S2000x256 .f32 :=
  maximumf
    (addf
      (matmul dot_S2000x256_S256x256_S2000x256_1_0_0_1_n_n none (shapeCast S2000x256 x shapeCasts_S2000x256_S2000x256)
        (shapeCast S256x256 w shapeCasts_S256x256_S256x256) (constant S2000x256 .f32 0x00000000#32))
      (broadcastTo S2000x256 (shapeCast S1x256 (shapeCast S256 b shapeCasts_S256_S256) shapeCasts_S256_S1x256) broadcasts_S1x256_S2000x256))
    (broadcast S2000x256 (Scalar.ofBits .f32 0x00000000#32))

/-- The two running sums after one more row tile: the column sums of the activation added to `s`, the column sums of
    its square added to `ss`. -/
def stepStats (x : Vec F S2000x256 .bf16) (w : Vec F S256x256 .bf16) (b : Vec F S256 .f32) (s ss : Vec F S1x256 .f32) :
    Vec F S1x256 .f32 × Vec F S1x256 .f32 :=
  (shapeCast S1x256
      (addf s (shapeCast S1x256 (multiReduction .add [0] S256 (hStats x w b) 0x00000000#32 reduces_S2000x256_S256 (.inl rfl) rfl) shapeCasts_S256_S1x256))
      shapeCasts_S1x256_S1x256,
   shapeCast S1x256
      (addf ss (shapeCast S1x256 (multiReduction .add [0] S256 (mulf (hStats x w b) (hStats x w b)) 0x00000000#32 reduces_S2000x256_S256 (.inl rfl) rfl) shapeCasts_S256_S1x256))
      shapeCasts_S1x256_S1x256)

/-- The running sums before the first row tile: zeros. -/
def zeroStats : Vec F S1x256 .f32 :=
  shapeCast S1x256 (broadcast S1x256 (Scalar.ofBits .f32 0x00000000#32 : F .f32)) shapeCasts_S1x256_S1x256

/-- The mean row `s / 50000`. -/
def meanStats (s : Vec F S1x256 .f32) : FVec F S1x256 .f32 :=
  divf s (broadcast S1x256 (Scalar.ofBits .f32 0x47435000#32 : F .f32))

/-- What the last point stores: the mean `s / 50000` and the variance `max(ss / 50000 - mean * mean, 0)`, as vectors of 256. -/
def finStats (s ss : Vec F S1x256 .f32) : Vec F S256 .f32 × Vec F S256 .f32 :=
  (shapeCast S256 (meanStats s) shapeCasts_S1x256_S256,
   shapeCast S256
      (maximumf (subf (divf ss (broadcast S1x256 (Scalar.ofBits .f32 0x47435000#32 : F .f32))) (mulf (meanStats s) (meanStats s)))
        (broadcast S1x256 (Scalar.ofBits .f32 0x00000000#32 : F .f32)))
      shapeCasts_S1x256_S256)

end Cert.KernelIdeal.Hand

end
-- ==== Proof.RegionKit.lean ====
/-
  One kernel region of a program of several pallas_calls as a segment of the program's run, written once for every
  region: between two regions a core holds every unscoped buffer whole, at contents given by a valuation, beside its
  generator register and the statement that it owes nothing. A region whose kernel uses no semaphore of its own, owes
  nothing to other cores, reads no prefetched table, and whose invariant is entered from and left at the scoped rest
  with the generator register, is entered from the valuation Win and left at the valuation Wout as soon as Wout holds,
  at each window's array, what the pipeline's write-backs leave there, and agrees with Win everywhere else.
-/
import proofs.«115305_j43688407335088_2_alg».proof.Proof.Gen.KernelIdeal.Launch
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No pallas_call of the program reads a prefetched table. -/
abbrev adm : (p : Fin 6) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and owing nothing. -/
abbrev R (c : Dev nD) : sProp 𝕄 := iprop((∃ r, prngReg c r) ∗ ∃ W, owes (c : Thread nD τ) (0 : CellTallies nD τ sig Unit) W)

set_option backward.isDefEq.respectTransparency.types false in
/-- The region of pipeline p as a segment from the valuation Win to the valuation Wout. -/
def reg (pdats : (p : Fin 6) → (c : Dev nD) → Dat τ (Elt F) Unit ℕ (UR sig nD τ) ℕ (Pipeline.pin (pcfgs (F := F)) adm p) c)
    (p : Fin 6) (hl : Pipeline.LaunchFacts (nD := nD) (τ := τ) cfgs p)
    (Win Wout : Dev nD → Valuation τ sig (Elt F))
    (hq : ∀ c w, (pdats p c).q w = fullShare) (howed : ∀ c t, (pdats p c).owed t = 0)
    (hrec : ∀ c t, (pdats p c).recorded t = Set.univ)
    (hA : ∀ c w, (pdats p c).A w = Win c (Pipeline.arrRef (Pipeline.pin (pcfgs (F := F)) adm p).spec w))
    (hbody : ∀ c, BodyObligation (pdats p c) (defs₀ (F := F)) 𝒱₀ () Set.univ)
    (hpre : ∀ c, (BI.emp : sProp 𝕄) ⊢ Pipeline.prefHeld (pcfgs (F := F) p).pre c (fun _ => fullShare) (adm p).1)
    (hΦin : ∀ c, Pipeline.ΦA (Pipeline.pin (pcfgs (F := F)) adm p).spec c ⊢ (pdats p c).Φ 0)
    (hΦout : ∀ c, (pdats p c).Φ (Fin.last (Pipeline.pin (pcfgs (F := F)) adm p).N) ⊢ Pipeline.ΦA (Pipeline.pin (pcfgs (F := F)) adm p).spec c)
    (hF : ∀ c w, (pdats p c).arrAt w (Pipeline.pin (pcfgs (F := F)) adm p).N = Wout c (Pipeline.arrRef (Pipeline.pin (pcfgs (F := F)) adm p).spec w))
    (hrest : ∀ c (b : Ref sig .tc), b ∉ Finset.univ.image (Pipeline.arrRef (Pipeline.pin (pcfgs (F := F)) adm p).spec) → Wout c b = Win c b) :
    Pipeline.RegionSeg (pcfgs (F := F)) adm pdats () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm pdats hl.win hl.arr_whole c
      ((pdats p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Pipeline.Dat.owesAt Pipeline.owesWithin
      rw [howed c 0]
      icases HO with ⟨%W, HO⟩; iexists W; isplitr; · ipureintro; exact fun x _ => Or.inl (by rw [hrec c 0]; exact Set.mem_univ x)
      iexact HO
    isplitl [Hp]; · iexact Hp
    iexact Hrest
  hin c := by
    refine .trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pdats ((pdats p c).share_full (hq c))
      (fun b => Win c b) (fun b => Wout c b) ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.Run.lean ====
/-
  The run of the whole program, from the launch to the return: host operations, then six kernel regions alternating
  with host operations. Between two segments a core holds every unscoped buffer whole at a valuation; the valuations
  are folded through the program: a stretch of host operations applies them, a region overwrites its windows' arrays
  with what its write-backs leave and nothing else. Each region's proof data (what its staging buffers hold after the
  body at each grid point, its invariant, its body obligation) is a parameter here, given for any contents at region
  entry; the run concludes that every weakly fair execution terminates and that the final memory holds, at every
  unscoped buffer, the last valuation.
-/
import proofs.«115305_j43688407335088_2_alg».proof.Proof.RegionKit
import proofs.«115305_j43688407335088_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "cfgAt" p => Pipeline.pin (pcfgs (F := F)) adm p

/-- What a region contributes, for contents V of the core's buffers at its entry: the pipeline's proof data, reading
    its arrays off V, with full shares, nothing owed, the class's invariant at entry and exit, and its body obligation. -/
structure RData (p : Fin 6) (V : Dev nD → Valuation τ sig (Elt F)) where
  dat : (c : Dev nD) → Dat τ (Elt F) Unit ℕ (UR sig nD τ) ℕ (cfgAt p) c
  hq : ∀ c w, (dat c).q w = fullShare
  howed : ∀ c t, (dat c).owed t = 0
  hrec : ∀ c t, (dat c).recorded t = Set.univ
  hA : ∀ c w, (dat c).A w = V c (Pipeline.arrRef (cfgAt p).spec w)
  hbody : ∀ c, BodyObligation (dat c) (defs₀ (F := F)) 𝒱₀ () Set.univ
  hΦin : ∀ c, Pipeline.ΦA (cfgAt p).spec c ⊢ (dat c).Φ 0
  hΦout : ∀ c, (dat c).Φ (Fin.last (cfgAt p).N) ⊢ Pipeline.ΦA (cfgAt p).spec c

/-- The six regions' contributions, each for any entry contents. -/
structure RD6 where
  r0 : ∀ V, RData (F := F) 0 V
  r1 : ∀ V, RData (F := F) 1 V
  r2 : ∀ V, RData (F := F) 2 V
  r3 : ∀ V, RData (F := F) 3 V
  r4 : ∀ V, RData (F := F) 4 V
  r5 : ∀ V, RData (F := F) 5 V

/-- The buffers after region p, entered at Win: its windows' arrays at what the write-backs leave, the rest as entered. -/
def Wnext (p : Fin 6) (Win : Dev nD → Valuation τ sig (Elt F)) (rd : RData (F := F) p Win) (c : Dev nD) : Valuation τ sig (Elt F) :=
  Pipeline.withArrays (cfgAt p).spec c (Win c) fun w => (rd.dat c).arrAt w (cfgAt p).N

theorem Wnext_arr (p : Fin 6) (hl : Pipeline.LaunchFacts (nD := nD) (τ := τ) cfgs p) (Win : Dev nD → Valuation τ sig (Elt F))
    (rd : RData (F := F) p Win) (c : Dev nD) (w : Fin (cfgAt p).W) :
    Wnext p Win rd c (Proc.devRef .tc (Pipeline.arrRef (cfgAt p).spec w)) = (rd.dat c).arrAt w (cfgAt p).N := by
  unfold Wnext; exact Pipeline.withArrays_arr (cfgAt p).spec hl.win.arr_inj c _ _ w

theorem Wnext_of_ne (p : Fin 6) (Win : Dev nD → Valuation τ sig (Elt F)) (rd : RData (F := F) p Win) (c : Dev nD) (b : Ref sig .tc)
    (hb : ∀ w, Pipeline.arrRef (cfgAt p).spec w ≠ b) :
    Wnext p Win rd c (Proc.devRef .tc b) = Win c (Proc.devRef .tc b) := by
  unfold Wnext; exact Pipeline.withArrays_of_ne (cfgAt p).spec c _ _ b hb

variable (m : (ℓ : Loc nD τ sig) → Buf (Elt F) ℓ) (ρ : Dev nD → PrngReg) (D : RD6 (F := F))

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
def W4 : Dev nD → Valuation τ sig (Elt F) := Wnext 0 (W3 m ρ) (D.r0 _)
abbrev W5 : Dev nD → Valuation τ sig (Elt F) := fun c => StableHlo.after hostOps1 (W4 m ρ D c)
def W6 : Dev nD → Valuation τ sig (Elt F) := Wnext 1 (W5 m ρ D) (D.r1 _)
abbrev W7 : Dev nD → Valuation τ sig (Elt F) := fun c => StableHlo.after hostOps2 (W6 m ρ D c)
def W8 : Dev nD → Valuation τ sig (Elt F) := Wnext 2 (W7 m ρ D) (D.r2 _)
abbrev W9 : Dev nD → Valuation τ sig (Elt F) := fun c => StableHlo.after hostOps3 (W8 m ρ D c)
def W10 : Dev nD → Valuation τ sig (Elt F) := Wnext 3 (W9 m ρ D) (D.r3 _)
abbrev W11 : Dev nD → Valuation τ sig (Elt F) := fun c => StableHlo.after hostOps4 (W10 m ρ D c)
def W12 : Dev nD → Valuation τ sig (Elt F) := Wnext 4 (W11 m ρ D) (D.r4 _)
abbrev W13 : Dev nD → Valuation τ sig (Elt F) := fun c => StableHlo.after hostOps5 (W12 m ρ D c)
def W14 : Dev nD → Valuation τ sig (Elt F) := Wnext 5 (W13 m ρ D) (D.r5 _)

/-! ## The proof data family and the segments -/

/-- Every pipeline's proof data, each at its region's entry contents. -/
def pdats : (p : Fin 6) → (c : Dev nD) → Dat τ (Elt F) Unit ℕ (UR sig nD τ) ℕ (cfgAt p) c
  | ⟨0, _⟩ => (D.r0 (W3 m ρ)).dat
  | ⟨1, _⟩ => (D.r1 (W5 m ρ D)).dat
  | ⟨2, _⟩ => (D.r2 (W7 m ρ D)).dat
  | ⟨3, _⟩ => (D.r3 (W9 m ρ D)).dat
  | ⟨4, _⟩ => (D.r4 (W11 m ρ D)).dat
  | ⟨5, _⟩ => (D.r5 (W13 m ρ D)).dat

/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem prefNone (p : Fin 6) (c : Dev nD) :
    (BI.emp : sProp 𝕄) ⊢ Pipeline.prefHeld (pcfgs (F := F) p).pre c (fun _ => fullShare) (adm p).1 := by
  unfold Pipeline.prefHeld
  match p with
  | ⟨0, _⟩ | ⟨1, _⟩ | ⟨2, _⟩ | ⟨3, _⟩ | ⟨4, _⟩ | ⟨5, _⟩ =>
    rw [show (Finset.univ : Finset (Fin 0)) = ∅ from rfl, BI.bigSep_empty]

/-- A region's record from its contribution rd, when the family's data at p is rd's. -/
def regOf (p : Fin 6) (hl : Pipeline.LaunchFacts (nD := nD) (τ := τ) cfgs p) (Win : Dev nD → Valuation τ sig (Elt F))
    (rd : RData (F := F) p Win) (hp : pdats m ρ D p = rd.dat) :
    Pipeline.RegionSeg (pcfgs (F := F)) adm (pdats m ρ D) () defs₀ 𝒱₀ L lv p :=
  reg (pdats m ρ D) p hl Win (Wnext p Win rd)
    (by rw [hp]; exact rd.hq) (by rw [hp]; exact rd.howed) (by rw [hp]; exact rd.hrec) (by rw [hp]; exact rd.hA)
    (by rw [hp]; exact rd.hbody) (prefNone p) (by rw [hp]; exact rd.hΦin) (by rw [hp]; exact rd.hΦout)
    (fun c w => by rw [hp]; exact (Wnext_arr p hl Win rd c w).symm)
    (fun c b hb => Wnext_of_ne p Win rd c b fun w e => hb (Finset.mem_image.mpr ⟨w, Finset.mem_univ _, e⟩))

abbrev segs : List (Pipeline.Seg (pcfgs (F := F)) adm (pdats m ρ D) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (regOf m ρ D 0 launch0 (W3 m ρ) (D.r0 _) rfl),
    .host (hseg hostOps1 hostOps1_sub hostOps1_fresh (W4 m ρ D)),
    .region (regOf m ρ D 1 launch1 (W5 m ρ D) (D.r1 _) rfl),
    .host (hseg hostOps2 hostOps2_sub hostOps2_fresh (W6 m ρ D)),
    .region (regOf m ρ D 2 launch2 (W7 m ρ D) (D.r2 _) rfl),
    .host (hseg hostOps3 hostOps3_sub hostOps3_fresh (W8 m ρ D)),
    .region (regOf m ρ D 3 launch3 (W9 m ρ D) (D.r3 _) rfl),
    .host (hseg hostOps4 hostOps4_sub hostOps4_fresh (W10 m ρ D)),
    .region (regOf m ρ D 4 launch4 (W11 m ρ D) (D.r4 _) rfl),
    .host (hseg hostOps5 hostOps5_sub hostOps5_fresh (W12 m ρ D)),
    .region (regOf m ρ D 5 launch5 (W13 m ρ D) (D.r5 _) rfl) ]

theorem main_run (c : Dev nD) : main (F := F) c = Pipeline.Seg.run (segs m ρ D) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ D c) ∗ ∃ r, prngReg c r)

set_option backward.isDefEq.respectTransparency.types false in
/-- Every weakly fair execution of the program terminates, nothing faulting, and the final memory holds the last
    valuation at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ D c b) :=
  Pipeline.θ_run_regions_kit (pcfgs (F := F)) adm (pdats m ρ D) () cellOf_inj emb₁ defs₀ 𝒱₀ L lv m ρ main (segs m ρ D)
    (fun c Q => by rw [main_run m ρ D c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W14 m ρ D c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ D c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ D c) s')
      isplitl [Hh] <;> iassumption)
    (hQ := fun s h c => h c)

end Cert.KernelIdeal.Hand

end
-- ==== Proof.Stats0.lean ====
import proofs.«115305_j43688407335088_2_alg».proof.Proof.StatsCommon
import proofs.«115305_j43688407335088_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Statistics region 0: the body's three cases, the proof data, the body obligation -/

/-! ## The body's branch conditions -/

/-- The condition of the body's first `scf.if` (zero the running sums), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)
/-- The condition of the body's second `scf.if` (store the mean and the variance), from the grid coordinates. -/
abbrev cond0_1 (i : grid0.Coords) : Prop := k0_cond2 i = 1#1
/-- It holds at the last point only. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the two outputs are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The kernel body on any whole memrefs, case by case -/

/-- The payloads of the skeleton are the pure functions of the shared module. -/
theorem pay4_eq0 (x : Vec F S2000x256 .bf16) (w : Vec F S256x256 .bf16) (b : Vec F S256 .f32) (s ss : Vec F S1x256 .f32) :
    k0_pay4 x w b s = (stepStats x w b s ss).1 := rfl
theorem pay5_eq0 (x : Vec F S2000x256 .bf16) (w : Vec F S256x256 .bf16) (b : Vec F S256 .f32) (s ss : Vec F S1x256 .f32) :
    k0_pay5 x w b ss = (stepStats x w b s ss).2 := rfl
theorem pay1_eq0 : (k0_pay1 (F := F)) = zeroStats := rfl
theorem pay2_eq0 : (k0_pay2 (F := F)) = zeroStats := rfl
theorem pay7_eq0 (s ss : Vec F S1x256 .f32) : k0_pay7 s = (finStats s ss).1 := rfl
theorem pay8_eq0 (s ss : Vec F S1x256 .f32) : k0_pay8 s ss = (finStats s ss).2 := rfl

set_option maxHeartbeats 1000000 in
/-- A middle point (neither conditional taken): the inputs and the idle outputs come back as they were, the two running
    sums advance by one row tile. -/
theorem run0_B (c : Dev nD) (i : grid0.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond0_0 i) (hc1 : ¬cond0_1 i)
    (x : Vec F S2000x256 .bf16) (w : Vec F S256x256 .bf16) (b : Vec F S256 .f32) (x4 x5 : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    rw [readAt_S2000x256, readAt_S256x256, readAt_S256, readAt_S1x256]
    rfl
  · iexists _; isplitr
    swap; · iexact H7
    ipureintro
    refine (rw_S1x256 _ _ _ _ _).trans ?_
    rw [readAt_S2000x256, readAt_S256x256, readAt_S256, readAt_S1x256]
    rfl

set_option maxHeartbeats 1000000 in
/-- The first point (the first conditional taken): the running sums, whatever they held, are zeroed and advance by one row tile. -/
theorem run0_A (c : Dev nD) (i : grid0.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : cond0_0 i) (hc1 : ¬cond0_1 i)
    (x : Vec F S2000x256 .bf16) (w : Vec F S256x256 .bf16) (b : Vec F S256 .f32) (x4 x5 : Vec F S256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b zeroStats zeroStats).1 ∗ owns (c : Thread nD τ) arg7 fullShare (stepStats x w b zeroStats zeroStats).2) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    sl_unfold_run_names
    rw [View.readCov_cons_toLoadRect, readAt_S2000x256, readAt_S256x256, readAt_S256]
    rfl
  · iexists _; isplitr
    swap; · iexact H7
    ipureintro
    refine (rw_S1x256 _ _ _ _ _).trans ?_
    sl_unfold_run_names
    rw [View.readCov_cons_toLoadRect, readAt_S2000x256, readAt_S256x256, readAt_S256]
    rfl

set_option maxHeartbeats 1000000 in
/-- The last point (the second conditional taken): the running sums advance by one row tile and the two outputs, whatever
    they held, are left at the mean and the variance of the finished sums. -/
theorem run0_C (c : Dev nD) (i : grid0.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond0_0 i) (hc1 : cond0_1 i)
    (x : Vec F S2000x256 .bf16) (w : Vec F S256x256 .bf16) (b : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare (finStats (stepStats x w b s ss).1 (stepStats x w b s ss).2).1 ∗ owns (c : Thread nD τ) arg5 fullShare (finStats (stepStats x w b s ss).1 (stepStats x w b s ss).2).2
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    refine (rw_S256 _ _ _ _ _).trans ?_
    sl_unfold_run_names
    rw [View.readCov_cons_toLoadRect, readAt_S2000x256, readAt_S256x256, readAt_S256, readAt_S1x256]
    rfl
  isplitl [H5]
  · iexists _; isplitr
    swap; · iexact H5
    ipureintro
    refine (rw_S256 _ _ _ _ _).trans ?_
    sl_unfold_run_names
    rw [View.readCov_cons_toLoadRect, View.readCov_cons_toLoadRect, readAt_S2000x256, readAt_S256x256, readAt_S256, readAt_S1x256, readAt_S1x256]
    rfl
  isplitl [H6]
  · iexists _; isplitr
    swap; · iexact H6
    ipureintro
    sl_unfold_run_names
    refine (rw_S1x256 _ _ _ _ _).trans ?_
    rw [readAt_S2000x256, readAt_S256x256, readAt_S256, readAt_S1x256]
    rfl
  · iexists _; isplitr
    swap; · iexact H7
    ipureintro
    sl_unfold_run_names
    refine (rw_S1x256 _ _ _ _ _).trans ?_
    rw [readAt_S2000x256, readAt_S256x256, readAt_S256, readAt_S1x256]
    rfl

/-! ## The region at the entry contents `V` -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, spelled as the pipeline passes it, and its wholeness. -/
abbrev ms0_0 (t : Fin cfg0.N) : Memref sig .tc .vmem S2000x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
/-- The two scratch operands: whole scoped buffers of the kernel's own. -/
abbrev scM0_0 : Memref sig .tc .vmem S1x256 .f32 := Memref.whole cc0_scratch0
abbrev scM0_1 : Memref sig .tc .vmem S1x256 .f32 := Memref.whole cc0_scratch1

/-- The class's invariant with the two scratch operands as memrefs owned at some contents, the rest of the scoped
    buffers unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The running sums point by point -/

/-- THE ACCUMULATION. The two scratch buffers' contents after `n` points: zeros, then one `stepStats` per point over
    the point's blocks of the three inputs. -/
def acc0 (c : Dev nD) : ℕ → Vec F S1x256 .f32 × Vec F S1x256 .f32
  | 0 => (zeroStats, zeroStats)
  | n + 1 =>
    if h : n < cfg0.N then
      stepStats (iblk0 V c 0 ⟨n, h⟩) (iblk0 V c 1 ⟨n, h⟩) (iblk0 V c 2 ⟨n, h⟩) (acc0 c n).1 (acc0 c n).2
    else acc0 c n

theorem acc0_of_zero (c : Dev nD) (n : ℕ) (hz : n = 0) : acc0 V c n = (zeroStats, zeroStats) := by subst hz; rfl

theorem acc0_succ (c : Dev nD) (t : Fin cfg0.N) :
    acc0 V c (t.val + 1) = stepStats (iblk0 V c 0 t) (iblk0 V c 1 t) (iblk0 V c 2 t) (acc0 V c t.val).1 (acc0 V c t.val).2 := by
  show (if h : t.val < cfg0.N then
      stepStats (iblk0 V c 0 ⟨t.val, h⟩) (iblk0 V c 1 ⟨t.val, h⟩) (iblk0 V c 2 ⟨t.val, h⟩) (acc0 V c t.val).1 (acc0 V c t.val).2
    else acc0 V c t.val) = _
  rw [dif_pos t.isLt]

theorem acc0_first (c : Dev nD) (t : Fin cfg0.N) (hz : t.val = 0) :
    acc0 V c (t.val + 1) = stepStats (iblk0 V c 0 t) (iblk0 V c 1 t) (iblk0 V c 2 t) zeroStats zeroStats := by
  rw [acc0_succ, acc0_of_zero V c _ hz]

/-- What the last point stores, over the finished sums: the mean and the variance. -/
def fin0 (c : Dev nD) : Vec F S256 .f32 × Vec F S256 .f32 := finStats (acc0 V c cfg0.N).1 (acc0 V c cfg0.N).2

/-- The region invariant before position `n`: before the first point the class's (every scratch at anything);
    afterwards the two scratch buffers at the running sums after `n` points, the rest of the scoped buffers unopened,
    the generator register at some state. -/
def PhiS0 (c : Dev nD) : ℕ → sProp 𝕄
  | 0 => Pipeline.ΦA spec0 c
  | n + 1 => iprop(iprop(iprop(owns (c : Thread nD τ) scM0_0 fullShare (acc0 V c (n + 1)).1 ∗ owns (c : Thread nD τ) scM0_1 fullShare (acc0 V c (n + 1)).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (hz : n = 0) : PhiS0 V c n = Pipeline.ΦA spec0 c := by subst hz; rfl

theorem PhiS0_pos (c : Dev nD) (n : ℕ) (hz : n ≠ 0) :
    PhiS0 V c n = iprop(iprop(iprop(owns (c : Thread nD τ) scM0_0 fullShare (acc0 V c n).1 ∗ owns (c : Thread nD τ) scM0_1 fullShare (acc0 V c n).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the pipeline on core `c`: the arrays as the region finds them; after the body at point `t` each
    input's buffer at its block and the two outputs' at the mean and the variance of the sums so far (what the last
    point stores; at the earlier points, where the outputs are idle and not written back, nothing consults it); the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (finStats (acc0 V c (t.val + 1)).1 (acc0 V c (t.val + 1)).2).1
    | ⟨4, _⟩ => (finStats (acc0 V c (t.val + 1)).1 (acc0 V c (t.val + 1)).2).2
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = (finStats (acc0 V c (t.val + 1)).1 (acc0 V c (t.val + 1)).2).1 := by dsimp only [dat0]
theorem after0_4 (c : Dev nD) (t : Fin cfg0.N) :
    (dat0 V c).after 4 t = (finStats (acc0 V c (t.val + 1)).1 (acc0 V c (t.val + 1)).2).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the two scratch buffers at the sums so far (at anything at the first point) and takes them
    back one row tile further; away from the last point the idle outputs come back as handed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl]
  rw [PhiS0_pos V c (t.val + 1) (Nat.succ_ne_zero _)]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 25 = 0
  · have h1 : ¬t.val % 25 = 24 := by omega
    have hz : t.val = 0 := by omega
    have hn1 : ¬cond0_1 (grid0.coords t) := fun h => h1 ((hcond0_1 t).mp h)
    rw [Dat.leavesExact_idle (dat0 V c) 3 t (idleAt0_3 t hn1) (noFlush0_3 t hn1),
      Dat.leavesExact_idle (dat0 V c) 4 t (idleAt0_4 t hn1) (noFlush0_4 t hn1)]
    rw [PhiS0_zero V c _ hz, PhiA0_eq, acc0_first V c t hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hn1
      (iblk0 V c 0 t) (iblk0 V c 1 t) (iblk0 V c 2 t) _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hn0 : ¬cond0_0 (grid0.coords t) := fun h => h0 ((hcond0_0 t).mp h)
    rw [PhiS0_pos V c _ hz, acc0_succ V c t]
    by_cases h1 : t.val % 25 = 24
    · have hy1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hy1], after0_3]
      rw [show (dat0 V c).leavesExact 4 t = owns (c : Thread nD τ) (ms0_4 t) fullShare ((dat0 V c).after 4 t) from by
        unfold Dat.leavesExact; rw [liveAt0_4 t hy1], after0_4]
      rw [acc0_succ V c t]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hn0 hy1
        (iblk0 V c 0 t) (iblk0 V c 1 t) (iblk0 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hn1 : ¬cond0_1 (grid0.coords t) := fun h => h1 ((hcond0_1 t).mp h)
      rw [Dat.leavesExact_idle (dat0 V c) 3 t (idleAt0_3 t hn1) (noFlush0_3 t hn1),
        Dat.leavesExact_idle (dat0 V c) 4 t (idleAt0_4 t hn1) (noFlush0_4 t hn1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hn0 hn1
        (iblk0 V c 0 t) (iblk0 V c 1 t) (iblk0 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives the class's back: the running sums' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 25 := N_0; omega), PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

/-- Region 0's contribution to the run, for any contents at its entry. -/
def rd0 (V : Dev nD → Valuation τ sig (Elt F)) : RData (F := F) 0 V where
  dat c := dat0 (fun c b => V c b) c
  hq _ _ := rfl
  howed _ _ := rfl
  hrec _ _ := rfl
  hA c w := A_eq0 _ c w
  hbody c := body_obligation0 _ c
  hΦin c := hin0 _ c
  hΦout c := hout0 _ c

end Cert.KernelIdeal.Hand

end
-- ==== Proof.Stats2.lean ====
import proofs.«115305_j43688407335088_2_alg».proof.Proof.StatsCommon
import proofs.«115305_j43688407335088_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Statistics region 2: the body's three cases, the proof data, the body obligation -/

/-! ## The body's branch conditions -/

/-- The condition of the body's first `scf.if` (zero the running sums), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 25 = 0 :=
  (by decide +kernel : ∀ t : Fin grid2.N, cond2_0 (grid2.coords t) ↔ t.val % 25 = 0)
/-- The condition of the body's second `scf.if` (store the mean and the variance), from the grid coordinates. -/
abbrev cond2_1 (i : grid2.Coords) : Prop := k2_cond2 i = 1#1
/-- It holds at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the two outputs are idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The kernel body on any whole memrefs, case by case -/

/-- The payloads of the skeleton are the pure functions of the shared module. -/
theorem pay4_eq2 (x : Vec F S2000x256 .bf16) (w : Vec F S256x256 .bf16) (b : Vec F S256 .f32) (s ss : Vec F S1x256 .f32) :
    k2_pay4 x w b s = (stepStats x w b s ss).1 := rfl
theorem pay5_eq2 (x : Vec F S2000x256 .bf16) (w : Vec F S256x256 .bf16) (b : Vec F S256 .f32) (s ss : Vec F S1x256 .f32) :
    k2_pay5 x w b ss = (stepStats x w b s ss).2 := rfl
theorem pay1_eq2 : (k2_pay1 (F := F)) = zeroStats := rfl
theorem pay2_eq2 : (k2_pay2 (F := F)) = zeroStats := rfl
theorem pay7_eq2 (s ss : Vec F S1x256 .f32) : k2_pay7 s = (finStats s ss).1 := rfl
theorem pay8_eq2 (s ss : Vec F S1x256 .f32) : k2_pay8 s ss = (finStats s ss).2 := rfl

set_option maxHeartbeats 1000000 in
/-- A middle point (neither conditional taken): the inputs and the idle outputs come back as they were, the two running
    sums advance by one row tile. -/
theorem run2_B (c : Dev nD) (i : grid2.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond2_0 i) (hc1 : ¬cond2_1 i)
    (x : Vec F S2000x256 .bf16) (w : Vec F S256x256 .bf16) (b : Vec F S256 .f32) (x4 x5 : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc2__stats_kernel i arg1 harg1 arg2 harg2 arg3 harg3 arg4 harg4 arg5 harg5 arg6 harg6 arg7 harg7) K := by
  simp only [cc2__stats_kernel_eq_skeleton]; unfold cc2__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    rw [readAt_S2000x256, readAt_S256x256, readAt_S256, readAt_S1x256]
    rfl
  · iexists _; isplitr
    swap; · iexact H7
    ipureintro
    refine (rw_S1x256 _ _ _ _ _).trans ?_
    rw [readAt_S2000x256, readAt_S256x256, readAt_S256, readAt_S1x256]
    rfl

set_option maxHeartbeats 1000000 in
/-- The first point (the first conditional taken): the running sums, whatever they held, are zeroed and advance by one row tile. -/
theorem run2_A (c : Dev nD) (i : grid2.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : cond2_0 i) (hc1 : ¬cond2_1 i)
    (x : Vec F S2000x256 .bf16) (w : Vec F S256x256 .bf16) (b : Vec F S256 .f32) (x4 x5 : Vec F S256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b zeroStats zeroStats).1 ∗ owns (c : Thread nD τ) arg7 fullShare (stepStats x w b zeroStats zeroStats).2) -∗ K ⟨⟩))
      ⊢ wp frame (wpE (defs₀ (F := F)) Variants.none c none) E (cc2__stats_kernel i arg1 harg1 arg2 harg2 arg3 harg3 arg4 harg4 arg5 harg5 arg6 harg6 arg7 harg7) K := by
  simp only [cc2__stats_kernel_eq_skeleton]; unfold cc2__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    sl_unfold_run_names
    rw [View.readCov_cons_toLoadRect, readAt_S2000x256, readAt_S256x256, readAt_S256]
    rfl
  · iexists _; isplitr
    swap; · iexact H7
    ipureintro
    refine (rw_S1x256 _ _ _ _ _).trans ?_
    sl_unfold_run_names
    rw [View.readCov_cons_toLoadRect, readAt_S2000x256, readAt_S256x256, readAt_S256]
    rfl

set_option maxHeartbeats 1000000 in
/-- The last point (the second conditional taken): the running sums advance by one row tile and the two outputs, whatever
    they held, are left at the mean and the variance of the finished sums. -/
theorem run2_C (c : Dev nD) (i : grid2.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond2_0 i) (hc1 : cond2_1 i)
    (x : Vec F S2000x256 .bf16) (w : Vec F S256x256 .bf16) (b : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare (finStats (stepStats x w b s ss).1 (stepStats x w b s ss).2).1 ∗ owns (c : Thread nD τ) arg5 fullShare (finStats (stepStats x w b s ss).1 (stepStats x w b s ss).2).2
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc2__stats_kernel i arg1 harg1 arg2 harg2 arg3 harg3 arg4 harg4 arg5 harg5 arg6 harg6 arg7 harg7) K := by
  simp only [cc2__stats_kernel_eq_skeleton]; unfold cc2__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    refine (rw_S256 _ _ _ _ _).trans ?_
    sl_unfold_run_names
    rw [View.readCov_cons_toLoadRect, readAt_S2000x256, readAt_S256x256, readAt_S256, readAt_S1x256]
    rfl
  isplitl [H5]
  · iexists _; isplitr
    swap; · iexact H5
    ipureintro
    refine (rw_S256 _ _ _ _ _).trans ?_
    sl_unfold_run_names
    rw [View.readCov_cons_toLoadRect, View.readCov_cons_toLoadRect, readAt_S2000x256, readAt_S256x256, readAt_S256, readAt_S1x256, readAt_S1x256]
    rfl
  isplitl [H6]
  · iexists _; isplitr
    swap; · iexact H6
    ipureintro
    sl_unfold_run_names
    refine (rw_S1x256 _ _ _ _ _).trans ?_
    rw [readAt_S2000x256, readAt_S256x256, readAt_S256, readAt_S1x256]
    rfl
  · iexists _; isplitr
    swap; · iexact H7
    ipureintro
    sl_unfold_run_names
    refine (rw_S1x256 _ _ _ _ _).trans ?_
    rw [readAt_S2000x256, readAt_S256x256, readAt_S256, readAt_S1x256]
    rfl

/-! ## The region at the entry contents `V` -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, spelled as the pipeline passes it, and its wholeness. -/
abbrev ms2_0 (t : Fin cfg2.N) : Memref sig .tc .vmem S2000x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256 .f32 := win2_4.stage (cfg2.slots t 4)
abbrev hs2_4 (t : Fin cfg2.N) : (ms2_4 t).IsWhole := hstage2_4 ((cfg2.slots t 4).cast nbuf2_4)
/-- The two scratch operands: whole scoped buffers of the kernel's own. -/
abbrev scM2_0 : Memref sig .tc .vmem S1x256 .f32 := Memref.whole cc2_scratch0
abbrev scM2_1 : Memref sig .tc .vmem S1x256 .f32 := Memref.whole cc2_scratch1

/-- The class's invariant with the two scratch operands as memrefs owned at some contents, the rest of the scoped
    buffers unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The running sums point by point -/

/-- THE ACCUMULATION. The two scratch buffers' contents after `n` points: zeros, then one `stepStats` per point over
    the point's blocks of the three inputs. -/
def acc2 (c : Dev nD) : ℕ → Vec F S1x256 .f32 × Vec F S1x256 .f32
  | 0 => (zeroStats, zeroStats)
  | n + 1 =>
    if h : n < cfg2.N then
      stepStats (iblk2 V c 0 ⟨n, h⟩) (iblk2 V c 1 ⟨n, h⟩) (iblk2 V c 2 ⟨n, h⟩) (acc2 c n).1 (acc2 c n).2
    else acc2 c n

theorem acc2_of_zero (c : Dev nD) (n : ℕ) (hz : n = 0) : acc2 V c n = (zeroStats, zeroStats) := by subst hz; rfl

theorem acc2_succ (c : Dev nD) (t : Fin cfg2.N) :
    acc2 V c (t.val + 1) = stepStats (iblk2 V c 0 t) (iblk2 V c 1 t) (iblk2 V c 2 t) (acc2 V c t.val).1 (acc2 V c t.val).2 := by
  show (if h : t.val < cfg2.N then
      stepStats (iblk2 V c 0 ⟨t.val, h⟩) (iblk2 V c 1 ⟨t.val, h⟩) (iblk2 V c 2 ⟨t.val, h⟩) (acc2 V c t.val).1 (acc2 V c t.val).2
    else acc2 V c t.val) = _
  rw [dif_pos t.isLt]

theorem acc2_first (c : Dev nD) (t : Fin cfg2.N) (hz : t.val = 0) :
    acc2 V c (t.val + 1) = stepStats (iblk2 V c 0 t) (iblk2 V c 1 t) (iblk2 V c 2 t) zeroStats zeroStats := by
  rw [acc2_succ, acc2_of_zero V c _ hz]

/-- What the last point stores, over the finished sums: the mean and the variance. -/
def fin2 (c : Dev nD) : Vec F S256 .f32 × Vec F S256 .f32 := finStats (acc2 V c cfg2.N).1 (acc2 V c cfg2.N).2

/-- The region invariant before position `n`: before the first point the class's (every scratch at anything);
    afterwards the two scratch buffers at the running sums after `n` points, the rest of the scoped buffers unopened,
    the generator register at some state. -/
def PhiS2 (c : Dev nD) : ℕ → sProp 𝕄
  | 0 => Pipeline.ΦA spec2 c
  | n + 1 => iprop(iprop(iprop(owns (c : Thread nD τ) scM2_0 fullShare (acc2 V c (n + 1)).1 ∗ owns (c : Thread nD τ) scM2_1 fullShare (acc2 V c (n + 1)).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (hz : n = 0) : PhiS2 V c n = Pipeline.ΦA spec2 c := by subst hz; rfl

theorem PhiS2_pos (c : Dev nD) (n : ℕ) (hz : n ≠ 0) :
    PhiS2 V c n = iprop(iprop(iprop(owns (c : Thread nD τ) scM2_0 fullShare (acc2 V c n).1 ∗ owns (c : Thread nD τ) scM2_1 fullShare (acc2 V c n).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of the pipeline on core `c`: the arrays as the region finds them; after the body at point `t` each
    input's buffer at its block and the two outputs' at the mean and the variance of the sums so far (what the last
    point stores; at the earlier points, where the outputs are idle and not written back, nothing consults it); the
    invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (finStats (acc2 V c (t.val + 1)).1 (acc2 V c (t.val + 1)).2).1
    | ⟨4, _⟩ => (finStats (acc2 V c (t.val + 1)).1 (acc2 V c (t.val + 1)).2).2
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = (finStats (acc2 V c (t.val + 1)).1 (acc2 V c (t.val + 1)).2).1 := by dsimp only [dat2]
theorem after2_4 (c : Dev nD) (t : Fin cfg2.N) :
    (dat2 V c).after 4 t = (finStats (acc2 V c (t.val + 1)).1 (acc2 V c (t.val + 1)).2).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the closed forms say which case the point is in; the
    invariant hands the body the two scratch buffers at the sums so far (at anything at the first point) and takes them
    back one row tile further; away from the last point the idle outputs come back as handed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) from rfl, show (dat2 V c).Φ t.castSucc = PhiS2 V c t.val from rfl]
  rw [PhiS2_pos V c (t.val + 1) (Nat.succ_ne_zero _)]
  have hN : t.val < 25 := lt_of_lt_of_eq t.isLt (show cfg2.N = 25 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 25 = 0
  · have h1 : ¬t.val % 25 = 24 := by omega
    have hz : t.val = 0 := by omega
    have hn1 : ¬cond2_1 (grid2.coords t) := fun h => h1 ((hcond2_1 t).mp h)
    rw [Dat.leavesExact_idle (dat2 V c) 3 t (idleAt2_3 t hn1) (noFlush2_3 t hn1),
      Dat.leavesExact_idle (dat2 V c) 4 t (idleAt2_4 t hn1) (noFlush2_4 t hn1)]
    rw [PhiS2_zero V c _ hz, PhiA2_eq, acc2_first V c t hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run2_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) hn1
      (iblk2 V c 0 t) (iblk2 V c 1 t) (iblk2 V c 2 t) _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hn0 : ¬cond2_0 (grid2.coords t) := fun h => h0 ((hcond2_0 t).mp h)
    rw [PhiS2_pos V c _ hz, acc2_succ V c t]
    by_cases h1 : t.val % 25 = 24
    · have hy1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hy1], after2_3]
      rw [show (dat2 V c).leavesExact 4 t = owns (c : Thread nD τ) (ms2_4 t) fullShare ((dat2 V c).after 4 t) from by
        unfold Dat.leavesExact; rw [liveAt2_4 t hy1], after2_4]
      rw [acc2_succ V c t]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run2_C c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hn0 hy1
        (iblk2 V c 0 t) (iblk2 V c 1 t) (iblk2 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hn1 : ¬cond2_1 (grid2.coords t) := fun h => h1 ((hcond2_1 t).mp h)
      rw [Dat.leavesExact_idle (dat2 V c) 3 t (idleAt2_3 t hn1) (noFlush2_3 t hn1),
        Dat.leavesExact_idle (dat2 V c) 4 t (idleAt2_4 t hn1) (noFlush2_4 t hn1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run2_B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hn0 hn1
        (iblk2 V c 0 t) (iblk2 V c 1 t) (iblk2 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 from rfl, PhiS2_zero V c 0 rfl]
  try exact Idealize.SL.BI.Entails.refl _

/-- After the last point the invariant gives the class's back: the running sums' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 25 := N_2; omega), PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

/-- Region 2's contribution to the run, for any contents at its entry. -/
def rd2 (V : Dev nD → Valuation τ sig (Elt F)) : RData (F := F) 2 V where
  dat c := dat2 (fun c b => V c b) c
  hq _ _ := rfl
  howed _ _ := rfl
  hrec _ _ := rfl
  hA c w := A_eq2 _ c w
  hbody c := body_obligation2 _ c
  hΦin c := hin2 _ c
  hΦout c := hout2 _ c

end Cert.KernelIdeal.Hand

end
-- ==== Proof.Stats4.lean ====
import proofs.«115305_j43688407335088_2_alg».proof.Proof.StatsCommon
import proofs.«115305_j43688407335088_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Statistics region 4: the body's three cases, the proof data, the body obligation -/

/-! ## The body's branch conditions -/

/-- The condition of the body's first `scf.if` (zero the running sums), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 25 = 0 :=
  (by decide +kernel : ∀ t : Fin grid4.N, cond4_0 (grid4.coords t) ↔ t.val % 25 = 0)
/-- The condition of the body's second `scf.if` (store the mean and the variance), from the grid coordinates. -/
abbrev cond4_1 (i : grid4.Coords) : Prop := k4_cond2 i = 1#1
/-- It holds at the last point only. -/
theorem hcond4_1 : ∀ t : Fin cfg4.N, cond4_1 (grid4.coords t) ↔ t.val % 25 = 24 :=
  (by decide +kernel : ∀ t : Fin grid4.N, cond4_1 (grid4.coords t) ↔ t.val % 25 = 24)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last point the two outputs are idle and not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last point they are live. -/
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

/-! ## The kernel body on any whole memrefs, case by case -/

/-- The payloads of the skeleton are the pure functions of the shared module. -/
theorem pay4_eq4 (x : Vec F S2000x256 .bf16) (w : Vec F S256x256 .bf16) (b : Vec F S256 .f32) (s ss : Vec F S1x256 .f32) :
    k4_pay4 x w b s = (stepStats x w b s ss).1 := rfl
theorem pay5_eq4 (x : Vec F S2000x256 .bf16) (w : Vec F S256x256 .bf16) (b : Vec F S256 .f32) (s ss : Vec F S1x256 .f32) :
    k4_pay5 x w b ss = (stepStats x w b s ss).2 := rfl
theorem pay1_eq4 : (k4_pay1 (F := F)) = zeroStats := rfl
theorem pay2_eq4 : (k4_pay2 (F := F)) = zeroStats := rfl
theorem pay7_eq4 (s ss : Vec F S1x256 .f32) : k4_pay7 s = (finStats s ss).1 := rfl
theorem pay8_eq4 (s ss : Vec F S1x256 .f32) : k4_pay8 s ss = (finStats s ss).2 := rfl

set_option maxHeartbeats 1000000 in
/-- A middle point (neither conditional taken): the inputs and the idle outputs come back as they were, the two running
    sums advance by one row tile. -/
theorem run4_B (c : Dev nD) (i : grid4.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond4_0 i) (hc1 : ¬cond4_1 i)
    (x : Vec F S2000x256 .bf16) (w : Vec F S256x256 .bf16) (b : Vec F S256 .f32) (x4 x5 : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton]; unfold cc4__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    rw [readAt_S2000x256, readAt_S256x256, readAt_S256, readAt_S1x256]
    rfl
  · iexists _; isplitr
    swap; · iexact H7
    ipureintro
    refine (rw_S1x256 _ _ _ _ _).trans ?_
    rw [readAt_S2000x256, readAt_S256x256, readAt_S256, readAt_S1x256]
    rfl

set_option maxHeartbeats 1000000 in
/-- The first point (the first conditional taken): the running sums, whatever they held, are zeroed and advance by one row tile. -/
theorem run4_A (c : Dev nD) (i : grid4.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : cond4_0 i) (hc1 : ¬cond4_1 i)
    (x : Vec F S2000x256 .bf16) (w : Vec F S256x256 .bf16) (b : Vec F S256 .f32) (x4 x5 : Vec F S256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b zeroStats zeroStats).1 ∗ owns (c : Thread nD τ) arg7 fullShare (stepStats x w b zeroStats zeroStats).2) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton]; unfold cc4__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    sl_unfold_run_names
    rw [View.readCov_cons_toLoadRect, readAt_S2000x256, readAt_S256x256, readAt_S256]
    rfl
  · iexists _; isplitr
    swap; · iexact H7
    ipureintro
    refine (rw_S1x256 _ _ _ _ _).trans ?_
    sl_unfold_run_names
    rw [View.readCov_cons_toLoadRect, readAt_S2000x256, readAt_S256x256, readAt_S256]
    rfl

set_option maxHeartbeats 1000000 in
/-- The last point (the second conditional taken): the running sums advance by one row tile and the two outputs, whatever
    they held, are left at the mean and the variance of the finished sums. -/
theorem run4_C (c : Dev nD) (i : grid4.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond4_0 i) (hc1 : cond4_1 i)
    (x : Vec F S2000x256 .bf16) (w : Vec F S256x256 .bf16) (b : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare (finStats (stepStats x w b s ss).1 (stepStats x w b s ss).2).1 ∗ owns (c : Thread nD τ) arg5 fullShare (finStats (stepStats x w b s ss).1 (stepStats x w b s ss).2).2
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton]; unfold cc4__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    refine (rw_S256 _ _ _ _ _).trans ?_
    sl_unfold_run_names
    rw [View.readCov_cons_toLoadRect, readAt_S2000x256, readAt_S256x256, readAt_S256, readAt_S1x256]
    rfl
  isplitl [H5]
  · iexists _; isplitr
    swap; · iexact H5
    ipureintro
    refine (rw_S256 _ _ _ _ _).trans ?_
    sl_unfold_run_names
    rw [View.readCov_cons_toLoadRect, View.readCov_cons_toLoadRect, readAt_S2000x256, readAt_S256x256, readAt_S256, readAt_S1x256, readAt_S1x256]
    rfl
  isplitl [H6]
  · iexists _; isplitr
    swap; · iexact H6
    ipureintro
    sl_unfold_run_names
    refine (rw_S1x256 _ _ _ _ _).trans ?_
    rw [readAt_S2000x256, readAt_S256x256, readAt_S256, readAt_S1x256]
    rfl
  · iexists _; isplitr
    swap; · iexact H7
    ipureintro
    sl_unfold_run_names
    refine (rw_S1x256 _ _ _ _ _).trans ?_
    rw [readAt_S2000x256, readAt_S256x256, readAt_S256, readAt_S1x256]
    rfl

/-! ## The region at the entry contents `V` -/

section Region
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, spelled as the pipeline passes it, and its wholeness. -/
abbrev ms4_0 (t : Fin cfg4.N) : Memref sig .tc .vmem S2000x256 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256 .f32 := win4_4.stage (cfg4.slots t 4)
abbrev hs4_4 (t : Fin cfg4.N) : (ms4_4 t).IsWhole := hstage4_4 ((cfg4.slots t 4).cast nbuf4_4)
/-- The two scratch operands: whole scoped buffers of the kernel's own. -/
abbrev scM4_0 : Memref sig .tc .vmem S1x256 .f32 := Memref.whole cc4_scratch0
abbrev scM4_1 : Memref sig .tc .vmem S1x256 .f32 := Memref.whole cc4_scratch1

/-- The class's invariant with the two scratch operands as memrefs owned at some contents, the rest of the scoped
    buffers unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The running sums point by point -/

/-- THE ACCUMULATION. The two scratch buffers' contents after `n` points: zeros, then one `stepStats` per point over
    the point's blocks of the three inputs. -/
def acc4 (c : Dev nD) : ℕ → Vec F S1x256 .f32 × Vec F S1x256 .f32
  | 0 => (zeroStats, zeroStats)
  | n + 1 =>
    if h : n < cfg4.N then
      stepStats (iblk4 V c 0 ⟨n, h⟩) (iblk4 V c 1 ⟨n, h⟩) (iblk4 V c 2 ⟨n, h⟩) (acc4 c n).1 (acc4 c n).2
    else acc4 c n

theorem acc4_of_zero (c : Dev nD) (n : ℕ) (hz : n = 0) : acc4 V c n = (zeroStats, zeroStats) := by subst hz; rfl

theorem acc4_succ (c : Dev nD) (t : Fin cfg4.N) :
    acc4 V c (t.val + 1) = stepStats (iblk4 V c 0 t) (iblk4 V c 1 t) (iblk4 V c 2 t) (acc4 V c t.val).1 (acc4 V c t.val).2 := by
  show (if h : t.val < cfg4.N then
      stepStats (iblk4 V c 0 ⟨t.val, h⟩) (iblk4 V c 1 ⟨t.val, h⟩) (iblk4 V c 2 ⟨t.val, h⟩) (acc4 V c t.val).1 (acc4 V c t.val).2
    else acc4 V c t.val) = _
  rw [dif_pos t.isLt]

theorem acc4_first (c : Dev nD) (t : Fin cfg4.N) (hz : t.val = 0) :
    acc4 V c (t.val + 1) = stepStats (iblk4 V c 0 t) (iblk4 V c 1 t) (iblk4 V c 2 t) zeroStats zeroStats := by
  rw [acc4_succ, acc4_of_zero V c _ hz]

/-- What the last point stores, over the finished sums: the mean and the variance. -/
def fin4 (c : Dev nD) : Vec F S256 .f32 × Vec F S256 .f32 := finStats (acc4 V c cfg4.N).1 (acc4 V c cfg4.N).2

/-- The region invariant before position `n`: before the first point the class's (every scratch at anything);
    afterwards the two scratch buffers at the running sums after `n` points, the rest of the scoped buffers unopened,
    the generator register at some state. -/
def PhiS4 (c : Dev nD) : ℕ → sProp 𝕄
  | 0 => Pipeline.ΦA spec4 c
  | n + 1 => iprop(iprop(iprop(owns (c : Thread nD τ) scM4_0 fullShare (acc4 V c (n + 1)).1 ∗ owns (c : Thread nD τ) scM4_1 fullShare (acc4 V c (n + 1)).2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (hz : n = 0) : PhiS4 V c n = Pipeline.ΦA spec4 c := by subst hz; rfl

theorem PhiS4_pos (c : Dev nD) (n : ℕ) (hz : n ≠ 0) :
    PhiS4 V c n = iprop(iprop(iprop(owns (c : Thread nD τ) scM4_0 fullShare (acc4 V c n).1 ∗ owns (c : Thread nD τ) scM4_1 fullShare (acc4 V c n).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the pipeline on core `c`: the arrays as the region finds them; after the body at point `t` each
    input's buffer at its block and the two outputs' at the mean and the variance of the sums so far (what the last
    point stores; at the earlier points, where the outputs are idle and not written back, nothing consults it); the
    invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (finStats (acc4 V c (t.val + 1)).1 (acc4 V c (t.val + 1)).2).1
    | ⟨4, _⟩ => (finStats (acc4 V c (t.val + 1)).1 (acc4 V c (t.val + 1)).2).2
  Φ t := PhiS4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = (finStats (acc4 V c (t.val + 1)).1 (acc4 V c (t.val + 1)).2).1 := by dsimp only [dat4]
theorem after4_4 (c : Dev nD) (t : Fin cfg4.N) :
    (dat4 V c).after 4 t = (finStats (acc4 V c (t.val + 1)).1 (acc4 V c (t.val + 1)).2).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point: the inputs' memrefs hold their blocks; the closed forms say which case the point is in; the
    invariant hands the body the two scratch buffers at the sums so far (at anything at the first point) and takes them
    back one row tile further; away from the last point the idle outputs come back as handed. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) from rfl, show (dat4 V c).Φ t.castSucc = PhiS4 V c t.val from rfl]
  rw [PhiS4_pos V c (t.val + 1) (Nat.succ_ne_zero _)]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 25 = 0
  · have h1 : ¬t.val % 25 = 24 := by omega
    have hz : t.val = 0 := by omega
    have hn1 : ¬cond4_1 (grid4.coords t) := fun h => h1 ((hcond4_1 t).mp h)
    rw [Dat.leavesExact_idle (dat4 V c) 3 t (idleAt4_3 t hn1) (noFlush4_3 t hn1),
      Dat.leavesExact_idle (dat4 V c) 4 t (idleAt4_4 t hn1) (noFlush4_4 t hn1)]
    rw [PhiS4_zero V c _ hz, PhiA4_eq, acc4_first V c t hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) hn1
      (iblk4 V c 0 t) (iblk4 V c 1 t) (iblk4 V c 2 t) _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hn0 : ¬cond4_0 (grid4.coords t) := fun h => h0 ((hcond4_0 t).mp h)
    rw [PhiS4_pos V c _ hz, acc4_succ V c t]
    by_cases h1 : t.val % 25 = 24
    · have hy1 : cond4_1 (grid4.coords t) := (hcond4_1 t).mpr h1
      rw [show (dat4 V c).leavesExact 3 t = owns (c : Thread nD τ) (ms4_3 t) fullShare ((dat4 V c).after 3 t) from by
        unfold Dat.leavesExact; rw [liveAt4_3 t hy1], after4_3]
      rw [show (dat4 V c).leavesExact 4 t = owns (c : Thread nD τ) (ms4_4 t) fullShare ((dat4 V c).after 4 t) from by
        unfold Dat.leavesExact; rw [liveAt4_4 t hy1], after4_4]
      rw [acc4_succ V c t]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run4_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hn0 hy1
        (iblk4 V c 0 t) (iblk4 V c 1 t) (iblk4 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hn1 : ¬cond4_1 (grid4.coords t) := fun h => h1 ((hcond4_1 t).mp h)
      rw [Dat.leavesExact_idle (dat4 V c) 3 t (idleAt4_3 t hn1) (noFlush4_3 t hn1),
        Dat.leavesExact_idle (dat4 V c) 4 t (idleAt4_4 t hn1) (noFlush4_4 t hn1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hn0 hn1
        (iblk4 V c 0 t) (iblk4 V c 1 t) (iblk4 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 from rfl, PhiS4_zero V c 0 rfl]
  try exact Idealize.SL.BI.Entails.refl _

/-- After the last point the invariant gives the class's back: the running sums' named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val from rfl,
    PhiS4_pos V c _ (by rw [Fin.val_last]; have : cfg4.N = 25 := N_4; omega), PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

/-- Region 4's contribution to the run, for any contents at its entry. -/
def rd4 (V : Dev nD → Valuation τ sig (Elt F)) : RData (F := F) 4 V where
  dat c := dat4 (fun c b => V c b) c
  hq _ _ := rfl
  howed _ _ := rfl
  hrec _ _ := rfl
  hA c w := A_eq4 _ c w
  hbody c := body_obligation4 _ c
  hΦin c := hin4 _ c
  hΦout c := hout4 _ c

end Cert.KernelIdeal.Hand

end
-- ==== Proof.Norm1.lean ====
import proofs.«115305_j43688407335088_2_alg».proof.Proof.Run
import proofs.«115305_j43688407335088_2_alg».proof.Proof.Gen.KernelIdeal.Launch
import proofs.«115305_j43688407335088_2_alg».proof.Proof.Gen.KernelIdeal.Skeleton
import proofs.«115305_j43688407335088_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation kernel of hop 0 (custom_call 1) as pipeline proof data

One grid point of the kernel reads seven staged blocks: a [2000,256] tile of features, the [256,256]
weights, and five [256] rows (bias, mean, variance, scale, shift). It writes one [2000,256] tile:
max(ft·W + b, 0), centred by the mean, scaled by rsqrt(var + ε)·γ, shifted by β. The tile is the
only thing it stores; the [50000,768] array it is aliased to is never addressed by the body. So the
proof data is: every input window keeps its block, and the output window's buffer holds that tile,
a function of the seven blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section RegionBody

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point. At a point where it is fetched that is
the fetch; at a point where it is not, the block index has not moved since the last fetch and the body has
left the buffer as it was. The windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev rT1 : Rect S2000x256 := Rect.unit (s := S2000x256) ![0, 0] S2000x256.size inb_S2000x256_S2000x256_0_0
abbrev rW1 : Rect S256x256 := Rect.unit (s := S256x256) ![0, 0] S256x256.size inb_S256x256_S256x256_0_0
abbrev rV1 : Rect S256 := Rect.unit (s := S256) ![0] S256.size inb_S256_S256_0

/-! ## What the body leaves in the output window's buffer -/

/-- The output tile as a function of the seven input blocks: the single store, whose value is the kernel's
    arithmetic applied to the seven loaded vectors. -/
def out1_7 (x0 : Vec F S2000x256 .bf16) (x1 : Vec F S256x256 .bf16) (x2 : Vec F S256 .f32) (x3 : Vec F S256 .f32) (x4 : Vec F S256 .f32) (x5 : Vec F S256 .f32) (x6 : Vec F S256 .f32) : Vec F S2000x256 .f32 :=
  View.canon [⟨rT1, k1_pay1 (View.ld x0 rT1) (View.ld x1 rW1) (View.ld x2 rV1) (View.ld x3 rV1) (View.ld x4 rV1) (View.ld x5 rV1) (View.ld x6 rV1)⟩]

/-- The one store is of the whole tile, so it covers the buffer. -/
theorem cover1_7 (p0 : Vec F S2000x256 .f32) (y : S2000x256.Idx) :
    ∃ pc ∈ ([⟨rT1, p0⟩] : List (View.Piece (Elt F) S2000x256 .f32)), y ∈ pc.1.set :=
  View.cover_of_tiled [⟨rT1, p0⟩] S2000x256.size (by rfl) y

/-! ## The body's triple -/

set_option maxHeartbeats 4000000 in
/-- On whole staging memrefs, the seven inputs' at contents xW and the output's at anything, the body runs to a
    continuation that holds the inputs as they were and the output at out1_7 of them. The aliased array
    (arg8) is not addressed and nothing of it is needed. -/
theorem sound_kernel1 (c : Dev nD) (E : Set ℕ) (i : grid1.Coords) (arg1 : Memref sig .tc .vmem S2000x256 .bf16) (harg1 : arg1.IsWhole) (arg2 : Memref sig .tc .vmem S256x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole)
    (arg8 : Memref sig .tc .hbm S50000x768 .f32) (harg8 : arg8.IsWhole) (arg9 : Memref sig .tc .vmem S2000x256 .f32) (harg9 : arg9.IsWhole)
    (x0 : Vec F S2000x256 .bf16) (x1 : Vec F S256x256 .bf16) (x2 : Vec F S256 .f32) (x3 : Vec F S256 .f32) (x4 : Vec F S256 .f32) (x5 : Vec F S256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (out1_7 x0 x1 x2 x3 x4 x5 x6)) -∗ K ⟨⟩))
      ⊢ wp frame (wpE (defs₀ (F := F)) Variants.none c none) E (cc1__norm_kernel i arg1 harg1 arg2 harg2 arg3 harg3 arg4 harg4 arg5 harg5 arg6 harg6 arg7 harg7 arg8 harg8 arg9 harg9) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H9
  ipureintro
  exact View.read_writes_eq_canon _ _ _ (cover1_7 _)

/-! ## The pipeline's proof data -/

/-- The proof data on core c: the arrays as the region finds them; after the body at point t each input's
    buffer still at its block and the output's at out1_7 of the seven input blocks; the invariant is the
    untouched rest (the scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point t: the invariant, what is owed, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the seven inputs' buffers hold their blocks, so the body's triple applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end RegionBody

/-! ## The region's record for the run -/

/-- Region 1 for the run over all segments: its proof data at the contents the run enters it with, full
    shares, nothing owed, the arrays as entered, the body obligation, and the invariant passed through. -/
def rd1 (V : Dev nD → Valuation τ sig (Elt F)) : RData (F := F) 1 V where
  dat c := dat1 (fun c b => V c b) c
  hq _ _ := rfl
  howed _ _ := rfl
  hrec _ _ := rfl
  hA c w := A_eq1 _ c w
  hbody c := body_obligation1 _ c
  hΦin _ := .rfl
  hΦout _ := .rfl

end Cert.KernelIdeal.Hand
-- ==== Proof.Norm3.lean ====
import proofs.«115305_j43688407335088_2_alg».proof.Proof.Run
import proofs.«115305_j43688407335088_2_alg».proof.Proof.Gen.KernelIdeal.Launch
import proofs.«115305_j43688407335088_2_alg».proof.Proof.Gen.KernelIdeal.Skeleton
import proofs.«115305_j43688407335088_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation kernel of hop 1 (custom_call 3) as pipeline proof data

One grid point of the kernel reads seven staged blocks: a [2000,256] tile of features, the [256,256]
weights, and five [256] rows (bias, mean, variance, scale, shift). It writes one [2000,256] tile:
max(ft·W + b, 0), centred by the mean, scaled by rsqrt(var + ε)·γ, shifted by β. The tile is the
only thing it stores; the [50000,768] array it is aliased to is never addressed by the body. So the
proof data is: every input window keeps its block, and the output window's buffer holds that tile,
a function of the seven blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section RegionBody

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point. At a point where it is fetched that is
the fetch; at a point where it is not, the block index has not moved since the last fetch and the body has
left the buffer as it was. The windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole buffer -/

abbrev rT3 : Rect S2000x256 := Rect.unit (s := S2000x256) ![0, 0] S2000x256.size inb_S2000x256_S2000x256_0_0
abbrev rW3 : Rect S256x256 := Rect.unit (s := S256x256) ![0, 0] S256x256.size inb_S256x256_S256x256_0_0
abbrev rV3 : Rect S256 := Rect.unit (s := S256) ![0] S256.size inb_S256_S256_0

/-! ## What the body leaves in the output window's buffer -/

/-- The output tile as a function of the seven input blocks: the single store, whose value is the kernel's
    arithmetic applied to the seven loaded vectors. -/
def out3_7 (x0 : Vec F S2000x256 .bf16) (x1 : Vec F S256x256 .bf16) (x2 : Vec F S256 .f32) (x3 : Vec F S256 .f32) (x4 : Vec F S256 .f32) (x5 : Vec F S256 .f32) (x6 : Vec F S256 .f32) : Vec F S2000x256 .f32 :=
  View.canon [⟨rT3, k3_pay1 (View.ld x0 rT3) (View.ld x1 rW3) (View.ld x2 rV3) (View.ld x3 rV3) (View.ld x4 rV3) (View.ld x5 rV3) (View.ld x6 rV3)⟩]

/-- The one store is of the whole tile, so it covers the buffer. -/
theorem cover3_7 (p0 : Vec F S2000x256 .f32) (y : S2000x256.Idx) :
    ∃ pc ∈ ([⟨rT3, p0⟩] : List (View.Piece (Elt F) S2000x256 .f32)), y ∈ pc.1.set :=
  View.cover_of_tiled [⟨rT3, p0⟩] S2000x256.size (by rfl) y

/-! ## The body's triple -/

set_option maxHeartbeats 4000000 in
/-- On whole staging memrefs, the seven inputs' at contents xW and the output's at anything, the body runs to a
    continuation that holds the inputs as they were and the output at out3_7 of them. The aliased array
    (arg8) is not addressed and nothing of it is needed. -/
theorem sound_kernel3 (c : Dev nD) (E : Set ℕ) (i : grid3.Coords) (arg1 : Memref sig .tc .vmem S2000x256 .bf16) (harg1 : arg1.IsWhole) (arg2 : Memref sig .tc .vmem S256x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole)
    (arg8 : Memref sig .tc .hbm S50000x768 .f32) (harg8 : arg8.IsWhole) (arg9 : Memref sig .tc .vmem S2000x256 .f32) (harg9 : arg9.IsWhole)
    (x0 : Vec F S2000x256 .bf16) (x1 : Vec F S256x256 .bf16) (x2 : Vec F S256 .f32) (x3 : Vec F S256 .f32) (x4 : Vec F S256 .f32) (x5 : Vec F S256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (out3_7 x0 x1 x2 x3 x4 x5 x6)) -∗ K ⟨⟩))
      ⊢ wp frame (wpE (defs₀ (F := F)) Variants.none c none) E (cc3__norm_kernel i arg1 harg1 arg2 harg2 arg3 harg3 arg4 harg4 arg5 harg5 arg6 harg6 arg7 harg7 arg8 harg8 arg9 harg9) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H9
  ipureintro
  exact View.read_writes_eq_canon _ _ _ (cover3_7 _)

/-! ## The pipeline's proof data -/

/-- The proof data on core c: the arrays as the region finds them; after the body at point t each input's
    buffer still at its block and the output's at out3_7 of the seven input blocks; the invariant is the
    untouched rest (the scoped buffers and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-! What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-! Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point t: the invariant, what is owed, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the seven inputs' buffers hold their blocks, so the body's triple applies; the
    invariant and what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end RegionBody

/-! ## The region's record for the run -/

/-- Region 3 for the run over all segments: its proof data at the contents the run enters it with, full
    shares, nothing owed, the arrays as entered, the body obligation, and the invariant passed through. -/
def rd3 (V : Dev nD → Valuation τ sig (Elt F)) : RData (F := F) 3 V where
  dat c := dat3 (fun c b => V c b) c
  hq _ _ := rfl
  howed _ _ := rfl
  hrec _ _ := rfl
  hA c w := A_eq3 _ c w
  hbody c := body_obligation3 _ c
  hΦin _ := .rfl
  hΦout _ := .rfl

end Cert.KernelIdeal.Hand
-- ==== Proof.Norm5.lean ====
import proofs.«115305_j43688407335088_2_alg».proof.Proof.Run
import proofs.«115305_j43688407335088_2_alg».proof.Proof.Gen.KernelIdeal.Launch
import proofs.«115305_j43688407335088_2_alg».proof.Proof.Gen.KernelIdeal.Skeleton
import proofs.«115305_j43688407335088_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation kernel of hop 2 (custom_call 5) as pipeline proof data

One grid point of the kernel reads seven staged blocks: a [2000,256] tile of features, the [256,256]
weights, and five [256] rows (bias, mean, variance, scale, shift). It writes one [2000,256] tile:
max(ft·W + b, 0), centred by the mean, scaled by rsqrt(var + ε)·γ, shifted by β. The tile is the
only thing it stores; the [50000,768] array it is aliased to is never addressed by the body. So the
proof data is: every input window keeps its block, and the output window's buffer holds that tile,
a function of the seven blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section RegionBody

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds its block at every point. At a point where it is fetched that is
the fetch; at a point where it is not, the block index has not moved since the last fetch and the body has
left the buffer as it was. The windows are uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each a whole buffer -/

abbrev rT5 : Rect S2000x256 := Rect.unit (s := S2000x256) ![0, 0] S2000x256.size inb_S2000x256_S2000x256_0_0
abbrev rW5 : Rect S256x256 := Rect.unit (s := S256x256) ![0, 0] S256x256.size inb_S256x256_S256x256_0_0
abbrev rV5 : Rect S256 := Rect.unit (s := S256) ![0] S256.size inb_S256_S256_0

/-! ## What the body leaves in the output window's buffer -/

/-- The output tile as a function of the seven input blocks: the single store, whose value is the kernel's
    arithmetic applied to the seven loaded vectors. -/
def out5_7 (x0 : Vec F S2000x256 .bf16) (x1 : Vec F S256x256 .bf16) (x2 : Vec F S256 .f32) (x3 : Vec F S256 .f32) (x4 : Vec F S256 .f32) (x5 : Vec F S256 .f32) (x6 : Vec F S256 .f32) : Vec F S2000x256 .f32 :=
  View.canon [⟨rT5, k5_pay1 (View.ld x0 rT5) (View.ld x1 rW5) (View.ld x2 rV5) (View.ld x3 rV5) (View.ld x4 rV5) (View.ld x5 rV5) (View.ld x6 rV5)⟩]

/-- The one store is of the whole tile, so it covers the buffer. -/
theorem cover5_7 (p0 : Vec F S2000x256 .f32) (y : S2000x256.Idx) :
    ∃ pc ∈ ([⟨rT5, p0⟩] : List (View.Piece (Elt F) S2000x256 .f32)), y ∈ pc.1.set :=
  View.cover_of_tiled [⟨rT5, p0⟩] S2000x256.size (by rfl) y

/-! ## The body's triple -/

set_option maxHeartbeats 4000000 in
/-- On whole staging memrefs, the seven inputs' at contents xW and the output's at anything, the body runs to a
    continuation that holds the inputs as they were and the output at out5_7 of them. The aliased array
    (arg8) is not addressed and nothing of it is needed. -/
theorem sound_kernel5 (c : Dev nD) (E : Set ℕ) (i : grid5.Coords) (arg1 : Memref sig .tc .vmem S2000x256 .bf16) (harg1 : arg1.IsWhole) (arg2 : Memref sig .tc .vmem S256x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole)
    (arg8 : Memref sig .tc .hbm S50000x768 .f32) (harg8 : arg8.IsWhole) (arg9 : Memref sig .tc .vmem S2000x256 .f32) (harg9 : arg9.IsWhole)
    (x0 : Vec F S2000x256 .bf16) (x1 : Vec F S256x256 .bf16) (x2 : Vec F S256 .f32) (x3 : Vec F S256 .f32) (x4 : Vec F S256 .f32) (x5 : Vec F S256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (out5_7 x0 x1 x2 x3 x4 x5 x6)) -∗ K ⟨⟩))
      ⊢ wp frame (wpE (defs₀ (F := F)) Variants.none c none) E (cc5__norm_kernel i arg1 harg1 arg2 harg2 arg3 harg3 arg4 harg4 arg5 harg5 arg6 harg6 arg7 harg7 arg8 harg8 arg9 harg9) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H9
  ipureintro
  exact View.read_writes_eq_canon _ _ _ (cover5_7 _)

/-! ## The pipeline's proof data -/

/-- The proof data on core c: the arrays as the region finds them; after the body at point t each input's
    buffer still at its block and the output's at out5_7 of the seven input blocks; the invariant is the
    untouched rest (the scoped buffers and the generator register); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-! What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-! Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point t: the invariant, what is owed, and each window's current buffer. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- What it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the seven inputs' buffers hold their blocks, so the body's triple applies; the
    invariant and what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end RegionBody

/-! ## The region's record for the run -/

/-- Region 5 for the run over all segments: its proof data at the contents the run enters it with, full
    shares, nothing owed, the arrays as entered, the body obligation, and the invariant passed through. -/
def rd5 (V : Dev nD → Valuation τ sig (Elt F)) : RData (F := F) 5 V where
  dat c := dat5 (fun c b => V c b) c
  hq _ _ := rfl
  howed _ _ := rfl
  hrec _ _ := rfl
  hA c w := A_eq5 _ c w
  hbody c := body_obligation5 _ c
  hΦin _ := .rfl
  hΦout _ := .rfl

end Cert.KernelIdeal.Hand
-- ==== Proof.FrameOf.lean ====
/-
  The argument arrays end as launched: no host operation writes an argument's buffer and no region has one among its
  windows' arrays, so the fold of the buffers' contents through the program, read at an argument, walks back to the
  launch memory.
-/
import proofs.«115305_j43688407335088_2_alg».proof.Proof.Run

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

local notation "cfgAt" p => Pipeline.pin (pcfgs (F := F)) adm p

variable (m : (ℓ : Loc nD τ sig) → Buf (Elt F) ℓ) (ρ : Dev nD → PrngReg) (D : RD6 (F := F))

/-- A buffer that no host stretch writes and that is no window's array of any region holds its launch contents at the end. -/
theorem W14_kept (c : Dev nD) (b : Ref sig .tc)
    (h0 : b ∉ hostOps0_W) (h01 : b ∉ hostOps0_1_W) (h02 : b ∉ hostOps0_2_W) (h1 : b ∉ hostOps1_W) (h2 : b ∉ hostOps2_W)
    (h3 : b ∉ hostOps3_W) (h4 : b ∉ hostOps4_W) (h5 : b ∉ hostOps5_W)
    (a0 : ∀ w, Pipeline.arrRef spec0 w ≠ b) (a1 : ∀ w, Pipeline.arrRef spec1 w ≠ b)
    (a2 : ∀ w, Pipeline.arrRef spec2 w ≠ b) (a3 : ∀ w, Pipeline.arrRef spec3 w ≠ b)
    (a4 : ∀ w, Pipeline.arrRef spec4 w ≠ b) (a5 : ∀ w, Pipeline.arrRef spec5 w ≠ b) :
    W14 m ρ D c (Proc.devRef .tc b) = m ((c : Thread nD τ).loc b) :=
  calc W14 m ρ D c (Proc.devRef .tc b)
    _ = W13 m ρ D c (Proc.devRef .tc b) := Wnext_of_ne 5 _ _ c b a5
    _ = W12 m ρ D c (Proc.devRef .tc b) := StableHlo.after_of_writes_sub hostOps5 _ hostOps5_writes h5
    _ = W11 m ρ D c (Proc.devRef .tc b) := Wnext_of_ne 4 _ _ c b a4
    _ = W10 m ρ D c (Proc.devRef .tc b) := StableHlo.after_of_writes_sub hostOps4 _ hostOps4_writes h4
    _ = W9 m ρ D c (Proc.devRef .tc b) := Wnext_of_ne 3 _ _ c b a3
    _ = W8 m ρ D c (Proc.devRef .tc b) := StableHlo.after_of_writes_sub hostOps3 _ hostOps3_writes h3
    _ = W7 m ρ D c (Proc.devRef .tc b) := Wnext_of_ne 2 _ _ c b a2
    _ = W6 m ρ D c (Proc.devRef .tc b) := StableHlo.after_of_writes_sub hostOps2 _ hostOps2_writes h2
    _ = W5 m ρ D c (Proc.devRef .tc b) := Wnext_of_ne 1 _ _ c b a1
    _ = W4 m ρ D c (Proc.devRef .tc b) := StableHlo.after_of_writes_sub hostOps1 _ hostOps1_writes h1
    _ = W3 m ρ c (Proc.devRef .tc b) := Wnext_of_ne 0 _ _ c b a0
    _ = W2 m ρ c (Proc.devRef .tc b) := StableHlo.after_of_writes_sub hostOps0_2 _ hostOps0_2_writes h02
    _ = W1 m ρ c (Proc.devRef .tc b) := StableHlo.after_of_writes_sub hostOps0_1 _ hostOps0_1_writes h01
    _ = W0 m ρ c (Proc.devRef .tc b) := StableHlo.after_of_writes_sub hostOps0 _ hostOps0_writes h0
    _ = m ((c : Thread nD τ).loc b) := rfl

include D in
/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W14_kept m ρ D c main_arg0 (by decide) (by decide) (by decide) (by decide) (by decide) (by decide) (by decide) (by decide) (by decide) (by decide) (by decide) (by decide) (by decide) (by decide)),
     (h c _ (mem_uc main_arg1 (by decide))).trans (W14_kept m ρ D c main_arg1 (by decide) (by decide) (by decide) (by decide) (by decide) (by decide) (by decide) (by decide) (by decide) (by decide) (by decide) (by decide) (by decide) (by decide)),
     (h c _ (mem_uc main_arg2 (by decide))).trans (W14_kept m ρ D c main_arg2 (by decide) (by decide) (by decide) (by decide) (by decide) (by decide) (by decide) (by decide) (by decide) (by decide) (by decide) (by decide) (by decide) (by decide)),
     (h c _ (mem_uc main_arg3 (by decide))).trans (W14_kept m ρ D c main_arg3 (by decide) (by decide) (by decide) (by decide) (by decide) (by decide) (by decide) (by decide) (by decide) (by decide) (by decide) (by decide) (by decide) (by decide)),
     (h c _ (mem_uc main_arg4 (by decide))).trans (W14_kept m ρ D c main_arg4 (by decide) (by decide) (by decide) (by decide) (by decide) (by decide) (by decide) (by decide) (by decide) (by decide) (by decide) (by decide) (by decide) (by decide)),
     (h c _ (mem_uc main_arg5 (by decide))).trans (W14_kept m ρ D c main_arg5 (by decide) (by decide) (by decide) (by decide) (by decide) (by decide) (by decide) (by decide) (by decide) (by decide) (by decide) (by decide) (by decide) (by decide)),
     (h c _ (mem_uc main_arg6 (by decide))).trans (W14_kept m ρ D c main_arg6 (by decide) (by decide) (by decide) (by decide) (by decide) (by decide) (by decide) (by decide) (by decide) (by decide) (by decide) (by decide) (by decide) (by decide)),
     (h c _ (mem_uc main_arg7 (by decide))).trans (W14_kept m ρ D c main_arg7 (by decide) (by decide) (by decide) (by decide) (by decide) (by decide) (by decide) (by decide) (by decide) (by decide) (by decide) (by decide) (by decide) (by decide))⟩)
    (run_all m ρ D)

end Cert.KernelIdeal.Hand

end
-- ==== Proof.Inst.lean ====
/-
  The six regions' proof data together: three statistics regions (column sums of the rectified affine image and of its
  square carried in two scratch rows across the 25 row tiles, mean and variance written at the last tile) and three
  normalisation regions (one row tile of one column block of the output per grid point).
-/
import proofs.«115305_j43688407335088_2_alg».proof.Proof.Stats0
import proofs.«115305_j43688407335088_2_alg».proof.Proof.Stats2
import proofs.«115305_j43688407335088_2_alg».proof.Proof.Stats4
import proofs.«115305_j43688407335088_2_alg».proof.Proof.Norm1
import proofs.«115305_j43688407335088_2_alg».proof.Proof.Norm3
import proofs.«115305_j43688407335088_2_alg».proof.Proof.Norm5
import proofs.«115305_j43688407335088_2_alg».proof.Proof.FrameOf

noncomputable section

namespace Cert.KernelIdeal.Hand

open Idealize.ShloMosaic

variable {F : FTy → Type} [FloatOps F]

/-- Every region's proof data, for any contents at its entry. -/
def D6 : RD6 (F := F) := ⟨rd0, rd1, rd2, rd3, rd4, rd5⟩

end Cert.KernelIdeal.Hand

end
-- ==== Proof.KStatsCommon.lean ====
import proofs.«115305_j43688407335088_2_alg».proof.Proof.Gen.Kernel.Launch
import proofs.«115305_j43688407335088_2_alg».proof.Proof.Gen.Kernel.Skeleton
import proofs.«115305_j43688407335088_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernels: what one grid point computes, as pure functions

Shared by the three statistics regions (their bodies are one text up to the region's number). -/

/-! ## Whole-shape rectangles

A load through the unit-stride rectangle of the shape's own sizes at zero offsets reads the contents as they are,
and a store through it leaves its payload. -/

theorem unit_zero_emb {s : Shape} {off : Fin s.rank → ℕ} (h0 : ∀ a, off a = 0)
    (inb : ∀ a, off a + s.size a ≤ s.size a) (x : (Rect.unit (s := s) off s.size inb).shape.Idx) :
    (Rect.unit (s := s) off s.size inb).emb x = x := by
  funext a; apply Fin.ext
  show off a + 1 * (x a : ℕ) = x a
  rw [h0 a]; omega

theorem ld_unit_zero {s : Shape} {e : EltTy} {Val : EltTy → Type} (X : s.Idx → Val e) {off : Fin s.rank → ℕ} (h0 : ∀ a, off a = 0)
    (inb : ∀ a, off a + s.size a ≤ s.size a) :
    View.ld X (Rect.unit (s := s) off s.size inb) = X := by
  funext x
  show X ((Rect.unit (s := s) off s.size inb).emb x) = X x
  rw [unit_zero_emb h0]

theorem canon_unit_zero {s : Shape} {e : EltTy} {Val : EltTy → Type} [∀ e, Nonempty (Val e)] {off : Fin s.rank → ℕ} (h0 : ∀ a, off a = 0)
    (inb : ∀ a, off a + s.size a ≤ s.size a) (p : s.Idx → Val e) (L : List (View.Piece Val s e)) :
    View.canon ((⟨Rect.unit (s := s) off s.size inb, p⟩ : View.Piece Val s e) :: L) = p := by
  funext x
  have h := View.canon_cons_emb (Rect.unit (s := s) off s.size inb) p L x
  rwa [unit_zero_emb h0] at h

theorem cover_unit_zero {s : Shape} {e : EltTy} {Val : EltTy → Type} {off : Fin s.rank → ℕ} (h0 : ∀ a, off a = 0)
    (inb : ∀ a, off a + s.size a ≤ s.size a) (p : s.Idx → Val e) (L : List (View.Piece Val s e)) (y : s.Idx) :
    ∃ pc ∈ ((⟨Rect.unit (s := s) off s.size inb, p⟩ : View.Piece Val s e) :: L), y ∈ pc.1.set :=
  ⟨_, List.mem_cons_self, by
    rw [Rect.mem_set_unit]; intro a; rw [h0 a]; exact ⟨Nat.zero_le _, by have := (y a).isLt; omega⟩⟩

/-- What a view reads after a whole-shape store on top of any earlier stores: the payload. -/
theorem read_writes_unit_zero {sig' : RefSig} {κ : Kind} {sp : Space} {s : Shape} {e : EltTy} {Val : EltTy → Type} [∀ e, Nonempty (Val e)]
    (v : View sig' κ sp s e) (f : v.ty.Contents Val) {off : Fin s.rank → ℕ} (h0 : ∀ a, off a = 0)
    (inb : ∀ a, off a + s.size a ≤ s.size a) (p : s.Idx → Val e) (L : List (View.Piece Val s e)) :
    v.read Val (v.writes Val f ((⟨Rect.unit (s := s) off s.size inb, p⟩ : View.Piece Val s e) :: L)) = p :=
  (View.read_writes_eq_canon v f _ (cover_unit_zero h0 inb p L)).trans (canon_unit_zero h0 inb p L)

theorem zero2 : ∀ a : Fin 2, (![0, 0] : Fin 2 → ℕ) a = 0 := by decide
theorem zero1 : ∀ a : Fin 1, (![0] : Fin 1 → ℕ) a = 0 := by decide

theorem ld_S2000x256 {e : EltTy} {Val : EltTy → Type} (X : S2000x256.Idx → Val e) (inb : ∀ a, (![0, 0] : Fin 2 → ℕ) a + S2000x256.size a ≤ S2000x256.size a) :
    View.ld X (Rect.unit (s := S2000x256) ![0, 0] S2000x256.size inb) = X := ld_unit_zero (s := S2000x256) X zero2 inb
theorem ld_S256x256 {e : EltTy} {Val : EltTy → Type} (X : S256x256.Idx → Val e) (inb : ∀ a, (![0, 0] : Fin 2 → ℕ) a + S256x256.size a ≤ S256x256.size a) :
    View.ld X (Rect.unit (s := S256x256) ![0, 0] S256x256.size inb) = X := ld_unit_zero (s := S256x256) X zero2 inb
theorem ld_S1x256 {e : EltTy} {Val : EltTy → Type} (X : S1x256.Idx → Val e) (inb : ∀ a, (![0, 0] : Fin 2 → ℕ) a + S1x256.size a ≤ S1x256.size a) :
    View.ld X (Rect.unit (s := S1x256) ![0, 0] S1x256.size inb) = X := ld_unit_zero (s := S1x256) X zero2 inb
theorem ld_S256 {e : EltTy} {Val : EltTy → Type} (X : S256.Idx → Val e) (inb : ∀ a, (![0] : Fin 1 → ℕ) a + S256.size a ≤ S256.size a) :
    View.ld X (Rect.unit (s := S256) ![0] S256.size inb) = X := ld_unit_zero (s := S256) X zero1 inb

theorem readAt_S2000x256 {sig' : RefSig} {κ : Kind} {sp : Space} {e : EltTy} {Val : EltTy → Type} (v : View sig' κ sp S2000x256 e) (f : v.ty.Contents Val)
    (inb : ∀ a, (![0, 0] : Fin 2 → ℕ) a + S2000x256.size a ≤ S2000x256.size a) :
    v.readAt Val (Rect.unit (s := S2000x256) ![0, 0] S2000x256.size inb).toLoadRect f = v.read Val f := ld_S2000x256 (v.read Val f) inb
theorem readAt_S256x256 {sig' : RefSig} {κ : Kind} {sp : Space} {e : EltTy} {Val : EltTy → Type} (v : View sig' κ sp S256x256 e) (f : v.ty.Contents Val)
    (inb : ∀ a, (![0, 0] : Fin 2 → ℕ) a + S256x256.size a ≤ S256x256.size a) :
    v.readAt Val (Rect.unit (s := S256x256) ![0, 0] S256x256.size inb).toLoadRect f = v.read Val f := ld_S256x256 (v.read Val f) inb
theorem readAt_S1x256 {sig' : RefSig} {κ : Kind} {sp : Space} {e : EltTy} {Val : EltTy → Type} (v : View sig' κ sp S1x256 e) (f : v.ty.Contents Val)
    (inb : ∀ a, (![0, 0] : Fin 2 → ℕ) a + S1x256.size a ≤ S1x256.size a) :
    v.readAt Val (Rect.unit (s := S1x256) ![0, 0] S1x256.size inb).toLoadRect f = v.read Val f := ld_S1x256 (v.read Val f) inb
theorem readAt_S256 {sig' : RefSig} {κ : Kind} {sp : Space} {e : EltTy} {Val : EltTy → Type} (v : View sig' κ sp S256 e) (f : v.ty.Contents Val)
    (inb : ∀ a, (![0] : Fin 1 → ℕ) a + S256.size a ≤ S256.size a) :
    v.readAt Val (Rect.unit (s := S256) ![0] S256.size inb).toLoadRect f = v.read Val f := ld_S256 (v.read Val f) inb

/-- What a view of `S1x256` reads after a whole-shape store on top of any earlier stores: the payload. -/
theorem rw_S1x256 {sig' : RefSig} {κ : Kind} {sp : Space} {e : EltTy} {Val : EltTy → Type} [∀ e, Nonempty (Val e)]
    (v : View sig' κ sp S1x256 e) (f : v.ty.Contents Val) (inb : ∀ a, (![0, 0] : Fin 2 → ℕ) a + S1x256.size a ≤ S1x256.size a)
    (p : S1x256.Idx → Val e) (L : List (View.Piece Val S1x256 e)) :
    v.read Val (v.writes Val f ((⟨Rect.unit (s := S1x256) ![0, 0] S1x256.size inb, p⟩ : View.Piece Val S1x256 e) :: L)) = p :=
  read_writes_unit_zero (s := S1x256) v f zero2 inb p L
theorem rw_S256 {sig' : RefSig} {κ : Kind} {sp : Space} {e : EltTy} {Val : EltTy → Type} [∀ e, Nonempty (Val e)]
    (v : View sig' κ sp S256 e) (f : v.ty.Contents Val) (inb : ∀ a, (![0] : Fin 1 → ℕ) a + S256.size a ≤ S256.size a)
    (p : S256.Idx → Val e) (L : List (View.Piece Val S256 e)) :
    v.read Val (v.writes Val f ((⟨Rect.unit (s := S256) ![0] S256.size inb, p⟩ : View.Piece Val S256 e) :: L)) = p :=
  read_writes_unit_zero (s := S256) v f zero1 inb p L

/-! ## One point's arithmetic -/

/-- The activation of one row tile: `max(x · w + b, 0)`, the product accumulated into zeros, the bias row broadcast down the rows. -/
def hStats (x : Vec F S2000x256 .bf16) (w : Vec F S256x256 .bf16) (b : Vec F S256 .f32) : FVec F S2000x256 .f32 :=
  maximumf
    (addf
      (matmul dot_S2000x256_S256x256_S2000x256_1_0_0_1_n_n none (shapeCast S2000x256 x shapeCasts_S2000x256_S2000x256)
        (shapeCast S256x256 w shapeCasts_S256x256_S256x256) (constant S2000x256 .f32 0x00000000#32))
      (broadcastTo S2000x256 (shapeCast S1x256 (shapeCast S256 b shapeCasts_S256_S256) shapeCasts_S256_S1x256) broadcasts_S1x256_S2000x256))
    (broadcast S2000x256 (Scalar.ofBits .f32 0x00000000#32))

/-- The two running sums after one more row tile: the column sums of the activation added to `s`, the column sums of
    its square added to `ss`. -/
def stepStats (x : Vec F S2000x256 .bf16) (w : Vec F S256x256 .bf16) (b : Vec F S256 .f32) (s ss : Vec F S1x256 .f32) :
    Vec F S1x256 .f32 × Vec F S1x256 .f32 :=
  (shapeCast S1x256
      (addf s (shapeCast S1x256 (multiReduction .add [0] S256 (hStats x w b) 0x00000000#32 reduces_S2000x256_S256 (.inl rfl) rfl) shapeCasts_S256_S1x256))
      shapeCasts_S1x256_S1x256,
   shapeCast S1x256
      (addf ss (shapeCast S1x256 (multiReduction .add [0] S256 (mulf (hStats x w b) (hStats x w b)) 0x00000000#32 reduces_S2000x256_S256 (.inl rfl) rfl) shapeCasts_S256_S1x256))
      shapeCasts_S1x256_S1x256)

/-- The running sums before the first row tile: zeros. -/
def zeroStats : Vec F S1x256 .f32 :=
  shapeCast S1x256 (broadcast S1x256 (Scalar.ofBits .f32 0x00000000#32 : F .f32)) shapeCasts_S1x256_S1x256

/-- The mean row `s / 50000`. -/
def meanStats (s : Vec F S1x256 .f32) : FVec F S1x256 .f32 :=
  divf s (broadcast S1x256 (Scalar.ofBits .f32 0x47435000#32 : F .f32))

/-- What the last point stores: the mean `s / 50000` and the variance `max(ss / 50000 - mean * mean, 0)`, as vectors of 256. -/
def finStats (s ss : Vec F S1x256 .f32) : Vec F S256 .f32 × Vec F S256 .f32 :=
  (shapeCast S256 (meanStats s) shapeCasts_S1x256_S256,
   shapeCast S256
      (maximumf (subf (divf ss (broadcast S1x256 (Scalar.ofBits .f32 0x47435000#32 : F .f32))) (mulf (meanStats s) (meanStats s)))
        (broadcast S1x256 (Scalar.ofBits .f32 0x00000000#32 : F .f32)))
      shapeCasts_S1x256_S256)

end Cert.Kernel.Hand

end
-- ==== Proof.KRegionKit.lean ====
/-
  One kernel region of a program of several pallas_calls as a segment of the program's run, written once for every
  region: between two regions a core holds every unscoped buffer whole, at contents given by a valuation, beside its
  generator register and the statement that it owes nothing. A region whose kernel uses no semaphore of its own, owes
  nothing to other cores, reads no prefetched table, and whose invariant is entered from and left at the scoped rest
  with the generator register, is entered from the valuation Win and left at the valuation Wout as soon as Wout holds,
  at each window's array, what the pipeline's write-backs leave there, and agrees with Win everywhere else.
-/
import proofs.«115305_j43688407335088_2_alg».proof.Proof.Gen.Kernel.Launch
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No pallas_call of the program reads a prefetched table. -/
abbrev adm : (p : Fin 6) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and owing nothing. -/
abbrev R (c : Dev nD) : sProp 𝕄 := iprop((∃ r, prngReg c r) ∗ ∃ W, owes (c : Thread nD τ) (0 : CellTallies nD τ sig Unit) W)

set_option backward.isDefEq.respectTransparency.types false in
/-- The region of pipeline p as a segment from the valuation Win to the valuation Wout. -/
def reg (pdats : (p : Fin 6) → (c : Dev nD) → Dat τ (Elt F) Unit ℕ (UR sig nD τ) ℕ (Pipeline.pin (pcfgs (F := F)) adm p) c)
    (p : Fin 6) (hl : Pipeline.LaunchFacts (nD := nD) (τ := τ) cfgs p)
    (Win Wout : Dev nD → Valuation τ sig (Elt F))
    (hq : ∀ c w, (pdats p c).q w = fullShare) (howed : ∀ c t, (pdats p c).owed t = 0)
    (hrec : ∀ c t, (pdats p c).recorded t = Set.univ)
    (hA : ∀ c w, (pdats p c).A w = Win c (Pipeline.arrRef (Pipeline.pin (pcfgs (F := F)) adm p).spec w))
    (hbody : ∀ c, BodyObligation (pdats p c) (defs₀ (F := F)) 𝒱₀ () Set.univ)
    (hpre : ∀ c, (BI.emp : sProp 𝕄) ⊢ Pipeline.prefHeld (pcfgs (F := F) p).pre c (fun _ => fullShare) (adm p).1)
    (hΦin : ∀ c, Pipeline.ΦA (Pipeline.pin (pcfgs (F := F)) adm p).spec c ⊢ (pdats p c).Φ 0)
    (hΦout : ∀ c, (pdats p c).Φ (Fin.last (Pipeline.pin (pcfgs (F := F)) adm p).N) ⊢ Pipeline.ΦA (Pipeline.pin (pcfgs (F := F)) adm p).spec c)
    (hF : ∀ c w, (pdats p c).arrAt w (Pipeline.pin (pcfgs (F := F)) adm p).N = Wout c (Pipeline.arrRef (Pipeline.pin (pcfgs (F := F)) adm p).spec w))
    (hrest : ∀ c (b : Ref sig .tc), b ∉ Finset.univ.image (Pipeline.arrRef (Pipeline.pin (pcfgs (F := F)) adm p).spec) → Wout c b = Win c b) :
    Pipeline.RegionSeg (pcfgs (F := F)) adm pdats () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm pdats hl.win hl.arr_whole c
      ((pdats p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Pipeline.Dat.owesAt Pipeline.owesWithin
      rw [howed c 0]
      icases HO with ⟨%W, HO⟩; iexists W; isplitr; · ipureintro; exact fun x _ => Or.inl (by rw [hrec c 0]; exact Set.mem_univ x)
      iexact HO
    isplitl [Hp]; · iexact Hp
    iexact Hrest
  hin c := by
    refine .trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pdats ((pdats p c).share_full (hq c))
      (fun b => Win c b) (fun b => Wout c b) ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.Kernel.Hand

end
-- ==== Proof.KRun.lean ====
/-
  The run of the whole program, from the launch to the return: host operations, then six kernel regions alternating
  with host operations. Between two segments a core holds every unscoped buffer whole at a valuation; the valuations
  are folded through the program: a stretch of host operations applies them, a region overwrites its windows' arrays
  with what its write-backs leave and nothing else. Each region's proof data (what its staging buffers hold after the
  body at each grid point, its invariant, its body obligation) is a parameter here, given for any contents at region
  entry; the run concludes that every weakly fair execution terminates and that the final memory holds, at every
  unscoped buffer, the last valuation.
-/
import proofs.«115305_j43688407335088_2_alg».proof.Proof.KRegionKit
import proofs.«115305_j43688407335088_2_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "cfgAt" p => Pipeline.pin (pcfgs (F := F)) adm p

/-- What a region contributes, for contents V of the core's buffers at its entry: the pipeline's proof data, reading
    its arrays off V, with full shares, nothing owed, the class's invariant at entry and exit, and its body obligation. -/
structure RData (p : Fin 6) (V : Dev nD → Valuation τ sig (Elt F)) where
  dat : (c : Dev nD) → Dat τ (Elt F) Unit ℕ (UR sig nD τ) ℕ (cfgAt p) c
  hq : ∀ c w, (dat c).q w = fullShare
  howed : ∀ c t, (dat c).owed t = 0
  hrec : ∀ c t, (dat c).recorded t = Set.univ
  hA : ∀ c w, (dat c).A w = V c (Pipeline.arrRef (cfgAt p).spec w)
  hbody : ∀ c, BodyObligation (dat c) (defs₀ (F := F)) 𝒱₀ () Set.univ
  hΦin : ∀ c, Pipeline.ΦA (cfgAt p).spec c ⊢ (dat c).Φ 0
  hΦout : ∀ c, (dat c).Φ (Fin.last (cfgAt p).N) ⊢ Pipeline.ΦA (cfgAt p).spec c

/-- The six regions' contributions, each for any entry contents. -/
structure RD6 where
  r0 : ∀ V, RData (F := F) 0 V
  r1 : ∀ V, RData (F := F) 1 V
  r2 : ∀ V, RData (F := F) 2 V
  r3 : ∀ V, RData (F := F) 3 V
  r4 : ∀ V, RData (F := F) 4 V
  r5 : ∀ V, RData (F := F) 5 V

/-- The buffers after region p, entered at Win: its windows' arrays at what the write-backs leave, the rest as entered. -/
def Wnext (p : Fin 6) (Win : Dev nD → Valuation τ sig (Elt F)) (rd : RData (F := F) p Win) (c : Dev nD) : Valuation τ sig (Elt F) :=
  Pipeline.withArrays (cfgAt p).spec c (Win c) fun w => (rd.dat c).arrAt w (cfgAt p).N

theorem Wnext_arr (p : Fin 6) (hl : Pipeline.LaunchFacts (nD := nD) (τ := τ) cfgs p) (Win : Dev nD → Valuation τ sig (Elt F))
    (rd : RData (F := F) p Win) (c : Dev nD) (w : Fin (cfgAt p).W) :
    Wnext p Win rd c (Proc.devRef .tc (Pipeline.arrRef (cfgAt p).spec w)) = (rd.dat c).arrAt w (cfgAt p).N := by
  unfold Wnext; exact Pipeline.withArrays_arr (cfgAt p).spec hl.win.arr_inj c _ _ w

theorem Wnext_of_ne (p : Fin 6) (Win : Dev nD → Valuation τ sig (Elt F)) (rd : RData (F := F) p Win) (c : Dev nD) (b : Ref sig .tc)
    (hb : ∀ w, Pipeline.arrRef (cfgAt p).spec w ≠ b) :
    Wnext p Win rd c (Proc.devRef .tc b) = Win c (Proc.devRef .tc b) := by
  unfold Wnext; exact Pipeline.withArrays_of_ne (cfgAt p).spec c _ _ b hb

variable (m : (ℓ : Loc nD τ sig) → Buf (Elt F) ℓ) (ρ : Dev nD → PrngReg) (D : RD6 (F := F))

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
def W4 : Dev nD → Valuation τ sig (Elt F) := Wnext 0 (W3 m ρ) (D.r0 _)
abbrev W5 : Dev nD → Valuation τ sig (Elt F) := fun c => StableHlo.after hostOps1 (W4 m ρ D c)
def W6 : Dev nD → Valuation τ sig (Elt F) := Wnext 1 (W5 m ρ D) (D.r1 _)
abbrev W7 : Dev nD → Valuation τ sig (Elt F) := fun c => StableHlo.after hostOps2 (W6 m ρ D c)
def W8 : Dev nD → Valuation τ sig (Elt F) := Wnext 2 (W7 m ρ D) (D.r2 _)
abbrev W9 : Dev nD → Valuation τ sig (Elt F) := fun c => StableHlo.after hostOps3 (W8 m ρ D c)
def W10 : Dev nD → Valuation τ sig (Elt F) := Wnext 3 (W9 m ρ D) (D.r3 _)
abbrev W11 : Dev nD → Valuation τ sig (Elt F) := fun c => StableHlo.after hostOps4 (W10 m ρ D c)
def W12 : Dev nD → Valuation τ sig (Elt F) := Wnext 4 (W11 m ρ D) (D.r4 _)
abbrev W13 : Dev nD → Valuation τ sig (Elt F) := fun c => StableHlo.after hostOps5 (W12 m ρ D c)
def W14 : Dev nD → Valuation τ sig (Elt F) := Wnext 5 (W13 m ρ D) (D.r5 _)

/-! ## The proof data family and the segments -/

/-- Every pipeline's proof data, each at its region's entry contents. -/
def pdats : (p : Fin 6) → (c : Dev nD) → Dat τ (Elt F) Unit ℕ (UR sig nD τ) ℕ (cfgAt p) c
  | ⟨0, _⟩ => (D.r0 (W3 m ρ)).dat
  | ⟨1, _⟩ => (D.r1 (W5 m ρ D)).dat
  | ⟨2, _⟩ => (D.r2 (W7 m ρ D)).dat
  | ⟨3, _⟩ => (D.r3 (W9 m ρ D)).dat
  | ⟨4, _⟩ => (D.r4 (W11 m ρ D)).dat
  | ⟨5, _⟩ => (D.r5 (W13 m ρ D)).dat

/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem prefNone (p : Fin 6) (c : Dev nD) :
    (BI.emp : sProp 𝕄) ⊢ Pipeline.prefHeld (pcfgs (F := F) p).pre c (fun _ => fullShare) (adm p).1 := by
  unfold Pipeline.prefHeld
  match p with
  | ⟨0, _⟩ | ⟨1, _⟩ | ⟨2, _⟩ | ⟨3, _⟩ | ⟨4, _⟩ | ⟨5, _⟩ =>
    rw [show (Finset.univ : Finset (Fin 0)) = ∅ from rfl, BI.bigSep_empty]

/-- A region's record from its contribution rd, when the family's data at p is rd's. -/
def regOf (p : Fin 6) (hl : Pipeline.LaunchFacts (nD := nD) (τ := τ) cfgs p) (Win : Dev nD → Valuation τ sig (Elt F))
    (rd : RData (F := F) p Win) (hp : pdats m ρ D p = rd.dat) :
    Pipeline.RegionSeg (pcfgs (F := F)) adm (pdats m ρ D) () defs₀ 𝒱₀ L lv p :=
  reg (pdats m ρ D) p hl Win (Wnext p Win rd)
    (by rw [hp]; exact rd.hq) (by rw [hp]; exact rd.howed) (by rw [hp]; exact rd.hrec) (by rw [hp]; exact rd.hA)
    (by rw [hp]; exact rd.hbody) (prefNone p) (by rw [hp]; exact rd.hΦin) (by rw [hp]; exact rd.hΦout)
    (fun c w => by rw [hp]; exact (Wnext_arr p hl Win rd c w).symm)
    (fun c b hb => Wnext_of_ne p Win rd c b fun w e => hb (Finset.mem_image.mpr ⟨w, Finset.mem_univ _, e⟩))

abbrev segs : List (Pipeline.Seg (pcfgs (F := F)) adm (pdats m ρ D) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (regOf m ρ D 0 launch0 (W3 m ρ) (D.r0 _) rfl),
    .host (hseg hostOps1 hostOps1_sub hostOps1_fresh (W4 m ρ D)),
    .region (regOf m ρ D 1 launch1 (W5 m ρ D) (D.r1 _) rfl),
    .host (hseg hostOps2 hostOps2_sub hostOps2_fresh (W6 m ρ D)),
    .region (regOf m ρ D 2 launch2 (W7 m ρ D) (D.r2 _) rfl),
    .host (hseg hostOps3 hostOps3_sub hostOps3_fresh (W8 m ρ D)),
    .region (regOf m ρ D 3 launch3 (W9 m ρ D) (D.r3 _) rfl),
    .host (hseg hostOps4 hostOps4_sub hostOps4_fresh (W10 m ρ D)),
    .region (regOf m ρ D 4 launch4 (W11 m ρ D) (D.r4 _) rfl),
    .host (hseg hostOps5 hostOps5_sub hostOps5_fresh (W12 m ρ D)),
    .region (regOf m ρ D 5 launch5 (W13 m ρ D) (D.r5 _) rfl) ]

theorem main_run (c : Dev nD) : main (F := F) c = Pipeline.Seg.run (segs m ρ D) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ D c) ∗ ∃ r, prngReg c r)

set_option backward.isDefEq.respectTransparency.types false in
/-- Every weakly fair execution of the program terminates, nothing faulting, and the final memory holds the last
    valuation at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ D c b) :=
  Pipeline.θ_run_regions_kit (pcfgs (F := F)) adm (pdats m ρ D) () cellOf_inj emb₁ defs₀ 𝒱₀ L lv m ρ main (segs m ρ D)
    (fun c Q => by rw [main_run m ρ D c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W14 m ρ D c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ D c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ D c) s')
      isplitl [Hh] <;> iassumption)
    (hQ := fun s h c => h c)

end Cert.Kernel.Hand

end
-- ==== Proof.KStats0.lean ====
import proofs.«115305_j43688407335088_2_alg».proof.Proof.KStatsCommon
import proofs.«115305_j43688407335088_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Statistics region 0: the body's three cases, the proof data, the body obligation -/

/-! ## The body's branch conditions -/

/-- The condition of the body's first `scf.if` (zero the running sums), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)
/-- The condition of the body's second `scf.if` (store the mean and the variance), from the grid coordinates. -/
abbrev cond0_1 (i : grid0.Coords) : Prop := k0_cond2 i = 1#1
/-- It holds at the last point only. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the two outputs are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last point they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The kernel body on any whole memrefs, case by case -/

/-- The payloads of the skeleton are the pure functions of the shared module. -/
theorem pay4_eq0 (x : Vec F S2000x256 .bf16) (w : Vec F S256x256 .bf16) (b : Vec F S256 .f32) (s ss : Vec F S1x256 .f32) :
    k0_pay4 x w b s = (stepStats x w b s ss).1 := rfl
theorem pay5_eq0 (x : Vec F S2000x256 .bf16) (w : Vec F S256x256 .bf16) (b : Vec F S256 .f32) (s ss : Vec F S1x256 .f32) :
    k0_pay5 x w b ss = (stepStats x w b s ss).2 := rfl
theorem pay1_eq0 : (k0_pay1 (F := F)) = zeroStats := rfl
theorem pay2_eq0 : (k0_pay2 (F := F)) = zeroStats := rfl
theorem pay7_eq0 (s ss : Vec F S1x256 .f32) : k0_pay7 s = (finStats s ss).1 := rfl
theorem pay8_eq0 (s ss : Vec F S1x256 .f32) : k0_pay8 s ss = (finStats s ss).2 := rfl

set_option maxHeartbeats 1000000 in
/-- A middle point (neither conditional taken): the inputs and the idle outputs come back as they were, the two running
    sums advance by one row tile. -/
theorem run0_B (c : Dev nD) (i : grid0.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond0_0 i) (hc1 : ¬cond0_1 i)
    (x : Vec F S2000x256 .bf16) (w : Vec F S256x256 .bf16) (b : Vec F S256 .f32) (x4 x5 : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    rw [readAt_S2000x256, readAt_S256x256, readAt_S256, readAt_S1x256]
    rfl
  · iexists _; isplitr
    swap; · iexact H7
    ipureintro
    refine (rw_S1x256 _ _ _ _ _).trans ?_
    rw [readAt_S2000x256, readAt_S256x256, readAt_S256, readAt_S1x256]
    rfl

set_option maxHeartbeats 1000000 in
/-- The first point (the first conditional taken): the running sums, whatever they held, are zeroed and advance by one row tile. -/
theorem run0_A (c : Dev nD) (i : grid0.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : cond0_0 i) (hc1 : ¬cond0_1 i)
    (x : Vec F S2000x256 .bf16) (w : Vec F S256x256 .bf16) (b : Vec F S256 .f32) (x4 x5 : Vec F S256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b zeroStats zeroStats).1 ∗ owns (c : Thread nD τ) arg7 fullShare (stepStats x w b zeroStats zeroStats).2) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    sl_unfold_run_names
    rw [View.readCov_cons_toLoadRect, readAt_S2000x256, readAt_S256x256, readAt_S256]
    rfl
  · iexists _; isplitr
    swap; · iexact H7
    ipureintro
    refine (rw_S1x256 _ _ _ _ _).trans ?_
    sl_unfold_run_names
    rw [View.readCov_cons_toLoadRect, readAt_S2000x256, readAt_S256x256, readAt_S256]
    rfl

set_option maxHeartbeats 1000000 in
/-- The last point (the second conditional taken): the running sums advance by one row tile and the two outputs, whatever
    they held, are left at the mean and the variance of the finished sums. -/
theorem run0_C (c : Dev nD) (i : grid0.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond0_0 i) (hc1 : cond0_1 i)
    (x : Vec F S2000x256 .bf16) (w : Vec F S256x256 .bf16) (b : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare (finStats (stepStats x w b s ss).1 (stepStats x w b s ss).2).1 ∗ owns (c : Thread nD τ) arg5 fullShare (finStats (stepStats x w b s ss).1 (stepStats x w b s ss).2).2
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    refine (rw_S256 _ _ _ _ _).trans ?_
    sl_unfold_run_names
    rw [View.readCov_cons_toLoadRect, readAt_S2000x256, readAt_S256x256, readAt_S256, readAt_S1x256]
    rfl
  isplitl [H5]
  · iexists _; isplitr
    swap; · iexact H5
    ipureintro
    refine (rw_S256 _ _ _ _ _).trans ?_
    sl_unfold_run_names
    rw [View.readCov_cons_toLoadRect, View.readCov_cons_toLoadRect, readAt_S2000x256, readAt_S256x256, readAt_S256, readAt_S1x256, readAt_S1x256]
    rfl
  isplitl [H6]
  · iexists _; isplitr
    swap; · iexact H6
    ipureintro
    sl_unfold_run_names
    refine (rw_S1x256 _ _ _ _ _).trans ?_
    rw [readAt_S2000x256, readAt_S256x256, readAt_S256, readAt_S1x256]
    rfl
  · iexists _; isplitr
    swap; · iexact H7
    ipureintro
    sl_unfold_run_names
    refine (rw_S1x256 _ _ _ _ _).trans ?_
    rw [readAt_S2000x256, readAt_S256x256, readAt_S256, readAt_S1x256]
    rfl

/-! ## The region at the entry contents `V` -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, spelled as the pipeline passes it, and its wholeness. -/
abbrev ms0_0 (t : Fin cfg0.N) : Memref sig .tc .vmem S2000x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
/-- The two scratch operands: whole scoped buffers of the kernel's own. -/
abbrev scM0_0 : Memref sig .tc .vmem S1x256 .f32 := Memref.whole cc0_scratch0
abbrev scM0_1 : Memref sig .tc .vmem S1x256 .f32 := Memref.whole cc0_scratch1

/-- The class's invariant with the two scratch operands as memrefs owned at some contents, the rest of the scoped
    buffers unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The running sums point by point -/

/-- THE ACCUMULATION. The two scratch buffers' contents after `n` points: zeros, then one `stepStats` per point over
    the point's blocks of the three inputs. -/
def acc0 (c : Dev nD) : ℕ → Vec F S1x256 .f32 × Vec F S1x256 .f32
  | 0 => (zeroStats, zeroStats)
  | n + 1 =>
    if h : n < cfg0.N then
      stepStats (iblk0 V c 0 ⟨n, h⟩) (iblk0 V c 1 ⟨n, h⟩) (iblk0 V c 2 ⟨n, h⟩) (acc0 c n).1 (acc0 c n).2
    else acc0 c n

theorem acc0_of_zero (c : Dev nD) (n : ℕ) (hz : n = 0) : acc0 V c n = (zeroStats, zeroStats) := by subst hz; rfl

theorem acc0_succ (c : Dev nD) (t : Fin cfg0.N) :
    acc0 V c (t.val + 1) = stepStats (iblk0 V c 0 t) (iblk0 V c 1 t) (iblk0 V c 2 t) (acc0 V c t.val).1 (acc0 V c t.val).2 := by
  show (if h : t.val < cfg0.N then
      stepStats (iblk0 V c 0 ⟨t.val, h⟩) (iblk0 V c 1 ⟨t.val, h⟩) (iblk0 V c 2 ⟨t.val, h⟩) (acc0 V c t.val).1 (acc0 V c t.val).2
    else acc0 V c t.val) = _
  rw [dif_pos t.isLt]

theorem acc0_first (c : Dev nD) (t : Fin cfg0.N) (hz : t.val = 0) :
    acc0 V c (t.val + 1) = stepStats (iblk0 V c 0 t) (iblk0 V c 1 t) (iblk0 V c 2 t) zeroStats zeroStats := by
  rw [acc0_succ, acc0_of_zero V c _ hz]

/-- What the last point stores, over the finished sums: the mean and the variance. -/
def fin0 (c : Dev nD) : Vec F S256 .f32 × Vec F S256 .f32 := finStats (acc0 V c cfg0.N).1 (acc0 V c cfg0.N).2

/-- The region invariant before position `n`: before the first point the class's (every scratch at anything);
    afterwards the two scratch buffers at the running sums after `n` points, the rest of the scoped buffers unopened,
    the generator register at some state. -/
def PhiS0 (c : Dev nD) : ℕ → sProp 𝕄
  | 0 => Pipeline.ΦA spec0 c
  | n + 1 => iprop(iprop(iprop(owns (c : Thread nD τ) scM0_0 fullShare (acc0 V c (n + 1)).1 ∗ owns (c : Thread nD τ) scM0_1 fullShare (acc0 V c (n + 1)).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (hz : n = 0) : PhiS0 V c n = Pipeline.ΦA spec0 c := by subst hz; rfl

theorem PhiS0_pos (c : Dev nD) (n : ℕ) (hz : n ≠ 0) :
    PhiS0 V c n = iprop(iprop(iprop(owns (c : Thread nD τ) scM0_0 fullShare (acc0 V c n).1 ∗ owns (c : Thread nD τ) scM0_1 fullShare (acc0 V c n).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the pipeline on core `c`: the arrays as the region finds them; after the body at point `t` each
    input's buffer at its block and the two outputs' at the mean and the variance of the sums so far (what the last
    point stores; at the earlier points, where the outputs are idle and not written back, nothing consults it); the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (finStats (acc0 V c (t.val + 1)).1 (acc0 V c (t.val + 1)).2).1
    | ⟨4, _⟩ => (finStats (acc0 V c (t.val + 1)).1 (acc0 V c (t.val + 1)).2).2
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = (finStats (acc0 V c (t.val + 1)).1 (acc0 V c (t.val + 1)).2).1 := by dsimp only [dat0]
theorem after0_4 (c : Dev nD) (t : Fin cfg0.N) :
    (dat0 V c).after 4 t = (finStats (acc0 V c (t.val + 1)).1 (acc0 V c (t.val + 1)).2).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the two scratch buffers at the sums so far (at anything at the first point) and takes them
    back one row tile further; away from the last point the idle outputs come back as handed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) from rfl, show (dat0 V c).Φ t.castSucc = PhiS0 V c t.val from rfl]
  rw [PhiS0_pos V c (t.val + 1) (Nat.succ_ne_zero _)]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 25 = 0
  · have h1 : ¬t.val % 25 = 24 := by omega
    have hz : t.val = 0 := by omega
    have hn1 : ¬cond0_1 (grid0.coords t) := fun h => h1 ((hcond0_1 t).mp h)
    rw [Dat.leavesExact_idle (dat0 V c) 3 t (idleAt0_3 t hn1) (noFlush0_3 t hn1),
      Dat.leavesExact_idle (dat0 V c) 4 t (idleAt0_4 t hn1) (noFlush0_4 t hn1)]
    rw [PhiS0_zero V c _ hz, PhiA0_eq, acc0_first V c t hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) hn1
      (iblk0 V c 0 t) (iblk0 V c 1 t) (iblk0 V c 2 t) _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hn0 : ¬cond0_0 (grid0.coords t) := fun h => h0 ((hcond0_0 t).mp h)
    rw [PhiS0_pos V c _ hz, acc0_succ V c t]
    by_cases h1 : t.val % 25 = 24
    · have hy1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hy1], after0_3]
      rw [show (dat0 V c).leavesExact 4 t = owns (c : Thread nD τ) (ms0_4 t) fullShare ((dat0 V c).after 4 t) from by
        unfold Dat.leavesExact; rw [liveAt0_4 t hy1], after0_4]
      rw [acc0_succ V c t]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hn0 hy1
        (iblk0 V c 0 t) (iblk0 V c 1 t) (iblk0 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hn1 : ¬cond0_1 (grid0.coords t) := fun h => h1 ((hcond0_1 t).mp h)
      rw [Dat.leavesExact_idle (dat0 V c) 3 t (idleAt0_3 t hn1) (noFlush0_3 t hn1),
        Dat.leavesExact_idle (dat0 V c) 4 t (idleAt0_4 t hn1) (noFlush0_4 t hn1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hn0 hn1
        (iblk0 V c 0 t) (iblk0 V c 1 t) (iblk0 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives the class's back: the running sums' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 25 := N_0; omega), PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

/-- Region 0's contribution to the run, for any contents at its entry. -/
def rd0 (V : Dev nD → Valuation τ sig (Elt F)) : RData (F := F) 0 V where
  dat c := dat0 (fun c b => V c b) c
  hq _ _ := rfl
  howed _ _ := rfl
  hrec _ _ := rfl
  hA c w := A_eq0 _ c w
  hbody c := body_obligation0 _ c
  hΦin c := hin0 _ c
  hΦout c := hout0 _ c

end Cert.Kernel.Hand

end
-- ==== Proof.KStats2.lean ====
import proofs.«115305_j43688407335088_2_alg».proof.Proof.KStatsCommon
import proofs.«115305_j43688407335088_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Statistics region 2: the body's three cases, the proof data, the body obligation -/

/-! ## The body's branch conditions -/

/-- The condition of the body's first `scf.if` (zero the running sums), from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 25 = 0 :=
  (by decide +kernel : ∀ t : Fin grid2.N, cond2_0 (grid2.coords t) ↔ t.val % 25 = 0)
/-- The condition of the body's second `scf.if` (store the mean and the variance), from the grid coordinates. -/
abbrev cond2_1 (i : grid2.Coords) : Prop := k2_cond2 i = 1#1
/-- It holds at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the two outputs are idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point they are live. -/
theorem liveAt2_3 : ∀ t : Fin cfg2.N, cond2_1 (grid2.coords t) → cfg2.idle 3 (grid2.coords t) = false := by decide +kernel
theorem liveAt2_4 : ∀ t : Fin cfg2.N, cond2_1 (grid2.coords t) → cfg2.idle 4 (grid2.coords t) = false := by decide +kernel

/-! ## The kernel body on any whole memrefs, case by case -/

/-- The payloads of the skeleton are the pure functions of the shared module. -/
theorem pay4_eq2 (x : Vec F S2000x256 .bf16) (w : Vec F S256x256 .bf16) (b : Vec F S256 .f32) (s ss : Vec F S1x256 .f32) :
    k2_pay4 x w b s = (stepStats x w b s ss).1 := rfl
theorem pay5_eq2 (x : Vec F S2000x256 .bf16) (w : Vec F S256x256 .bf16) (b : Vec F S256 .f32) (s ss : Vec F S1x256 .f32) :
    k2_pay5 x w b ss = (stepStats x w b s ss).2 := rfl
theorem pay1_eq2 : (k2_pay1 (F := F)) = zeroStats := rfl
theorem pay2_eq2 : (k2_pay2 (F := F)) = zeroStats := rfl
theorem pay7_eq2 (s ss : Vec F S1x256 .f32) : k2_pay7 s = (finStats s ss).1 := rfl
theorem pay8_eq2 (s ss : Vec F S1x256 .f32) : k2_pay8 s ss = (finStats s ss).2 := rfl

set_option maxHeartbeats 1000000 in
/-- A middle point (neither conditional taken): the inputs and the idle outputs come back as they were, the two running
    sums advance by one row tile. -/
theorem run2_B (c : Dev nD) (i : grid2.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond2_0 i) (hc1 : ¬cond2_1 i)
    (x : Vec F S2000x256 .bf16) (w : Vec F S256x256 .bf16) (b : Vec F S256 .f32) (x4 x5 : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc2__stats_kernel i arg1 harg1 arg2 harg2 arg3 harg3 arg4 harg4 arg5 harg5 arg6 harg6 arg7 harg7) K := by
  simp only [cc2__stats_kernel_eq_skeleton]; unfold cc2__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    rw [readAt_S2000x256, readAt_S256x256, readAt_S256, readAt_S1x256]
    rfl
  · iexists _; isplitr
    swap; · iexact H7
    ipureintro
    refine (rw_S1x256 _ _ _ _ _).trans ?_
    rw [readAt_S2000x256, readAt_S256x256, readAt_S256, readAt_S1x256]
    rfl

set_option maxHeartbeats 1000000 in
/-- The first point (the first conditional taken): the running sums, whatever they held, are zeroed and advance by one row tile. -/
theorem run2_A (c : Dev nD) (i : grid2.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : cond2_0 i) (hc1 : ¬cond2_1 i)
    (x : Vec F S2000x256 .bf16) (w : Vec F S256x256 .bf16) (b : Vec F S256 .f32) (x4 x5 : Vec F S256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b zeroStats zeroStats).1 ∗ owns (c : Thread nD τ) arg7 fullShare (stepStats x w b zeroStats zeroStats).2) -∗ K ⟨⟩))
      ⊢ wp frame (wpE (defs₀ (F := F)) Variants.none c none) E (cc2__stats_kernel i arg1 harg1 arg2 harg2 arg3 harg3 arg4 harg4 arg5 harg5 arg6 harg6 arg7 harg7) K := by
  simp only [cc2__stats_kernel_eq_skeleton]; unfold cc2__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    sl_unfold_run_names
    rw [View.readCov_cons_toLoadRect, readAt_S2000x256, readAt_S256x256, readAt_S256]
    rfl
  · iexists _; isplitr
    swap; · iexact H7
    ipureintro
    refine (rw_S1x256 _ _ _ _ _).trans ?_
    sl_unfold_run_names
    rw [View.readCov_cons_toLoadRect, readAt_S2000x256, readAt_S256x256, readAt_S256]
    rfl

set_option maxHeartbeats 1000000 in
/-- The last point (the second conditional taken): the running sums advance by one row tile and the two outputs, whatever
    they held, are left at the mean and the variance of the finished sums. -/
theorem run2_C (c : Dev nD) (i : grid2.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond2_0 i) (hc1 : cond2_1 i)
    (x : Vec F S2000x256 .bf16) (w : Vec F S256x256 .bf16) (b : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare (finStats (stepStats x w b s ss).1 (stepStats x w b s ss).2).1 ∗ owns (c : Thread nD τ) arg5 fullShare (finStats (stepStats x w b s ss).1 (stepStats x w b s ss).2).2
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc2__stats_kernel i arg1 harg1 arg2 harg2 arg3 harg3 arg4 harg4 arg5 harg5 arg6 harg6 arg7 harg7) K := by
  simp only [cc2__stats_kernel_eq_skeleton]; unfold cc2__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    refine (rw_S256 _ _ _ _ _).trans ?_
    sl_unfold_run_names
    rw [View.readCov_cons_toLoadRect, readAt_S2000x256, readAt_S256x256, readAt_S256, readAt_S1x256]
    rfl
  isplitl [H5]
  · iexists _; isplitr
    swap; · iexact H5
    ipureintro
    refine (rw_S256 _ _ _ _ _).trans ?_
    sl_unfold_run_names
    rw [View.readCov_cons_toLoadRect, View.readCov_cons_toLoadRect, readAt_S2000x256, readAt_S256x256, readAt_S256, readAt_S1x256, readAt_S1x256]
    rfl
  isplitl [H6]
  · iexists _; isplitr
    swap; · iexact H6
    ipureintro
    sl_unfold_run_names
    refine (rw_S1x256 _ _ _ _ _).trans ?_
    rw [readAt_S2000x256, readAt_S256x256, readAt_S256, readAt_S1x256]
    rfl
  · iexists _; isplitr
    swap; · iexact H7
    ipureintro
    sl_unfold_run_names
    refine (rw_S1x256 _ _ _ _ _).trans ?_
    rw [readAt_S2000x256, readAt_S256x256, readAt_S256, readAt_S1x256]
    rfl

/-! ## The region at the entry contents `V` -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, spelled as the pipeline passes it, and its wholeness. -/
abbrev ms2_0 (t : Fin cfg2.N) : Memref sig .tc .vmem S2000x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256 .f32 := win2_4.stage (cfg2.slots t 4)
abbrev hs2_4 (t : Fin cfg2.N) : (ms2_4 t).IsWhole := hstage2_4 ((cfg2.slots t 4).cast nbuf2_4)
/-- The two scratch operands: whole scoped buffers of the kernel's own. -/
abbrev scM2_0 : Memref sig .tc .vmem S1x256 .f32 := Memref.whole cc2_scratch0
abbrev scM2_1 : Memref sig .tc .vmem S1x256 .f32 := Memref.whole cc2_scratch1

/-- The class's invariant with the two scratch operands as memrefs owned at some contents, the rest of the scoped
    buffers unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The running sums point by point -/

/-- THE ACCUMULATION. The two scratch buffers' contents after `n` points: zeros, then one `stepStats` per point over
    the point's blocks of the three inputs. -/
def acc2 (c : Dev nD) : ℕ → Vec F S1x256 .f32 × Vec F S1x256 .f32
  | 0 => (zeroStats, zeroStats)
  | n + 1 =>
    if h : n < cfg2.N then
      stepStats (iblk2 V c 0 ⟨n, h⟩) (iblk2 V c 1 ⟨n, h⟩) (iblk2 V c 2 ⟨n, h⟩) (acc2 c n).1 (acc2 c n).2
    else acc2 c n

theorem acc2_of_zero (c : Dev nD) (n : ℕ) (hz : n = 0) : acc2 V c n = (zeroStats, zeroStats) := by subst hz; rfl

theorem acc2_succ (c : Dev nD) (t : Fin cfg2.N) :
    acc2 V c (t.val + 1) = stepStats (iblk2 V c 0 t) (iblk2 V c 1 t) (iblk2 V c 2 t) (acc2 V c t.val).1 (acc2 V c t.val).2 := by
  show (if h : t.val < cfg2.N then
      stepStats (iblk2 V c 0 ⟨t.val, h⟩) (iblk2 V c 1 ⟨t.val, h⟩) (iblk2 V c 2 ⟨t.val, h⟩) (acc2 V c t.val).1 (acc2 V c t.val).2
    else acc2 V c t.val) = _
  rw [dif_pos t.isLt]

theorem acc2_first (c : Dev nD) (t : Fin cfg2.N) (hz : t.val = 0) :
    acc2 V c (t.val + 1) = stepStats (iblk2 V c 0 t) (iblk2 V c 1 t) (iblk2 V c 2 t) zeroStats zeroStats := by
  rw [acc2_succ, acc2_of_zero V c _ hz]

/-- What the last point stores, over the finished sums: the mean and the variance. -/
def fin2 (c : Dev nD) : Vec F S256 .f32 × Vec F S256 .f32 := finStats (acc2 V c cfg2.N).1 (acc2 V c cfg2.N).2

/-- The region invariant before position `n`: before the first point the class's (every scratch at anything);
    afterwards the two scratch buffers at the running sums after `n` points, the rest of the scoped buffers unopened,
    the generator register at some state. -/
def PhiS2 (c : Dev nD) : ℕ → sProp 𝕄
  | 0 => Pipeline.ΦA spec2 c
  | n + 1 => iprop(iprop(iprop(owns (c : Thread nD τ) scM2_0 fullShare (acc2 V c (n + 1)).1 ∗ owns (c : Thread nD τ) scM2_1 fullShare (acc2 V c (n + 1)).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (hz : n = 0) : PhiS2 V c n = Pipeline.ΦA spec2 c := by subst hz; rfl

theorem PhiS2_pos (c : Dev nD) (n : ℕ) (hz : n ≠ 0) :
    PhiS2 V c n = iprop(iprop(iprop(owns (c : Thread nD τ) scM2_0 fullShare (acc2 V c n).1 ∗ owns (c : Thread nD τ) scM2_1 fullShare (acc2 V c n).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of the pipeline on core `c`: the arrays as the region finds them; after the body at point `t` each
    input's buffer at its block and the two outputs' at the mean and the variance of the sums so far (what the last
    point stores; at the earlier points, where the outputs are idle and not written back, nothing consults it); the
    invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (finStats (acc2 V c (t.val + 1)).1 (acc2 V c (t.val + 1)).2).1
    | ⟨4, _⟩ => (finStats (acc2 V c (t.val + 1)).1 (acc2 V c (t.val + 1)).2).2
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = (finStats (acc2 V c (t.val + 1)).1 (acc2 V c (t.val + 1)).2).1 := by dsimp only [dat2]
theorem after2_4 (c : Dev nD) (t : Fin cfg2.N) :
    (dat2 V c).after 4 t = (finStats (acc2 V c (t.val + 1)).1 (acc2 V c (t.val + 1)).2).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the closed forms say which case the point is in; the
    invariant hands the body the two scratch buffers at the sums so far (at anything at the first point) and takes them
    back one row tile further; away from the last point the idle outputs come back as handed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) from rfl, show (dat2 V c).Φ t.castSucc = PhiS2 V c t.val from rfl]
  rw [PhiS2_pos V c (t.val + 1) (Nat.succ_ne_zero _)]
  have hN : t.val < 25 := lt_of_lt_of_eq t.isLt (show cfg2.N = 25 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 25 = 0
  · have h1 : ¬t.val % 25 = 24 := by omega
    have hz : t.val = 0 := by omega
    have hn1 : ¬cond2_1 (grid2.coords t) := fun h => h1 ((hcond2_1 t).mp h)
    rw [Dat.leavesExact_idle (dat2 V c) 3 t (idleAt2_3 t hn1) (noFlush2_3 t hn1),
      Dat.leavesExact_idle (dat2 V c) 4 t (idleAt2_4 t hn1) (noFlush2_4 t hn1)]
    rw [PhiS2_zero V c _ hz, PhiA2_eq, acc2_first V c t hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run2_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) hn1
      (iblk2 V c 0 t) (iblk2 V c 1 t) (iblk2 V c 2 t) _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hn0 : ¬cond2_0 (grid2.coords t) := fun h => h0 ((hcond2_0 t).mp h)
    rw [PhiS2_pos V c _ hz, acc2_succ V c t]
    by_cases h1 : t.val % 25 = 24
    · have hy1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hy1], after2_3]
      rw [show (dat2 V c).leavesExact 4 t = owns (c : Thread nD τ) (ms2_4 t) fullShare ((dat2 V c).after 4 t) from by
        unfold Dat.leavesExact; rw [liveAt2_4 t hy1], after2_4]
      rw [acc2_succ V c t]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run2_C c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hn0 hy1
        (iblk2 V c 0 t) (iblk2 V c 1 t) (iblk2 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hn1 : ¬cond2_1 (grid2.coords t) := fun h => h1 ((hcond2_1 t).mp h)
      rw [Dat.leavesExact_idle (dat2 V c) 3 t (idleAt2_3 t hn1) (noFlush2_3 t hn1),
        Dat.leavesExact_idle (dat2 V c) 4 t (idleAt2_4 t hn1) (noFlush2_4 t hn1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run2_B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) hn0 hn1
        (iblk2 V c 0 t) (iblk2 V c 1 t) (iblk2 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 from rfl, PhiS2_zero V c 0 rfl]
  try exact Idealize.SL.BI.Entails.refl _

/-- After the last point the invariant gives the class's back: the running sums' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 25 := N_2; omega), PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

/-- Region 2's contribution to the run, for any contents at its entry. -/
def rd2 (V : Dev nD → Valuation τ sig (Elt F)) : RData (F := F) 2 V where
  dat c := dat2 (fun c b => V c b) c
  hq _ _ := rfl
  howed _ _ := rfl
  hrec _ _ := rfl
  hA c w := A_eq2 _ c w
  hbody c := body_obligation2 _ c
  hΦin c := hin2 _ c
  hΦout c := hout2 _ c

end Cert.Kernel.Hand

end
-- ==== Proof.KStats4.lean ====
import proofs.«115305_j43688407335088_2_alg».proof.Proof.KStatsCommon
import proofs.«115305_j43688407335088_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Statistics region 4: the body's three cases, the proof data, the body obligation -/

/-! ## The body's branch conditions -/

/-- The condition of the body's first `scf.if` (zero the running sums), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 25 = 0 :=
  (by decide +kernel : ∀ t : Fin grid4.N, cond4_0 (grid4.coords t) ↔ t.val % 25 = 0)
/-- The condition of the body's second `scf.if` (store the mean and the variance), from the grid coordinates. -/
abbrev cond4_1 (i : grid4.Coords) : Prop := k4_cond2 i = 1#1
/-- It holds at the last point only. -/
theorem hcond4_1 : ∀ t : Fin cfg4.N, cond4_1 (grid4.coords t) ↔ t.val % 25 = 24 :=
  (by decide +kernel : ∀ t : Fin grid4.N, cond4_1 (grid4.coords t) ↔ t.val % 25 = 24)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last point the two outputs are idle and not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last point they are live. -/
theorem liveAt4_3 : ∀ t : Fin cfg4.N, cond4_1 (grid4.coords t) → cfg4.idle 3 (grid4.coords t) = false := by decide +kernel
theorem liveAt4_4 : ∀ t : Fin cfg4.N, cond4_1 (grid4.coords t) → cfg4.idle 4 (grid4.coords t) = false := by decide +kernel

/-! ## The kernel body on any whole memrefs, case by case -/

/-- The payloads of the skeleton are the pure functions of the shared module. -/
theorem pay4_eq4 (x : Vec F S2000x256 .bf16) (w : Vec F S256x256 .bf16) (b : Vec F S256 .f32) (s ss : Vec F S1x256 .f32) :
    k4_pay4 x w b s = (stepStats x w b s ss).1 := rfl
theorem pay5_eq4 (x : Vec F S2000x256 .bf16) (w : Vec F S256x256 .bf16) (b : Vec F S256 .f32) (s ss : Vec F S1x256 .f32) :
    k4_pay5 x w b ss = (stepStats x w b s ss).2 := rfl
theorem pay1_eq4 : (k4_pay1 (F := F)) = zeroStats := rfl
theorem pay2_eq4 : (k4_pay2 (F := F)) = zeroStats := rfl
theorem pay7_eq4 (s ss : Vec F S1x256 .f32) : k4_pay7 s = (finStats s ss).1 := rfl
theorem pay8_eq4 (s ss : Vec F S1x256 .f32) : k4_pay8 s ss = (finStats s ss).2 := rfl

set_option maxHeartbeats 1000000 in
/-- A middle point (neither conditional taken): the inputs and the idle outputs come back as they were, the two running
    sums advance by one row tile. -/
theorem run4_B (c : Dev nD) (i : grid4.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond4_0 i) (hc1 : ¬cond4_1 i)
    (x : Vec F S2000x256 .bf16) (w : Vec F S256x256 .bf16) (b : Vec F S256 .f32) (x4 x5 : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton]; unfold cc4__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    rw [readAt_S2000x256, readAt_S256x256, readAt_S256, readAt_S1x256]
    rfl
  · iexists _; isplitr
    swap; · iexact H7
    ipureintro
    refine (rw_S1x256 _ _ _ _ _).trans ?_
    rw [readAt_S2000x256, readAt_S256x256, readAt_S256, readAt_S1x256]
    rfl

set_option maxHeartbeats 1000000 in
/-- The first point (the first conditional taken): the running sums, whatever they held, are zeroed and advance by one row tile. -/
theorem run4_A (c : Dev nD) (i : grid4.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : cond4_0 i) (hc1 : ¬cond4_1 i)
    (x : Vec F S2000x256 .bf16) (w : Vec F S256x256 .bf16) (b : Vec F S256 .f32) (x4 x5 : Vec F S256 .f32)
    (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w ∗ owns (c : Thread nD τ) arg3 fullShare b
        ∗ owns (c : Thread nD τ) arg4 fullShare x4 ∗ owns (c : Thread nD τ) arg5 fullShare x5
        ∗ owns (c : Thread nD τ) arg6 fullShare (stepStats x w b zeroStats zeroStats).1 ∗ owns (c : Thread nD τ) arg7 fullShare (stepStats x w b zeroStats zeroStats).2) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton]; unfold cc4__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (rw_S1x256 _ _ _ _ _).trans ?_
    sl_unfold_run_names
    rw [View.readCov_cons_toLoadRect, readAt_S2000x256, readAt_S256x256, readAt_S256]
    rfl
  · iexists _; isplitr
    swap; · iexact H7
    ipureintro
    refine (rw_S1x256 _ _ _ _ _).trans ?_
    sl_unfold_run_names
    rw [View.readCov_cons_toLoadRect, readAt_S2000x256, readAt_S256x256, readAt_S256]
    rfl

set_option maxHeartbeats 1000000 in
/-- The last point (the second conditional taken): the running sums advance by one row tile and the two outputs, whatever
    they held, are left at the mean and the variance of the finished sums. -/
theorem run4_C (c : Dev nD) (i : grid4.Coords)
    (arg1 : Memref sig .tc .vmem S2000x256 .bf16) (harg1 : arg1.IsWhole) (arg2 : Memref sig .tc .vmem S256x256 .bf16) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S1x256 .f32) (harg6 : arg6.IsWhole)
    (arg7 : Memref sig .tc .vmem S1x256 .f32) (harg7 : arg7.IsWhole) (hc0 : ¬cond4_0 i) (hc1 : cond4_1 i)
    (x : Vec F S2000x256 .bf16) (w : Vec F S256x256 .bf16) (b : Vec F S256 .f32) (s ss : Vec F S1x256 .f32)
    (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ owns (c : Thread nD τ) arg6 fullShare s ∗ owns (c : Thread nD τ) arg7 fullShare ss
        ∗ (iprop(owns (c : Thread nD τ) arg1 fullShare x ∗ owns (c : Thread nD τ) arg2 fullShare w ∗ owns (c : Thread nD τ) arg3 fullShare b
        ∗ owns (c : Thread nD τ) arg4 fullShare (finStats (stepStats x w b s ss).1 (stepStats x w b s ss).2).1 ∗ owns (c : Thread nD τ) arg5 fullShare (finStats (stepStats x w b s ss).1 (stepStats x w b s ss).2).2
        ∗ owns (c : Thread nD τ) arg6 fullShare (stepStats x w b s ss).1 ∗ owns (c : Thread nD τ) arg7 fullShare (stepStats x w b s ss).2) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton]; unfold cc4__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1 hf2 hf3 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    refine (rw_S256 _ _ _ _ _).trans ?_
    sl_unfold_run_names
    rw [View.readCov_cons_toLoadRect, readAt_S2000x256, readAt_S256x256, readAt_S256, readAt_S1x256]
    rfl
  isplitl [H5]
  · iexists _; isplitr
    swap; · iexact H5
    ipureintro
    refine (rw_S256 _ _ _ _ _).trans ?_
    sl_unfold_run_names
    rw [View.readCov_cons_toLoadRect, View.readCov_cons_toLoadRect, readAt_S2000x256, readAt_S256x256, readAt_S256, readAt_S1x256, readAt_S1x256]
    rfl
  isplitl [H6]
  · iexists _; isplitr
    swap; · iexact H6
    ipureintro
    sl_unfold_run_names
    refine (rw_S1x256 _ _ _ _ _).trans ?_
    rw [readAt_S2000x256, readAt_S256x256, readAt_S256, readAt_S1x256]
    rfl
  · iexists _; isplitr
    swap; · iexact H7
    ipureintro
    sl_unfold_run_names
    refine (rw_S1x256 _ _ _ _ _).trans ?_
    rw [readAt_S2000x256, readAt_S256x256, readAt_S256, readAt_S1x256]
    rfl

/-! ## The region at the entry contents `V` -/

section Region
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, spelled as the pipeline passes it, and its wholeness. -/
abbrev ms4_0 (t : Fin cfg4.N) : Memref sig .tc .vmem S2000x256 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256 .f32 := win4_4.stage (cfg4.slots t 4)
abbrev hs4_4 (t : Fin cfg4.N) : (ms4_4 t).IsWhole := hstage4_4 ((cfg4.slots t 4).cast nbuf4_4)
/-- The two scratch operands: whole scoped buffers of the kernel's own. -/
abbrev scM4_0 : Memref sig .tc .vmem S1x256 .f32 := Memref.whole cc4_scratch0
abbrev scM4_1 : Memref sig .tc .vmem S1x256 .f32 := Memref.whole cc4_scratch1

/-- The class's invariant with the two scratch operands as memrefs owned at some contents, the rest of the scoped
    buffers unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The running sums point by point -/

/-- THE ACCUMULATION. The two scratch buffers' contents after `n` points: zeros, then one `stepStats` per point over
    the point's blocks of the three inputs. -/
def acc4 (c : Dev nD) : ℕ → Vec F S1x256 .f32 × Vec F S1x256 .f32
  | 0 => (zeroStats, zeroStats)
  | n + 1 =>
    if h : n < cfg4.N then
      stepStats (iblk4 V c 0 ⟨n, h⟩) (iblk4 V c 1 ⟨n, h⟩) (iblk4 V c 2 ⟨n, h⟩) (acc4 c n).1 (acc4 c n).2
    else acc4 c n

theorem acc4_of_zero (c : Dev nD) (n : ℕ) (hz : n = 0) : acc4 V c n = (zeroStats, zeroStats) := by subst hz; rfl

theorem acc4_succ (c : Dev nD) (t : Fin cfg4.N) :
    acc4 V c (t.val + 1) = stepStats (iblk4 V c 0 t) (iblk4 V c 1 t) (iblk4 V c 2 t) (acc4 V c t.val).1 (acc4 V c t.val).2 := by
  show (if h : t.val < cfg4.N then
      stepStats (iblk4 V c 0 ⟨t.val, h⟩) (iblk4 V c 1 ⟨t.val, h⟩) (iblk4 V c 2 ⟨t.val, h⟩) (acc4 V c t.val).1 (acc4 V c t.val).2
    else acc4 V c t.val) = _
  rw [dif_pos t.isLt]

theorem acc4_first (c : Dev nD) (t : Fin cfg4.N) (hz : t.val = 0) :
    acc4 V c (t.val + 1) = stepStats (iblk4 V c 0 t) (iblk4 V c 1 t) (iblk4 V c 2 t) zeroStats zeroStats := by
  rw [acc4_succ, acc4_of_zero V c _ hz]

/-- What the last point stores, over the finished sums: the mean and the variance. -/
def fin4 (c : Dev nD) : Vec F S256 .f32 × Vec F S256 .f32 := finStats (acc4 V c cfg4.N).1 (acc4 V c cfg4.N).2

/-- The region invariant before position `n`: before the first point the class's (every scratch at anything);
    afterwards the two scratch buffers at the running sums after `n` points, the rest of the scoped buffers unopened,
    the generator register at some state. -/
def PhiS4 (c : Dev nD) : ℕ → sProp 𝕄
  | 0 => Pipeline.ΦA spec4 c
  | n + 1 => iprop(iprop(iprop(owns (c : Thread nD τ) scM4_0 fullShare (acc4 V c (n + 1)).1 ∗ owns (c : Thread nD τ) scM4_1 fullShare (acc4 V c (n + 1)).2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (hz : n = 0) : PhiS4 V c n = Pipeline.ΦA spec4 c := by subst hz; rfl

theorem PhiS4_pos (c : Dev nD) (n : ℕ) (hz : n ≠ 0) :
    PhiS4 V c n = iprop(iprop(iprop(owns (c : Thread nD τ) scM4_0 fullShare (acc4 V c n).1 ∗ owns (c : Thread nD τ) scM4_1 fullShare (acc4 V c n).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the pipeline on core `c`: the arrays as the region finds them; after the body at point `t` each
    input's buffer at its block and the two outputs' at the mean and the variance of the sums so far (what the last
    point stores; at the earlier points, where the outputs are idle and not written back, nothing consults it); the
    invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (finStats (acc4 V c (t.val + 1)).1 (acc4 V c (t.val + 1)).2).1
    | ⟨4, _⟩ => (finStats (acc4 V c (t.val + 1)).1 (acc4 V c (t.val + 1)).2).2
  Φ t := PhiS4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = (finStats (acc4 V c (t.val + 1)).1 (acc4 V c (t.val + 1)).2).1 := by dsimp only [dat4]
theorem after4_4 (c : Dev nD) (t : Fin cfg4.N) :
    (dat4 V c).after 4 t = (finStats (acc4 V c (t.val + 1)).1 (acc4 V c (t.val + 1)).2).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point: the inputs' memrefs hold their blocks; the closed forms say which case the point is in; the
    invariant hands the body the two scratch buffers at the sums so far (at anything at the first point) and takes them
    back one row tile further; away from the last point the idle outputs come back as handed. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) from rfl, show (dat4 V c).Φ t.castSucc = PhiS4 V c t.val from rfl]
  rw [PhiS4_pos V c (t.val + 1) (Nat.succ_ne_zero _)]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 25 = 0
  · have h1 : ¬t.val % 25 = 24 := by omega
    have hz : t.val = 0 := by omega
    have hn1 : ¬cond4_1 (grid4.coords t) := fun h => h1 ((hcond4_1 t).mp h)
    rw [Dat.leavesExact_idle (dat4 V c) 3 t (idleAt4_3 t hn1) (noFlush4_3 t hn1),
      Dat.leavesExact_idle (dat4 V c) 4 t (idleAt4_4 t hn1) (noFlush4_4 t hn1)]
    rw [PhiS4_zero V c _ hz, PhiA4_eq, acc4_first V c t hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run4_A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) hn1
      (iblk4 V c 0 t) (iblk4 V c 1 t) (iblk4 V c 2 t) _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hn0 : ¬cond4_0 (grid4.coords t) := fun h => h0 ((hcond4_0 t).mp h)
    rw [PhiS4_pos V c _ hz, acc4_succ V c t]
    by_cases h1 : t.val % 25 = 24
    · have hy1 : cond4_1 (grid4.coords t) := (hcond4_1 t).mpr h1
      rw [show (dat4 V c).leavesExact 3 t = owns (c : Thread nD τ) (ms4_3 t) fullShare ((dat4 V c).after 3 t) from by
        unfold Dat.leavesExact; rw [liveAt4_3 t hy1], after4_3]
      rw [show (dat4 V c).leavesExact 4 t = owns (c : Thread nD τ) (ms4_4 t) fullShare ((dat4 V c).after 4 t) from by
        unfold Dat.leavesExact; rw [liveAt4_4 t hy1], after4_4]
      rw [acc4_succ V c t]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run4_C c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hn0 hy1
        (iblk4 V c 0 t) (iblk4 V c 1 t) (iblk4 V c 2 t) _ _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hn1 : ¬cond4_1 (grid4.coords t) := fun h => h1 ((hcond4_1 t).mp h)
      rw [Dat.leavesExact_idle (dat4 V c) 3 t (idleAt4_3 t hn1) (noFlush4_3 t hn1),
        Dat.leavesExact_idle (dat4 V c) 4 t (idleAt4_4 t hn1) (noFlush4_4 t hn1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run4_B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) hn0 hn1
        (iblk4 V c 0 t) (iblk4 V c 1 t) (iblk4 V c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 from rfl, PhiS4_zero V c 0 rfl]
  try exact Idealize.SL.BI.Entails.refl _

/-- After the last point the invariant gives the class's back: the running sums' named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val from rfl,
    PhiS4_pos V c _ (by rw [Fin.val_last]; have : cfg4.N = 25 := N_4; omega), PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

/-- Region 4's contribution to the run, for any contents at its entry. -/
def rd4 (V : Dev nD → Valuation τ sig (Elt F)) : RData (F := F) 4 V where
  dat c := dat4 (fun c b => V c b) c
  hq _ _ := rfl
  howed _ _ := rfl
  hrec _ _ := rfl
  hA c w := A_eq4 _ c w
  hbody c := body_obligation4 _ c
  hΦin c := hin4 _ c
  hΦout c := hout4 _ c

end Cert.Kernel.Hand

end
-- ==== Proof.KNorm1.lean ====
import proofs.«115305_j43688407335088_2_alg».proof.Proof.KRun
import proofs.«115305_j43688407335088_2_alg».proof.Proof.Gen.Kernel.Launch
import proofs.«115305_j43688407335088_2_alg».proof.Proof.Gen.Kernel.Skeleton
import proofs.«115305_j43688407335088_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation kernel of hop 0 (custom_call 1) as pipeline proof data

One grid point of the kernel reads seven staged blocks: a [2000,256] tile of features, the [256,256]
weights, and five [256] rows (bias, mean, variance, scale, shift). It writes one [2000,256] tile:
max(ft·W + b, 0), centred by the mean, scaled by rsqrt(var + ε)·γ, shifted by β. The tile is the
only thing it stores; the [50000,768] array it is aliased to is never addressed by the body. So the
proof data is: every input window keeps its block, and the output window's buffer holds that tile,
a function of the seven blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section RegionBody

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point. At a point where it is fetched that is
the fetch; at a point where it is not, the block index has not moved since the last fetch and the body has
left the buffer as it was. The windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev rT1 : Rect S2000x256 := Rect.unit (s := S2000x256) ![0, 0] S2000x256.size inb_S2000x256_S2000x256_0_0
abbrev rW1 : Rect S256x256 := Rect.unit (s := S256x256) ![0, 0] S256x256.size inb_S256x256_S256x256_0_0
abbrev rV1 : Rect S256 := Rect.unit (s := S256) ![0] S256.size inb_S256_S256_0

/-! ## What the body leaves in the output window's buffer -/

/-- The output tile as a function of the seven input blocks: the single store, whose value is the kernel's
    arithmetic applied to the seven loaded vectors. -/
def out1_7 (x0 : Vec F S2000x256 .bf16) (x1 : Vec F S256x256 .bf16) (x2 : Vec F S256 .f32) (x3 : Vec F S256 .f32) (x4 : Vec F S256 .f32) (x5 : Vec F S256 .f32) (x6 : Vec F S256 .f32) : Vec F S2000x256 .f32 :=
  View.canon [⟨rT1, k1_pay1 (View.ld x0 rT1) (View.ld x1 rW1) (View.ld x2 rV1) (View.ld x3 rV1) (View.ld x4 rV1) (View.ld x5 rV1) (View.ld x6 rV1)⟩]

/-- The one store is of the whole tile, so it covers the buffer. -/
theorem cover1_7 (p0 : Vec F S2000x256 .f32) (y : S2000x256.Idx) :
    ∃ pc ∈ ([⟨rT1, p0⟩] : List (View.Piece (Elt F) S2000x256 .f32)), y ∈ pc.1.set :=
  View.cover_of_tiled [⟨rT1, p0⟩] S2000x256.size (by rfl) y

/-! ## The body's triple -/

set_option maxHeartbeats 4000000 in
/-- On whole staging memrefs, the seven inputs' at contents xW and the output's at anything, the body runs to a
    continuation that holds the inputs as they were and the output at out1_7 of them. The aliased array
    (arg8) is not addressed and nothing of it is needed. -/
theorem sound_kernel1 (c : Dev nD) (E : Set ℕ) (i : grid1.Coords) (arg1 : Memref sig .tc .vmem S2000x256 .bf16) (harg1 : arg1.IsWhole) (arg2 : Memref sig .tc .vmem S256x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole)
    (arg8 : Memref sig .tc .hbm S50000x768 .f32) (harg8 : arg8.IsWhole) (arg9 : Memref sig .tc .vmem S2000x256 .f32) (harg9 : arg9.IsWhole)
    (x0 : Vec F S2000x256 .bf16) (x1 : Vec F S256x256 .bf16) (x2 : Vec F S256 .f32) (x3 : Vec F S256 .f32) (x4 : Vec F S256 .f32) (x5 : Vec F S256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (out1_7 x0 x1 x2 x3 x4 x5 x6)) -∗ K ⟨⟩))
      ⊢ wp frame (wpE (defs₀ (F := F)) Variants.none c none) E (cc1__norm_kernel i arg1 harg1 arg2 harg2 arg3 harg3 arg4 harg4 arg5 harg5 arg6 harg6 arg7 harg7 arg8 harg8 arg9 harg9) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H9
  ipureintro
  exact View.read_writes_eq_canon _ _ _ (cover1_7 _)

/-! ## The pipeline's proof data -/

/-- The proof data on core c: the arrays as the region finds them; after the body at point t each input's
    buffer still at its block and the output's at out1_7 of the seven input blocks; the invariant is the
    untouched rest (the scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point t: the invariant, what is owed, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the seven inputs' buffers hold their blocks, so the body's triple applies; the
    invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end RegionBody

/-! ## The region's record for the run -/

/-- Region 1 for the run over all segments: its proof data at the contents the run enters it with, full
    shares, nothing owed, the arrays as entered, the body obligation, and the invariant passed through. -/
def rd1 (V : Dev nD → Valuation τ sig (Elt F)) : RData (F := F) 1 V where
  dat c := dat1 (fun c b => V c b) c
  hq _ _ := rfl
  howed _ _ := rfl
  hrec _ _ := rfl
  hA c w := A_eq1 _ c w
  hbody c := body_obligation1 _ c
  hΦin _ := .rfl
  hΦout _ := .rfl

end Cert.Kernel.Hand
-- ==== Proof.KNorm3.lean ====
import proofs.«115305_j43688407335088_2_alg».proof.Proof.KRun
import proofs.«115305_j43688407335088_2_alg».proof.Proof.Gen.Kernel.Launch
import proofs.«115305_j43688407335088_2_alg».proof.Proof.Gen.Kernel.Skeleton
import proofs.«115305_j43688407335088_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation kernel of hop 1 (custom_call 3) as pipeline proof data

One grid point of the kernel reads seven staged blocks: a [2000,256] tile of features, the [256,256]
weights, and five [256] rows (bias, mean, variance, scale, shift). It writes one [2000,256] tile:
max(ft·W + b, 0), centred by the mean, scaled by rsqrt(var + ε)·γ, shifted by β. The tile is the
only thing it stores; the [50000,768] array it is aliased to is never addressed by the body. So the
proof data is: every input window keeps its block, and the output window's buffer holds that tile,
a function of the seven blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section RegionBody

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point. At a point where it is fetched that is
the fetch; at a point where it is not, the block index has not moved since the last fetch and the body has
left the buffer as it was. The windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole buffer -/

abbrev rT3 : Rect S2000x256 := Rect.unit (s := S2000x256) ![0, 0] S2000x256.size inb_S2000x256_S2000x256_0_0
abbrev rW3 : Rect S256x256 := Rect.unit (s := S256x256) ![0, 0] S256x256.size inb_S256x256_S256x256_0_0
abbrev rV3 : Rect S256 := Rect.unit (s := S256) ![0] S256.size inb_S256_S256_0

/-! ## What the body leaves in the output window's buffer -/

/-- The output tile as a function of the seven input blocks: the single store, whose value is the kernel's
    arithmetic applied to the seven loaded vectors. -/
def out3_7 (x0 : Vec F S2000x256 .bf16) (x1 : Vec F S256x256 .bf16) (x2 : Vec F S256 .f32) (x3 : Vec F S256 .f32) (x4 : Vec F S256 .f32) (x5 : Vec F S256 .f32) (x6 : Vec F S256 .f32) : Vec F S2000x256 .f32 :=
  View.canon [⟨rT3, k3_pay1 (View.ld x0 rT3) (View.ld x1 rW3) (View.ld x2 rV3) (View.ld x3 rV3) (View.ld x4 rV3) (View.ld x5 rV3) (View.ld x6 rV3)⟩]

/-- The one store is of the whole tile, so it covers the buffer. -/
theorem cover3_7 (p0 : Vec F S2000x256 .f32) (y : S2000x256.Idx) :
    ∃ pc ∈ ([⟨rT3, p0⟩] : List (View.Piece (Elt F) S2000x256 .f32)), y ∈ pc.1.set :=
  View.cover_of_tiled [⟨rT3, p0⟩] S2000x256.size (by rfl) y

/-! ## The body's triple -/

set_option maxHeartbeats 4000000 in
/-- On whole staging memrefs, the seven inputs' at contents xW and the output's at anything, the body runs to a
    continuation that holds the inputs as they were and the output at out3_7 of them. The aliased array
    (arg8) is not addressed and nothing of it is needed. -/
theorem sound_kernel3 (c : Dev nD) (E : Set ℕ) (i : grid3.Coords) (arg1 : Memref sig .tc .vmem S2000x256 .bf16) (harg1 : arg1.IsWhole) (arg2 : Memref sig .tc .vmem S256x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole)
    (arg8 : Memref sig .tc .hbm S50000x768 .f32) (harg8 : arg8.IsWhole) (arg9 : Memref sig .tc .vmem S2000x256 .f32) (harg9 : arg9.IsWhole)
    (x0 : Vec F S2000x256 .bf16) (x1 : Vec F S256x256 .bf16) (x2 : Vec F S256 .f32) (x3 : Vec F S256 .f32) (x4 : Vec F S256 .f32) (x5 : Vec F S256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (out3_7 x0 x1 x2 x3 x4 x5 x6)) -∗ K ⟨⟩))
      ⊢ wp frame (wpE (defs₀ (F := F)) Variants.none c none) E (cc3__norm_kernel i arg1 harg1 arg2 harg2 arg3 harg3 arg4 harg4 arg5 harg5 arg6 harg6 arg7 harg7 arg8 harg8 arg9 harg9) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H9
  ipureintro
  exact View.read_writes_eq_canon _ _ _ (cover3_7 _)

/-! ## The pipeline's proof data -/

/-- The proof data on core c: the arrays as the region finds them; after the body at point t each input's
    buffer still at its block and the output's at out3_7 of the seven input blocks; the invariant is the
    untouched rest (the scoped buffers and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-! What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-! Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point t: the invariant, what is owed, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the seven inputs' buffers hold their blocks, so the body's triple applies; the
    invariant and what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end RegionBody

/-! ## The region's record for the run -/

/-- Region 3 for the run over all segments: its proof data at the contents the run enters it with, full
    shares, nothing owed, the arrays as entered, the body obligation, and the invariant passed through. -/
def rd3 (V : Dev nD → Valuation τ sig (Elt F)) : RData (F := F) 3 V where
  dat c := dat3 (fun c b => V c b) c
  hq _ _ := rfl
  howed _ _ := rfl
  hrec _ _ := rfl
  hA c w := A_eq3 _ c w
  hbody c := body_obligation3 _ c
  hΦin _ := .rfl
  hΦout _ := .rfl

end Cert.Kernel.Hand
-- ==== Proof.KNorm5.lean ====
import proofs.«115305_j43688407335088_2_alg».proof.Proof.KRun
import proofs.«115305_j43688407335088_2_alg».proof.Proof.Gen.Kernel.Launch
import proofs.«115305_j43688407335088_2_alg».proof.Proof.Gen.Kernel.Skeleton
import proofs.«115305_j43688407335088_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation kernel of hop 2 (custom_call 5) as pipeline proof data

One grid point of the kernel reads seven staged blocks: a [2000,256] tile of features, the [256,256]
weights, and five [256] rows (bias, mean, variance, scale, shift). It writes one [2000,256] tile:
max(ft·W + b, 0), centred by the mean, scaled by rsqrt(var + ε)·γ, shifted by β. The tile is the
only thing it stores; the [50000,768] array it is aliased to is never addressed by the body. So the
proof data is: every input window keeps its block, and the output window's buffer holds that tile,
a function of the seven blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section RegionBody

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds its block at every point. At a point where it is fetched that is
the fetch; at a point where it is not, the block index has not moved since the last fetch and the body has
left the buffer as it was. The windows are uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each a whole buffer -/

abbrev rT5 : Rect S2000x256 := Rect.unit (s := S2000x256) ![0, 0] S2000x256.size inb_S2000x256_S2000x256_0_0
abbrev rW5 : Rect S256x256 := Rect.unit (s := S256x256) ![0, 0] S256x256.size inb_S256x256_S256x256_0_0
abbrev rV5 : Rect S256 := Rect.unit (s := S256) ![0] S256.size inb_S256_S256_0

/-! ## What the body leaves in the output window's buffer -/

/-- The output tile as a function of the seven input blocks: the single store, whose value is the kernel's
    arithmetic applied to the seven loaded vectors. -/
def out5_7 (x0 : Vec F S2000x256 .bf16) (x1 : Vec F S256x256 .bf16) (x2 : Vec F S256 .f32) (x3 : Vec F S256 .f32) (x4 : Vec F S256 .f32) (x5 : Vec F S256 .f32) (x6 : Vec F S256 .f32) : Vec F S2000x256 .f32 :=
  View.canon [⟨rT5, k5_pay1 (View.ld x0 rT5) (View.ld x1 rW5) (View.ld x2 rV5) (View.ld x3 rV5) (View.ld x4 rV5) (View.ld x5 rV5) (View.ld x6 rV5)⟩]

/-- The one store is of the whole tile, so it covers the buffer. -/
theorem cover5_7 (p0 : Vec F S2000x256 .f32) (y : S2000x256.Idx) :
    ∃ pc ∈ ([⟨rT5, p0⟩] : List (View.Piece (Elt F) S2000x256 .f32)), y ∈ pc.1.set :=
  View.cover_of_tiled [⟨rT5, p0⟩] S2000x256.size (by rfl) y

/-! ## The body's triple -/

set_option maxHeartbeats 4000000 in
/-- On whole staging memrefs, the seven inputs' at contents xW and the output's at anything, the body runs to a
    continuation that holds the inputs as they were and the output at out5_7 of them. The aliased array
    (arg8) is not addressed and nothing of it is needed. -/
theorem sound_kernel5 (c : Dev nD) (E : Set ℕ) (i : grid5.Coords) (arg1 : Memref sig .tc .vmem S2000x256 .bf16) (harg1 : arg1.IsWhole) (arg2 : Memref sig .tc .vmem S256x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole)
    (arg8 : Memref sig .tc .hbm S50000x768 .f32) (harg8 : arg8.IsWhole) (arg9 : Memref sig .tc .vmem S2000x256 .f32) (harg9 : arg9.IsWhole)
    (x0 : Vec F S2000x256 .bf16) (x1 : Vec F S256x256 .bf16) (x2 : Vec F S256 .f32) (x3 : Vec F S256 .f32) (x4 : Vec F S256 .f32) (x5 : Vec F S256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (out5_7 x0 x1 x2 x3 x4 x5 x6)) -∗ K ⟨⟩))
      ⊢ wp frame (wpE (defs₀ (F := F)) Variants.none c none) E (cc5__norm_kernel i arg1 harg1 arg2 harg2 arg3 harg3 arg4 harg4 arg5 harg5 arg6 harg6 arg7 harg7 arg8 harg8 arg9 harg9) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H9
  ipureintro
  exact View.read_writes_eq_canon _ _ _ (cover5_7 _)

/-! ## The pipeline's proof data -/

/-- The proof data on core c: the arrays as the region finds them; after the body at point t each input's
    buffer still at its block and the output's at out5_7 of the seven input blocks; the invariant is the
    untouched rest (the scoped buffers and the generator register); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-! What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-! Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point t: the invariant, what is owed, and each window's current buffer. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- What it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the seven inputs' buffers hold their blocks, so the body's triple applies; the
    invariant and what is owed pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end RegionBody

/-! ## The region's record for the run -/

/-- Region 5 for the run over all segments: its proof data at the contents the run enters it with, full
    shares, nothing owed, the arrays as entered, the body obligation, and the invariant passed through. -/
def rd5 (V : Dev nD → Valuation τ sig (Elt F)) : RData (F := F) 5 V where
  dat c := dat5 (fun c b => V c b) c
  hq _ _ := rfl
  howed _ _ := rfl
  hrec _ _ := rfl
  hA c w := A_eq5 _ c w
  hbody c := body_obligation5 _ c
  hΦin _ := .rfl
  hΦout _ := .rfl

end Cert.Kernel.Hand
-- ==== Proof.KFrameOf.lean ====
/-
  The argument arrays end as launched: no host operation writes an argument's buffer and no region has one among its
  windows' arrays, so the fold of the buffers' contents through the program, read at an argument, walks back to the
  launch memory.
-/
import proofs.«115305_j43688407335088_2_alg».proof.Proof.KRun

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

local notation "cfgAt" p => Pipeline.pin (pcfgs (F := F)) adm p

variable (m : (ℓ : Loc nD τ sig) → Buf (Elt F) ℓ) (ρ : Dev nD → PrngReg) (D : RD6 (F := F))

/-- A buffer that no host stretch writes and that is no window's array of any region holds its launch contents at the end. -/
theorem W14_kept (c : Dev nD) (b : Ref sig .tc)
    (h0 : b ∉ hostOps0_W) (h01 : b ∉ hostOps0_1_W) (h02 : b ∉ hostOps0_2_W) (h1 : b ∉ hostOps1_W) (h2 : b ∉ hostOps2_W)
    (h3 : b ∉ hostOps3_W) (h4 : b ∉ hostOps4_W) (h5 : b ∉ hostOps5_W)
    (a0 : ∀ w, Pipeline.arrRef spec0 w ≠ b) (a1 : ∀ w, Pipeline.arrRef spec1 w ≠ b)
    (a2 : ∀ w, Pipeline.arrRef spec2 w ≠ b) (a3 : ∀ w, Pipeline.arrRef spec3 w ≠ b)
    (a4 : ∀ w, Pipeline.arrRef spec4 w ≠ b) (a5 : ∀ w, Pipeline.arrRef spec5 w ≠ b) :
    W14 m ρ D c (Proc.devRef .tc b) = m ((c : Thread nD τ).loc b) :=
  calc W14 m ρ D c (Proc.devRef .tc b)
    _ = W13 m ρ D c (Proc.devRef .tc b) := Wnext_of_ne 5 _ _ c b a5
    _ = W12 m ρ D c (Proc.devRef .tc b) := StableHlo.after_of_writes_sub hostOps5 _ hostOps5_writes h5
    _ = W11 m ρ D c (Proc.devRef .tc b) := Wnext_of_ne 4 _ _ c b a4
    _ = W10 m ρ D c (Proc.devRef .tc b) := StableHlo.after_of_writes_sub hostOps4 _ hostOps4_writes h4
    _ = W9 m ρ D c (Proc.devRef .tc b) := Wnext_of_ne 3 _ _ c b a3
    _ = W8 m ρ D c (Proc.devRef .tc b) := StableHlo.after_of_writes_sub hostOps3 _ hostOps3_writes h3
    _ = W7 m ρ D c (Proc.devRef .tc b) := Wnext_of_ne 2 _ _ c b a2
    _ = W6 m ρ D c (Proc.devRef .tc b) := StableHlo.after_of_writes_sub hostOps2 _ hostOps2_writes h2
    _ = W5 m ρ D c (Proc.devRef .tc b) := Wnext_of_ne 1 _ _ c b a1
    _ = W4 m ρ D c (Proc.devRef .tc b) := StableHlo.after_of_writes_sub hostOps1 _ hostOps1_writes h1
    _ = W3 m ρ c (Proc.devRef .tc b) := Wnext_of_ne 0 _ _ c b a0
    _ = W2 m ρ c (Proc.devRef .tc b) := StableHlo.after_of_writes_sub hostOps0_2 _ hostOps0_2_writes h02
    _ = W1 m ρ c (Proc.devRef .tc b) := StableHlo.after_of_writes_sub hostOps0_1 _ hostOps0_1_writes h01
    _ = W0 m ρ c (Proc.devRef .tc b) := StableHlo.after_of_writes_sub hostOps0 _ hostOps0_writes h0
    _ = m ((c : Thread nD τ).loc b) := rfl

include D in
/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W14_kept m ρ D c main_arg0 (by decide) (by decide) (by decide) (by decide) (by decide) (by decide) (by decide) (by decide) (by decide) (by decide) (by decide) (by decide) (by decide) (by decide)),
     (h c _ (mem_uc main_arg1 (by decide))).trans (W14_kept m ρ D c main_arg1 (by decide) (by decide) (by decide) (by decide) (by decide) (by decide) (by decide) (by decide) (by decide) (by decide) (by decide) (by decide) (by decide) (by decide)),
     (h c _ (mem_uc main_arg2 (by decide))).trans (W14_kept m ρ D c main_arg2 (by decide) (by decide) (by decide) (by decide) (by decide) (by decide) (by decide) (by decide) (by decide) (by decide) (by decide) (by decide) (by decide) (by decide)),
     (h c _ (mem_uc main_arg3 (by decide))).trans (W14_kept m ρ D c main_arg3 (by decide) (by decide) (by decide) (by decide) (by decide) (by decide) (by decide) (by decide) (by decide) (by decide) (by decide) (by decide) (by decide) (by decide)),
     (h c _ (mem_uc main_arg4 (by decide))).trans (W14_kept m ρ D c main_arg4 (by decide) (by decide) (by decide) (by decide) (by decide) (by decide) (by decide) (by decide) (by decide) (by decide) (by decide) (by decide) (by decide) (by decide)),
     (h c _ (mem_uc main_arg5 (by decide))).trans (W14_kept m ρ D c main_arg5 (by decide) (by decide) (by decide) (by decide) (by decide) (by decide) (by decide) (by decide) (by decide) (by decide) (by decide) (by decide) (by decide) (by decide)),
     (h c _ (mem_uc main_arg6 (by decide))).trans (W14_kept m ρ D c main_arg6 (by decide) (by decide) (by decide) (by decide) (by decide) (by decide) (by decide) (by decide) (by decide) (by decide) (by decide) (by decide) (by decide) (by decide)),
     (h c _ (mem_uc main_arg7 (by decide))).trans (W14_kept m ρ D c main_arg7 (by decide) (by decide) (by decide) (by decide) (by decide) (by decide) (by decide) (by decide) (by decide) (by decide) (by decide) (by decide) (by decide) (by decide))⟩)
    (run_all m ρ D)

end Cert.Kernel.Hand

end
-- ==== Proof.KInst.lean ====
/-
  The six regions' proof data together: three statistics regions (column sums of the rectified affine image and of its
  square carried in two scratch rows across the 25 row tiles, mean and variance written at the last tile) and three
  normalisation regions (one row tile of one column block of the output per grid point).
-/
import proofs.«115305_j43688407335088_2_alg».proof.Proof.KStats0
import proofs.«115305_j43688407335088_2_alg».proof.Proof.KStats2
import proofs.«115305_j43688407335088_2_alg».proof.Proof.KStats4
import proofs.«115305_j43688407335088_2_alg».proof.Proof.KNorm1
import proofs.«115305_j43688407335088_2_alg».proof.Proof.KNorm3
import proofs.«115305_j43688407335088_2_alg».proof.Proof.KNorm5
import proofs.«115305_j43688407335088_2_alg».proof.Proof.KFrameOf

noncomputable section

namespace Cert.Kernel.Hand

open Idealize.ShloMosaic

variable {F : FTy → Type} [FloatOps F]

/-- Every region's proof data, for any contents at its entry. -/
def D6 : RD6 (F := F) := ⟨rd0, rd1, rd2, rd3, rd4, rd5⟩

end Cert.Kernel.Hand

end
-- ==== Proof.RefRunOps.lean ====
import proofs.«115305_j43688407335088_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's @main as lists of its host operations, in order, cut where the mathematics cuts:
    the in-degree, the two hops, the three normalisations, the concatenation. A called function's
    operations stand in its call's place over the call's own buffers. -/

/-- The in-degree: ones scattered-added along `dst` into zeros, clipped below at one (the clip's three operations inline), and its reciprocal. -/
abbrev opsDeg : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg7 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    binary main_call0_v1 main_v3 main_v4 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v5 (broadcastInDim S50000 ![] bcast_S_S50000 : (⟨S_, .f32⟩ : BufTy).Contents (Elt F) → (⟨S50000, .f32⟩ : BufTy).Contents (Elt F)),
    binary main_v5 main_v4 main_v6 (Host.divf : (⟨S50000, .f32⟩ : BufTy).Contents (Elt F) → (⟨S50000, .f32⟩ : BufTy).Contents (Elt F) → (⟨S50000, .f32⟩ : BufTy).Contents (Elt F)) ]

/-- The first hop: the source index wrapped when negative, the rows of `x` gathered by it, times the edge weight, scattered-added along `dst`, times the reciprocal in-degree. -/
abbrev opsHop1 : List (HloOp τ sig (Elt F)) :=
  [ nullary main_c (constantI S_ 32 0#32),
    unary main_c main_v7 (broadcastInDim S800000 ![] bcast_S_S800000 : (⟨S_, .i32⟩ : BufTy).Contents (Elt F) → (⟨S800000, .i32⟩ : BufTy).Contents (Elt F)),
    binary main_arg6 main_v7 main_v8 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v9 (broadcastInDim S800000 ![] bcast_S_S800000 : (⟨S_, .i32⟩ : BufTy).Contents (Elt F) → (⟨S800000, .i32⟩ : BufTy).Contents (Elt F)),
    binary main_arg6 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg6 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    binary main_arg0 main_v12 main_v13 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_arg1 main_v14 (broadcastInDim S800000x1 ![0] bcast_S800000_S800000x1_0 : (⟨S800000, .f32⟩ : BufTy).Contents (Elt F) → (⟨S800000x1, .f32⟩ : BufTy).Contents (Elt F)),
    unary main_v14 main_v15 (broadcastInDim S800000x256 ![0, 1] bcast_S800000x1_S800000x256_0_1 : (⟨S800000x1, .f32⟩ : BufTy).Contents (Elt F) → (⟨S800000x256, .f32⟩ : BufTy).Contents (Elt F)),
    binary main_v13 main_v15 main_v16 (mulf : (⟨S800000x256, .f32⟩ : BufTy).Contents (Elt F) → (⟨S800000x256, .f32⟩ : BufTy).Contents (Elt F) → (⟨S800000x256, .f32⟩ : BufTy).Contents (Elt F)),
    nullary main_cst_4 (constant S_ .f32 0x00000000#32),
    unary main_cst_4 main_v17 (broadcastInDim S50000x256 ![] bcast_S_S50000x256 : (⟨S_, .f32⟩ : BufTy).Contents (Elt F) → (⟨S50000x256, .f32⟩ : BufTy).Contents (Elt F)),
    unary main_arg7 main_v18 (broadcastInDim S800000x1 ![0] bcast_S800000_S800000x1_0 : (⟨S800000, .i32⟩ : BufTy).Contents (Elt F) → (⟨S800000x1, .i32⟩ : BufTy).Contents (Elt F)),
    ternary main_v17 main_v18 main_v16 main_v19 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v6 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x256 ![0, 1] bcast_S50000x1_S50000x256_0_1 : (⟨S50000x1, .f32⟩ : BufTy).Contents (Elt F) → (⟨S50000x256, .f32⟩ : BufTy).Contents (Elt F)),
    binary main_v19 main_v21 main_v22 (mulf : (⟨S50000x256, .f32⟩ : BufTy).Contents (Elt F) → (⟨S50000x256, .f32⟩ : BufTy).Contents (Elt F) → (⟨S50000x256, .f32⟩ : BufTy).Contents (Elt F)) ]

/-- The second hop: the same operations applied to the first hop's result. -/
abbrev opsHop2 : List (HloOp τ sig (Elt F)) :=
  [ nullary main_c_5 (constantI S_ 32 0#32),
    unary main_c_5 main_v23 (broadcastInDim S800000 ![] bcast_S_S800000 : (⟨S_, .i32⟩ : BufTy).Contents (Elt F) → (⟨S800000, .i32⟩ : BufTy).Contents (Elt F)),
    binary main_arg6 main_v23 main_v24 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v25 (broadcastInDim S800000 ![] bcast_S_S800000 : (⟨S_, .i32⟩ : BufTy).Contents (Elt F) → (⟨S800000, .i32⟩ : BufTy).Contents (Elt F)),
    binary main_arg6 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_arg6 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v22 main_v28 main_v29 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_arg1 main_v30 (broadcastInDim S800000x1 ![0] bcast_S800000_S800000x1_0 : (⟨S800000, .f32⟩ : BufTy).Contents (Elt F) → (⟨S800000x1, .f32⟩ : BufTy).Contents (Elt F)),
    unary main_v30 main_v31 (broadcastInDim S800000x256 ![0, 1] bcast_S800000x1_S800000x256_0_1 : (⟨S800000x1, .f32⟩ : BufTy).Contents (Elt F) → (⟨S800000x256, .f32⟩ : BufTy).Contents (Elt F)),
    binary main_v29 main_v31 main_v32 (mulf : (⟨S800000x256, .f32⟩ : BufTy).Contents (Elt F) → (⟨S800000x256, .f32⟩ : BufTy).Contents (Elt F) → (⟨S800000x256, .f32⟩ : BufTy).Contents (Elt F)),
    nullary main_cst_7 (constant S_ .f32 0x00000000#32),
    unary main_cst_7 main_v33 (broadcastInDim S50000x256 ![] bcast_S_S50000x256 : (⟨S_, .f32⟩ : BufTy).Contents (Elt F) → (⟨S50000x256, .f32⟩ : BufTy).Contents (Elt F)),
    unary main_arg7 main_v34 (broadcastInDim S800000x1 ![0] bcast_S800000_S800000x1_0 : (⟨S800000, .i32⟩ : BufTy).Contents (Elt F) → (⟨S800000x1, .i32⟩ : BufTy).Contents (Elt F)),
    ternary main_v33 main_v34 main_v32 main_v35 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v6 main_v36 (broadcastInDim S50000x1 ![0] bcast_S50000_S50000x1_0 : (⟨S50000, .f32⟩ : BufTy).Contents (Elt F) → (⟨S50000x1, .f32⟩ : BufTy).Contents (Elt F)),
    unary main_v36 main_v37 (broadcastInDim S50000x256 ![0, 1] bcast_S50000x1_S50000x256_0_1 : (⟨S50000x1, .f32⟩ : BufTy).Contents (Elt F) → (⟨S50000x256, .f32⟩ : BufTy).Contents (Elt F)),
    binary main_v35 main_v37 main_v38 (mulf : (⟨S50000x256, .f32⟩ : BufTy).Contents (Elt F) → (⟨S50000x256, .f32⟩ : BufTy).Contents (Elt F) → (⟨S50000x256, .f32⟩ : BufTy).Contents (Elt F)) ]

/-- Hop 0's normalisation, first part: the weight and bias slices, the product plus bias, the rectifier (its three operations inline), the column sum. -/
abbrev opsBn0a : List (HloOp τ sig (Elt F)) :=
  [ unary main_arg2 main_v39 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v39 main_v40 rfl shapeCasts_S1x256x256_S256x256,
    binary main_arg0 main_v40 main_v41 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v42 ((extractStridedSlice S1x256 ![0, 0] · slices_S3x256_S1x256_0_0) : (⟨S3x256, .f32⟩ : BufTy).Contents (Elt F) → (⟨S1x256, .f32⟩ : BufTy).Contents (Elt F)),
    reshape main_v42 main_v43 rfl shapeCasts_S1x256_S256,
    unary main_v43 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v41 main_v45 main_v46 (addf : (⟨S50000x256, .f32⟩ : BufTy).Contents (Elt F) → (⟨S50000x256, .f32⟩ : BufTy).Contents (Elt F) → (⟨S50000x256, .f32⟩ : BufTy).Contents (Elt F)),
    nullary main_call1_cst (constant S_ .f32 0x00000000#32),
    unary main_call1_cst main_call1_v0 (broadcastInDim S50000x256 ![] bcast_S_S50000x256 : (⟨S_, .f32⟩ : BufTy).Contents (Elt F) → (⟨S50000x256, .f32⟩ : BufTy).Contents (Elt F)),
    binary main_v46 main_call1_v0 main_v47 (maximumf : (⟨S50000x256, .f32⟩ : BufTy).Contents (Elt F) → (⟨S50000x256, .f32⟩ : BufTy).Contents (Elt F) → (⟨S50000x256, .f32⟩ : BufTy).Contents (Elt F)),
    nullary main_cst_8 (constant S_ .f32 0x00000000#32),
    binary main_v47 main_cst_8 main_v48 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ]

/-- Hop 0's normalisation, second part: the mean, the variance (its nineteen operations and the select's three inline), centring, division by the root of variance plus epsilon, scale and shift. -/
abbrev opsBn0b : List (HloOp τ sig (Elt F)) :=
  [ nullary main_cst_9 (constant S_ .f32 0x47435000#32),
    unary main_cst_9 main_v49 (broadcastInDim S256 ![] bcast_S_S256 : (⟨S_, .f32⟩ : BufTy).Contents (Elt F) → (⟨S256, .f32⟩ : BufTy).Contents (Elt F)),
    binary main_v48 main_v49 main_v50 (Host.divf : (⟨S256, .f32⟩ : BufTy).Contents (Elt F) → (⟨S256, .f32⟩ : BufTy).Contents (Elt F) → (⟨S256, .f32⟩ : BufTy).Contents (Elt F)),
    nullary main_c_10 (constantI S_ 32 0#32),
    nullary main_call2_cst (constant S_ .f32 0x00000000#32),
    binary main_v47 main_call2_cst main_call2_v0 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call2_v0 main_call2_v1 (broadcastInDim S1x256 ![1] bcast_S256_S1x256_1 : (⟨S256, .f32⟩ : BufTy).Contents (Elt F) → (⟨S1x256, .f32⟩ : BufTy).Contents (Elt F)),
    nullary main_call2_cst_0 (constant S_ .f32 0x47435000#32),
    unary main_call2_cst_0 main_call2_v2 (broadcastInDim S1x256 ![] bcast_S_S1x256 : (⟨S_, .f32⟩ : BufTy).Contents (Elt F) → (⟨S1x256, .f32⟩ : BufTy).Contents (Elt F)),
    binary main_call2_v1 main_call2_v2 main_call2_v3 (Host.divf : (⟨S1x256, .f32⟩ : BufTy).Contents (Elt F) → (⟨S1x256, .f32⟩ : BufTy).Contents (Elt F) → (⟨S1x256, .f32⟩ : BufTy).Contents (Elt F)),
    unary main_call2_v3 main_call2_v4 (broadcastInDim S50000x256 ![0, 1] bcast_S1x256_S50000x256_0_1 : (⟨S1x256, .f32⟩ : BufTy).Contents (Elt F) → (⟨S50000x256, .f32⟩ : BufTy).Contents (Elt F)),
    binary main_v47 main_call2_v4 main_call2_v5 (subf : (⟨S50000x256, .f32⟩ : BufTy).Contents (Elt F) → (⟨S50000x256, .f32⟩ : BufTy).Contents (Elt F) → (⟨S50000x256, .f32⟩ : BufTy).Contents (Elt F)),
    binary main_call2_v5 main_call2_v5 main_call2_v6 (mulf : (⟨S50000x256, .f32⟩ : BufTy).Contents (Elt F) → (⟨S50000x256, .f32⟩ : BufTy).Contents (Elt F) → (⟨S50000x256, .f32⟩ : BufTy).Contents (Elt F)),
    unary main_c_10 main_call2_v7 (sitofp .f32 : (⟨S_, .i32⟩ : BufTy).Contents (Elt F) → (⟨S_, .f32⟩ : BufTy).Contents (Elt F)),
    nullary main_call2_cst_1 (constant S_ .f32 0x47435000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call2_v8 main_call2_v10 (broadcastInDim S256 ![] bcast_S_S256 : (⟨S_, .f32⟩ : BufTy).Contents (Elt F) → (⟨S256, .f32⟩ : BufTy).Contents (Elt F)),
    binary main_call2_v9 main_call2_v10 main_call2_v11 (Host.divf : (⟨S256, .f32⟩ : BufTy).Contents (Elt F) → (⟨S256, .f32⟩ : BufTy).Contents (Elt F) → (⟨S256, .f32⟩ : BufTy).Contents (Elt F)),
    nullary main_call2_cst_3 (constant S_ .f32 0x00000000#32),
    binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 (broadcastInDim S256 ![] bcast_S_S256 : (⟨S_, .f32⟩ : BufTy).Contents (Elt F) → (⟨S256, .f32⟩ : BufTy).Contents (Elt F)),
    ternary main_call2_v12 main_call2_v11 main_call2_call0_v1 main_v51 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)),
    unary main_v50 main_v52 (broadcastInDim S1x256 ![1] bcast_S256_S1x256_1 : (⟨S256, .f32⟩ : BufTy).Contents (Elt F) → (⟨S1x256, .f32⟩ : BufTy).Contents (Elt F)),
    unary main_v52 main_v53 (broadcastInDim S50000x256 ![0, 1] bcast_S1x256_S50000x256_0_1 : (⟨S1x256, .f32⟩ : BufTy).Contents (Elt F) → (⟨S50000x256, .f32⟩ : BufTy).Contents (Elt F)),
    binary main_v47 main_v53 main_v54 (subf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x3727C5AC#32),
    unary main_cst_11 main_v55 (broadcastInDim S256 ![] bcast_S_S256 : (⟨S_, .f32⟩ : BufTy).Contents (Elt F) → (⟨S256, .f32⟩ : BufTy).Contents (Elt F)),
    binary main_v51 main_v55 main_v56 (addf : (⟨S256, .f32⟩ : BufTy).Contents (Elt F) → (⟨S256, .f32⟩ : BufTy).Contents (Elt F) → (⟨S256, .f32⟩ : BufTy).Contents (Elt F)),
    unary main_v56 main_v57 (Host.sqrt : (⟨S256, .f32⟩ : BufTy).Contents (Elt F) → (⟨S256, .f32⟩ : BufTy).Contents (Elt F)),
    unary main_v57 main_v58 (broadcastInDim S1x256 ![1] bcast_S256_S1x256_1 : (⟨S256, .f32⟩ : BufTy).Contents (Elt F) → (⟨S1x256, .f32⟩ : BufTy).Contents (Elt F)),
    unary main_v58 main_v59 (broadcastInDim S50000x256 ![0, 1] bcast_S1x256_S50000x256_0_1 : (⟨S1x256, .f32⟩ : BufTy).Contents (Elt F) → (⟨S50000x256, .f32⟩ : BufTy).Contents (Elt F)),
    binary main_v54 main_v59 main_v60 (Host.divf : (⟨S50000x256, .f32⟩ : BufTy).Contents (Elt F) → (⟨S50000x256, .f32⟩ : BufTy).Contents (Elt F) → (⟨S50000x256, .f32⟩ : BufTy).Contents (Elt F)),
    unary main_arg4 main_v61 ((extractStridedSlice S1x256 ![0, 0] · slices_S3x256_S1x256_0_0) : (⟨S3x256, .f32⟩ : BufTy).Contents (Elt F) → (⟨S1x256, .f32⟩ : BufTy).Contents (Elt F)),
    reshape main_v61 main_v62 rfl shapeCasts_S1x256_S256,
    unary main_v62 main_v63 (broadcastInDim S1x256 ![1] bcast_S256_S1x256_1 : (⟨S256, .f32⟩ : BufTy).Contents (Elt F) → (⟨S1x256, .f32⟩ : BufTy).Contents (Elt F)),
    unary main_v63 main_v64 (broadcastInDim S50000x256 ![0, 1] bcast_S1x256_S50000x256_0_1 : (⟨S1x256, .f32⟩ : BufTy).Contents (Elt F) → (⟨S50000x256, .f32⟩ : BufTy).Contents (Elt F)),
    binary main_v60 main_v64 main_v65 (mulf : (⟨S50000x256, .f32⟩ : BufTy).Contents (Elt F) → (⟨S50000x256, .f32⟩ : BufTy).Contents (Elt F) → (⟨S50000x256, .f32⟩ : BufTy).Contents (Elt F)),
    unary main_arg5 main_v66 ((extractStridedSlice S1x256 ![0, 0] · slices_S3x256_S1x256_0_0) : (⟨S3x256, .f32⟩ : BufTy).Contents (Elt F) → (⟨S1x256, .f32⟩ : BufTy).Contents (Elt F)),
    reshape main_v66 main_v67 rfl shapeCasts_S1x256_S256,
    unary main_v67 main_v68 (broadcastInDim S1x256 ![1] bcast_S256_S1x256_1 : (⟨S256, .f32⟩ : BufTy).Contents (Elt F) → (⟨S1x256, .f32⟩ : BufTy).Contents (Elt F)),
    unary main_v68 main_v69 (broadcastInDim S50000x256 ![0, 1] bcast_S1x256_S50000x256_0_1 : (⟨S1x256, .f32⟩ : BufTy).Contents (Elt F) → (⟨S50000x256, .f32⟩ : BufTy).Contents (Elt F)),
    binary main_v65 main_v69 main_v70 (addf : (⟨S50000x256, .f32⟩ : BufTy).Contents (Elt F) → (⟨S50000x256, .f32⟩ : BufTy).Contents (Elt F) → (⟨S50000x256, .f32⟩ : BufTy).Contents (Elt F)) ]

/-- Hop 1's normalisation up to the broadcast of the shift row. -/
abbrev opsBn1a : List (HloOp τ sig (Elt F)) :=
  [ unary main_arg2 main_v71 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v71 main_v72 rfl shapeCasts_S1x256x256_S256x256,
    binary main_v22 main_v72 main_v73 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v74 ((extractStridedSlice S1x256 ![1, 0] · slices_S3x256_S1x256_1_0) : (⟨S3x256, .f32⟩ : BufTy).Contents (Elt F) → (⟨S1x256, .f32⟩ : BufTy).Contents (Elt F)),
    reshape main_v74 main_v75 rfl shapeCasts_S1x256_S256,
    unary main_v75 main_v76 (broadcastInDim S1x256 ![1] bcast_S256_S1x256_1 : (⟨S256, .f32⟩ : BufTy).Contents (Elt F) → (⟨S1x256, .f32⟩ : BufTy).Contents (Elt F)),
    unary main_v76 main_v77 (broadcastInDim S50000x256 ![0, 1] bcast_S1x256_S50000x256_0_1 : (⟨S1x256, .f32⟩ : BufTy).Contents (Elt F) → (⟨S50000x256, .f32⟩ : BufTy).Contents (Elt F)),
    binary main_v73 main_v77 main_v78 (addf : (⟨S50000x256, .f32⟩ : BufTy).Contents (Elt F) → (⟨S50000x256, .f32⟩ : BufTy).Contents (Elt F) → (⟨S50000x256, .f32⟩ : BufTy).Contents (Elt F)),
    nullary main_call3_cst (constant S_ .f32 0x00000000#32),
    unary main_call3_cst main_call3_v0 (broadcastInDim S50000x256 ![] bcast_S_S50000x256 : (⟨S_, .f32⟩ : BufTy).Contents (Elt F) → (⟨S50000x256, .f32⟩ : BufTy).Contents (Elt F)),
    binary main_v78 main_call3_v0 main_v79 (maximumf : (⟨S50000x256, .f32⟩ : BufTy).Contents (Elt F) → (⟨S50000x256, .f32⟩ : BufTy).Contents (Elt F) → (⟨S50000x256, .f32⟩ : BufTy).Contents (Elt F)),
    nullary main_cst_12 (constant S_ .f32 0x00000000#32),
    binary main_v79 main_cst_12 main_v80 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_13 (constant S_ .f32 0x47435000#32),
    unary main_cst_13 main_v81 (broadcastInDim S256 ![] bcast_S_S256 : (⟨S_, .f32⟩ : BufTy).Contents (Elt F) → (⟨S256, .f32⟩ : BufTy).Contents (Elt F)),
    binary main_v80 main_v81 main_v82 (Host.divf : (⟨S256, .f32⟩ : BufTy).Contents (Elt F) → (⟨S256, .f32⟩ : BufTy).Contents (Elt F) → (⟨S256, .f32⟩ : BufTy).Contents (Elt F)),
    nullary main_c_14 (constantI S_ 32 0#32),
    nullary main_call4_cst (constant S_ .f32 0x00000000#32),
    binary main_v79 main_call4_cst main_call4_v0 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call4_v0 main_call4_v1 (broadcastInDim S1x256 ![1] bcast_S256_S1x256_1 : (⟨S256, .f32⟩ : BufTy).Contents (Elt F) → (⟨S1x256, .f32⟩ : BufTy).Contents (Elt F)),
    nullary main_call4_cst_0 (constant S_ .f32 0x47435000#32),
    unary main_call4_cst_0 main_call4_v2 (broadcastInDim S1x256 ![] bcast_S_S1x256 : (⟨S_, .f32⟩ : BufTy).Contents (Elt F) → (⟨S1x256, .f32⟩ : BufTy).Contents (Elt F)),
    binary main_call4_v1 main_call4_v2 main_call4_v3 (Host.divf : (⟨S1x256, .f32⟩ : BufTy).Contents (Elt F) → (⟨S1x256, .f32⟩ : BufTy).Contents (Elt F) → (⟨S1x256, .f32⟩ : BufTy).Contents (Elt F)),
    unary main_call4_v3 main_call4_v4 (broadcastInDim S50000x256 ![0, 1] bcast_S1x256_S50000x256_0_1 : (⟨S1x256, .f32⟩ : BufTy).Contents (Elt F) → (⟨S50000x256, .f32⟩ : BufTy).Contents (Elt F)),
    binary main_v79 main_call4_v4 main_call4_v5 (subf : (⟨S50000x256, .f32⟩ : BufTy).Contents (Elt F) → (⟨S50000x256, .f32⟩ : BufTy).Contents (Elt F) → (⟨S50000x256, .f32⟩ : BufTy).Contents (Elt F)),
    binary main_call4_v5 main_call4_v5 main_call4_v6 (mulf : (⟨S50000x256, .f32⟩ : BufTy).Contents (Elt F) → (⟨S50000x256, .f32⟩ : BufTy).Contents (Elt F) → (⟨S50000x256, .f32⟩ : BufTy).Contents (Elt F)),
    unary main_c_14 main_call4_v7 (sitofp .f32 : (⟨S_, .i32⟩ : BufTy).Contents (Elt F) → (⟨S_, .f32⟩ : BufTy).Contents (Elt F)),
    nullary main_call4_cst_1 (constant S_ .f32 0x47435000#32),
    binary main_call4_cst_1 main_call4_v7 main_call4_v8 (subf : (⟨S_, .f32⟩ : BufTy).Contents (Elt F) → (⟨S_, .f32⟩ : BufTy).Contents (Elt F) → (⟨S_, .f32⟩ : BufTy).Contents (Elt F)),
    nullary main_call4_cst_2 (constant S_ .f32 0x00000000#32),
    binary main_call4_v6 main_call4_cst_2 main_call4_v9 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call4_v8 main_call4_v10 (broadcastInDim S256 ![] bcast_S_S256 : (⟨S_, .f32⟩ : BufTy).Contents (Elt F) → (⟨S256, .f32⟩ : BufTy).Contents (Elt F)),
    binary main_call4_v9 main_call4_v10 main_call4_v11 (Host.divf : (⟨S256, .f32⟩ : BufTy).Contents (Elt F) → (⟨S256, .f32⟩ : BufTy).Contents (Elt F) → (⟨S256, .f32⟩ : BufTy).Contents (Elt F)),
    nullary main_call4_cst_3 (constant S_ .f32 0x00000000#32),
    binary main_call4_v8 main_call4_cst_3 main_call4_v12 (cmpf .ogt : (⟨S_, .f32⟩ : BufTy).Contents (Elt F) → (⟨S_, .f32⟩ : BufTy).Contents (Elt F) → (⟨S_, .i1⟩ : BufTy).Contents (Elt F)),
    nullary main_call4_cst_4 (constant S_ .f32 0x7FC00000#32),
    unary main_call4_cst_4 main_call4_call0_v0 (id : (⟨S_, .f32⟩ : BufTy).Contents (Elt F) → (⟨S_, .f32⟩ : BufTy).Contents (Elt F)),
    unary main_call4_call0_v0 main_call4_call0_v1 (broadcastInDim S256 ![] bcast_S_S256 : (⟨S_, .f32⟩ : BufTy).Contents (Elt F) → (⟨S256, .f32⟩ : BufTy).Contents (Elt F)),
    ternary main_call4_v12 main_call4_v11 main_call4_call0_v1 main_v83 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)),
    unary main_v82 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v79 main_v85 main_v86 (subf : (⟨S50000x256, .f32⟩ : BufTy).Contents (Elt F) → (⟨S50000x256, .f32⟩ : BufTy).Contents (Elt F) → (⟨S50000x256, .f32⟩ : BufTy).Contents (Elt F)),
    nullary main_cst_15 (constant S_ .f32 0x3727C5AC#32),
    unary main_cst_15 main_v87 (broadcastInDim S256 ![] bcast_S_S256 : (⟨S_, .f32⟩ : BufTy).Contents (Elt F) → (⟨S256, .f32⟩ : BufTy).Contents (Elt F)),
    binary main_v83 main_v87 main_v88 (addf : (⟨S256, .f32⟩ : BufTy).Contents (Elt F) → (⟨S256, .f32⟩ : BufTy).Contents (Elt F) → (⟨S256, .f32⟩ : BufTy).Contents (Elt F)),
    unary main_v88 main_v89 (Host.sqrt : (⟨S256, .f32⟩ : BufTy).Contents (Elt F) → (⟨S256, .f32⟩ : BufTy).Contents (Elt F)),
    unary main_v89 main_v90 (broadcastInDim S1x256 ![1] bcast_S256_S1x256_1 : (⟨S256, .f32⟩ : BufTy).Contents (Elt F) → (⟨S1x256, .f32⟩ : BufTy).Contents (Elt F)),
    unary main_v90 main_v91 (broadcastInDim S50000x256 ![0, 1] bcast_S1x256_S50000x256_0_1 : (⟨S1x256, .f32⟩ : BufTy).Contents (Elt F) → (⟨S50000x256, .f32⟩ : BufTy).Contents (Elt F)),
    binary main_v86 main_v91 main_v92 (Host.divf : (⟨S50000x256, .f32⟩ : BufTy).Contents (Elt F) → (⟨S50000x256, .f32⟩ : BufTy).Contents (Elt F) → (⟨S50000x256, .f32⟩ : BufTy).Contents (Elt F)),
    unary main_arg4 main_v93 ((extractStridedSlice S1x256 ![1, 0] · slices_S3x256_S1x256_1_0) : (⟨S3x256, .f32⟩ : BufTy).Contents (Elt F) → (⟨S1x256, .f32⟩ : BufTy).Contents (Elt F)),
    reshape main_v93 main_v94 rfl shapeCasts_S1x256_S256,
    unary main_v94 main_v95 (broadcastInDim S1x256 ![1] bcast_S256_S1x256_1 : (⟨S256, .f32⟩ : BufTy).Contents (Elt F) → (⟨S1x256, .f32⟩ : BufTy).Contents (Elt F)),
    unary main_v95 main_v96 (broadcastInDim S50000x256 ![0, 1] bcast_S1x256_S50000x256_0_1 : (⟨S1x256, .f32⟩ : BufTy).Contents (Elt F) → (⟨S50000x256, .f32⟩ : BufTy).Contents (Elt F)),
    binary main_v92 main_v96 main_v97 (mulf : (⟨S50000x256, .f32⟩ : BufTy).Contents (Elt F) → (⟨S50000x256, .f32⟩ : BufTy).Contents (Elt F) → (⟨S50000x256, .f32⟩ : BufTy).Contents (Elt F)),
    unary main_arg5 main_v98 ((extractStridedSlice S1x256 ![1, 0] · slices_S3x256_S1x256_1_0) : (⟨S3x256, .f32⟩ : BufTy).Contents (Elt F) → (⟨S1x256, .f32⟩ : BufTy).Contents (Elt F)),
    reshape main_v98 main_v99 rfl shapeCasts_S1x256_S256,
    unary main_v99 main_v100 (broadcastInDim S1x256 ![1] bcast_S256_S1x256_1 : (⟨S256, .f32⟩ : BufTy).Contents (Elt F) → (⟨S1x256, .f32⟩ : BufTy).Contents (Elt F)),
    unary main_v100 main_v101 (broadcastInDim S50000x256 ![0, 1] bcast_S1x256_S50000x256_0_1 : (⟨S1x256, .f32⟩ : BufTy).Contents (Elt F) → (⟨S50000x256, .f32⟩ : BufTy).Contents (Elt F)) ]

/-- Hop 1's normalisation, last operation: the shift added. -/
abbrev opsBn1b : List (HloOp τ sig (Elt F)) :=
  [ binary main_v97 main_v101 main_v102 (addf : (⟨S50000x256, .f32⟩ : BufTy).Contents (Elt F) → (⟨S50000x256, .f32⟩ : BufTy).Contents (Elt F) → (⟨S50000x256, .f32⟩ : BufTy).Contents (Elt F)) ]

/-- Hop 2's normalisation. -/
abbrev opsBn2 : List (HloOp τ sig (Elt F)) :=
  [ unary main_arg2 main_v103 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v103 main_v104 rfl shapeCasts_S1x256x256_S256x256,
    binary main_v38 main_v104 main_v105 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v106 ((extractStridedSlice S1x256 ![2, 0] · slices_S3x256_S1x256_2_0) : (⟨S3x256, .f32⟩ : BufTy).Contents (Elt F) → (⟨S1x256, .f32⟩ : BufTy).Contents (Elt F)),
    reshape main_v106 main_v107 rfl shapeCasts_S1x256_S256,
    unary main_v107 main_v108 (broadcastInDim S1x256 ![1] bcast_S256_S1x256_1 : (⟨S256, .f32⟩ : BufTy).Contents (Elt F) → (⟨S1x256, .f32⟩ : BufTy).Contents (Elt F)),
    unary main_v108 main_v109 (broadcastInDim S50000x256 ![0, 1] bcast_S1x256_S50000x256_0_1 : (⟨S1x256, .f32⟩ : BufTy).Contents (Elt F) → (⟨S50000x256, .f32⟩ : BufTy).Contents (Elt F)),
    binary main_v105 main_v109 main_v110 (addf : (⟨S50000x256, .f32⟩ : BufTy).Contents (Elt F) → (⟨S50000x256, .f32⟩ : BufTy).Contents (Elt F) → (⟨S50000x256, .f32⟩ : BufTy).Contents (Elt F)),
    nullary main_call5_cst (constant S_ .f32 0x00000000#32),
    unary main_call5_cst main_call5_v0 (broadcastInDim S50000x256 ![] bcast_S_S50000x256 : (⟨S_, .f32⟩ : BufTy).Contents (Elt F) → (⟨S50000x256, .f32⟩ : BufTy).Contents (Elt F)),
    binary main_v110 main_call5_v0 main_v111 (maximumf : (⟨S50000x256, .f32⟩ : BufTy).Contents (Elt F) → (⟨S50000x256, .f32⟩ : BufTy).Contents (Elt F) → (⟨S50000x256, .f32⟩ : BufTy).Contents (Elt F)),
    nullary main_cst_16 (constant S_ .f32 0x00000000#32),
    binary main_v111 main_cst_16 main_v112 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_17 (constant S_ .f32 0x47435000#32),
    unary main_cst_17 main_v113 (broadcastInDim S256 ![] bcast_S_S256 : (⟨S_, .f32⟩ : BufTy).Contents (Elt F) → (⟨S256, .f32⟩ : BufTy).Contents (Elt F)),
    binary main_v112 main_v113 main_v114 (Host.divf : (⟨S256, .f32⟩ : BufTy).Contents (Elt F) → (⟨S256, .f32⟩ : BufTy).Contents (Elt F) → (⟨S256, .f32⟩ : BufTy).Contents (Elt F)),
    nullary main_c_18 (constantI S_ 32 0#32),
    nullary main_call6_cst (constant S_ .f32 0x00000000#32),
    binary main_v111 main_call6_cst main_call6_v0 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call6_v0 main_call6_v1 (broadcastInDim S1x256 ![1] bcast_S256_S1x256_1 : (⟨S256, .f32⟩ : BufTy).Contents (Elt F) → (⟨S1x256, .f32⟩ : BufTy).Contents (Elt F)),
    nullary main_call6_cst_0 (constant S_ .f32 0x47435000#32),
    unary main_call6_cst_0 main_call6_v2 (broadcastInDim S1x256 ![] bcast_S_S1x256 : (⟨S_, .f32⟩ : BufTy).Contents (Elt F) → (⟨S1x256, .f32⟩ : BufTy).Contents (Elt F)),
    binary main_call6_v1 main_call6_v2 main_call6_v3 (Host.divf : (⟨S1x256, .f32⟩ : BufTy).Contents (Elt F) → (⟨S1x256, .f32⟩ : BufTy).Contents (Elt F) → (⟨S1x256, .f32⟩ : BufTy).Contents (Elt F)),
    unary main_call6_v3 main_call6_v4 (broadcastInDim S50000x256 ![0, 1] bcast_S1x256_S50000x256_0_1 : (⟨S1x256, .f32⟩ : BufTy).Contents (Elt F) → (⟨S50000x256, .f32⟩ : BufTy).Contents (Elt F)),
    binary main_v111 main_call6_v4 main_call6_v5 (subf : (⟨S50000x256, .f32⟩ : BufTy).Contents (Elt F) → (⟨S50000x256, .f32⟩ : BufTy).Contents (Elt F) → (⟨S50000x256, .f32⟩ : BufTy).Contents (Elt F)),
    binary main_call6_v5 main_call6_v5 main_call6_v6 (mulf : (⟨S50000x256, .f32⟩ : BufTy).Contents (Elt F) → (⟨S50000x256, .f32⟩ : BufTy).Contents (Elt F) → (⟨S50000x256, .f32⟩ : BufTy).Contents (Elt F)),
    unary main_c_18 main_call6_v7 (sitofp .f32 : (⟨S_, .i32⟩ : BufTy).Contents (Elt F) → (⟨S_, .f32⟩ : BufTy).Contents (Elt F)),
    nullary main_call6_cst_1 (constant S_ .f32 0x47435000#32),
    binary main_call6_cst_1 main_call6_v7 main_call6_v8 (subf : (⟨S_, .f32⟩ : BufTy).Contents (Elt F) → (⟨S_, .f32⟩ : BufTy).Contents (Elt F) → (⟨S_, .f32⟩ : BufTy).Contents (Elt F)),
    nullary main_call6_cst_2 (constant S_ .f32 0x00000000#32),
    binary main_call6_v6 main_call6_cst_2 main_call6_v9 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call6_v8 main_call6_v10 (broadcastInDim S256 ![] bcast_S_S256 : (⟨S_, .f32⟩ : BufTy).Contents (Elt F) → (⟨S256, .f32⟩ : BufTy).Contents (Elt F)),
    binary main_call6_v9 main_call6_v10 main_call6_v11 (Host.divf : (⟨S256, .f32⟩ : BufTy).Contents (Elt F) → (⟨S256, .f32⟩ : BufTy).Contents (Elt F) → (⟨S256, .f32⟩ : BufTy).Contents (Elt F)),
    nullary main_call6_cst_3 (constant S_ .f32 0x00000000#32),
    binary main_call6_v8 main_call6_cst_3 main_call6_v12 (cmpf .ogt : (⟨S_, .f32⟩ : BufTy).Contents (Elt F) → (⟨S_, .f32⟩ : BufTy).Contents (Elt F) → (⟨S_, .i1⟩ : BufTy).Contents (Elt F)),
    nullary main_call6_cst_4 (constant S_ .f32 0x7FC00000#32),
    unary main_call6_cst_4 main_call6_call0_v0 (id : (⟨S_, .f32⟩ : BufTy).Contents (Elt F) → (⟨S_, .f32⟩ : BufTy).Contents (Elt F)),
    unary main_call6_call0_v0 main_call6_call0_v1 (broadcastInDim S256 ![] bcast_S_S256 : (⟨S_, .f32⟩ : BufTy).Contents (Elt F) → (⟨S256, .f32⟩ : BufTy).Contents (Elt F)),
    ternary main_call6_v12 main_call6_v11 main_call6_call0_v1 main_v115 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)),
    unary main_v114 main_v116 (broadcastInDim S1x256 ![1] bcast_S256_S1x256_1 : (⟨S256, .f32⟩ : BufTy).Contents (Elt F) → (⟨S1x256, .f32⟩ : BufTy).Contents (Elt F)),
    unary main_v116 main_v117 (broadcastInDim S50000x256 ![0, 1] bcast_S1x256_S50000x256_0_1 : (⟨S1x256, .f32⟩ : BufTy).Contents (Elt F) → (⟨S50000x256, .f32⟩ : BufTy).Contents (Elt F)),
    binary main_v111 main_v117 main_v118 (subf : (⟨S50000x256, .f32⟩ : BufTy).Contents (Elt F) → (⟨S50000x256, .f32⟩ : BufTy).Contents (Elt F) → (⟨S50000x256, .f32⟩ : BufTy).Contents (Elt F)),
    nullary main_cst_19 (constant S_ .f32 0x3727C5AC#32),
    unary main_cst_19 main_v119 (broadcastInDim S256 ![] bcast_S_S256 : (⟨S_, .f32⟩ : BufTy).Contents (Elt F) → (⟨S256, .f32⟩ : BufTy).Contents (Elt F)),
    binary main_v115 main_v119 main_v120 (addf : (⟨S256, .f32⟩ : BufTy).Contents (Elt F) → (⟨S256, .f32⟩ : BufTy).Contents (Elt F) → (⟨S256, .f32⟩ : BufTy).Contents (Elt F)),
    unary main_v120 main_v121 (Host.sqrt : (⟨S256, .f32⟩ : BufTy).Contents (Elt F) → (⟨S256, .f32⟩ : BufTy).Contents (Elt F)),
    unary main_v121 main_v122 (broadcastInDim S1x256 ![1] bcast_S256_S1x256_1 : (⟨S256, .f32⟩ : BufTy).Contents (Elt F) → (⟨S1x256, .f32⟩ : BufTy).Contents (Elt F)),
    unary main_v122 main_v123 (broadcastInDim S50000x256 ![0, 1] bcast_S1x256_S50000x256_0_1 : (⟨S1x256, .f32⟩ : BufTy).Contents (Elt F) → (⟨S50000x256, .f32⟩ : BufTy).Contents (Elt F)),
    binary main_v118 main_v123 main_v124 (Host.divf : (⟨S50000x256, .f32⟩ : BufTy).Contents (Elt F) → (⟨S50000x256, .f32⟩ : BufTy).Contents (Elt F) → (⟨S50000x256, .f32⟩ : BufTy).Contents (Elt F)),
    unary main_arg4 main_v125 ((extractStridedSlice S1x256 ![2, 0] · slices_S3x256_S1x256_2_0) : (⟨S3x256, .f32⟩ : BufTy).Contents (Elt F) → (⟨S1x256, .f32⟩ : BufTy).Contents (Elt F)),
    reshape main_v125 main_v126 rfl shapeCasts_S1x256_S256,
    unary main_v126 main_v127 (broadcastInDim S1x256 ![1] bcast_S256_S1x256_1 : (⟨S256, .f32⟩ : BufTy).Contents (Elt F) → (⟨S1x256, .f32⟩ : BufTy).Contents (Elt F)),
    unary main_v127 main_v128 (broadcastInDim S50000x256 ![0, 1] bcast_S1x256_S50000x256_0_1 : (⟨S1x256, .f32⟩ : BufTy).Contents (Elt F) → (⟨S50000x256, .f32⟩ : BufTy).Contents (Elt F)),
    binary main_v124 main_v128 main_v129 (mulf : (⟨S50000x256, .f32⟩ : BufTy).Contents (Elt F) → (⟨S50000x256, .f32⟩ : BufTy).Contents (Elt F) → (⟨S50000x256, .f32⟩ : BufTy).Contents (Elt F)),
    unary main_arg5 main_v130 ((extractStridedSlice S1x256 ![2, 0] · slices_S3x256_S1x256_2_0) : (⟨S3x256, .f32⟩ : BufTy).Contents (Elt F) → (⟨S1x256, .f32⟩ : BufTy).Contents (Elt F)),
    reshape main_v130 main_v131 rfl shapeCasts_S1x256_S256,
    unary main_v131 main_v132 (broadcastInDim S1x256 ![1] bcast_S256_S1x256_1 : (⟨S256, .f32⟩ : BufTy).Contents (Elt F) → (⟨S1x256, .f32⟩ : BufTy).Contents (Elt F)),
    unary main_v132 main_v133 (broadcastInDim S50000x256 ![0, 1] bcast_S1x256_S50000x256_0_1 : (⟨S1x256, .f32⟩ : BufTy).Contents (Elt F) → (⟨S50000x256, .f32⟩ : BufTy).Contents (Elt F)),
    binary main_v129 main_v133 main_v134 (addf : (⟨S50000x256, .f32⟩ : BufTy).Contents (Elt F) → (⟨S50000x256, .f32⟩ : BufTy).Contents (Elt F) → (⟨S50000x256, .f32⟩ : BufTy).Contents (Elt F)) ]

/-- The three normalised blocks side by side. -/
abbrev opsCat : List (HloOp τ sig (Elt F)) :=
  [ nary ![main_v70, main_v102, main_v134] main_v135 (fun u => concatenate S50000x768 1 [⟨S50000x256, u 0⟩, ⟨S50000x256, u 1⟩, ⟨S50000x256, u 2⟩] concatenates_S50000x256_S50000x256_S50000x256_S50000x768_d1) ]

/-- @main's first window of statements. -/
def opsP0 : List (HloOp τ sig (Elt F)) := opsDeg ++ (opsHop1 ++ (opsHop2 ++ opsBn0a))
/-- @main's second window of statements. -/
def opsP1 : List (HloOp τ sig (Elt F)) := opsBn0b ++ opsBn1a
/-- @main's third window of statements. -/
def opsP2 : List (HloOp τ sig (Elt F)) := opsBn1b ++ (opsBn2 ++ opsCat)
/-- @main's 229 operations, in order. -/
def ops : List (HloOp τ sig (Elt F)) := opsP0 ++ (opsP1 ++ opsP2)

end Cert.ReferenceIdeal.Hand

end
-- ==== Proof.RefRunMain.lean ====
import proofs.«115305_j43688407335088_2_alg».proof.Proof.RefRunOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The printed @main is the straight line of those operations: each window of statements, with the
    called functions' bodies unfolded at their calls, is the `seq` of its list by computation. -/

set_option maxRecDepth 16384 in
set_option maxHeartbeats 4000000 in
theorem main_part0_eq (c : Dev nD) : main_part0 (F := F) c = seq opsP0 := rfl
set_option maxRecDepth 16384 in
set_option maxHeartbeats 4000000 in
theorem main_part1_eq (c : Dev nD) : main_part1 (F := F) c = seq opsP1 := rfl
set_option maxRecDepth 16384 in
set_option maxHeartbeats 4000000 in
theorem main_part2_eq (c : Dev nD) : main_part2 (F := F) c = seq opsP2 := rfl

/-- @main is the straight line of its 229 operations. -/
theorem main_eq (c : Dev nD) : main (F := F) c = seq ops := by
  unfold ops
  rw [seq_append, seq_append, ← main_part0_eq c, ← main_part1_eq c, ← main_part2_eq c]
  rfl

end Cert.ReferenceIdeal.Hand

end
-- ==== Proof.RefRunLib.lean ====
import Idealize.ShloMosaic.Lib.StableHlo.Run

noncomputable section

namespace Cert.ReferenceIdeal.Hand

open Idealize.ShloMosaic Idealize.SL.Sem Idealize.ShloMosaic.StableHlo

variable {τ₀ : Topo} {sig₀ : RefSig} {Val : EltTy → Type}

/-- The contents after two lines run one after the other: the second line's fold over the first's. -/
theorem after_app : ∀ (l₁ l₂ : List (HloOp τ₀ sig₀ Val)) (V : Valuation τ₀ sig₀ Val),
    after (l₁ ++ l₂) V = after l₂ (after l₁ V)
  | [], _, _ => rfl
  | op :: l₁, l₂, V => by rw [List.cons_append, after_cons, after_cons, after_app l₁ l₂]

/-- An operation whose one written buffer is in the list writes within the list. -/
theorem ws {op : HloOp τ₀ sig₀ Val} (y : Ref sig₀ .tc) {W : List (Ref sig₀ .tc)}
    (hw : op.writes = {Proc.devRef .tc y}) (h : y ∈ W) :
    op.writes ⊆ (W.map (Proc.devRef (τ := τ₀) .tc)).toFinset := by
  rw [hw, Finset.singleton_subset_iff, List.mem_toFinset]
  exact List.mem_map_of_mem h

/-- A property of every element of two lists holds of every element of their concatenation. -/
theorem forall_app {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- A line writing within one list writes within a longer one. -/
theorem writes_mono {l : List (HloOp τ₀ sig₀ Val)} {W W' : List (Ref sig₀ .tc)} (hW : ∀ r ∈ W, r ∈ W')
    (h : l.Forall fun op => op.writes ⊆ (W.map (Proc.devRef (τ := τ₀) .tc)).toFinset) :
    l.Forall fun op => op.writes ⊆ (W'.map (Proc.devRef (τ := τ₀) .tc)).toFinset :=
  List.forall_iff_forall_mem.mpr fun op hop b hb => by
    obtain ⟨y, hy, he⟩ := List.mem_map.mp (List.mem_toFinset.mp (List.forall_iff_forall_mem.mp h op hop hb))
    exact List.mem_toFinset.mpr (List.mem_map.mpr ⟨y, hW y hy, he⟩)

end Cert.ReferenceIdeal.Hand

end
-- ==== Proof.RefRunSide.lean ====
import proofs.«115305_j43688407335088_2_alg».proof.Proof.RefRunOps
import proofs.«115305_j43688407335088_2_alg».proof.Proof.RefRunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The side conditions of the run: the signature scopes no buffer and no semaphore, every operation touches
    TensorCore references only, and every operation determines its results. -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsDeg_sub : (opsDeg : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub ..⟩
set_option maxRecDepth 8192 in
theorem opsDeg_fresh : (opsDeg : List (HloOp τ sig (Elt F))).Forall fun op => op.fresh = ∅ :=
  ⟨rfl, rfl, rfl, rfl, rfl, rfl, rfl, rfl, rfl, rfl, rfl, rfl, rfl⟩

set_option maxRecDepth 8192 in
theorem opsHop1_sub : (opsHop1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsHop1_fresh : (opsHop1 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem opsHop2_sub : (opsHop2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsHop2_fresh : (opsHop2 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem opsBn0a_sub : (opsBn0a : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub ..⟩
set_option maxRecDepth 8192 in
theorem opsBn0a_fresh : (opsBn0a : List (HloOp τ sig (Elt F))).Forall fun op => op.fresh = ∅ :=
  ⟨rfl, rfl, rfl, rfl, rfl, rfl, rfl, rfl, rfl, rfl, rfl, rfl, rfl⟩

set_option maxRecDepth 8192 in
theorem opsBn0b_sub : (opsBn0b : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
set_option maxRecDepth 8192 in
theorem opsBn0b_fresh : (opsBn0b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsBn1a_sub : (opsBn1a : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub ..⟩
set_option maxRecDepth 8192 in
theorem opsBn1a_fresh : (opsBn1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsBn1b_sub : (opsBn1b : List (HloOp τ sig (Elt F))).Forall fun op => op.bufs ⊆ tcRefs τ sig :=
  binary_bufs_sub ..
set_option maxRecDepth 8192 in
theorem opsBn1b_fresh : (opsBn1b : List (HloOp τ sig (Elt F))).Forall fun op => op.fresh = ∅ :=
  rfl

set_option maxRecDepth 8192 in
theorem opsBn2_sub : (opsBn2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
set_option maxRecDepth 8192 in
theorem opsBn2_fresh : (opsBn2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsCat_sub : (opsCat : List (HloOp τ sig (Elt F))).Forall fun op => op.bufs ⊆ tcRefs τ sig :=
  nary_bufs_sub ..
set_option maxRecDepth 8192 in
theorem opsCat_fresh : (opsCat : List (HloOp τ sig (Elt F))).Forall fun op => op.fresh = ∅ :=
  rfl

/-- Every operation of @main touches TensorCore references only. -/
theorem ops_sub : (ops : List (HloOp τ sig (Elt F))).Forall fun op => op.bufs ⊆ tcRefs τ sig := by
  unfold ops opsP0 opsP1 opsP2
  exact forall_app (forall_app opsDeg_sub (forall_app opsHop1_sub (forall_app opsHop2_sub opsBn0a_sub)))
    (forall_app (forall_app opsBn0b_sub opsBn1a_sub) (forall_app opsBn1b_sub (forall_app opsBn2_sub opsCat_sub)))

/-- No operation of @main leaves its result to be chosen. -/
theorem ops_fresh : ∀ op ∈ (ops : List (HloOp τ sig (Elt F))), op.fresh = ∅ := by
  unfold ops opsP0 opsP1 opsP2
  exact List.forall_iff_forall_mem.mp (forall_app (forall_app opsDeg_fresh (forall_app opsHop1_fresh (forall_app opsHop2_fresh opsBn0a_fresh)))
    (forall_app (forall_app opsBn0b_fresh opsBn1a_fresh) (forall_app opsBn1b_fresh (forall_app opsBn2_fresh opsCat_fresh))))

end Cert.ReferenceIdeal.Hand

end
-- ==== Proof.RefRunDefs.lean ====
import proofs.«115305_j43688407335088_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's value as a pure term of its eight argument arrays, cut into named pieces:
    the in-degree and its clipped reciprocal, the two hops, the normalisation of one block, the
    concatenation. Each piece is the composition of the printed host operations, in their order. -/

/-- The in-degree of every node: ones, one per edge, added into zeros at the edge's destination. -/
def deg (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- One over the in-degree clipped below at one. -/
def dIn (dst : (⟨S800000, .i32⟩ : BufTy).Contents (Elt F)) : (⟨S50000, .f32⟩ : BufTy).Contents (Elt F) :=
  Host.divf (broadcastInDim S50000 ![] bcast_S_S50000 (constant S_ .f32 0x3F800000#32))
    (maximumf (broadcastInDim S50000 ![] bcast_S_S50000 (constant S_ .f32 0x3F800000#32)) (deg dst))

/-- The source index of every edge, a negative one counted from the end. -/
def wrapSrc (src : (⟨S800000, .i32⟩ : BufTy).Contents (Elt F)) : (⟨S800000, .i32⟩ : BufTy).Contents (Elt F) :=
  select (cmpi .slt src (broadcastInDim S800000 ![] bcast_S_S800000 (constantI S_ 32 0#32)))
    (addi src (broadcastInDim S800000 ![] bcast_S_S800000 (constantI S_ 32 50000#32))) src

/-- One hop over features `h`: the source rows gathered, each times its edge's weight, added at the
    edge's destination, each node's sum times `dinv` of the node. -/
def hopStep (h : (⟨S50000x256, .f32⟩ : BufTy).Contents (Elt F)) (w : (⟨S800000, .f32⟩ : BufTy).Contents (Elt F)) (src dst : (⟨S800000, .i32⟩ : BufTy).Contents (Elt F)) (dinv : (⟨S50000, .f32⟩ : BufTy).Contents (Elt F)) : (⟨S50000x256, .f32⟩ : BufTy).Contents (Elt F) :=
  mulf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (mulf
        (Host.gather gather_S50000x256_S800000x1_S800000x256_1_0_n_n_0_1_1256 h
          (broadcastInDim S800000x1 ![0] bcast_S800000_S800000x1_0 (wrapSrc src)))
        (broadcastInDim S800000x256 ![0, 1] bcast_S800000x1_S800000x256_0_1
          (broadcastInDim S800000x1 ![0] bcast_S800000_S800000x1_0 w))))
    (broadcastInDim S50000x256 ![0, 1] bcast_S50000x1_S50000x256_0_1
      (broadcastInDim S50000x1 ![0] bcast_S50000_S50000x1_0 dinv))

/-- The features after one hop. -/
def hop1 (x : (⟨S50000x256, .f32⟩ : BufTy).Contents (Elt F)) (w : (⟨S800000, .f32⟩ : BufTy).Contents (Elt F)) (src dst : (⟨S800000, .i32⟩ : BufTy).Contents (Elt F)) : (⟨S50000x256, .f32⟩ : BufTy).Contents (Elt F) :=
  hopStep x w src dst (dIn dst)

/-- The features after two hops. -/
def hop2 (x : (⟨S50000x256, .f32⟩ : BufTy).Contents (Elt F)) (w : (⟨S800000, .f32⟩ : BufTy).Contents (Elt F)) (src dst : (⟨S800000, .i32⟩ : BufTy).Contents (Elt F)) : (⟨S50000x256, .f32⟩ : BufTy).Contents (Elt F) :=
  hopStep (hop1 x w src dst) w src dst (dIn dst)

/-- A row of 256 repeated down the 50000 rows. -/
def bcastRow (r : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 r)

/-- The rectified affine image of the features: `max (ft · W + b) 0`. -/
def linRelu (ft : (⟨S50000x256, .f32⟩ : BufTy).Contents (Elt F)) (Wi : (⟨S256x256, .f32⟩ : BufTy).Contents (Elt F)) (bi : (⟨S256, .f32⟩ : BufTy).Contents (Elt F)) : (⟨S50000x256, .f32⟩ : BufTy).Contents (Elt F) :=
  maximumf (addf (Host.dotGeneral dot_S50000x256_S256x256_S50000x256_1_0_0_1_n_n none ft Wi) (bcastRow bi))
    (broadcastInDim S50000x256 ![] bcast_S_S50000x256 (constant S_ .f32 0x00000000#32))

/-- The sum of every column over the 50000 rows. -/
def colSum (h : (⟨S50000x256, .f32⟩ : BufTy).Contents (Elt F)) : (⟨S256, .f32⟩ : BufTy).Contents (Elt F) :=
  Host.reduceAdd h (constant S_ .f32 0x00000000#32) reducesTo_S50000x256_S256_d0 h_S_

/-- The mean of every column: its sum over 50000. -/
def colMean (h : (⟨S50000x256, .f32⟩ : BufTy).Contents (Elt F)) : (⟨S256, .f32⟩ : BufTy).Contents (Elt F) :=
  Host.divf (colSum h) (broadcastInDim S256 ![] bcast_S_S256 (constant S_ .f32 0x47435000#32))

/-- The features less their column means, as the variance computes them (the mean taken in a row of one). -/
def varCentre (h : (⟨S50000x256, .f32⟩ : BufTy).Contents (Elt F)) : (⟨S50000x256, .f32⟩ : BufTy).Contents (Elt F) :=
  subf h (broadcastInDim S50000x256 ![0, 1] bcast_S1x256_S50000x256_0_1
    (Host.divf (broadcastInDim S1x256 ![1] bcast_S256_S1x256_1 (colSum h))
      (broadcastInDim S1x256 ![] bcast_S_S1x256 (constant S_ .f32 0x47435000#32))))

/-- The variance's divisor: the row count less the degrees of freedom taken off, here none. -/
def varCount : (⟨S_, .f32⟩ : BufTy).Contents (Elt F) :=
  subf (constant S_ .f32 0x47435000#32) (sitofp .f32 (constantI S_ 32 0#32))

/-- The biased variance of every column: the mean square of the centred features where the divisor is
    positive, the not-a-number constant otherwise. -/
def colVar (h : (⟨S50000x256, .f32⟩ : BufTy).Contents (Elt F)) : (⟨S256, .f32⟩ : BufTy).Contents (Elt F) :=
  select (broadcastInDim S256 ![] bcast_S_S256 (cmpf .ogt (varCount (F := F)) (constant S_ .f32 0x00000000#32)))
    (Host.divf (colSum (mulf (varCentre h) (varCentre h))) (broadcastInDim S256 ![] bcast_S_S256 (varCount (F := F))))
    (broadcastInDim S256 ![] bcast_S_S256 (constant S_ .f32 0x7FC00000#32))

/-- One block of the output: the rectified affine image of the features, batch-normalised over the
    rows — less its column mean, over the root of its column variance plus epsilon, times gamma,
    plus beta. -/
def bnRef (ft : (⟨S50000x256, .f32⟩ : BufTy).Contents (Elt F)) (Wi : (⟨S256x256, .f32⟩ : BufTy).Contents (Elt F)) (bi gi βi : (⟨S256, .f32⟩ : BufTy).Contents (Elt F)) : (⟨S50000x256, .f32⟩ : BufTy).Contents (Elt F) :=
  addf
    (mulf
      (Host.divf (subf (linRelu ft Wi bi) (bcastRow (colMean (linRelu ft Wi bi))))
        (bcastRow (Host.sqrt (addf (colVar (linRelu ft Wi bi))
          (broadcastInDim S256 ![] bcast_S_S256 (constant S_ .f32 0x3727C5AC#32))))))
      (bcastRow gi))
    (bcastRow βi)

/-- Layer 0 of the weights, as a matrix. -/
def sliceW0 (Wt : (⟨S3x256x256, .f32⟩ : BufTy).Contents (Elt F)) : (⟨S256x256, .f32⟩ : BufTy).Contents (Elt F) :=
  shapeCast S256x256 (extractStridedSlice S1x256x256 ![0, 0, 0] Wt slices_S3x256x256_S1x256x256_0_0_0) shapeCasts_S1x256x256_S256x256

/-- Row 0 of a table of three rows. -/
def row0 (t : (⟨S3x256, .f32⟩ : BufTy).Contents (Elt F)) : (⟨S256, .f32⟩ : BufTy).Contents (Elt F) :=
  shapeCast S256 (extractStridedSlice S1x256 ![0, 0] t slices_S3x256_S1x256_0_0) shapeCasts_S1x256_S256

/-- Layer 1 of the weights, as a matrix. -/
def sliceW1 (Wt : (⟨S3x256x256, .f32⟩ : BufTy).Contents (Elt F)) : (⟨S256x256, .f32⟩ : BufTy).Contents (Elt F) :=
  shapeCast S256x256 (extractStridedSlice S1x256x256 ![1, 0, 0] Wt slices_S3x256x256_S1x256x256_1_0_0) shapeCasts_S1x256x256_S256x256

/-- Row 1 of a table of three rows. -/
def row1 (t : (⟨S3x256, .f32⟩ : BufTy).Contents (Elt F)) : (⟨S256, .f32⟩ : BufTy).Contents (Elt F) :=
  shapeCast S256 (extractStridedSlice S1x256 ![1, 0] t slices_S3x256_S1x256_1_0) shapeCasts_S1x256_S256

/-- Layer 2 of the weights, as a matrix. -/
def sliceW2 (Wt : (⟨S3x256x256, .f32⟩ : BufTy).Contents (Elt F)) : (⟨S256x256, .f32⟩ : BufTy).Contents (Elt F) :=
  shapeCast S256x256 (extractStridedSlice S1x256x256 ![2, 0, 0] Wt slices_S3x256x256_S1x256x256_2_0_0) shapeCasts_S1x256x256_S256x256

/-- Row 2 of a table of three rows. -/
def row2 (t : (⟨S3x256, .f32⟩ : BufTy).Contents (Elt F)) : (⟨S256, .f32⟩ : BufTy).Contents (Elt F) :=
  shapeCast S256 (extractStridedSlice S1x256 ![2, 0] t slices_S3x256_S1x256_2_0) shapeCasts_S1x256_S256

/-- The three blocks side by side. -/
def catBlocks (a b c : (⟨S50000x256, .f32⟩ : BufTy).Contents (Elt F)) : (⟨S50000x768, .f32⟩ : BufTy).Contents (Elt F) :=
  concatenate S50000x768 1 [⟨S50000x256, a⟩, ⟨S50000x256, b⟩, ⟨S50000x256, c⟩]
    concatenates_S50000x256_S50000x256_S50000x256_S50000x768_d1

/-- The reference's result as a term of its arguments `x, w, W, b, gamma, beta, src, dst`. -/
def refVal (x : (⟨S50000x256, .f32⟩ : BufTy).Contents (Elt F)) (w : (⟨S800000, .f32⟩ : BufTy).Contents (Elt F)) (Wt : (⟨S3x256x256, .f32⟩ : BufTy).Contents (Elt F)) (b g β : (⟨S3x256, .f32⟩ : BufTy).Contents (Elt F))
    (src dst : (⟨S800000, .i32⟩ : BufTy).Contents (Elt F)) : (⟨S50000x768, .f32⟩ : BufTy).Contents (Elt F) :=
  catBlocks
    (bnRef x (sliceW0 Wt) (row0 b) (row0 g) (row0 β))
    (bnRef (hop1 x w src dst) (sliceW1 Wt) (row1 b) (row1 g) (row1 β))
    (bnRef (hop2 x w src dst) (sliceW2 Wt) (row2 b) (row2 g) (row2 β))

end Cert.ReferenceIdeal.Hand

end
-- ==== Proof.RefRunDeg.lean ====
import proofs.«115305_j43688407335088_2_alg».proof.Proof.RefRunOps
import proofs.«115305_j43688407335088_2_alg».proof.Proof.RefRunDefs
import proofs.«115305_j43688407335088_2_alg».proof.Proof.RefRunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The in-degree operations: what they leave in the reciprocal's buffer, and that they write nothing else of interest. -/

/-- The buffers these operations write. -/
abbrev deg_W : List (Ref sig .tc) :=
  [main_cst, main_v0, main_cst_0, main_v1, main_v2, main_v3, main_cst_1, main_call0_v0, main_call0_v1, main_v4, main_cst_2, main_v5, main_v6]

set_option maxRecDepth 8192 in
theorem deg_writes : (opsDeg : List (HloOp τ sig (Elt F))).Forall fun op => op.writes ⊆ (deg_W.map (Proc.devRef (τ := τ) .tc)).toFinset :=
  ⟨ws main_cst rfl (by decide), ws main_v0 rfl (by decide), ws main_cst_0 rfl (by decide), ws main_v1 rfl (by decide), ws main_v2 rfl (by decide), ws main_v3 rfl (by decide), ws main_cst_1 rfl (by decide), ws main_call0_v0 rfl (by decide), ws main_call0_v1 rfl (by decide), ws main_v4 rfl (by decide), ws main_cst_2 rfl (by decide), ws main_v5 rfl (by decide), ws main_v6 rfl (by decide)⟩

/-- A buffer these operations do not write keeps its contents through them. -/
theorem deg_keep (W : Valuation τ sig (Elt F)) (r : Ref sig .tc) (h : r ∉ deg_W) :
    after (opsDeg : List (HloOp τ sig (Elt F))) W (Proc.devRef .tc r) = W (Proc.devRef .tc r) :=
  after_of_writes_sub _ _ deg_writes h

set_option maxRecDepth 8192 in
/-- After the in-degree operations the reciprocal's buffer holds `dIn` of the destinations. -/
theorem deg_val (W : Valuation τ sig (Elt F)) :
    after (opsDeg : List (HloOp τ sig (Elt F))) W (Proc.devRef .tc main_v6) = dIn (W (Proc.devRef .tc main_arg7)) := by
  unfold dIn deg
  simp only [opsDeg]
  after_results_simp
  all_goals rfl

end Cert.ReferenceIdeal.Hand

end
-- ==== Proof.RefRunHop1.lean ====
import proofs.«115305_j43688407335088_2_alg».proof.Proof.RefRunOps
import proofs.«115305_j43688407335088_2_alg».proof.Proof.RefRunDefs
import proofs.«115305_j43688407335088_2_alg».proof.Proof.RefRunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Hop 1's operations: what they leave in the hop's result buffer, as `hopStep` of what they read. -/

/-- The buffers these operations write. -/
abbrev hop1_W : List (Ref sig .tc) :=
  [main_c, main_v7, main_v8, main_c_3, main_v9, main_v10, main_v11, main_v12, main_v13, main_v14, main_v15, main_v16, main_cst_4, main_v17, main_v18, main_v19, main_v20, main_v21, main_v22]

set_option maxRecDepth 8192 in
theorem hop1_writes : (opsHop1 : List (HloOp τ sig (Elt F))).Forall fun op => op.writes ⊆ (hop1_W.map (Proc.devRef (τ := τ) .tc)).toFinset :=
  ⟨ws main_c rfl (by decide), ws main_v7 rfl (by decide), ws main_v8 rfl (by decide), ws main_c_3 rfl (by decide), ws main_v9 rfl (by decide), ws main_v10 rfl (by decide), ws main_v11 rfl (by decide), ws main_v12 rfl (by decide), ws main_v13 rfl (by decide), ws main_v14 rfl (by decide), ws main_v15 rfl (by decide), ws main_v16 rfl (by decide), ws main_cst_4 rfl (by decide), ws main_v17 rfl (by decide), ws main_v18 rfl (by decide), ws main_v19 rfl (by decide), ws main_v20 rfl (by decide), ws main_v21 rfl (by decide), ws main_v22 rfl (by decide)⟩

/-- A buffer these operations do not write keeps its contents through them. -/
theorem hop1_keep (W : Valuation τ sig (Elt F)) (r : Ref sig .tc) (h : r ∉ hop1_W) :
    after (opsHop1 : List (HloOp τ sig (Elt F))) W (Proc.devRef .tc r) = W (Proc.devRef .tc r) :=
  after_of_writes_sub _ _ hop1_writes h

set_option maxRecDepth 8192 in
/-- After hop 1's operations its result buffer holds `hopStep` of the features read, the weights, the
    two index arrays and the reciprocal in-degree. -/
theorem hop1_val (W : Valuation τ sig (Elt F)) :
    after (opsHop1 : List (HloOp τ sig (Elt F))) W (Proc.devRef .tc main_v22)
      = hopStep (W (Proc.devRef .tc main_arg0)) (W (Proc.devRef .tc main_arg1)) (W (Proc.devRef .tc main_arg6))
          (W (Proc.devRef .tc main_arg7)) (W (Proc.devRef .tc main_v6)) := by
  unfold hopStep wrapSrc
  simp only [opsHop1]
  after_results_simp
  all_goals rfl

end Cert.ReferenceIdeal.Hand

end
-- ==== Proof.RefRunHop2.lean ====
import proofs.«115305_j43688407335088_2_alg».proof.Proof.RefRunOps
import proofs.«115305_j43688407335088_2_alg».proof.Proof.RefRunDefs
import proofs.«115305_j43688407335088_2_alg».proof.Proof.RefRunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Hop 2's operations: what they leave in the hop's result buffer, as `hopStep` of what they read. -/

/-- The buffers these operations write. -/
abbrev hop2_W : List (Ref sig .tc) :=
  [main_c_5, main_v23, main_v24, main_c_6, main_v25, main_v26, main_v27, main_v28, main_v29, main_v30, main_v31, main_v32, main_cst_7, main_v33, main_v34, main_v35, main_v36, main_v37, main_v38]

set_option maxRecDepth 8192 in
theorem hop2_writes : (opsHop2 : List (HloOp τ sig (Elt F))).Forall fun op => op.writes ⊆ (hop2_W.map (Proc.devRef (τ := τ) .tc)).toFinset :=
  ⟨ws main_c_5 rfl (by decide), ws main_v23 rfl (by decide), ws main_v24 rfl (by decide), ws main_c_6 rfl (by decide), ws main_v25 rfl (by decide), ws main_v26 rfl (by decide), ws main_v27 rfl (by decide), ws main_v28 rfl (by decide), ws main_v29 rfl (by decide), ws main_v30 rfl (by decide), ws main_v31 rfl (by decide), ws main_v32 rfl (by decide), ws main_cst_7 rfl (by decide), ws main_v33 rfl (by decide), ws main_v34 rfl (by decide), ws main_v35 rfl (by decide), ws main_v36 rfl (by decide), ws main_v37 rfl (by decide), ws main_v38 rfl (by decide)⟩

/-- A buffer these operations do not write keeps its contents through them. -/
theorem hop2_keep (W : Valuation τ sig (Elt F)) (r : Ref sig .tc) (h : r ∉ hop2_W) :
    after (opsHop2 : List (HloOp τ sig (Elt F))) W (Proc.devRef .tc r) = W (Proc.devRef .tc r) :=
  after_of_writes_sub _ _ hop2_writes h

set_option maxRecDepth 8192 in
/-- After hop 2's operations its result buffer holds `hopStep` of the features read, the weights, the
    two index arrays and the reciprocal in-degree. -/
theorem hop2_val (W : Valuation τ sig (Elt F)) :
    after (opsHop2 : List (HloOp τ sig (Elt F))) W (Proc.devRef .tc main_v38)
      = hopStep (W (Proc.devRef .tc main_v22)) (W (Proc.devRef .tc main_arg1)) (W (Proc.devRef .tc main_arg6))
          (W (Proc.devRef .tc main_arg7)) (W (Proc.devRef .tc main_v6)) := by
  unfold hopStep wrapSrc
  simp only [opsHop2]
  after_results_simp
  all_goals rfl

end Cert.ReferenceIdeal.Hand

end
-- ==== Proof.RefRunBn0.lean ====
import proofs.«115305_j43688407335088_2_alg».proof.Proof.RefRunOps
import proofs.«115305_j43688407335088_2_alg».proof.Proof.RefRunDefs
import proofs.«115305_j43688407335088_2_alg».proof.Proof.RefRunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Block 0's normalisation: what its operations leave in the block's buffer, as `bnRef` of the features read and layer 0's weights, bias, scale and shift. -/

/-- The buffers these operations write. -/
abbrev bn0_W : List (Ref sig .tc) :=
  [main_v39, main_v40, main_v41, main_v42, main_v43, main_v44, main_v45, main_v46, main_call1_cst, main_call1_v0, main_v47, main_cst_8, main_v48, main_cst_9, main_v49, main_v50, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51, main_v52, main_v53, main_v54, main_cst_11, main_v55, main_v56, main_v57, main_v58, main_v59, main_v60, main_v61, main_v62, main_v63, main_v64, main_v65, main_v66, main_v67, main_v68, main_v69, main_v70]

set_option maxRecDepth 8192 in
theorem bn0_writes0 : (opsBn0a : List (HloOp τ sig (Elt F))).Forall fun op => op.writes ⊆ (bn0_W.map (Proc.devRef (τ := τ) .tc)).toFinset :=
  ⟨ws main_v39 rfl (by decide), ws main_v40 rfl (by decide), ws main_v41 rfl (by decide), ws main_v42 rfl (by decide), ws main_v43 rfl (by decide), ws main_v44 rfl (by decide), ws main_v45 rfl (by decide), ws main_v46 rfl (by decide), ws main_call1_cst rfl (by decide), ws main_call1_v0 rfl (by decide), ws main_v47 rfl (by decide), ws main_cst_8 rfl (by decide), ws main_v48 rfl (by decide)⟩

set_option maxRecDepth 8192 in
theorem bn0_writes1 : (opsBn0b : List (HloOp τ sig (Elt F))).Forall fun op => op.writes ⊆ (bn0_W.map (Proc.devRef (τ := τ) .tc)).toFinset :=
  ⟨ws main_cst_9 rfl (by decide), ws main_v49 rfl (by decide), ws main_v50 rfl (by decide), ws main_c_10 rfl (by decide), ws main_call2_cst rfl (by decide), ws main_call2_v0 rfl (by decide), ws main_call2_v1 rfl (by decide), ws main_call2_cst_0 rfl (by decide), ws main_call2_v2 rfl (by decide), ws main_call2_v3 rfl (by decide), ws main_call2_v4 rfl (by decide), ws main_call2_v5 rfl (by decide), ws main_call2_v6 rfl (by decide), ws main_call2_v7 rfl (by decide), ws main_call2_cst_1 rfl (by decide), ws main_call2_v8 rfl (by decide), ws main_call2_cst_2 rfl (by decide), ws main_call2_v9 rfl (by decide), ws main_call2_v10 rfl (by decide), ws main_call2_v11 rfl (by decide), ws main_call2_cst_3 rfl (by decide), ws main_call2_v12 rfl (by decide), ws main_call2_cst_4 rfl (by decide), ws main_call2_call0_v0 rfl (by decide), ws main_call2_call0_v1 rfl (by decide), ws main_v51 rfl (by decide), ws main_v52 rfl (by decide), ws main_v53 rfl (by decide), ws main_v54 rfl (by decide), ws main_cst_11 rfl (by decide), ws main_v55 rfl (by decide), ws main_v56 rfl (by decide), ws main_v57 rfl (by decide), ws main_v58 rfl (by decide), ws main_v59 rfl (by decide), ws main_v60 rfl (by decide), ws main_v61 rfl (by decide), ws main_v62 rfl (by decide), ws main_v63 rfl (by decide), ws main_v64 rfl (by decide), ws main_v65 rfl (by decide), ws main_v66 rfl (by decide), ws main_v67 rfl (by decide), ws main_v68 rfl (by decide), ws main_v69 rfl (by decide), ws main_v70 rfl (by decide)⟩

theorem bn0_writes : (opsBn0a ++ opsBn0b : List (HloOp τ sig (Elt F))).Forall fun op => op.writes ⊆ (bn0_W.map (Proc.devRef (τ := τ) .tc)).toFinset :=
  forall_app bn0_writes0 (bn0_writes1)

/-- A buffer these operations do not write keeps its contents through them. -/
theorem bn0_keep (W : Valuation τ sig (Elt F)) (r : Ref sig .tc) (h : r ∉ bn0_W) :
    after (opsBn0a ++ opsBn0b : List (HloOp τ sig (Elt F))) W (Proc.devRef .tc r) = W (Proc.devRef .tc r) :=
  after_of_writes_sub _ _ bn0_writes h

set_option maxRecDepth 16384 in
set_option maxHeartbeats 4000000 in
/-- After block 0's operations its buffer holds `bnRef` of the features read and row 0 of each parameter. -/
theorem bn0_val (W : Valuation τ sig (Elt F)) :
    after (opsBn0a ++ opsBn0b : List (HloOp τ sig (Elt F))) W (Proc.devRef .tc main_v70)
      = bnRef (W (Proc.devRef .tc main_arg0)) (sliceW0 (W (Proc.devRef .tc main_arg2))) (row0 (W (Proc.devRef .tc main_arg3)))
          (row0 (W (Proc.devRef .tc main_arg4))) (row0 (W (Proc.devRef .tc main_arg5))) := by
  unfold bnRef colMean colVar varCentre varCount colSum linRelu bcastRow sliceW0 row0
  simp only [opsBn0a, opsBn0b, List.cons_append, List.nil_append]
  after_results_simp
  all_goals rfl

end Cert.ReferenceIdeal.Hand

end
-- ==== Proof.RefRunBn1.lean ====
import proofs.«115305_j43688407335088_2_alg».proof.Proof.RefRunOps
import proofs.«115305_j43688407335088_2_alg».proof.Proof.RefRunDefs
import proofs.«115305_j43688407335088_2_alg».proof.Proof.RefRunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Block 1's normalisation: what its operations leave in the block's buffer, as `bnRef` of the features read and layer 1's weights, bias, scale and shift. -/

/-- The buffers these operations write. -/
abbrev bn1_W : List (Ref sig .tc) :=
  [main_v71, main_v72, main_v73, main_v74, main_v75, main_v76, main_v77, main_v78, main_call3_cst, main_call3_v0, main_v79, main_cst_12, main_v80, main_cst_13, main_v81, main_v82, main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v83, main_v84, main_v85, main_v86, main_cst_15, main_v87, main_v88, main_v89, main_v90, main_v91, main_v92, main_v93, main_v94, main_v95, main_v96, main_v97, main_v98, main_v99, main_v100, main_v101, main_v102]

set_option maxRecDepth 8192 in
theorem bn1_writes0 : (opsBn1a : List (HloOp τ sig (Elt F))).Forall fun op => op.writes ⊆ (bn1_W.map (Proc.devRef (τ := τ) .tc)).toFinset :=
  ⟨ws main_v71 rfl (by decide), ws main_v72 rfl (by decide), ws main_v73 rfl (by decide), ws main_v74 rfl (by decide), ws main_v75 rfl (by decide), ws main_v76 rfl (by decide), ws main_v77 rfl (by decide), ws main_v78 rfl (by decide), ws main_call3_cst rfl (by decide), ws main_call3_v0 rfl (by decide), ws main_v79 rfl (by decide), ws main_cst_12 rfl (by decide), ws main_v80 rfl (by decide), ws main_cst_13 rfl (by decide), ws main_v81 rfl (by decide), ws main_v82 rfl (by decide), ws main_c_14 rfl (by decide), ws main_call4_cst rfl (by decide), ws main_call4_v0 rfl (by decide), ws main_call4_v1 rfl (by decide), ws main_call4_cst_0 rfl (by decide), ws main_call4_v2 rfl (by decide), ws main_call4_v3 rfl (by decide), ws main_call4_v4 rfl (by decide), ws main_call4_v5 rfl (by decide), ws main_call4_v6 rfl (by decide), ws main_call4_v7 rfl (by decide), ws main_call4_cst_1 rfl (by decide), ws main_call4_v8 rfl (by decide), ws main_call4_cst_2 rfl (by decide), ws main_call4_v9 rfl (by decide), ws main_call4_v10 rfl (by decide), ws main_call4_v11 rfl (by decide), ws main_call4_cst_3 rfl (by decide), ws main_call4_v12 rfl (by decide), ws main_call4_cst_4 rfl (by decide), ws main_call4_call0_v0 rfl (by decide), ws main_call4_call0_v1 rfl (by decide), ws main_v83 rfl (by decide), ws main_v84 rfl (by decide), ws main_v85 rfl (by decide), ws main_v86 rfl (by decide), ws main_cst_15 rfl (by decide), ws main_v87 rfl (by decide), ws main_v88 rfl (by decide), ws main_v89 rfl (by decide), ws main_v90 rfl (by decide), ws main_v91 rfl (by decide), ws main_v92 rfl (by decide), ws main_v93 rfl (by decide), ws main_v94 rfl (by decide), ws main_v95 rfl (by decide), ws main_v96 rfl (by decide), ws main_v97 rfl (by decide), ws main_v98 rfl (by decide), ws main_v99 rfl (by decide), ws main_v100 rfl (by decide), ws main_v101 rfl (by decide)⟩

set_option maxRecDepth 8192 in
theorem bn1_writes1 : (opsBn1b : List (HloOp τ sig (Elt F))).Forall fun op => op.writes ⊆ (bn1_W.map (Proc.devRef (τ := τ) .tc)).toFinset :=
  ws main_v102 rfl (by decide)

theorem bn1_writes : (opsBn1a ++ opsBn1b : List (HloOp τ sig (Elt F))).Forall fun op => op.writes ⊆ (bn1_W.map (Proc.devRef (τ := τ) .tc)).toFinset :=
  forall_app bn1_writes0 (bn1_writes1)

/-- A buffer these operations do not write keeps its contents through them. -/
theorem bn1_keep (W : Valuation τ sig (Elt F)) (r : Ref sig .tc) (h : r ∉ bn1_W) :
    after (opsBn1a ++ opsBn1b : List (HloOp τ sig (Elt F))) W (Proc.devRef .tc r) = W (Proc.devRef .tc r) :=
  after_of_writes_sub _ _ bn1_writes h

set_option maxRecDepth 16384 in
set_option maxHeartbeats 4000000 in
/-- After block 1's operations its buffer holds `bnRef` of the features read and row 1 of each parameter. -/
theorem bn1_val (W : Valuation τ sig (Elt F)) :
    after (opsBn1a ++ opsBn1b : List (HloOp τ sig (Elt F))) W (Proc.devRef .tc main_v102)
      = bnRef (W (Proc.devRef .tc main_v22)) (sliceW1 (W (Proc.devRef .tc main_arg2))) (row1 (W (Proc.devRef .tc main_arg3)))
          (row1 (W (Proc.devRef .tc main_arg4))) (row1 (W (Proc.devRef .tc main_arg5))) := by
  unfold bnRef colMean colVar varCentre varCount colSum linRelu bcastRow sliceW1 row1
  simp only [opsBn1a, opsBn1b, List.cons_append, List.nil_append]
  after_results_simp
  all_goals rfl

end Cert.ReferenceIdeal.Hand

end
-- ==== Proof.RefRunBn2.lean ====
import proofs.«115305_j43688407335088_2_alg».proof.Proof.RefRunOps
import proofs.«115305_j43688407335088_2_alg».proof.Proof.RefRunDefs
import proofs.«115305_j43688407335088_2_alg».proof.Proof.RefRunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! Block 2's normalisation: what its operations leave in the block's buffer, as `bnRef` of the features read and layer 2's weights, bias, scale and shift. -/

/-- The buffers these operations write. -/
abbrev bn2_W : List (Ref sig .tc) :=
  [main_v103, main_v104, main_v105, main_v106, main_v107, main_v108, main_v109, main_v110, main_call5_cst, main_call5_v0, main_v111, main_cst_16, main_v112, main_cst_17, main_v113, main_v114, main_c_18, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v115, main_v116, main_v117, main_v118, main_cst_19, main_v119, main_v120, main_v121, main_v122, main_v123, main_v124, main_v125, main_v126, main_v127, main_v128, main_v129, main_v130, main_v131, main_v132, main_v133, main_v134]

set_option maxRecDepth 8192 in
theorem bn2_writes : (opsBn2 : List (HloOp τ sig (Elt F))).Forall fun op => op.writes ⊆ (bn2_W.map (Proc.devRef (τ := τ) .tc)).toFinset :=
  ⟨ws main_v103 rfl (by decide), ws main_v104 rfl (by decide), ws main_v105 rfl (by decide), ws main_v106 rfl (by decide), ws main_v107 rfl (by decide), ws main_v108 rfl (by decide), ws main_v109 rfl (by decide), ws main_v110 rfl (by decide), ws main_call5_cst rfl (by decide), ws main_call5_v0 rfl (by decide), ws main_v111 rfl (by decide), ws main_cst_16 rfl (by decide), ws main_v112 rfl (by decide), ws main_cst_17 rfl (by decide), ws main_v113 rfl (by decide), ws main_v114 rfl (by decide), ws main_c_18 rfl (by decide), ws main_call6_cst rfl (by decide), ws main_call6_v0 rfl (by decide), ws main_call6_v1 rfl (by decide), ws main_call6_cst_0 rfl (by decide), ws main_call6_v2 rfl (by decide), ws main_call6_v3 rfl (by decide), ws main_call6_v4 rfl (by decide), ws main_call6_v5 rfl (by decide), ws main_call6_v6 rfl (by decide), ws main_call6_v7 rfl (by decide), ws main_call6_cst_1 rfl (by decide), ws main_call6_v8 rfl (by decide), ws main_call6_cst_2 rfl (by decide), ws main_call6_v9 rfl (by decide), ws main_call6_v10 rfl (by decide), ws main_call6_v11 rfl (by decide), ws main_call6_cst_3 rfl (by decide), ws main_call6_v12 rfl (by decide), ws main_call6_cst_4 rfl (by decide), ws main_call6_call0_v0 rfl (by decide), ws main_call6_call0_v1 rfl (by decide), ws main_v115 rfl (by decide), ws main_v116 rfl (by decide), ws main_v117 rfl (by decide), ws main_v118 rfl (by decide), ws main_cst_19 rfl (by decide), ws main_v119 rfl (by decide), ws main_v120 rfl (by decide), ws main_v121 rfl (by decide), ws main_v122 rfl (by decide), ws main_v123 rfl (by decide), ws main_v124 rfl (by decide), ws main_v125 rfl (by decide), ws main_v126 rfl (by decide), ws main_v127 rfl (by decide), ws main_v128 rfl (by decide), ws main_v129 rfl (by decide), ws main_v130 rfl (by decide), ws main_v131 rfl (by decide), ws main_v132 rfl (by decide), ws main_v133 rfl (by decide), ws main_v134 rfl (by decide)⟩

/-- A buffer these operations do not write keeps its contents through them. -/
theorem bn2_keep (W : Valuation τ sig (Elt F)) (r : Ref sig .tc) (h : r ∉ bn2_W) :
    after (opsBn2 : List (HloOp τ sig (Elt F))) W (Proc.devRef .tc r) = W (Proc.devRef .tc r) :=
  after_of_writes_sub _ _ bn2_writes h

set_option maxRecDepth 16384 in
set_option maxHeartbeats 4000000 in
/-- After block 2's operations its buffer holds `bnRef` of the features read and row 2 of each parameter. -/
theorem bn2_val (W : Valuation τ sig (Elt F)) :
    after (opsBn2 : List (HloOp τ sig (Elt F))) W (Proc.devRef .tc main_v134)
      = bnRef (W (Proc.devRef .tc main_v38)) (sliceW2 (W (Proc.devRef .tc main_arg2))) (row2 (W (Proc.devRef .tc main_arg3)))
          (row2 (W (Proc.devRef .tc main_arg4))) (row2 (W (Proc.devRef .tc main_arg5))) := by
  unfold bnRef colMean colVar varCentre varCount colSum linRelu bcastRow sliceW2 row2
  simp only [opsBn2]
  after_results_simp
  all_goals rfl

end Cert.ReferenceIdeal.Hand

end
-- ==== Proof.RefRunCat.lean ====
import proofs.«115305_j43688407335088_2_alg».proof.Proof.RefRunOps
import proofs.«115305_j43688407335088_2_alg».proof.Proof.RefRunDefs
import proofs.«115305_j43688407335088_2_alg».proof.Proof.RefRunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The concatenation: what it leaves in the result buffer, as the three blocks' buffers side by side. -/

/-- The buffers these operations write. -/
abbrev cat_W : List (Ref sig .tc) :=
  [main_v135]

set_option maxRecDepth 8192 in
theorem cat_writes : (opsCat : List (HloOp τ sig (Elt F))).Forall fun op => op.writes ⊆ (cat_W.map (Proc.devRef (τ := τ) .tc)).toFinset :=
  ws main_v135 rfl (by decide)

/-- A buffer these operations do not write keeps its contents through them. -/
theorem cat_keep (W : Valuation τ sig (Elt F)) (r : Ref sig .tc) (h : r ∉ cat_W) :
    after (opsCat : List (HloOp τ sig (Elt F))) W (Proc.devRef .tc r) = W (Proc.devRef .tc r) :=
  after_of_writes_sub _ _ cat_writes h

set_option maxRecDepth 16384 in
/-- After the concatenation the result buffer holds the three blocks' buffers side by side. -/
theorem cat_val (W : Valuation τ sig (Elt F)) :
    after (opsCat : List (HloOp τ sig (Elt F))) W (Proc.devRef .tc main_v135)
      = catBlocks (W (Proc.devRef .tc main_v70)) (W (Proc.devRef .tc main_v102)) (W (Proc.devRef .tc main_v134)) := by
  unfold catBlocks
  simp only [opsCat]
  after_results_simp
  all_goals rfl

end Cert.ReferenceIdeal.Hand

end
-- ==== Proof.RefRun.lean ====
import proofs.«115305_j43688407335088_2_alg».proof.Proof.RefRunMain
import proofs.«115305_j43688407335088_2_alg».proof.Proof.RefRunSide
import proofs.«115305_j43688407335088_2_alg».proof.Proof.RefRunDeg
import proofs.«115305_j43688407335088_2_alg».proof.Proof.RefRunHop1
import proofs.«115305_j43688407335088_2_alg».proof.Proof.RefRunHop2
import proofs.«115305_j43688407335088_2_alg».proof.Proof.RefRunBn0
import proofs.«115305_j43688407335088_2_alg».proof.Proof.RefRunBn1
import proofs.«115305_j43688407335088_2_alg».proof.Proof.RefRunBn2
import proofs.«115305_j43688407335088_2_alg».proof.Proof.RefRunCat

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference's run, assembled: the buffers' contents stage by stage (in-degree, two hops, three
    normalisations, concatenation), each stage's result read off its own lemma and every other buffer
    carried through by the stage's keep lemma; then `run_seq`. -/

/-- The buffers after the in-degree operations. -/
def X1 (V0 : Valuation τ sig (Elt F)) : Valuation τ sig (Elt F) := after (opsDeg : List (HloOp τ sig (Elt F))) V0
/-- … after the first hop. -/
def X2 (V0 : Valuation τ sig (Elt F)) : Valuation τ sig (Elt F) := after (opsHop1 : List (HloOp τ sig (Elt F))) (X1 V0)
/-- … after the second hop. -/
def X3 (V0 : Valuation τ sig (Elt F)) : Valuation τ sig (Elt F) := after (opsHop2 : List (HloOp τ sig (Elt F))) (X2 V0)
/-- … after block 0's normalisation. -/
def X4 (V0 : Valuation τ sig (Elt F)) : Valuation τ sig (Elt F) := after (opsBn0a ++ opsBn0b : List (HloOp τ sig (Elt F))) (X3 V0)
/-- … after block 1's normalisation. -/
def X5 (V0 : Valuation τ sig (Elt F)) : Valuation τ sig (Elt F) := after (opsBn1a ++ opsBn1b : List (HloOp τ sig (Elt F))) (X4 V0)
/-- … after block 2's normalisation. -/
def X6 (V0 : Valuation τ sig (Elt F)) : Valuation τ sig (Elt F) := after (opsBn2 : List (HloOp τ sig (Elt F))) (X5 V0)
/-- … after the concatenation: the end of @main. -/
def X7 (V0 : Valuation τ sig (Elt F)) : Valuation τ sig (Elt F) := after (opsCat : List (HloOp τ sig (Elt F))) (X6 V0)

/-- The whole line's fold is the stages' composition. -/
theorem after_ops (V0 : Valuation τ sig (Elt F)) : after ops V0 = X7 V0 := by
  unfold ops opsP0 opsP1 opsP2 X7 X6 X5 X4 X3 X2 X1
  simp only [after_app]

/-! ### The arguments, stage by stage: no operation writes one -/
theorem X1_arg0 (V0 : Valuation τ sig (Elt F)) : X1 V0 (Proc.devRef .tc main_arg0) = V0 (Proc.devRef .tc main_arg0) :=
  (deg_keep _ main_arg0 (by decide)).trans rfl
theorem X1_arg1 (V0 : Valuation τ sig (Elt F)) : X1 V0 (Proc.devRef .tc main_arg1) = V0 (Proc.devRef .tc main_arg1) :=
  (deg_keep _ main_arg1 (by decide)).trans rfl
theorem X1_arg2 (V0 : Valuation τ sig (Elt F)) : X1 V0 (Proc.devRef .tc main_arg2) = V0 (Proc.devRef .tc main_arg2) :=
  (deg_keep _ main_arg2 (by decide)).trans rfl
theorem X1_arg3 (V0 : Valuation τ sig (Elt F)) : X1 V0 (Proc.devRef .tc main_arg3) = V0 (Proc.devRef .tc main_arg3) :=
  (deg_keep _ main_arg3 (by decide)).trans rfl
theorem X1_arg4 (V0 : Valuation τ sig (Elt F)) : X1 V0 (Proc.devRef .tc main_arg4) = V0 (Proc.devRef .tc main_arg4) :=
  (deg_keep _ main_arg4 (by decide)).trans rfl
theorem X1_arg5 (V0 : Valuation τ sig (Elt F)) : X1 V0 (Proc.devRef .tc main_arg5) = V0 (Proc.devRef .tc main_arg5) :=
  (deg_keep _ main_arg5 (by decide)).trans rfl
theorem X1_arg6 (V0 : Valuation τ sig (Elt F)) : X1 V0 (Proc.devRef .tc main_arg6) = V0 (Proc.devRef .tc main_arg6) :=
  (deg_keep _ main_arg6 (by decide)).trans rfl
theorem X1_arg7 (V0 : Valuation τ sig (Elt F)) : X1 V0 (Proc.devRef .tc main_arg7) = V0 (Proc.devRef .tc main_arg7) :=
  (deg_keep _ main_arg7 (by decide)).trans rfl
theorem X2_arg0 (V0 : Valuation τ sig (Elt F)) : X2 V0 (Proc.devRef .tc main_arg0) = V0 (Proc.devRef .tc main_arg0) :=
  (hop1_keep _ main_arg0 (by decide)).trans (X1_arg0 V0)
theorem X2_arg1 (V0 : Valuation τ sig (Elt F)) : X2 V0 (Proc.devRef .tc main_arg1) = V0 (Proc.devRef .tc main_arg1) :=
  (hop1_keep _ main_arg1 (by decide)).trans (X1_arg1 V0)
theorem X2_arg2 (V0 : Valuation τ sig (Elt F)) : X2 V0 (Proc.devRef .tc main_arg2) = V0 (Proc.devRef .tc main_arg2) :=
  (hop1_keep _ main_arg2 (by decide)).trans (X1_arg2 V0)
theorem X2_arg3 (V0 : Valuation τ sig (Elt F)) : X2 V0 (Proc.devRef .tc main_arg3) = V0 (Proc.devRef .tc main_arg3) :=
  (hop1_keep _ main_arg3 (by decide)).trans (X1_arg3 V0)
theorem X2_arg4 (V0 : Valuation τ sig (Elt F)) : X2 V0 (Proc.devRef .tc main_arg4) = V0 (Proc.devRef .tc main_arg4) :=
  (hop1_keep _ main_arg4 (by decide)).trans (X1_arg4 V0)
theorem X2_arg5 (V0 : Valuation τ sig (Elt F)) : X2 V0 (Proc.devRef .tc main_arg5) = V0 (Proc.devRef .tc main_arg5) :=
  (hop1_keep _ main_arg5 (by decide)).trans (X1_arg5 V0)
theorem X2_arg6 (V0 : Valuation τ sig (Elt F)) : X2 V0 (Proc.devRef .tc main_arg6) = V0 (Proc.devRef .tc main_arg6) :=
  (hop1_keep _ main_arg6 (by decide)).trans (X1_arg6 V0)
theorem X2_arg7 (V0 : Valuation τ sig (Elt F)) : X2 V0 (Proc.devRef .tc main_arg7) = V0 (Proc.devRef .tc main_arg7) :=
  (hop1_keep _ main_arg7 (by decide)).trans (X1_arg7 V0)
theorem X3_arg0 (V0 : Valuation τ sig (Elt F)) : X3 V0 (Proc.devRef .tc main_arg0) = V0 (Proc.devRef .tc main_arg0) :=
  (hop2_keep _ main_arg0 (by decide)).trans (X2_arg0 V0)
theorem X3_arg1 (V0 : Valuation τ sig (Elt F)) : X3 V0 (Proc.devRef .tc main_arg1) = V0 (Proc.devRef .tc main_arg1) :=
  (hop2_keep _ main_arg1 (by decide)).trans (X2_arg1 V0)
theorem X3_arg2 (V0 : Valuation τ sig (Elt F)) : X3 V0 (Proc.devRef .tc main_arg2) = V0 (Proc.devRef .tc main_arg2) :=
  (hop2_keep _ main_arg2 (by decide)).trans (X2_arg2 V0)
theorem X3_arg3 (V0 : Valuation τ sig (Elt F)) : X3 V0 (Proc.devRef .tc main_arg3) = V0 (Proc.devRef .tc main_arg3) :=
  (hop2_keep _ main_arg3 (by decide)).trans (X2_arg3 V0)
theorem X3_arg4 (V0 : Valuation τ sig (Elt F)) : X3 V0 (Proc.devRef .tc main_arg4) = V0 (Proc.devRef .tc main_arg4) :=
  (hop2_keep _ main_arg4 (by decide)).trans (X2_arg4 V0)
theorem X3_arg5 (V0 : Valuation τ sig (Elt F)) : X3 V0 (Proc.devRef .tc main_arg5) = V0 (Proc.devRef .tc main_arg5) :=
  (hop2_keep _ main_arg5 (by decide)).trans (X2_arg5 V0)
theorem X3_arg6 (V0 : Valuation τ sig (Elt F)) : X3 V0 (Proc.devRef .tc main_arg6) = V0 (Proc.devRef .tc main_arg6) :=
  (hop2_keep _ main_arg6 (by decide)).trans (X2_arg6 V0)
theorem X3_arg7 (V0 : Valuation τ sig (Elt F)) : X3 V0 (Proc.devRef .tc main_arg7) = V0 (Proc.devRef .tc main_arg7) :=
  (hop2_keep _ main_arg7 (by decide)).trans (X2_arg7 V0)
theorem X4_arg0 (V0 : Valuation τ sig (Elt F)) : X4 V0 (Proc.devRef .tc main_arg0) = V0 (Proc.devRef .tc main_arg0) :=
  (bn0_keep _ main_arg0 (by decide)).trans (X3_arg0 V0)
theorem X4_arg1 (V0 : Valuation τ sig (Elt F)) : X4 V0 (Proc.devRef .tc main_arg1) = V0 (Proc.devRef .tc main_arg1) :=
  (bn0_keep _ main_arg1 (by decide)).trans (X3_arg1 V0)
theorem X4_arg2 (V0 : Valuation τ sig (Elt F)) : X4 V0 (Proc.devRef .tc main_arg2) = V0 (Proc.devRef .tc main_arg2) :=
  (bn0_keep _ main_arg2 (by decide)).trans (X3_arg2 V0)
theorem X4_arg3 (V0 : Valuation τ sig (Elt F)) : X4 V0 (Proc.devRef .tc main_arg3) = V0 (Proc.devRef .tc main_arg3) :=
  (bn0_keep _ main_arg3 (by decide)).trans (X3_arg3 V0)
theorem X4_arg4 (V0 : Valuation τ sig (Elt F)) : X4 V0 (Proc.devRef .tc main_arg4) = V0 (Proc.devRef .tc main_arg4) :=
  (bn0_keep _ main_arg4 (by decide)).trans (X3_arg4 V0)
theorem X4_arg5 (V0 : Valuation τ sig (Elt F)) : X4 V0 (Proc.devRef .tc main_arg5) = V0 (Proc.devRef .tc main_arg5) :=
  (bn0_keep _ main_arg5 (by decide)).trans (X3_arg5 V0)
theorem X4_arg6 (V0 : Valuation τ sig (Elt F)) : X4 V0 (Proc.devRef .tc main_arg6) = V0 (Proc.devRef .tc main_arg6) :=
  (bn0_keep _ main_arg6 (by decide)).trans (X3_arg6 V0)
theorem X4_arg7 (V0 : Valuation τ sig (Elt F)) : X4 V0 (Proc.devRef .tc main_arg7) = V0 (Proc.devRef .tc main_arg7) :=
  (bn0_keep _ main_arg7 (by decide)).trans (X3_arg7 V0)
theorem X5_arg0 (V0 : Valuation τ sig (Elt F)) : X5 V0 (Proc.devRef .tc main_arg0) = V0 (Proc.devRef .tc main_arg0) :=
  (bn1_keep _ main_arg0 (by decide)).trans (X4_arg0 V0)
theorem X5_arg1 (V0 : Valuation τ sig (Elt F)) : X5 V0 (Proc.devRef .tc main_arg1) = V0 (Proc.devRef .tc main_arg1) :=
  (bn1_keep _ main_arg1 (by decide)).trans (X4_arg1 V0)
theorem X5_arg2 (V0 : Valuation τ sig (Elt F)) : X5 V0 (Proc.devRef .tc main_arg2) = V0 (Proc.devRef .tc main_arg2) :=
  (bn1_keep _ main_arg2 (by decide)).trans (X4_arg2 V0)
theorem X5_arg3 (V0 : Valuation τ sig (Elt F)) : X5 V0 (Proc.devRef .tc main_arg3) = V0 (Proc.devRef .tc main_arg3) :=
  (bn1_keep _ main_arg3 (by decide)).trans (X4_arg3 V0)
theorem X5_arg4 (V0 : Valuation τ sig (Elt F)) : X5 V0 (Proc.devRef .tc main_arg4) = V0 (Proc.devRef .tc main_arg4) :=
  (bn1_keep _ main_arg4 (by decide)).trans (X4_arg4 V0)
theorem X5_arg5 (V0 : Valuation τ sig (Elt F)) : X5 V0 (Proc.devRef .tc main_arg5) = V0 (Proc.devRef .tc main_arg5) :=
  (bn1_keep _ main_arg5 (by decide)).trans (X4_arg5 V0)
theorem X5_arg6 (V0 : Valuation τ sig (Elt F)) : X5 V0 (Proc.devRef .tc main_arg6) = V0 (Proc.devRef .tc main_arg6) :=
  (bn1_keep _ main_arg6 (by decide)).trans (X4_arg6 V0)
theorem X5_arg7 (V0 : Valuation τ sig (Elt F)) : X5 V0 (Proc.devRef .tc main_arg7) = V0 (Proc.devRef .tc main_arg7) :=
  (bn1_keep _ main_arg7 (by decide)).trans (X4_arg7 V0)
theorem X6_arg0 (V0 : Valuation τ sig (Elt F)) : X6 V0 (Proc.devRef .tc main_arg0) = V0 (Proc.devRef .tc main_arg0) :=
  (bn2_keep _ main_arg0 (by decide)).trans (X5_arg0 V0)
theorem X6_arg1 (V0 : Valuation τ sig (Elt F)) : X6 V0 (Proc.devRef .tc main_arg1) = V0 (Proc.devRef .tc main_arg1) :=
  (bn2_keep _ main_arg1 (by decide)).trans (X5_arg1 V0)
theorem X6_arg2 (V0 : Valuation τ sig (Elt F)) : X6 V0 (Proc.devRef .tc main_arg2) = V0 (Proc.devRef .tc main_arg2) :=
  (bn2_keep _ main_arg2 (by decide)).trans (X5_arg2 V0)
theorem X6_arg3 (V0 : Valuation τ sig (Elt F)) : X6 V0 (Proc.devRef .tc main_arg3) = V0 (Proc.devRef .tc main_arg3) :=
  (bn2_keep _ main_arg3 (by decide)).trans (X5_arg3 V0)
theorem X6_arg4 (V0 : Valuation τ sig (Elt F)) : X6 V0 (Proc.devRef .tc main_arg4) = V0 (Proc.devRef .tc main_arg4) :=
  (bn2_keep _ main_arg4 (by decide)).trans (X5_arg4 V0)
theorem X6_arg5 (V0 : Valuation τ sig (Elt F)) : X6 V0 (Proc.devRef .tc main_arg5) = V0 (Proc.devRef .tc main_arg5) :=
  (bn2_keep _ main_arg5 (by decide)).trans (X5_arg5 V0)
theorem X6_arg6 (V0 : Valuation τ sig (Elt F)) : X6 V0 (Proc.devRef .tc main_arg6) = V0 (Proc.devRef .tc main_arg6) :=
  (bn2_keep _ main_arg6 (by decide)).trans (X5_arg6 V0)
theorem X6_arg7 (V0 : Valuation τ sig (Elt F)) : X6 V0 (Proc.devRef .tc main_arg7) = V0 (Proc.devRef .tc main_arg7) :=
  (bn2_keep _ main_arg7 (by decide)).trans (X5_arg7 V0)
theorem X7_arg0 (V0 : Valuation τ sig (Elt F)) : X7 V0 (Proc.devRef .tc main_arg0) = V0 (Proc.devRef .tc main_arg0) :=
  (cat_keep _ main_arg0 (by decide)).trans (X6_arg0 V0)
theorem X7_arg1 (V0 : Valuation τ sig (Elt F)) : X7 V0 (Proc.devRef .tc main_arg1) = V0 (Proc.devRef .tc main_arg1) :=
  (cat_keep _ main_arg1 (by decide)).trans (X6_arg1 V0)
theorem X7_arg2 (V0 : Valuation τ sig (Elt F)) : X7 V0 (Proc.devRef .tc main_arg2) = V0 (Proc.devRef .tc main_arg2) :=
  (cat_keep _ main_arg2 (by decide)).trans (X6_arg2 V0)
theorem X7_arg3 (V0 : Valuation τ sig (Elt F)) : X7 V0 (Proc.devRef .tc main_arg3) = V0 (Proc.devRef .tc main_arg3) :=
  (cat_keep _ main_arg3 (by decide)).trans (X6_arg3 V0)
theorem X7_arg4 (V0 : Valuation τ sig (Elt F)) : X7 V0 (Proc.devRef .tc main_arg4) = V0 (Proc.devRef .tc main_arg4) :=
  (cat_keep _ main_arg4 (by decide)).trans (X6_arg4 V0)
theorem X7_arg5 (V0 : Valuation τ sig (Elt F)) : X7 V0 (Proc.devRef .tc main_arg5) = V0 (Proc.devRef .tc main_arg5) :=
  (cat_keep _ main_arg5 (by decide)).trans (X6_arg5 V0)
theorem X7_arg6 (V0 : Valuation τ sig (Elt F)) : X7 V0 (Proc.devRef .tc main_arg6) = V0 (Proc.devRef .tc main_arg6) :=
  (cat_keep _ main_arg6 (by decide)).trans (X6_arg6 V0)
theorem X7_arg7 (V0 : Valuation τ sig (Elt F)) : X7 V0 (Proc.devRef .tc main_arg7) = V0 (Proc.devRef .tc main_arg7) :=
  (cat_keep _ main_arg7 (by decide)).trans (X6_arg7 V0)

/-! ### The intermediate values -/

theorem X1_v6 (V0 : Valuation τ sig (Elt F)) : X1 V0 (Proc.devRef .tc main_v6) = dIn (V0 (Proc.devRef .tc main_arg7)) := by
  unfold X1; exact deg_val V0
theorem X2_v6 (V0 : Valuation τ sig (Elt F)) : X2 V0 (Proc.devRef .tc main_v6) = dIn (V0 (Proc.devRef .tc main_arg7)) :=
  (hop1_keep _ main_v6 (by decide)).trans (X1_v6 V0)

theorem X2_v22 (V0 : Valuation τ sig (Elt F)) : X2 V0 (Proc.devRef .tc main_v22)
    = hop1 (V0 (Proc.devRef .tc main_arg0)) (V0 (Proc.devRef .tc main_arg1)) (V0 (Proc.devRef .tc main_arg6)) (V0 (Proc.devRef .tc main_arg7)) := by
  unfold X2 hop1
  rw [hop1_val, X1_arg0, X1_arg1, X1_arg6, X1_arg7, X1_v6]
theorem X3_v22 (V0 : Valuation τ sig (Elt F)) : X3 V0 (Proc.devRef .tc main_v22)
    = hop1 (V0 (Proc.devRef .tc main_arg0)) (V0 (Proc.devRef .tc main_arg1)) (V0 (Proc.devRef .tc main_arg6)) (V0 (Proc.devRef .tc main_arg7)) :=
  (hop2_keep _ main_v22 (by decide)).trans (X2_v22 V0)
theorem X4_v22 (V0 : Valuation τ sig (Elt F)) : X4 V0 (Proc.devRef .tc main_v22)
    = hop1 (V0 (Proc.devRef .tc main_arg0)) (V0 (Proc.devRef .tc main_arg1)) (V0 (Proc.devRef .tc main_arg6)) (V0 (Proc.devRef .tc main_arg7)) :=
  (bn0_keep _ main_v22 (by decide)).trans (X3_v22 V0)

theorem X3_v38 (V0 : Valuation τ sig (Elt F)) : X3 V0 (Proc.devRef .tc main_v38)
    = hop2 (V0 (Proc.devRef .tc main_arg0)) (V0 (Proc.devRef .tc main_arg1)) (V0 (Proc.devRef .tc main_arg6)) (V0 (Proc.devRef .tc main_arg7)) := by
  unfold X3 hop2
  rw [hop2_val, X2_v22, X2_arg1, X2_arg6, X2_arg7, X2_v6]
theorem X4_v38 (V0 : Valuation τ sig (Elt F)) : X4 V0 (Proc.devRef .tc main_v38)
    = hop2 (V0 (Proc.devRef .tc main_arg0)) (V0 (Proc.devRef .tc main_arg1)) (V0 (Proc.devRef .tc main_arg6)) (V0 (Proc.devRef .tc main_arg7)) :=
  (bn0_keep _ main_v38 (by decide)).trans (X3_v38 V0)
theorem X5_v38 (V0 : Valuation τ sig (Elt F)) : X5 V0 (Proc.devRef .tc main_v38)
    = hop2 (V0 (Proc.devRef .tc main_arg0)) (V0 (Proc.devRef .tc main_arg1)) (V0 (Proc.devRef .tc main_arg6)) (V0 (Proc.devRef .tc main_arg7)) :=
  (bn1_keep _ main_v38 (by decide)).trans (X4_v38 V0)

theorem X4_v70 (V0 : Valuation τ sig (Elt F)) : X4 V0 (Proc.devRef .tc main_v70)
    = bnRef (V0 (Proc.devRef .tc main_arg0)) (sliceW0 (V0 (Proc.devRef .tc main_arg2))) (row0 (V0 (Proc.devRef .tc main_arg3))) (row0 (V0 (Proc.devRef .tc main_arg4))) (row0 (V0 (Proc.devRef .tc main_arg5))) := by
  unfold X4
  rw [bn0_val, X3_arg0, X3_arg2, X3_arg3, X3_arg4, X3_arg5]
theorem X5_v70 (V0 : Valuation τ sig (Elt F)) : X5 V0 (Proc.devRef .tc main_v70)
    = bnRef (V0 (Proc.devRef .tc main_arg0)) (sliceW0 (V0 (Proc.devRef .tc main_arg2))) (row0 (V0 (Proc.devRef .tc main_arg3))) (row0 (V0 (Proc.devRef .tc main_arg4))) (row0 (V0 (Proc.devRef .tc main_arg5))) :=
  (bn1_keep _ main_v70 (by decide)).trans (X4_v70 V0)
theorem X6_v70 (V0 : Valuation τ sig (Elt F)) : X6 V0 (Proc.devRef .tc main_v70)
    = bnRef (V0 (Proc.devRef .tc main_arg0)) (sliceW0 (V0 (Proc.devRef .tc main_arg2))) (row0 (V0 (Proc.devRef .tc main_arg3))) (row0 (V0 (Proc.devRef .tc main_arg4))) (row0 (V0 (Proc.devRef .tc main_arg5))) :=
  (bn2_keep _ main_v70 (by decide)).trans (X5_v70 V0)

theorem X5_v102 (V0 : Valuation τ sig (Elt F)) : X5 V0 (Proc.devRef .tc main_v102)
    = bnRef (hop1 (V0 (Proc.devRef .tc main_arg0)) (V0 (Proc.devRef .tc main_arg1)) (V0 (Proc.devRef .tc main_arg6)) (V0 (Proc.devRef .tc main_arg7))) (sliceW1 (V0 (Proc.devRef .tc main_arg2))) (row1 (V0 (Proc.devRef .tc main_arg3))) (row1 (V0 (Proc.devRef .tc main_arg4))) (row1 (V0 (Proc.devRef .tc main_arg5))) := by
  unfold X5
  rw [bn1_val, X4_v22, X4_arg2, X4_arg3, X4_arg4, X4_arg5]
theorem X6_v102 (V0 : Valuation τ sig (Elt F)) : X6 V0 (Proc.devRef .tc main_v102)
    = bnRef (hop1 (V0 (Proc.devRef .tc main_arg0)) (V0 (Proc.devRef .tc main_arg1)) (V0 (Proc.devRef .tc main_arg6)) (V0 (Proc.devRef .tc main_arg7))) (sliceW1 (V0 (Proc.devRef .tc main_arg2))) (row1 (V0 (Proc.devRef .tc main_arg3))) (row1 (V0 (Proc.devRef .tc main_arg4))) (row1 (V0 (Proc.devRef .tc main_arg5))) :=
  (bn2_keep _ main_v102 (by decide)).trans (X5_v102 V0)

theorem X6_v134 (V0 : Valuation τ sig (Elt F)) : X6 V0 (Proc.devRef .tc main_v134)
    = bnRef (hop2 (V0 (Proc.devRef .tc main_arg0)) (V0 (Proc.devRef .tc main_arg1)) (V0 (Proc.devRef .tc main_arg6)) (V0 (Proc.devRef .tc main_arg7))) (sliceW2 (V0 (Proc.devRef .tc main_arg2))) (row2 (V0 (Proc.devRef .tc main_arg3))) (row2 (V0 (Proc.devRef .tc main_arg4))) (row2 (V0 (Proc.devRef .tc main_arg5))) := by
  unfold X6
  rw [bn2_val, X5_v38, X5_arg2, X5_arg3, X5_arg4, X5_arg5]

/-- The result buffer at the end of @main: `refVal` of the arguments' contents. -/
theorem after_v135 (V0 : Valuation τ sig (Elt F)) : after ops V0 (Proc.devRef .tc main_v135)
    = refVal (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7)) := by
  rw [after_ops]
  unfold X7 refVal
  rw [cat_val, X6_v70, X6_v102, X6_v134]
theorem after_arg0 (V0 : Valuation τ sig (Elt F)) : after ops V0 (Proc.devRef .tc main_arg0) = V0 (Proc.devRef .tc main_arg0) := by
  rw [after_ops]; exact X7_arg0 V0
theorem after_arg1 (V0 : Valuation τ sig (Elt F)) : after ops V0 (Proc.devRef .tc main_arg1) = V0 (Proc.devRef .tc main_arg1) := by
  rw [after_ops]; exact X7_arg1 V0
theorem after_arg2 (V0 : Valuation τ sig (Elt F)) : after ops V0 (Proc.devRef .tc main_arg2) = V0 (Proc.devRef .tc main_arg2) := by
  rw [after_ops]; exact X7_arg2 V0
theorem after_arg3 (V0 : Valuation τ sig (Elt F)) : after ops V0 (Proc.devRef .tc main_arg3) = V0 (Proc.devRef .tc main_arg3) := by
  rw [after_ops]; exact X7_arg3 V0
theorem after_arg4 (V0 : Valuation τ sig (Elt F)) : after ops V0 (Proc.devRef .tc main_arg4) = V0 (Proc.devRef .tc main_arg4) := by
  rw [after_ops]; exact X7_arg4 V0
theorem after_arg5 (V0 : Valuation τ sig (Elt F)) : after ops V0 (Proc.devRef .tc main_arg5) = V0 (Proc.devRef .tc main_arg5) := by
  rw [after_ops]; exact X7_arg5 V0
theorem after_arg6 (V0 : Valuation τ sig (Elt F)) : after ops V0 (Proc.devRef .tc main_arg6) = V0 (Proc.devRef .tc main_arg6) := by
  rw [after_ops]; exact X7_arg6 V0
theorem after_arg7 (V0 : Valuation τ sig (Elt F)) : after ops V0 (Proc.devRef .tc main_arg7) = V0 (Proc.devRef .tc main_arg7) := by
  rw [after_ops]; exact X7_arg7 V0

/-- On every device, for any float values, from any memory with zero counters: every weakly fair execution of
    @main terminates with the result buffer at `refVal` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v135) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v135).trans (after_v135 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c))⟩)
    (run_seq scopedRefs_eq scopedSems_eq defs main (fun _ => ops) main_eq (fun _ => ops_sub) m ρ (fun _ => ops_fresh))

/-- The reference runs to its end, faults nowhere, and leaves its arguments unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run m ρ)

end Cert.ReferenceIdeal.Hand

end
-- ==== Proof.HostReads.lean ====
/-
  What each region finds in its windows' arrays, read off the fold of the buffers' contents: the features, the
  layer's weights and its bias, scale and shift rows as terms of the argument arrays (the features after one and two
  hops in the vocabulary of the reference's value), the mean and variance as the preceding statistics region left them,
  and the output array as the preceding normalisation region left it. A buffer is carried across a stretch of host
  operations that does not write it, across a region that has it among no window's arrays, and across a region that
  only reads it through an input window.
-/
import proofs.«115305_j43688407335088_2_alg».proof.Proof.Run
import proofs.«115305_j43688407335088_2_alg».proof.Proof.RefRunDefs
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F]

local notation "cfgAt" p => Pipeline.pin (pcfgs (F := F)) adm p

/-- Across a region, an input window's array keeps its contents. -/
theorem Wnext_in (p : Fin 6) (hl : Pipeline.LaunchFacts (nD := nD) (τ := τ) cfgs p) (Win : Dev nD → Valuation τ sig (Elt F))
    (rd : RData (F := F) p Win) (c : Dev nD) (w : Fin (cfgAt p).W) (hin : ((cfgAt p).win w).isOut = false) :
    Wnext p Win rd c (Proc.devRef .tc (Pipeline.arrRef (cfgAt p).spec w)) = Win c (Proc.devRef .tc (Pipeline.arrRef (cfgAt p).spec w)) :=
  (Wnext_arr p hl Win rd c w).trans (((rd.dat c).arrAt_in w hin _).trans (rd.hA c w))

variable (m : (ℓ : Loc nD τ sig) → Buf (Elt F) ℓ) (ρ : Dev nD → PrngReg) (D : RD6 (F := F))

/-! ## One segment at a time -/
theorem keep4 (c : Dev nD) (b : Ref sig .tc) (a : ∀ w, Pipeline.arrRef spec0 w ≠ b) : W4 m ρ D c (Proc.devRef .tc b) = W3 m ρ c (Proc.devRef .tc b) := Wnext_of_ne 0 _ _ c b a
theorem keep6 (c : Dev nD) (b : Ref sig .tc) (a : ∀ w, Pipeline.arrRef spec1 w ≠ b) : W6 m ρ D c (Proc.devRef .tc b) = W5 m ρ D c (Proc.devRef .tc b) := Wnext_of_ne 1 _ _ c b a
theorem keep8 (c : Dev nD) (b : Ref sig .tc) (a : ∀ w, Pipeline.arrRef spec2 w ≠ b) : W8 m ρ D c (Proc.devRef .tc b) = W7 m ρ D c (Proc.devRef .tc b) := Wnext_of_ne 2 _ _ c b a
theorem keep10 (c : Dev nD) (b : Ref sig .tc) (a : ∀ w, Pipeline.arrRef spec3 w ≠ b) : W10 m ρ D c (Proc.devRef .tc b) = W9 m ρ D c (Proc.devRef .tc b) := Wnext_of_ne 3 _ _ c b a
theorem keep12 (c : Dev nD) (b : Ref sig .tc) (a : ∀ w, Pipeline.arrRef spec4 w ≠ b) : W12 m ρ D c (Proc.devRef .tc b) = W11 m ρ D c (Proc.devRef .tc b) := Wnext_of_ne 4 _ _ c b a
theorem keep14 (c : Dev nD) (b : Ref sig .tc) (a : ∀ w, Pipeline.arrRef spec5 w ≠ b) : W14 m ρ D c (Proc.devRef .tc b) = W13 m ρ D c (Proc.devRef .tc b) := Wnext_of_ne 5 _ _ c b a
theorem keep5 (c : Dev nD) (b : Ref sig .tc) (h : b ∉ hostOps1_W) : W5 m ρ D c (Proc.devRef .tc b) = W4 m ρ D c (Proc.devRef .tc b) := StableHlo.after_of_writes_sub hostOps1 _ hostOps1_writes h
theorem keep7 (c : Dev nD) (b : Ref sig .tc) (h : b ∉ hostOps2_W) : W7 m ρ D c (Proc.devRef .tc b) = W6 m ρ D c (Proc.devRef .tc b) := StableHlo.after_of_writes_sub hostOps2 _ hostOps2_writes h
theorem keep9 (c : Dev nD) (b : Ref sig .tc) (h : b ∉ hostOps3_W) : W9 m ρ D c (Proc.devRef .tc b) = W8 m ρ D c (Proc.devRef .tc b) := StableHlo.after_of_writes_sub hostOps3 _ hostOps3_writes h
theorem keep11 (c : Dev nD) (b : Ref sig .tc) (h : b ∉ hostOps4_W) : W11 m ρ D c (Proc.devRef .tc b) = W10 m ρ D c (Proc.devRef .tc b) := StableHlo.after_of_writes_sub hostOps4 _ hostOps4_writes h
theorem keep13 (c : Dev nD) (b : Ref sig .tc) (h : b ∉ hostOps5_W) : W13 m ρ D c (Proc.devRef .tc b) = W12 m ρ D c (Proc.devRef .tc b) := StableHlo.after_of_writes_sub hostOps5 _ hostOps5_writes h

/-! ## Region 0's entry -/
theorem e0_ft (c : Dev nD) : (W3 m ρ c (Proc.devRef .tc main_v41) : (⟨S50000x256, .bf16⟩ : BufTy).Contents (Elt F)) = truncf .bf16 (m ((c : Thread nD τ).loc main_arg0)) bitsLt_bf16_f32 := by
  show StableHlo.after hostOps0_2 (StableHlo.after hostOps0_1 (StableHlo.after hostOps0 (W0 m ρ c))) (Proc.devRef .tc main_v41) = _
  after_results_simp <;> rfl

theorem e0_W (c : Dev nD) : (W3 m ρ c (Proc.devRef .tc main_v43) : (⟨S256x256, .bf16⟩ : BufTy).Contents (Elt F)) = shapeCast S256x256 (extractStridedSlice S1x256x256 ![0, 0, 0] (truncf .bf16 (m ((c : Thread nD τ).loc main_arg2)) bitsLt_bf16_f32) slices_S3x256x256_S1x256x256_0_0_0) shapeCasts_S1x256x256_S256x256 := by
  show StableHlo.after hostOps0_2 (StableHlo.after hostOps0_1 (StableHlo.after hostOps0 (W0 m ρ c))) (Proc.devRef .tc main_v43) = _
  after_results_simp <;> rfl

theorem e0_b (c : Dev nD) : (W3 m ρ c (Proc.devRef .tc main_v45) : (⟨S256, .f32⟩ : BufTy).Contents (Elt F)) = shapeCast S256 (extractStridedSlice S1x256 ![0, 0] (m ((c : Thread nD τ).loc main_arg3)) slices_S3x256_S1x256_0_0) shapeCasts_S1x256_S256 := by
  show StableHlo.after hostOps0_2 (StableHlo.after hostOps0_1 (StableHlo.after hostOps0 (W0 m ρ c))) (Proc.devRef .tc main_v45) = _
  after_results_simp <;> rfl

theorem w3_v39 (c : Dev nD) : (W3 m ρ c (Proc.devRef .tc main_v39) : (⟨S3x256x256, .bf16⟩ : BufTy).Contents (Elt F)) = truncf .bf16 (m ((c : Thread nD τ).loc main_arg2)) bitsLt_bf16_f32 := by
  show StableHlo.after hostOps0_2 (StableHlo.after hostOps0_1 (StableHlo.after hostOps0 (W0 m ρ c))) (Proc.devRef .tc main_v39) = _
  after_results_simp <;> rfl

theorem w3_hop1 (c : Dev nD) : (W3 m ρ c (Proc.devRef .tc main_v22) : (⟨S50000x256, .f32⟩ : BufTy).Contents (Elt F)) = Cert.ReferenceIdeal.Hand.hop1 (m ((c : Thread nD τ).loc main_arg0)) (m ((c : Thread nD τ).loc main_arg1)) (m ((c : Thread nD τ).loc main_arg6)) (m ((c : Thread nD τ).loc main_arg7)) := by
  show StableHlo.after hostOps0_2 (StableHlo.after hostOps0_1 (StableHlo.after hostOps0 (W0 m ρ c))) (Proc.devRef .tc main_v22) = _
  after_results_simp <;> rfl

theorem w3_hop2 (c : Dev nD) : (W3 m ρ c (Proc.devRef .tc main_v38) : (⟨S50000x256, .f32⟩ : BufTy).Contents (Elt F)) = Cert.ReferenceIdeal.Hand.hop2 (m ((c : Thread nD τ).loc main_arg0)) (m ((c : Thread nD τ).loc main_arg1)) (m ((c : Thread nD τ).loc main_arg6)) (m ((c : Thread nD τ).loc main_arg7)) := by
  show StableHlo.after hostOps0_2 (StableHlo.after hostOps0_1 (StableHlo.after hostOps0 (W0 m ρ c))) (Proc.devRef .tc main_v38) = _
  after_results_simp <;> rfl

theorem w3_arg3 (c : Dev nD) : (W3 m ρ c (Proc.devRef .tc main_arg3) : (⟨S3x256, .f32⟩ : BufTy).Contents (Elt F)) = (m ((c : Thread nD τ).loc main_arg3)) := by
  show StableHlo.after hostOps0_2 (StableHlo.after hostOps0_1 (StableHlo.after hostOps0 (W0 m ρ c))) (Proc.devRef .tc main_arg3) = _
  after_results_simp <;> rfl

theorem w3_arg4 (c : Dev nD) : (W3 m ρ c (Proc.devRef .tc main_arg4) : (⟨S3x256, .f32⟩ : BufTy).Contents (Elt F)) = (m ((c : Thread nD τ).loc main_arg4)) := by
  show StableHlo.after hostOps0_2 (StableHlo.after hostOps0_1 (StableHlo.after hostOps0 (W0 m ρ c))) (Proc.devRef .tc main_arg4) = _
  after_results_simp <;> rfl

theorem w3_arg5 (c : Dev nD) : (W3 m ρ c (Proc.devRef .tc main_arg5) : (⟨S3x256, .f32⟩ : BufTy).Contents (Elt F)) = (m ((c : Thread nD τ).loc main_arg5)) := by
  show StableHlo.after hostOps0_2 (StableHlo.after hostOps0_1 (StableHlo.after hostOps0 (W0 m ρ c))) (Proc.devRef .tc main_arg5) = _
  after_results_simp <;> rfl

/-! ## Region 1's entry -/
theorem in4_ft (c : Dev nD) : W4 m ρ D c (Proc.devRef .tc main_v41) = W3 m ρ c (Proc.devRef .tc main_v41) := Wnext_in 0 launch0 (W3 m ρ) (D.r0 _) c 0 rfl
theorem e1_ft (c : Dev nD) : (W5 m ρ D c (Proc.devRef .tc main_v41) : (⟨S50000x256, .bf16⟩ : BufTy).Contents (Elt F)) = truncf .bf16 (m ((c : Thread nD τ).loc main_arg0)) bitsLt_bf16_f32 := by
  rw [keep5 m ρ D c main_v41 (by decide), in4_ft m ρ D c, e0_ft m ρ c]
theorem e1_W (c : Dev nD) : (W5 m ρ D c (Proc.devRef .tc main_v48) : (⟨S256x256, .bf16⟩ : BufTy).Contents (Elt F)) = shapeCast S256x256 (extractStridedSlice S1x256x256 ![0, 0, 0] (truncf .bf16 (m ((c : Thread nD τ).loc main_arg2)) bitsLt_bf16_f32) slices_S3x256x256_S1x256x256_0_0_0) shapeCasts_S1x256x256_S256x256 := by
  show StableHlo.after hostOps1 (W4 m ρ D c) (Proc.devRef .tc main_v48) = _
  after_results_simp
  rw [keep4 m ρ D c main_v39 (by decide), w3_v39 m ρ c] <;> rfl
theorem e1_b (c : Dev nD) : (W5 m ρ D c (Proc.devRef .tc main_v50) : (⟨S256, .f32⟩ : BufTy).Contents (Elt F)) = shapeCast S256 (extractStridedSlice S1x256 ![0, 0] (m ((c : Thread nD τ).loc main_arg3)) slices_S3x256_S1x256_0_0) shapeCasts_S1x256_S256 := by
  show StableHlo.after hostOps1 (W4 m ρ D c) (Proc.devRef .tc main_v50) = _
  after_results_simp
  rw [keep4 m ρ D c main_arg3 (by decide), w3_arg3 m ρ c] <;> rfl
theorem e1_g (c : Dev nD) : (W5 m ρ D c (Proc.devRef .tc main_v52) : (⟨S256, .f32⟩ : BufTy).Contents (Elt F)) = shapeCast S256 (extractStridedSlice S1x256 ![0, 0] (m ((c : Thread nD τ).loc main_arg4)) slices_S3x256_S1x256_0_0) shapeCasts_S1x256_S256 := by
  show StableHlo.after hostOps1 (W4 m ρ D c) (Proc.devRef .tc main_v52) = _
  after_results_simp
  rw [keep4 m ρ D c main_arg4 (by decide), w3_arg4 m ρ c] <;> rfl
theorem e1_be (c : Dev nD) : (W5 m ρ D c (Proc.devRef .tc main_v54) : (⟨S256, .f32⟩ : BufTy).Contents (Elt F)) = shapeCast S256 (extractStridedSlice S1x256 ![0, 0] (m ((c : Thread nD τ).loc main_arg5)) slices_S3x256_S1x256_0_0) shapeCasts_S1x256_S256 := by
  show StableHlo.after hostOps1 (W4 m ρ D c) (Proc.devRef .tc main_v54) = _
  after_results_simp
  rw [keep4 m ρ D c main_arg5 (by decide), w3_arg5 m ρ c] <;> rfl
theorem e1_mean (c : Dev nD) : W5 m ρ D c (Proc.devRef .tc main_v46_0) = ((D.r0 (W3 m ρ)).dat c).arrAt 3 (cfgAt 0).N := (keep5 m ρ D c main_v46_0 (by decide)).trans (Wnext_arr 0 launch0 (W3 m ρ) (D.r0 _) c 3)
theorem e1_var (c : Dev nD) : W5 m ρ D c (Proc.devRef .tc main_v46_1) = ((D.r0 (W3 m ρ)).dat c).arrAt 4 (cfgAt 0).N := (keep5 m ρ D c main_v46_1 (by decide)).trans (Wnext_arr 0 launch0 (W3 m ρ) (D.r0 _) c 4)

/-! ## Region 2's entry -/
theorem e2_ft (c : Dev nD) : (W7 m ρ D c (Proc.devRef .tc main_v56) : (⟨S50000x256, .bf16⟩ : BufTy).Contents (Elt F)) = truncf .bf16 (Cert.ReferenceIdeal.Hand.hop1 (m ((c : Thread nD τ).loc main_arg0)) (m ((c : Thread nD τ).loc main_arg1)) (m ((c : Thread nD τ).loc main_arg6)) (m ((c : Thread nD τ).loc main_arg7))) bitsLt_bf16_f32 := by
  show StableHlo.after hostOps2 (W6 m ρ D c) (Proc.devRef .tc main_v56) = _
  after_results_simp
  rw [keep6 m ρ D c main_v22 (by decide), keep5 m ρ D c main_v22 (by decide), keep4 m ρ D c main_v22 (by decide), w3_hop1 m ρ c] <;> rfl
theorem e2_W (c : Dev nD) : (W7 m ρ D c (Proc.devRef .tc main_v58) : (⟨S256x256, .bf16⟩ : BufTy).Contents (Elt F)) = shapeCast S256x256 (extractStridedSlice S1x256x256 ![1, 0, 0] (truncf .bf16 (m ((c : Thread nD τ).loc main_arg2)) bitsLt_bf16_f32) slices_S3x256x256_S1x256x256_1_0_0) shapeCasts_S1x256x256_S256x256 := by
  show StableHlo.after hostOps2 (W6 m ρ D c) (Proc.devRef .tc main_v58) = _
  after_results_simp
  rw [keep6 m ρ D c main_v39 (by decide), keep5 m ρ D c main_v39 (by decide), keep4 m ρ D c main_v39 (by decide), w3_v39 m ρ c] <;> rfl
theorem e2_b (c : Dev nD) : (W7 m ρ D c (Proc.devRef .tc main_v60) : (⟨S256, .f32⟩ : BufTy).Contents (Elt F)) = shapeCast S256 (extractStridedSlice S1x256 ![1, 0] (m ((c : Thread nD τ).loc main_arg3)) slices_S3x256_S1x256_1_0) shapeCasts_S1x256_S256 := by
  show StableHlo.after hostOps2 (W6 m ρ D c) (Proc.devRef .tc main_v60) = _
  after_results_simp
  rw [keep6 m ρ D c main_arg3 (by decide), keep5 m ρ D c main_arg3 (by decide), keep4 m ρ D c main_arg3 (by decide), w3_arg3 m ρ c] <;> rfl

/-! ## Region 3's entry -/
theorem in8_ft (c : Dev nD) : W8 m ρ D c (Proc.devRef .tc main_v56) = W7 m ρ D c (Proc.devRef .tc main_v56) := Wnext_in 2 launch2 (W7 m ρ D) (D.r2 _) c 0 rfl
theorem e3_ft (c : Dev nD) : (W9 m ρ D c (Proc.devRef .tc main_v56) : (⟨S50000x256, .bf16⟩ : BufTy).Contents (Elt F)) = truncf .bf16 (Cert.ReferenceIdeal.Hand.hop1 (m ((c : Thread nD τ).loc main_arg0)) (m ((c : Thread nD τ).loc main_arg1)) (m ((c : Thread nD τ).loc main_arg6)) (m ((c : Thread nD τ).loc main_arg7))) bitsLt_bf16_f32 := by
  rw [keep9 m ρ D c main_v56 (by decide), in8_ft m ρ D c, e2_ft m ρ D c]
theorem e3_W (c : Dev nD) : (W9 m ρ D c (Proc.devRef .tc main_v63) : (⟨S256x256, .bf16⟩ : BufTy).Contents (Elt F)) = shapeCast S256x256 (extractStridedSlice S1x256x256 ![1, 0, 0] (truncf .bf16 (m ((c : Thread nD τ).loc main_arg2)) bitsLt_bf16_f32) slices_S3x256x256_S1x256x256_1_0_0) shapeCasts_S1x256x256_S256x256 := by
  show StableHlo.after hostOps3 (W8 m ρ D c) (Proc.devRef .tc main_v63) = _
  after_results_simp
  rw [keep8 m ρ D c main_v39 (by decide), keep7 m ρ D c main_v39 (by decide), keep6 m ρ D c main_v39 (by decide), keep5 m ρ D c main_v39 (by decide), keep4 m ρ D c main_v39 (by decide), w3_v39 m ρ c] <;> rfl
theorem e3_b (c : Dev nD) : (W9 m ρ D c (Proc.devRef .tc main_v65) : (⟨S256, .f32⟩ : BufTy).Contents (Elt F)) = shapeCast S256 (extractStridedSlice S1x256 ![1, 0] (m ((c : Thread nD τ).loc main_arg3)) slices_S3x256_S1x256_1_0) shapeCasts_S1x256_S256 := by
  show StableHlo.after hostOps3 (W8 m ρ D c) (Proc.devRef .tc main_v65) = _
  after_results_simp
  rw [keep8 m ρ D c main_arg3 (by decide), keep7 m ρ D c main_arg3 (by decide), keep6 m ρ D c main_arg3 (by decide), keep5 m ρ D c main_arg3 (by decide), keep4 m ρ D c main_arg3 (by decide), w3_arg3 m ρ c] <;> rfl
theorem e3_g (c : Dev nD) : (W9 m ρ D c (Proc.devRef .tc main_v67) : (⟨S256, .f32⟩ : BufTy).Contents (Elt F)) = shapeCast S256 (extractStridedSlice S1x256 ![1, 0] (m ((c : Thread nD τ).loc main_arg4)) slices_S3x256_S1x256_1_0) shapeCasts_S1x256_S256 := by
  show StableHlo.after hostOps3 (W8 m ρ D c) (Proc.devRef .tc main_v67) = _
  after_results_simp
  rw [keep8 m ρ D c main_arg4 (by decide), keep7 m ρ D c main_arg4 (by decide), keep6 m ρ D c main_arg4 (by decide), keep5 m ρ D c main_arg4 (by decide), keep4 m ρ D c main_arg4 (by decide), w3_arg4 m ρ c] <;> rfl
theorem e3_be (c : Dev nD) : (W9 m ρ D c (Proc.devRef .tc main_v69) : (⟨S256, .f32⟩ : BufTy).Contents (Elt F)) = shapeCast S256 (extractStridedSlice S1x256 ![1, 0] (m ((c : Thread nD τ).loc main_arg5)) slices_S3x256_S1x256_1_0) shapeCasts_S1x256_S256 := by
  show StableHlo.after hostOps3 (W8 m ρ D c) (Proc.devRef .tc main_v69) = _
  after_results_simp
  rw [keep8 m ρ D c main_arg5 (by decide), keep7 m ρ D c main_arg5 (by decide), keep6 m ρ D c main_arg5 (by decide), keep5 m ρ D c main_arg5 (by decide), keep4 m ρ D c main_arg5 (by decide), w3_arg5 m ρ c] <;> rfl
theorem e3_mean (c : Dev nD) : W9 m ρ D c (Proc.devRef .tc main_v61_0) = ((D.r2 (W7 m ρ D)).dat c).arrAt 3 (cfgAt 2).N := (keep9 m ρ D c main_v61_0 (by decide)).trans (Wnext_arr 2 launch2 (W7 m ρ D) (D.r2 _) c 3)
theorem e3_var (c : Dev nD) : W9 m ρ D c (Proc.devRef .tc main_v61_1) = ((D.r2 (W7 m ρ D)).dat c).arrAt 4 (cfgAt 2).N := (keep9 m ρ D c main_v61_1 (by decide)).trans (Wnext_arr 2 launch2 (W7 m ρ D) (D.r2 _) c 4)
theorem e3_prev (c : Dev nD) : (W9 m ρ D c (Proc.devRef .tc main_v70) : (⟨S50000x768, .f32⟩ : BufTy).Contents (Elt F)) = ((D.r1 (W5 m ρ D)).dat c).arrAt 7 (cfgAt 1).N := by
  show StableHlo.after hostOps3 (W8 m ρ D c) (Proc.devRef .tc main_v70) = _
  after_results_simp
  exact (keep8 m ρ D c main_v55 (by decide)).trans ((keep7 m ρ D c main_v55 (by decide)).trans (Wnext_arr 1 launch1 (W5 m ρ D) (D.r1 _) c 7))

/-! ## Region 4's entry -/
theorem e4_ft (c : Dev nD) : (W11 m ρ D c (Proc.devRef .tc main_v71) : (⟨S50000x256, .bf16⟩ : BufTy).Contents (Elt F)) = truncf .bf16 (Cert.ReferenceIdeal.Hand.hop2 (m ((c : Thread nD τ).loc main_arg0)) (m ((c : Thread nD τ).loc main_arg1)) (m ((c : Thread nD τ).loc main_arg6)) (m ((c : Thread nD τ).loc main_arg7))) bitsLt_bf16_f32 := by
  show StableHlo.after hostOps4 (W10 m ρ D c) (Proc.devRef .tc main_v71) = _
  after_results_simp
  rw [keep10 m ρ D c main_v38 (by decide), keep9 m ρ D c main_v38 (by decide), keep8 m ρ D c main_v38 (by decide), keep7 m ρ D c main_v38 (by decide), keep6 m ρ D c main_v38 (by decide), keep5 m ρ D c main_v38 (by decide), keep4 m ρ D c main_v38 (by decide), w3_hop2 m ρ c] <;> rfl
theorem e4_W (c : Dev nD) : (W11 m ρ D c (Proc.devRef .tc main_v73) : (⟨S256x256, .bf16⟩ : BufTy).Contents (Elt F)) = shapeCast S256x256 (extractStridedSlice S1x256x256 ![2, 0, 0] (truncf .bf16 (m ((c : Thread nD τ).loc main_arg2)) bitsLt_bf16_f32) slices_S3x256x256_S1x256x256_2_0_0) shapeCasts_S1x256x256_S256x256 := by
  show StableHlo.after hostOps4 (W10 m ρ D c) (Proc.devRef .tc main_v73) = _
  after_results_simp
  rw [keep10 m ρ D c main_v39 (by decide), keep9 m ρ D c main_v39 (by decide), keep8 m ρ D c main_v39 (by decide), keep7 m ρ D c main_v39 (by decide), keep6 m ρ D c main_v39 (by decide), keep5 m ρ D c main_v39 (by decide), keep4 m ρ D c main_v39 (by decide), w3_v39 m ρ c] <;> rfl
theorem e4_b (c : Dev nD) : (W11 m ρ D c (Proc.devRef .tc main_v75) : (⟨S256, .f32⟩ : BufTy).Contents (Elt F)) = shapeCast S256 (extractStridedSlice S1x256 ![2, 0] (m ((c : Thread nD τ).loc main_arg3)) slices_S3x256_S1x256_2_0) shapeCasts_S1x256_S256 := by
  show StableHlo.after hostOps4 (W10 m ρ D c) (Proc.devRef .tc main_v75) = _
  after_results_simp
  rw [keep10 m ρ D c main_arg3 (by decide), keep9 m ρ D c main_arg3 (by decide), keep8 m ρ D c main_arg3 (by decide), keep7 m ρ D c main_arg3 (by decide), keep6 m ρ D c main_arg3 (by decide), keep5 m ρ D c main_arg3 (by decide), keep4 m ρ D c main_arg3 (by decide), w3_arg3 m ρ c] <;> rfl

/-! ## Region 5's entry and the result -/
theorem in12_ft (c : Dev nD) : W12 m ρ D c (Proc.devRef .tc main_v71) = W11 m ρ D c (Proc.devRef .tc main_v71) := Wnext_in 4 launch4 (W11 m ρ D) (D.r4 _) c 0 rfl
theorem e5_ft (c : Dev nD) : (W13 m ρ D c (Proc.devRef .tc main_v71) : (⟨S50000x256, .bf16⟩ : BufTy).Contents (Elt F)) = truncf .bf16 (Cert.ReferenceIdeal.Hand.hop2 (m ((c : Thread nD τ).loc main_arg0)) (m ((c : Thread nD τ).loc main_arg1)) (m ((c : Thread nD τ).loc main_arg6)) (m ((c : Thread nD τ).loc main_arg7))) bitsLt_bf16_f32 := by
  rw [keep13 m ρ D c main_v71 (by decide), in12_ft m ρ D c, e4_ft m ρ D c]
theorem e5_W (c : Dev nD) : (W13 m ρ D c (Proc.devRef .tc main_v78) : (⟨S256x256, .bf16⟩ : BufTy).Contents (Elt F)) = shapeCast S256x256 (extractStridedSlice S1x256x256 ![2, 0, 0] (truncf .bf16 (m ((c : Thread nD τ).loc main_arg2)) bitsLt_bf16_f32) slices_S3x256x256_S1x256x256_2_0_0) shapeCasts_S1x256x256_S256x256 := by
  show StableHlo.after hostOps5 (W12 m ρ D c) (Proc.devRef .tc main_v78) = _
  after_results_simp
  rw [keep12 m ρ D c main_v39 (by decide), keep11 m ρ D c main_v39 (by decide), keep10 m ρ D c main_v39 (by decide), keep9 m ρ D c main_v39 (by decide), keep8 m ρ D c main_v39 (by decide), keep7 m ρ D c main_v39 (by decide), keep6 m ρ D c main_v39 (by decide), keep5 m ρ D c main_v39 (by decide), keep4 m ρ D c main_v39 (by decide), w3_v39 m ρ c] <;> rfl
theorem e5_b (c : Dev nD) : (W13 m ρ D c (Proc.devRef .tc main_v80) : (⟨S256, .f32⟩ : BufTy).Contents (Elt F)) = shapeCast S256 (extractStridedSlice S1x256 ![2, 0] (m ((c : Thread nD τ).loc main_arg3)) slices_S3x256_S1x256_2_0) shapeCasts_S1x256_S256 := by
  show StableHlo.after hostOps5 (W12 m ρ D c) (Proc.devRef .tc main_v80) = _
  after_results_simp
  rw [keep12 m ρ D c main_arg3 (by decide), keep11 m ρ D c main_arg3 (by decide), keep10 m ρ D c main_arg3 (by decide), keep9 m ρ D c main_arg3 (by decide), keep8 m ρ D c main_arg3 (by decide), keep7 m ρ D c main_arg3 (by decide), keep6 m ρ D c main_arg3 (by decide), keep5 m ρ D c main_arg3 (by decide), keep4 m ρ D c main_arg3 (by decide), w3_arg3 m ρ c] <;> rfl
theorem e5_g (c : Dev nD) : (W13 m ρ D c (Proc.devRef .tc main_v82) : (⟨S256, .f32⟩ : BufTy).Contents (Elt F)) = shapeCast S256 (extractStridedSlice S1x256 ![2, 0] (m ((c : Thread nD τ).loc main_arg4)) slices_S3x256_S1x256_2_0) shapeCasts_S1x256_S256 := by
  show StableHlo.after hostOps5 (W12 m ρ D c) (Proc.devRef .tc main_v82) = _
  after_results_simp
  rw [keep12 m ρ D c main_arg4 (by decide), keep11 m ρ D c main_arg4 (by decide), keep10 m ρ D c main_arg4 (by decide), keep9 m ρ D c main_arg4 (by decide), keep8 m ρ D c main_arg4 (by decide), keep7 m ρ D c main_arg4 (by decide), keep6 m ρ D c main_arg4 (by decide), keep5 m ρ D c main_arg4 (by decide), keep4 m ρ D c main_arg4 (by decide), w3_arg4 m ρ c] <;> rfl
theorem e5_be (c : Dev nD) : (W13 m ρ D c (Proc.devRef .tc main_v84) : (⟨S256, .f32⟩ : BufTy).Contents (Elt F)) = shapeCast S256 (extractStridedSlice S1x256 ![2, 0] (m ((c : Thread nD τ).loc main_arg5)) slices_S3x256_S1x256_2_0) shapeCasts_S1x256_S256 := by
  show StableHlo.after hostOps5 (W12 m ρ D c) (Proc.devRef .tc main_v84) = _
  after_results_simp
  rw [keep12 m ρ D c main_arg5 (by decide), keep11 m ρ D c main_arg5 (by decide), keep10 m ρ D c main_arg5 (by decide), keep9 m ρ D c main_arg5 (by decide), keep8 m ρ D c main_arg5 (by decide), keep7 m ρ D c main_arg5 (by decide), keep6 m ρ D c main_arg5 (by decide), keep5 m ρ D c main_arg5 (by decide), keep4 m ρ D c main_arg5 (by decide), w3_arg5 m ρ c] <;> rfl
theorem e5_mean (c : Dev nD) : W13 m ρ D c (Proc.devRef .tc main_v76_0) = ((D.r4 (W11 m ρ D)).dat c).arrAt 3 (cfgAt 4).N := (keep13 m ρ D c main_v76_0 (by decide)).trans (Wnext_arr 4 launch4 (W11 m ρ D) (D.r4 _) c 3)
theorem e5_var (c : Dev nD) : W13 m ρ D c (Proc.devRef .tc main_v76_1) = ((D.r4 (W11 m ρ D)).dat c).arrAt 4 (cfgAt 4).N := (keep13 m ρ D c main_v76_1 (by decide)).trans (Wnext_arr 4 launch4 (W11 m ρ D) (D.r4 _) c 4)
theorem e5_prev (c : Dev nD) : (W13 m ρ D c (Proc.devRef .tc main_v85) : (⟨S50000x768, .f32⟩ : BufTy).Contents (Elt F)) = ((D.r3 (W9 m ρ D)).dat c).arrAt 7 (cfgAt 3).N := by
  show StableHlo.after hostOps5 (W12 m ρ D c) (Proc.devRef .tc main_v85) = _
  after_results_simp
  exact (keep12 m ρ D c main_v70 (by decide)).trans ((keep11 m ρ D c main_v70 (by decide)).trans (Wnext_arr 3 launch3 (W9 m ρ D) (D.r3 _) c 7))
/-- The result array at the end is what the last region's write-backs leave. -/
theorem out_eq (c : Dev nD) : (W14 m ρ D c (Proc.devRef .tc main_v85) : (⟨S50000x768, .f32⟩ : BufTy).Contents (Elt F)) = ((D.r5 (W13 m ρ D)).dat c).arrAt 7 (cfgAt 5).N := Wnext_arr 5 launch5 (W13 m ρ D) (D.r5 _) c 7

end Cert.KernelIdeal.Hand

end
-- ==== Proof.Spec.lean ====
/-
  The mathematics of one block of the output, entry by entry, on extended reals.
  For features ft (50000 rows of 256), a weight matrix W, a bias row b:  h(p, j) = max(∑ₖ ft(p,k)·W(k,j) + b(j), 0).
  One arrangement takes the column sums of h and of h·h tile by tile (25 tiles of 2000 rows, added one after the other
  to a running sum that starts at zero), forms mean = S/50000 and var = max(SS/50000 − mean·mean, 0), and normalises
  with the reciprocal square root: ((h − mean)·rsqrt(var + ε))·γ + β.
  The other takes the column mean over all rows, the mean square of the centred entries, and normalises by division
  by the square root: ((h − mean)/sqrt(var + ε))·γ + β.
  On real data the two agree: the centred second moment is the mean square less the squared mean, it is not negative,
  and multiplying by a reciprocal square root of a positive number is dividing by its square root.
-/
import Idealize.ShloMosaic.PureOps.Ideal
import Mathlib

noncomputable section

namespace Cert.Spec

open Idealize.ShloMosaic

/-- The small constant added to the variance, the binary32 word read exactly. -/
def eps : EReal := Ideal.ofBits .f32 0x3727C5AC#32
/-- The row count 50000 as the binary32 word read exactly. -/
def cnt : EReal := Ideal.ofBits .f32 0x47435000#32

/-- The rectified affine image: max(∑ₖ ft(p,k)·W(k,j) + b(j), 0). -/
def lin (ft : Fin 50000 → Fin 256 → EReal) (W : Fin 256 → Fin 256 → EReal) (b : Fin 256 → EReal)
    (p : Fin 50000) (j : Fin 256) : EReal :=
  max ((∑ k : Fin 256, ft p k * W k j) + b j) 0

/-- Row r of tile t. -/
def rowOf (t : Fin 25) (r : Fin 2000) : Fin 50000 := ⟨2000 * t.val + r.val, by have := t.isLt; have := r.isLt; omega⟩

/-- The column sums of tile t. -/
def tileSum (h : Fin 50000 → Fin 256 → EReal) (t : Fin 25) (j : Fin 256) : EReal := ∑ r : Fin 2000, h (rowOf t r) j

/-- The running column sums after the first n tiles, from zero, one tile added after the other. -/
def accS (h : Fin 50000 → Fin 256 → EReal) : ℕ → Fin 256 → EReal
  | 0 => fun _ => 0
  | n + 1 => fun j => accS h n j + (if hn : n < 25 then tileSum h ⟨n, hn⟩ j else 0)

/-- The tiled arrangement's mean and variance. -/
def kerMean (h : Fin 50000 → Fin 256 → EReal) (j : Fin 256) : EReal := Ideal.div (accS h 25 j) cnt
def kerVar (h : Fin 50000 → Fin 256 → EReal) (j : Fin 256) : EReal :=
  max (Ideal.div (accS (fun p j => h p j * h p j) 25 j) cnt - kerMean h j * kerMean h j) 0

/-- Normalising with the reciprocal square root. -/
def kerOut (h : Fin 50000 → Fin 256 → EReal) (mean var γ β : Fin 256 → EReal) (p : Fin 50000) (j : Fin 256) : EReal :=
  ((h p j - mean j) * Ideal.rsqrt (var j + eps)) * γ j + β j

/-- One block, the tiled arrangement. -/
def kerBn (ft : Fin 50000 → Fin 256 → EReal) (W : Fin 256 → Fin 256 → EReal) (b γ β : Fin 256 → EReal)
    (p : Fin 50000) (j : Fin 256) : EReal :=
  kerOut (lin ft W b) (kerMean (lin ft W b)) (kerVar (lin ft W b)) γ β p j

/-- The whole-column arrangement's mean and variance. -/
def refMean (h : Fin 50000 → Fin 256 → EReal) (j : Fin 256) : EReal := Ideal.div (∑ p : Fin 50000, h p j) cnt
def refVar (h : Fin 50000 → Fin 256 → EReal) (j : Fin 256) : EReal :=
  Ideal.div (∑ p : Fin 50000, (h p j - refMean h j) * (h p j - refMean h j)) cnt

/-- Normalising by division by the square root. -/
def refOut (h : Fin 50000 → Fin 256 → EReal) (mean var γ β : Fin 256 → EReal) (p : Fin 50000) (j : Fin 256) : EReal :=
  (Ideal.div (h p j - mean j) (Ideal.sqrt (var j + eps))) * γ j + β j

/-- One block, the whole-column arrangement. -/
def refBn (ft : Fin 50000 → Fin 256 → EReal) (W : Fin 256 → Fin 256 → EReal) (b γ β : Fin 256 → EReal)
    (p : Fin 50000) (j : Fin 256) : EReal :=
  refOut (lin ft W b) (refMean (lin ft W b)) (refVar (lin ft W b)) γ β p j

/-- Every entry a real number. -/
def Real2 {α β : Type} (f : α → β → EReal) : Prop := ∀ a b, ∃ r : ℝ, f a b = (r : EReal)
def Real1 {α : Type} (f : α → EReal) : Prop := ∀ a, ∃ r : ℝ, f a = (r : EReal)

end Cert.Spec

end
-- ==== Proof.StatsVal.lean ====
import proofs.«115305_j43688407335088_2_alg».proof.Proof.StatsCommon
import proofs.«115305_j43688407335088_2_alg».proof.Proof.Spec
import Idealize.ShloMosaic.PureOps.Ideal.Laws
import Idealize.ShloMosaic.Lib.ValueIdx
import Idealize.ShloMosaic.Lib.ValueIdxCoords
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)
open scoped BigOperators

/-! # The statistics at the exact instance, entry by entry -/

theorem lift_rows (j : Fin 256) (k : Fin 2000) :
    (reduces_S2000x256_S256 : S2000x256.Reduces [0] S256).lift (ix1 j) k = ix2 k j := by
  funext c
  match c with
  | ⟨0, _⟩ => exact Fin.ext rfl
  | ⟨1, _⟩ => exact Fin.ext rfl

/-- The contraction index of the product, as its one coordinate. -/
abbrev cE : dot_S2000x256_S256x256_S2000x256_1_0_0_1_n_n.contr.Idx ≃ Fin 256 := contrEquiv1 dot_S2000x256_S256x256_S2000x256_1_0_0_1_n_n 256 rfl rfl

theorem lhsIdx_cE (r : Fin 2000) (j : Fin 256) (i : Fin 256) : dot_S2000x256_S256x256_S2000x256_1_0_0_1_n_n.lhsIdx (ix2 r j) (cE.symm i) = ix2 r i := by
  funext a
  match a with
  | ⟨0, _⟩ => exact Fin.ext rfl
  | ⟨1, _⟩ => exact Fin.ext ((show _ = ((cE.symm i) ⟨0, by decide⟩ : ℕ) from rfl).trans (contrEquiv1_symm_val dot_S2000x256_S256x256_S2000x256_1_0_0_1_n_n 256 rfl rfl i))

theorem rhsIdx_cE (r : Fin 2000) (j : Fin 256) (i : Fin 256) : dot_S2000x256_S256x256_S2000x256_1_0_0_1_n_n.rhsIdx (ix2 r j) (cE.symm i) = ix2 i j := by
  funext a
  match a with
  | ⟨0, _⟩ => exact Fin.ext ((show _ = ((cE.symm i) ⟨0, by decide⟩ : ℕ) from rfl).trans (contrEquiv1_symm_val dot_S2000x256_S256x256_S2000x256_1_0_0_1_n_n 256 rfl rfl i))
  | ⟨1, _⟩ => exact Fin.ext rfl

/-- The activation at row `r`, column `j`: the rectified affine image. -/
theorem hStats_apply (x : Vec Ideal S2000x256 .bf16) (w : Vec Ideal S256x256 .bf16) (b : Vec Ideal S256 .f32) (r : Fin 2000) (j : Fin 256) :
    hStats x w b (ix2 r j) = max ((∑ k : Fin 256, x (ix2 r k) * w (ix2 k j)) + b (ix1 j)) 0 := by
  unfold hStats
  rw [maximumf_apply, addf_apply, broadcast_apply]
  simp only [matmul]
  rw [Ideal.matmul_constant_zero_apply, shapeCast_self, shapeCast_self, ← Equiv.sum_comp cE.symm]
  simp only [lhsIdx_cE, rhsIdx_cE]
  rw [broadcastTo_apply _ _ _ (ix2 (0 : Fin 1) j) (fun a => by match a with | ⟨0, _⟩ => rfl | ⟨1, _⟩ => rfl),
    shapeCast_a_1a_apply, shapeCast_self]
  show max _ (Ideal.ofBits .f32 0x00000000#32) = _
  rw [Ideal.ofBits_zero_f32]

/-- The running sums start at zero. -/
theorem zeroStats_apply (j : Fin 256) : (zeroStats (F := Ideal)) (ix2 (0 : Fin 1) j) = 0 := by
  unfold zeroStats
  rw [shapeCast_self, broadcast_apply]
  show Ideal.ofBits .f32 0x00000000#32 = 0
  exact Ideal.ofBits_zero_f32

/-- One point adds the tile's column sums of the activation to the first running sum, -/
theorem stepStats_fst_apply (x : Vec Ideal S2000x256 .bf16) (w : Vec Ideal S256x256 .bf16) (b : Vec Ideal S256 .f32)
    (s ss : Vec Ideal S1x256 .f32) (j : Fin 256) :
    (stepStats x w b s ss).1 (ix2 (0 : Fin 1) j) = s (ix2 (0 : Fin 1) j) + ∑ r : Fin 2000, hStats x w b (ix2 r j) := by
  unfold stepStats
  dsimp only
  rw [shapeCast_self, addf_apply, shapeCast_a_1a_apply]
  refine congrArg (s (ix2 (0 : Fin 1) j) + ·) ?_
  refine (Ideal.multiReduction_add_single (hStats x w b) _ reduces_S2000x256_S256 _ _ (ix1 j)).trans ?_
  exact Finset.sum_congr rfl fun r _ => congrArg (hStats x w b) (lift_rows j r)

/-- and of its square to the second. -/
theorem stepStats_snd_apply (x : Vec Ideal S2000x256 .bf16) (w : Vec Ideal S256x256 .bf16) (b : Vec Ideal S256 .f32)
    (s ss : Vec Ideal S1x256 .f32) (j : Fin 256) :
    (stepStats x w b s ss).2 (ix2 (0 : Fin 1) j)
      = ss (ix2 (0 : Fin 1) j) + ∑ r : Fin 2000, hStats x w b (ix2 r j) * hStats x w b (ix2 r j) := by
  unfold stepStats
  dsimp only
  rw [shapeCast_self, addf_apply, shapeCast_a_1a_apply]
  refine congrArg (ss (ix2 (0 : Fin 1) j) + ·) ?_
  refine (Ideal.multiReduction_add_single (mulf (hStats x w b) (hStats x w b)) _ reduces_S2000x256_S256 _ _ (ix1 j)).trans ?_
  exact Finset.sum_congr rfl fun r _ => by
    rw [mulf_apply]
    exact congrArg (fun i => hStats x w b i * hStats x w b i) (lift_rows j r)

/-- The mean the last point stores, -/
theorem finStats_fst_apply (s ss : Vec Ideal S1x256 .f32) (j : Fin 256) :
    (finStats s ss).1 (ix1 j) = Ideal.div (s (ix2 (0 : Fin 1) j)) Cert.Spec.cnt := by
  unfold finStats
  dsimp only
  rw [shapeCast_1a_a_apply]
  rfl

/-- and the variance. -/
theorem finStats_snd_apply (s ss : Vec Ideal S1x256 .f32) (j : Fin 256) :
    (finStats s ss).2 (ix1 j)
      = max (Ideal.div (ss (ix2 (0 : Fin 1) j)) Cert.Spec.cnt
          - Ideal.div (s (ix2 (0 : Fin 1) j)) Cert.Spec.cnt * Ideal.div (s (ix2 (0 : Fin 1) j)) Cert.Spec.cnt) 0 := by
  unfold finStats
  dsimp only
  rw [shapeCast_1a_a_apply, maximumf_apply, subf_apply, mulf_apply, divf_apply, broadcast_apply, broadcast_apply]
  show max _ (Ideal.ofBits .f32 0x00000000#32) = _
  rw [Ideal.ofBits_zero_f32]
  rfl

end Cert.KernelIdeal.Hand

end
-- ==== Proof.Stats0Val.lean ====
import proofs.«115305_j43688407335088_2_alg».proof.Proof.Stats0
import proofs.«115305_j43688407335088_2_alg».proof.Proof.StatsVal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)
open scoped BigOperators

/-! # Statistics region 0: what its arrays hold after it -/

section Arrays
variable {F : FTy → Type} [FloatOps F]
variable (V : (c : Dev nD) → (b : Ref sig .tc) → Buf (Elt F) ((c : Thread nD τ).loc b))

/-- The three input arrays are never written. -/
theorem arrAt0_0 (c : Dev nD) : (dat0 V c).arrAt 0 cfg0.N = V c (Pipeline.arrRef spec0 0) :=
  ((dat0 V c).arrAt_in 0 rfl _).trans (A_eq0 V c 0)
theorem arrAt0_1 (c : Dev nD) : (dat0 V c).arrAt 1 cfg0.N = V c (Pipeline.arrRef spec0 1) :=
  ((dat0 V c).arrAt_in 1 rfl _).trans (A_eq0 V c 1)
theorem arrAt0_2 (c : Dev nD) : (dat0 V c).arrAt 2 cfg0.N = V c (Pipeline.arrRef spec0 2) :=
  ((dat0 V c).arrAt_in 2 rfl _).trans (A_eq0 V c 2)

/-- The last point. -/
abbrev tlast0 : Fin cfg0.N := ⟨24, by rw [show cfg0.N = 25 from N_0]; omega⟩

/-- The mean and the variance of the finished sums, as contents of the two result arrays (each one block). -/
abbrev result_mean0 (c : Dev nD) : Buf (Elt F) ((c : Thread nD τ).loc main_v46_0) := (finStats (acc0 V c 25).1 (acc0 V c 25).2).1
abbrev result_var0 (c : Dev nD) : Buf (Elt F) ((c : Thread nD τ).loc main_v46_1) := (finStats (acc0 V c 25).1 (acc0 V c 25).2).2

/-- The one write-back of each, at the last point, writes it: block 0 of the array read through zero offsets is the array. -/
theorem flushed0_3 (c : Dev nD) (t : Fin cfg0.N) (hf : (cfg0.win 3).flush t = true) :
    (dat0 V c).flushed 3 t = ((cfg0.win 3).blk t).view.read (Elt F) (result_mean0 V c) := by
  have hN : cfg0.N = 25 := N_0
  have h24 : t.val = 24 := by have := (flush0_3 t).mp hf; have := t.isLt; omega
  obtain rfl : t = tlast0 := Fin.ext h24
  show (cfg0.win 3).cut (grid0.coords tlast0) ((dat0 V c).after 3 tlast0) = _
  rw [after0_3]
  have hz' : (fun a => win0_3.index tlast0 a * main_v46_0.ty.shape.size a) = fun _ => 0 := funext fun a => by fin_cases a <;> decide
  exact (Memref.read_access_unit_zero (Elt F) main_v46_0 hz' (fun a => by rw [congrFun hz' a]; simp) (result_mean0 V c)).symm

theorem flushed0_4 (c : Dev nD) (t : Fin cfg0.N) (hf : (cfg0.win 4).flush t = true) :
    (dat0 V c).flushed 4 t = ((cfg0.win 4).blk t).view.read (Elt F) (result_var0 V c) := by
  have hN : cfg0.N = 25 := N_0
  have h24 : t.val = 24 := by have := (flush0_4 t).mp hf; have := t.isLt; omega
  obtain rfl : t = tlast0 := Fin.ext h24
  show (cfg0.win 4).cut (grid0.coords tlast0) ((dat0 V c).after 4 tlast0) = _
  rw [after0_4]
  have hz' : (fun a => win0_4.index tlast0 a * main_v46_1.ty.shape.size a) = fun _ => 0 := funext fun a => by fin_cases a <;> decide
  exact (Memref.read_access_unit_zero (Elt F) main_v46_1 hz' (fun a => by rw [congrFun hz' a]; simp) (result_var0 V c)).symm

/-- So the two result arrays end holding the mean and the variance of the finished sums: the last point's block covers each. -/
theorem arrAt0_3 (c : Dev nD) : (dat0 V c).arrAt 3 cfg0.N = result_mean0 V c :=
  (dat0 V c).arrAt_eq_of_cover 3 (result_mean0 V c) (flushed0_3 V c) fun i =>
    ⟨tlast0, (flush0_3 tlast0).mpr rfl, by
      show i ∈ ((View.whole main_v46_0).slice (win0_3.rect tlast0)).set
      rw [View.set_slice_whole, Rect.mem_set_unit]
      intro a
      have h0 : (i 0 : Nat) < 256 := (i 0).isLt
      match a with
      | ⟨0, _⟩ => show win0_3.index tlast0 0 * win0_3.size 0 ≤ (i 0 : Nat) ∧ (i 0 : Nat) < win0_3.index tlast0 0 * win0_3.size 0 + win0_3.xsize (grid0.coords tlast0) 0
                  rw [show win0_3.index tlast0 0 * win0_3.size 0 = 0 from by decide +kernel, show win0_3.xsize (grid0.coords tlast0) 0 = 256 from by decide +kernel]; omega⟩

theorem arrAt0_4 (c : Dev nD) : (dat0 V c).arrAt 4 cfg0.N = result_var0 V c :=
  (dat0 V c).arrAt_eq_of_cover 4 (result_var0 V c) (flushed0_4 V c) fun i =>
    ⟨tlast0, (flush0_4 tlast0).mpr rfl, by
      show i ∈ ((View.whole main_v46_1).slice (win0_4.rect tlast0)).set
      rw [View.set_slice_whole, Rect.mem_set_unit]
      intro a
      have h0 : (i 0 : Nat) < 256 := (i 0).isLt
      match a with
      | ⟨0, _⟩ => show win0_4.index tlast0 0 * win0_4.size 0 ≤ (i 0 : Nat) ∧ (i 0 : Nat) < win0_4.index tlast0 0 * win0_4.size 0 + win0_4.xsize (grid0.coords tlast0) 0
                  rw [show win0_4.index tlast0 0 * win0_4.size 0 = 0 from by decide +kernel, show win0_4.xsize (grid0.coords tlast0) 0 = 256 from by decide +kernel]; omega⟩

end Arrays

/-! ## At the exact instance: the entries -/

section Exact
variable (V : (c : Dev nD) → (b : Ref sig .tc) → Buf (Elt Ideal) ((c : Thread nD τ).loc b))

/-- The features, the weights and the bias row as the region finds them, entry by entry. -/
def ft0 (c : Dev nD) (p : Fin 50000) (k : Fin 256) : EReal := V c main_v41 (ix2 p k)
def wt0 (c : Dev nD) (k j : Fin 256) : EReal := V c main_v43 (ix2 k j)
def bs0 (c : Dev nD) (j : Fin 256) : EReal := V c main_v45 (ix1 j)

/-- The block indices of the three inputs: the row tile's number, and zero. -/
theorem index0_0 : ∀ t : Fin cfg0.N, win0_0.index t 0 = t.val ∧ win0_0.index t 1 = 0 := by decide +kernel
theorem index0_1 : ∀ t : Fin cfg0.N, win0_1.index t 0 = 0 ∧ win0_1.index t 1 = 0 := by decide +kernel
theorem index0_2 : ∀ t : Fin cfg0.N, win0_2.index t 0 = 0 := by decide +kernel

/-- A point's number as a tile number. -/
abbrev tile0 (t : Fin cfg0.N) : Fin 25 := ⟨t.val, lt_of_lt_of_eq t.isLt N_0⟩

/-- Row `r` of the features' block at point `t` is row `2000 t + r` of the features. -/
theorem iblk0_0_apply (c : Dev nD) (t : Fin cfg0.N) (r : Fin 2000) (k : Fin 256) :
    (iblk0 V c 0 t : Vec Ideal S2000x256 .bf16) (ix2 r k) = ft0 V c (Cert.Spec.rowOf (tile0 t) r) k := by
  unfold iblk0 ft0
  rw [View.read_apply]
  show V c main_v41 _ = V c main_v41 _
  congr 1
  funext a
  apply Fin.ext
  match a with
  | ⟨0, _⟩ => show win0_0.index t 0 * 2000 + 1 * r.val = 2000 * t.val + r.val; rw [(index0_0 t).1]; omega
  | ⟨1, _⟩ => show win0_0.index t 1 * 256 + 1 * k.val = k.val; rw [(index0_0 t).2]; omega

/-- The weights' block is the weight matrix at every point, -/
theorem iblk0_1_apply (c : Dev nD) (t : Fin cfg0.N) (k j : Fin 256) :
    (iblk0 V c 1 t : Vec Ideal S256x256 .bf16) (ix2 k j) = wt0 V c k j := by
  unfold iblk0 wt0
  rw [View.read_apply]
  show V c main_v43 _ = V c main_v43 _
  congr 1
  funext a
  apply Fin.ext
  match a with
  | ⟨0, _⟩ => show win0_1.index t 0 * 256 + 1 * k.val = k.val; rw [(index0_1 t).1]; omega
  | ⟨1, _⟩ => show win0_1.index t 1 * 256 + 1 * j.val = j.val; rw [(index0_1 t).2]; omega

/-- and the bias' block the bias row. -/
theorem iblk0_2_apply (c : Dev nD) (t : Fin cfg0.N) (j : Fin 256) :
    (iblk0 V c 2 t : Vec Ideal S256 .f32) (ix1 j) = bs0 V c j := by
  unfold iblk0 bs0
  rw [View.read_apply]
  show V c main_v45 _ = V c main_v45 _
  congr 1
  funext a
  apply Fin.ext
  match a with
  | ⟨0, _⟩ => show win0_2.index t 0 * 256 + 1 * j.val = j.val; rw [index0_2 t]; omega

/-- The activation of a point's row tile is the rectified affine image of the features' rows. -/
theorem hStats0_apply (c : Dev nD) (t : Fin cfg0.N) (r : Fin 2000) (j : Fin 256) :
    hStats (iblk0 V c 0 t) (iblk0 V c 1 t) (iblk0 V c 2 t) (ix2 r j)
      = Cert.Spec.lin (ft0 V c) (wt0 V c) (bs0 V c) (Cert.Spec.rowOf (tile0 t) r) j := by
  rw [hStats_apply]
  unfold Cert.Spec.lin
  simp only [iblk0_0_apply, iblk0_1_apply, iblk0_2_apply]

/-- THE RUNNING SUMS, entry by entry: after `n` points the first holds the column sums of the activation over the
    first `n` row tiles, the second those of its square. -/
theorem acc0_apply (c : Dev nD) : ∀ n, n ≤ 25 → ∀ j : Fin 256,
    (acc0 V c n).1 (ix2 (0 : Fin 1) j) = Cert.Spec.accS (Cert.Spec.lin (ft0 V c) (wt0 V c) (bs0 V c)) n j
    ∧ (acc0 V c n).2 (ix2 (0 : Fin 1) j)
        = Cert.Spec.accS (fun p j => Cert.Spec.lin (ft0 V c) (wt0 V c) (bs0 V c) p j * Cert.Spec.lin (ft0 V c) (wt0 V c) (bs0 V c) p j) n j
  | 0, _, j => by
    rw [acc0_of_zero V c 0 rfl]
    exact ⟨zeroStats_apply j, zeroStats_apply j⟩
  | n + 1, hn, j => by
    have hlt : n < cfg0.N := by rw [show cfg0.N = 25 from N_0]; omega
    have ih := acc0_apply c n (by omega) j
    rw [show n + 1 = (⟨n, hlt⟩ : Fin cfg0.N).val + 1 from rfl, acc0_succ V c ⟨n, hlt⟩, stepStats_fst_apply, stepStats_snd_apply]
    dsimp only
    rw [ih.1, ih.2]
    constructor
    · show _ = Cert.Spec.accS _ n j + (if hn : n < 25 then Cert.Spec.tileSum _ ⟨n, hn⟩ j else 0)
      rw [dif_pos (by omega)]
      congr 1
      unfold Cert.Spec.tileSum
      exact Finset.sum_congr rfl fun r _ => hStats0_apply V c ⟨n, hlt⟩ r j
    · show _ = Cert.Spec.accS _ n j + (if hn : n < 25 then Cert.Spec.tileSum _ ⟨n, hn⟩ j else 0)
      rw [dif_pos (by omega)]
      congr 1
      unfold Cert.Spec.tileSum
      exact Finset.sum_congr rfl fun r _ => by rw [hStats0_apply V c ⟨n, hlt⟩ r j]

/-- THE VALUES. After the region the first result array holds the tiled mean of the activation, the second its tiled variance. -/
theorem mean0_apply (c : Dev nD) (j : Fin 256) :
    (dat0 V c).arrAt 3 cfg0.N (ix1 j) = Cert.Spec.kerMean (Cert.Spec.lin (ft0 V c) (wt0 V c) (bs0 V c)) j := by
  rw [arrAt0_3 V c]
  show (finStats (acc0 V c 25).1 (acc0 V c 25).2).1 (ix1 j) = _
  rw [finStats_fst_apply, (acc0_apply V c 25 (le_refl _) j).1]
  rfl

theorem var0_apply (c : Dev nD) (j : Fin 256) :
    (dat0 V c).arrAt 4 cfg0.N (ix1 j) = Cert.Spec.kerVar (Cert.Spec.lin (ft0 V c) (wt0 V c) (bs0 V c)) j := by
  rw [arrAt0_4 V c]
  show (finStats (acc0 V c 25).1 (acc0 V c 25).2).2 (ix1 j) = _
  rw [finStats_snd_apply, (acc0_apply V c 25 (le_refl _) j).1, (acc0_apply V c 25 (le_refl _) j).2]
  rfl

end Exact

end Cert.KernelIdeal.Hand

end
-- ==== Proof.Stats2Val.lean ====
import proofs.«115305_j43688407335088_2_alg».proof.Proof.Stats2
import proofs.«115305_j43688407335088_2_alg».proof.Proof.StatsVal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)
open scoped BigOperators

/-! # Statistics region 2: what its arrays hold after it -/

section Arrays
variable {F : FTy → Type} [FloatOps F]
variable (V : (c : Dev nD) → (b : Ref sig .tc) → Buf (Elt F) ((c : Thread nD τ).loc b))

/-- The three input arrays are never written. -/
theorem arrAt2_0 (c : Dev nD) : (dat2 V c).arrAt 0 cfg2.N = V c (Pipeline.arrRef spec2 0) :=
  ((dat2 V c).arrAt_in 0 rfl _).trans (A_eq2 V c 0)
theorem arrAt2_1 (c : Dev nD) : (dat2 V c).arrAt 1 cfg2.N = V c (Pipeline.arrRef spec2 1) :=
  ((dat2 V c).arrAt_in 1 rfl _).trans (A_eq2 V c 1)
theorem arrAt2_2 (c : Dev nD) : (dat2 V c).arrAt 2 cfg2.N = V c (Pipeline.arrRef spec2 2) :=
  ((dat2 V c).arrAt_in 2 rfl _).trans (A_eq2 V c 2)

/-- The last point. -/
abbrev tlast2 : Fin cfg2.N := ⟨24, by rw [show cfg2.N = 25 from N_2]; omega⟩

/-- The mean and the variance of the finished sums, as contents of the two result arrays (each one block). -/
abbrev result_mean2 (c : Dev nD) : Buf (Elt F) ((c : Thread nD τ).loc main_v61_0) := (finStats (acc2 V c 25).1 (acc2 V c 25).2).1
abbrev result_var2 (c : Dev nD) : Buf (Elt F) ((c : Thread nD τ).loc main_v61_1) := (finStats (acc2 V c 25).1 (acc2 V c 25).2).2

/-- The one write-back of each, at the last point, writes it: block 0 of the array read through zero offsets is the array. -/
theorem flushed2_3 (c : Dev nD) (t : Fin cfg2.N) (hf : (cfg2.win 3).flush t = true) :
    (dat2 V c).flushed 3 t = ((cfg2.win 3).blk t).view.read (Elt F) (result_mean2 V c) := by
  have hN : cfg2.N = 25 := N_2
  have h24 : t.val = 24 := by have := (flush2_3 t).mp hf; have := t.isLt; omega
  obtain rfl : t = tlast2 := Fin.ext h24
  show (cfg2.win 3).cut (grid2.coords tlast2) ((dat2 V c).after 3 tlast2) = _
  rw [after2_3]
  have hz' : (fun a => win2_3.index tlast2 a * main_v61_0.ty.shape.size a) = fun _ => 0 := funext fun a => by fin_cases a <;> decide
  exact (Memref.read_access_unit_zero (Elt F) main_v61_0 hz' (fun a => by rw [congrFun hz' a]; simp) (result_mean2 V c)).symm

theorem flushed2_4 (c : Dev nD) (t : Fin cfg2.N) (hf : (cfg2.win 4).flush t = true) :
    (dat2 V c).flushed 4 t = ((cfg2.win 4).blk t).view.read (Elt F) (result_var2 V c) := by
  have hN : cfg2.N = 25 := N_2
  have h24 : t.val = 24 := by have := (flush2_4 t).mp hf; have := t.isLt; omega
  obtain rfl : t = tlast2 := Fin.ext h24
  show (cfg2.win 4).cut (grid2.coords tlast2) ((dat2 V c).after 4 tlast2) = _
  rw [after2_4]
  have hz' : (fun a => win2_4.index tlast2 a * main_v61_1.ty.shape.size a) = fun _ => 0 := funext fun a => by fin_cases a <;> decide
  exact (Memref.read_access_unit_zero (Elt F) main_v61_1 hz' (fun a => by rw [congrFun hz' a]; simp) (result_var2 V c)).symm

/-- So the two result arrays end holding the mean and the variance of the finished sums: the last point's block covers each. -/
theorem arrAt2_3 (c : Dev nD) : (dat2 V c).arrAt 3 cfg2.N = result_mean2 V c :=
  (dat2 V c).arrAt_eq_of_cover 3 (result_mean2 V c) (flushed2_3 V c) fun i =>
    ⟨tlast2, (flush2_3 tlast2).mpr rfl, by
      show i ∈ ((View.whole main_v61_0).slice (win2_3.rect tlast2)).set
      rw [View.set_slice_whole, Rect.mem_set_unit]
      intro a
      have h0 : (i 0 : Nat) < 256 := (i 0).isLt
      match a with
      | ⟨0, _⟩ => show win2_3.index tlast2 0 * win2_3.size 0 ≤ (i 0 : Nat) ∧ (i 0 : Nat) < win2_3.index tlast2 0 * win2_3.size 0 + win2_3.xsize (grid2.coords tlast2) 0
                  rw [show win2_3.index tlast2 0 * win2_3.size 0 = 0 from by decide +kernel, show win2_3.xsize (grid2.coords tlast2) 0 = 256 from by decide +kernel]; omega⟩

theorem arrAt2_4 (c : Dev nD) : (dat2 V c).arrAt 4 cfg2.N = result_var2 V c :=
  (dat2 V c).arrAt_eq_of_cover 4 (result_var2 V c) (flushed2_4 V c) fun i =>
    ⟨tlast2, (flush2_4 tlast2).mpr rfl, by
      show i ∈ ((View.whole main_v61_1).slice (win2_4.rect tlast2)).set
      rw [View.set_slice_whole, Rect.mem_set_unit]
      intro a
      have h0 : (i 0 : Nat) < 256 := (i 0).isLt
      match a with
      | ⟨0, _⟩ => show win2_4.index tlast2 0 * win2_4.size 0 ≤ (i 0 : Nat) ∧ (i 0 : Nat) < win2_4.index tlast2 0 * win2_4.size 0 + win2_4.xsize (grid2.coords tlast2) 0
                  rw [show win2_4.index tlast2 0 * win2_4.size 0 = 0 from by decide +kernel, show win2_4.xsize (grid2.coords tlast2) 0 = 256 from by decide +kernel]; omega⟩

end Arrays

/-! ## At the exact instance: the entries -/

section Exact
variable (V : (c : Dev nD) → (b : Ref sig .tc) → Buf (Elt Ideal) ((c : Thread nD τ).loc b))

/-- The features, the weights and the bias row as the region finds them, entry by entry. -/
def ft2 (c : Dev nD) (p : Fin 50000) (k : Fin 256) : EReal := V c main_v56 (ix2 p k)
def wt2 (c : Dev nD) (k j : Fin 256) : EReal := V c main_v58 (ix2 k j)
def bs2 (c : Dev nD) (j : Fin 256) : EReal := V c main_v60 (ix1 j)

/-- The block indices of the three inputs: the row tile's number, and zero. -/
theorem index2_0 : ∀ t : Fin cfg2.N, win2_0.index t 0 = t.val ∧ win2_0.index t 1 = 0 := by decide +kernel
theorem index2_1 : ∀ t : Fin cfg2.N, win2_1.index t 0 = 0 ∧ win2_1.index t 1 = 0 := by decide +kernel
theorem index2_2 : ∀ t : Fin cfg2.N, win2_2.index t 0 = 0 := by decide +kernel

/-- A point's number as a tile number. -/
abbrev tile2 (t : Fin cfg2.N) : Fin 25 := ⟨t.val, lt_of_lt_of_eq t.isLt N_2⟩

/-- Row `r` of the features' block at point `t` is row `2000 t + r` of the features. -/
theorem iblk2_0_apply (c : Dev nD) (t : Fin cfg2.N) (r : Fin 2000) (k : Fin 256) :
    (iblk2 V c 0 t : Vec Ideal S2000x256 .bf16) (ix2 r k) = ft2 V c (Cert.Spec.rowOf (tile2 t) r) k := by
  unfold iblk2 ft2
  rw [View.read_apply]
  show V c main_v56 _ = V c main_v56 _
  congr 1
  funext a
  apply Fin.ext
  match a with
  | ⟨0, _⟩ => show win2_0.index t 0 * 2000 + 1 * r.val = 2000 * t.val + r.val; rw [(index2_0 t).1]; omega
  | ⟨1, _⟩ => show win2_0.index t 1 * 256 + 1 * k.val = k.val; rw [(index2_0 t).2]; omega

/-- The weights' block is the weight matrix at every point, -/
theorem iblk2_1_apply (c : Dev nD) (t : Fin cfg2.N) (k j : Fin 256) :
    (iblk2 V c 1 t : Vec Ideal S256x256 .bf16) (ix2 k j) = wt2 V c k j := by
  unfold iblk2 wt2
  rw [View.read_apply]
  show V c main_v58 _ = V c main_v58 _
  congr 1
  funext a
  apply Fin.ext
  match a with
  | ⟨0, _⟩ => show win2_1.index t 0 * 256 + 1 * k.val = k.val; rw [(index2_1 t).1]; omega
  | ⟨1, _⟩ => show win2_1.index t 1 * 256 + 1 * j.val = j.val; rw [(index2_1 t).2]; omega

/-- and the bias' block the bias row. -/
theorem iblk2_2_apply (c : Dev nD) (t : Fin cfg2.N) (j : Fin 256) :
    (iblk2 V c 2 t : Vec Ideal S256 .f32) (ix1 j) = bs2 V c j := by
  unfold iblk2 bs2
  rw [View.read_apply]
  show V c main_v60 _ = V c main_v60 _
  congr 1
  funext a
  apply Fin.ext
  match a with
  | ⟨0, _⟩ => show win2_2.index t 0 * 256 + 1 * j.val = j.val; rw [index2_2 t]; omega

/-- The activation of a point's row tile is the rectified affine image of the features' rows. -/
theorem hStats2_apply (c : Dev nD) (t : Fin cfg2.N) (r : Fin 2000) (j : Fin 256) :
    hStats (iblk2 V c 0 t) (iblk2 V c 1 t) (iblk2 V c 2 t) (ix2 r j)
      = Cert.Spec.lin (ft2 V c) (wt2 V c) (bs2 V c) (Cert.Spec.rowOf (tile2 t) r) j := by
  rw [hStats_apply]
  unfold Cert.Spec.lin
  simp only [iblk2_0_apply, iblk2_1_apply, iblk2_2_apply]

/-- THE RUNNING SUMS, entry by entry: after `n` points the first holds the column sums of the activation over the
    first `n` row tiles, the second those of its square. -/
theorem acc2_apply (c : Dev nD) : ∀ n, n ≤ 25 → ∀ j : Fin 256,
    (acc2 V c n).1 (ix2 (0 : Fin 1) j) = Cert.Spec.accS (Cert.Spec.lin (ft2 V c) (wt2 V c) (bs2 V c)) n j
    ∧ (acc2 V c n).2 (ix2 (0 : Fin 1) j)
        = Cert.Spec.accS (fun p j => Cert.Spec.lin (ft2 V c) (wt2 V c) (bs2 V c) p j * Cert.Spec.lin (ft2 V c) (wt2 V c) (bs2 V c) p j) n j
  | 0, _, j => by
    rw [acc2_of_zero V c 0 rfl]
    exact ⟨zeroStats_apply j, zeroStats_apply j⟩
  | n + 1, hn, j => by
    have hlt : n < cfg2.N := by rw [show cfg2.N = 25 from N_2]; omega
    have ih := acc2_apply c n (by omega) j
    rw [show n + 1 = (⟨n, hlt⟩ : Fin cfg2.N).val + 1 from rfl, acc2_succ V c ⟨n, hlt⟩, stepStats_fst_apply, stepStats_snd_apply]
    dsimp only
    rw [ih.1, ih.2]
    constructor
    · show _ = Cert.Spec.accS _ n j + (if hn : n < 25 then Cert.Spec.tileSum _ ⟨n, hn⟩ j else 0)
      rw [dif_pos (by omega)]
      congr 1
      unfold Cert.Spec.tileSum
      exact Finset.sum_congr rfl fun r _ => hStats2_apply V c ⟨n, hlt⟩ r j
    · show _ = Cert.Spec.accS _ n j + (if hn : n < 25 then Cert.Spec.tileSum _ ⟨n, hn⟩ j else 0)
      rw [dif_pos (by omega)]
      congr 1
      unfold Cert.Spec.tileSum
      exact Finset.sum_congr rfl fun r _ => by rw [hStats2_apply V c ⟨n, hlt⟩ r j]

/-- THE VALUES. After the region the first result array holds the tiled mean of the activation, the second its tiled variance. -/
theorem mean2_apply (c : Dev nD) (j : Fin 256) :
    (dat2 V c).arrAt 3 cfg2.N (ix1 j) = Cert.Spec.kerMean (Cert.Spec.lin (ft2 V c) (wt2 V c) (bs2 V c)) j := by
  rw [arrAt2_3 V c]
  show (finStats (acc2 V c 25).1 (acc2 V c 25).2).1 (ix1 j) = _
  rw [finStats_fst_apply, (acc2_apply V c 25 (le_refl _) j).1]
  rfl

theorem var2_apply (c : Dev nD) (j : Fin 256) :
    (dat2 V c).arrAt 4 cfg2.N (ix1 j) = Cert.Spec.kerVar (Cert.Spec.lin (ft2 V c) (wt2 V c) (bs2 V c)) j := by
  rw [arrAt2_4 V c]
  show (finStats (acc2 V c 25).1 (acc2 V c 25).2).2 (ix1 j) = _
  rw [finStats_snd_apply, (acc2_apply V c 25 (le_refl _) j).1, (acc2_apply V c 25 (le_refl _) j).2]
  rfl

end Exact

end Cert.KernelIdeal.Hand

end
-- ==== Proof.Stats4Val.lean ====
import proofs.«115305_j43688407335088_2_alg».proof.Proof.Stats4
import proofs.«115305_j43688407335088_2_alg».proof.Proof.StatsVal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)
open scoped BigOperators

/-! # Statistics region 4: what its arrays hold after it -/

section Arrays
variable {F : FTy → Type} [FloatOps F]
variable (V : (c : Dev nD) → (b : Ref sig .tc) → Buf (Elt F) ((c : Thread nD τ).loc b))

/-- The three input arrays are never written. -/
theorem arrAt4_0 (c : Dev nD) : (dat4 V c).arrAt 0 cfg4.N = V c (Pipeline.arrRef spec4 0) :=
  ((dat4 V c).arrAt_in 0 rfl _).trans (A_eq4 V c 0)
theorem arrAt4_1 (c : Dev nD) : (dat4 V c).arrAt 1 cfg4.N = V c (Pipeline.arrRef spec4 1) :=
  ((dat4 V c).arrAt_in 1 rfl _).trans (A_eq4 V c 1)
theorem arrAt4_2 (c : Dev nD) : (dat4 V c).arrAt 2 cfg4.N = V c (Pipeline.arrRef spec4 2) :=
  ((dat4 V c).arrAt_in 2 rfl _).trans (A_eq4 V c 2)

/-- The last point. -/
abbrev tlast4 : Fin cfg4.N := ⟨24, by rw [show cfg4.N = 25 from N_4]; omega⟩

/-- The mean and the variance of the finished sums, as contents of the two result arrays (each one block). -/
abbrev result_mean4 (c : Dev nD) : Buf (Elt F) ((c : Thread nD τ).loc main_v76_0) := (finStats (acc4 V c 25).1 (acc4 V c 25).2).1
abbrev result_var4 (c : Dev nD) : Buf (Elt F) ((c : Thread nD τ).loc main_v76_1) := (finStats (acc4 V c 25).1 (acc4 V c 25).2).2

/-- The one write-back of each, at the last point, writes it: block 0 of the array read through zero offsets is the array. -/
theorem flushed4_3 (c : Dev nD) (t : Fin cfg4.N) (hf : (cfg4.win 3).flush t = true) :
    (dat4 V c).flushed 3 t = ((cfg4.win 3).blk t).view.read (Elt F) (result_mean4 V c) := by
  have hN : cfg4.N = 25 := N_4
  have h24 : t.val = 24 := by have := (flush4_3 t).mp hf; have := t.isLt; omega
  obtain rfl : t = tlast4 := Fin.ext h24
  show (cfg4.win 3).cut (grid4.coords tlast4) ((dat4 V c).after 3 tlast4) = _
  rw [after4_3]
  have hz' : (fun a => win4_3.index tlast4 a * main_v76_0.ty.shape.size a) = fun _ => 0 := funext fun a => by fin_cases a <;> decide
  exact (Memref.read_access_unit_zero (Elt F) main_v76_0 hz' (fun a => by rw [congrFun hz' a]; simp) (result_mean4 V c)).symm

theorem flushed4_4 (c : Dev nD) (t : Fin cfg4.N) (hf : (cfg4.win 4).flush t = true) :
    (dat4 V c).flushed 4 t = ((cfg4.win 4).blk t).view.read (Elt F) (result_var4 V c) := by
  have hN : cfg4.N = 25 := N_4
  have h24 : t.val = 24 := by have := (flush4_4 t).mp hf; have := t.isLt; omega
  obtain rfl : t = tlast4 := Fin.ext h24
  show (cfg4.win 4).cut (grid4.coords tlast4) ((dat4 V c).after 4 tlast4) = _
  rw [after4_4]
  have hz' : (fun a => win4_4.index tlast4 a * main_v76_1.ty.shape.size a) = fun _ => 0 := funext fun a => by fin_cases a <;> decide
  exact (Memref.read_access_unit_zero (Elt F) main_v76_1 hz' (fun a => by rw [congrFun hz' a]; simp) (result_var4 V c)).symm

/-- So the two result arrays end holding the mean and the variance of the finished sums: the last point's block covers each. -/
theorem arrAt4_3 (c : Dev nD) : (dat4 V c).arrAt 3 cfg4.N = result_mean4 V c :=
  (dat4 V c).arrAt_eq_of_cover 3 (result_mean4 V c) (flushed4_3 V c) fun i =>
    ⟨tlast4, (flush4_3 tlast4).mpr rfl, by
      show i ∈ ((View.whole main_v76_0).slice (win4_3.rect tlast4)).set
      rw [View.set_slice_whole, Rect.mem_set_unit]
      intro a
      have h0 : (i 0 : Nat) < 256 := (i 0).isLt
      match a with
      | ⟨0, _⟩ => show win4_3.index tlast4 0 * win4_3.size 0 ≤ (i 0 : Nat) ∧ (i 0 : Nat) < win4_3.index tlast4 0 * win4_3.size 0 + win4_3.xsize (grid4.coords tlast4) 0
                  rw [show win4_3.index tlast4 0 * win4_3.size 0 = 0 from by decide +kernel, show win4_3.xsize (grid4.coords tlast4) 0 = 256 from by decide +kernel]; omega⟩

theorem arrAt4_4 (c : Dev nD) : (dat4 V c).arrAt 4 cfg4.N = result_var4 V c :=
  (dat4 V c).arrAt_eq_of_cover 4 (result_var4 V c) (flushed4_4 V c) fun i =>
    ⟨tlast4, (flush4_4 tlast4).mpr rfl, by
      show i ∈ ((View.whole main_v76_1).slice (win4_4.rect tlast4)).set
      rw [View.set_slice_whole, Rect.mem_set_unit]
      intro a
      have h0 : (i 0 : Nat) < 256 := (i 0).isLt
      match a with
      | ⟨0, _⟩ => show win4_4.index tlast4 0 * win4_4.size 0 ≤ (i 0 : Nat) ∧ (i 0 : Nat) < win4_4.index tlast4 0 * win4_4.size 0 + win4_4.xsize (grid4.coords tlast4) 0
                  rw [show win4_4.index tlast4 0 * win4_4.size 0 = 0 from by decide +kernel, show win4_4.xsize (grid4.coords tlast4) 0 = 256 from by decide +kernel]; omega⟩

end Arrays

/-! ## At the exact instance: the entries -/

section Exact
variable (V : (c : Dev nD) → (b : Ref sig .tc) → Buf (Elt Ideal) ((c : Thread nD τ).loc b))

/-- The features, the weights and the bias row as the region finds them, entry by entry. -/
def ft4 (c : Dev nD) (p : Fin 50000) (k : Fin 256) : EReal := V c main_v71 (ix2 p k)
def wt4 (c : Dev nD) (k j : Fin 256) : EReal := V c main_v73 (ix2 k j)
def bs4 (c : Dev nD) (j : Fin 256) : EReal := V c main_v75 (ix1 j)

/-- The block indices of the three inputs: the row tile's number, and zero. -/
theorem index4_0 : ∀ t : Fin cfg4.N, win4_0.index t 0 = t.val ∧ win4_0.index t 1 = 0 := by decide +kernel
theorem index4_1 : ∀ t : Fin cfg4.N, win4_1.index t 0 = 0 ∧ win4_1.index t 1 = 0 := by decide +kernel
theorem index4_2 : ∀ t : Fin cfg4.N, win4_2.index t 0 = 0 := by decide +kernel

/-- A point's number as a tile number. -/
abbrev tile4 (t : Fin cfg4.N) : Fin 25 := ⟨t.val, lt_of_lt_of_eq t.isLt N_4⟩

/-- Row `r` of the features' block at point `t` is row `2000 t + r` of the features. -/
theorem iblk4_0_apply (c : Dev nD) (t : Fin cfg4.N) (r : Fin 2000) (k : Fin 256) :
    (iblk4 V c 0 t : Vec Ideal S2000x256 .bf16) (ix2 r k) = ft4 V c (Cert.Spec.rowOf (tile4 t) r) k := by
  unfold iblk4 ft4
  rw [View.read_apply]
  show V c main_v71 _ = V c main_v71 _
  congr 1
  funext a
  apply Fin.ext
  match a with
  | ⟨0, _⟩ => show win4_0.index t 0 * 2000 + 1 * r.val = 2000 * t.val + r.val; rw [(index4_0 t).1]; omega
  | ⟨1, _⟩ => show win4_0.index t 1 * 256 + 1 * k.val = k.val; rw [(index4_0 t).2]; omega

/-- The weights' block is the weight matrix at every point, -/
theorem iblk4_1_apply (c : Dev nD) (t : Fin cfg4.N) (k j : Fin 256) :
    (iblk4 V c 1 t : Vec Ideal S256x256 .bf16) (ix2 k j) = wt4 V c k j := by
  unfold iblk4 wt4
  rw [View.read_apply]
  show V c main_v73 _ = V c main_v73 _
  congr 1
  funext a
  apply Fin.ext
  match a with
  | ⟨0, _⟩ => show win4_1.index t 0 * 256 + 1 * k.val = k.val; rw [(index4_1 t).1]; omega
  | ⟨1, _⟩ => show win4_1.index t 1 * 256 + 1 * j.val = j.val; rw [(index4_1 t).2]; omega

/-- and the bias' block the bias row. -/
theorem iblk4_2_apply (c : Dev nD) (t : Fin cfg4.N) (j : Fin 256) :
    (iblk4 V c 2 t : Vec Ideal S256 .f32) (ix1 j) = bs4 V c j := by
  unfold iblk4 bs4
  rw [View.read_apply]
  show V c main_v75 _ = V c main_v75 _
  congr 1
  funext a
  apply Fin.ext
  match a with
  | ⟨0, _⟩ => show win4_2.index t 0 * 256 + 1 * j.val = j.val; rw [index4_2 t]; omega

/-- The activation of a point's row tile is the rectified affine image of the features' rows. -/
theorem hStats4_apply (c : Dev nD) (t : Fin cfg4.N) (r : Fin 2000) (j : Fin 256) :
    hStats (iblk4 V c 0 t) (iblk4 V c 1 t) (iblk4 V c 2 t) (ix2 r j)
      = Cert.Spec.lin (ft4 V c) (wt4 V c) (bs4 V c) (Cert.Spec.rowOf (tile4 t) r) j := by
  rw [hStats_apply]
  unfold Cert.Spec.lin
  simp only [iblk4_0_apply, iblk4_1_apply, iblk4_2_apply]

/-- THE RUNNING SUMS, entry by entry: after `n` points the first holds the column sums of the activation over the
    first `n` row tiles, the second those of its square. -/
theorem acc4_apply (c : Dev nD) : ∀ n, n ≤ 25 → ∀ j : Fin 256,
    (acc4 V c n).1 (ix2 (0 : Fin 1) j) = Cert.Spec.accS (Cert.Spec.lin (ft4 V c) (wt4 V c) (bs4 V c)) n j
    ∧ (acc4 V c n).2 (ix2 (0 : Fin 1) j)
        = Cert.Spec.accS (fun p j => Cert.Spec.lin (ft4 V c) (wt4 V c) (bs4 V c) p j * Cert.Spec.lin (ft4 V c) (wt4 V c) (bs4 V c) p j) n j
  | 0, _, j => by
    rw [acc4_of_zero V c 0 rfl]
    exact ⟨zeroStats_apply j, zeroStats_apply j⟩
  | n + 1, hn, j => by
    have hlt : n < cfg4.N := by rw [show cfg4.N = 25 from N_4]; omega
    have ih := acc4_apply c n (by omega) j
    rw [show n + 1 = (⟨n, hlt⟩ : Fin cfg4.N).val + 1 from rfl, acc4_succ V c ⟨n, hlt⟩, stepStats_fst_apply, stepStats_snd_apply]
    dsimp only
    rw [ih.1, ih.2]
    constructor
    · show _ = Cert.Spec.accS _ n j + (if hn : n < 25 then Cert.Spec.tileSum _ ⟨n, hn⟩ j else 0)
      rw [dif_pos (by omega)]
      congr 1
      unfold Cert.Spec.tileSum
      exact Finset.sum_congr rfl fun r _ => hStats4_apply V c ⟨n, hlt⟩ r j
    · show _ = Cert.Spec.accS _ n j + (if hn : n < 25 then Cert.Spec.tileSum _ ⟨n, hn⟩ j else 0)
      rw [dif_pos (by omega)]
      congr 1
      unfold Cert.Spec.tileSum
      exact Finset.sum_congr rfl fun r _ => by rw [hStats4_apply V c ⟨n, hlt⟩ r j]

/-- THE VALUES. After the region the first result array holds the tiled mean of the activation, the second its tiled variance. -/
theorem mean4_apply (c : Dev nD) (j : Fin 256) :
    (dat4 V c).arrAt 3 cfg4.N (ix1 j) = Cert.Spec.kerMean (Cert.Spec.lin (ft4 V c) (wt4 V c) (bs4 V c)) j := by
  rw [arrAt4_3 V c]
  show (finStats (acc4 V c 25).1 (acc4 V c 25).2).1 (ix1 j) = _
  rw [finStats_fst_apply, (acc4_apply V c 25 (le_refl _) j).1]
  rfl

theorem var4_apply (c : Dev nD) (j : Fin 256) :
    (dat4 V c).arrAt 4 cfg4.N (ix1 j) = Cert.Spec.kerVar (Cert.Spec.lin (ft4 V c) (wt4 V c) (bs4 V c)) j := by
  rw [arrAt4_4 V c]
  show (finStats (acc4 V c 25).1 (acc4 V c 25).2).2 (ix1 j) = _
  rw [finStats_snd_apply, (acc4_apply V c 25 (le_refl _) j).1, (acc4_apply V c 25 (le_refl _) j).2]
  rfl

end Exact

end Cert.KernelIdeal.Hand

end
-- ==== Proof.KernelStats.lean ====
/-
  The kernel program's statistics, in the vocabulary of the reference's value: at the exact instance the mean and
  variance rows that the three statistics regions leave are the tiled mean and variance of the rectified affine image
  of the block's features — the input, the input after one hop, after two hops — under the layer's weights and bias.
  A change of float format is the identity at the exact instance, so the features and weights the regions find are the
  argument arrays' own entries.
-/
import proofs.«115305_j43688407335088_2_alg».proof.Proof.HostReads
import proofs.«115305_j43688407335088_2_alg».proof.Proof.Inst
import proofs.«115305_j43688407335088_2_alg».proof.Proof.Stats0Val
import proofs.«115305_j43688407335088_2_alg».proof.Proof.Stats2Val
import proofs.«115305_j43688407335088_2_alg».proof.Proof.Stats4Val

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.ReferenceIdeal.Hand (hop1 hop2 sliceW0 sliceW1 sliceW2 row0 row1 row2)

/-- A feature array, a weight matrix, a row, as plain functions of their coordinates. -/
def sft (v : FVec Ideal S50000x256 .f32) : Fin 50000 → Fin 256 → EReal := fun p k => v (ix2 p k)
def swt (v : FVec Ideal S256x256 .f32) : Fin 256 → Fin 256 → EReal := fun k j => v (ix2 k j)
def srow (v : FVec Ideal S256 .f32) : Fin 256 → EReal := fun j => v (ix1 j)

variable (m : (ℓ : Loc nD τ sig) → Buf (Elt Ideal) ℓ) (ρ : Dev nD → PrngReg) (c : Dev nD)

/-- The argument arrays on core c. -/
abbrev aX : FVec Ideal S50000x256 .f32 := m ((c : Thread nD τ).loc main_arg0)
abbrev aEw : FVec Ideal S800000 .f32 := m ((c : Thread nD τ).loc main_arg1)
abbrev aW : FVec Ideal S3x256x256 .f32 := m ((c : Thread nD τ).loc main_arg2)
abbrev aB : FVec Ideal S3x256 .f32 := m ((c : Thread nD τ).loc main_arg3)
abbrev aG : FVec Ideal S3x256 .f32 := m ((c : Thread nD τ).loc main_arg4)
abbrev aBe : FVec Ideal S3x256 .f32 := m ((c : Thread nD τ).loc main_arg5)
abbrev aSrc : IVec S800000 32 := m ((c : Thread nD τ).loc main_arg6)
abbrev aDst : IVec S800000 32 := m ((c : Thread nD τ).loc main_arg7)

/-- The three blocks' features. -/
def FT0 : FVec Ideal S50000x256 .f32 := aX m c
def FT1 : FVec Ideal S50000x256 .f32 := hop1 (F := Ideal) (aX m c) (aEw m c) (aSrc m c) (aDst m c)
def FT2 : FVec Ideal S50000x256 .f32 := hop2 (F := Ideal) (aX m c) (aEw m c) (aSrc m c) (aDst m c)

abbrev DD : RD6 (F := Ideal) := D6

/-- Region 0's mean and variance rows from its three input arrays' contents, whatever the rest of the buffers hold. -/
theorem mean0_of (V : (c : Dev nD) → (b : Ref sig .tc) → Buf (Elt Ideal) ((c : Thread nD τ).loc b)) (c : Dev nD)
    {A : FVec Ideal S50000x256 .bf16} {B : FVec Ideal S256x256 .bf16} {C : FVec Ideal S256 .f32}
    (hA : V c main_v41 = A) (hB : V c main_v43 = B) (hC : V c main_v45 = C) (j : Fin 256) :
    (dat0 V c).arrAt 3 cfg0.N (ix1 j)
      = Cert.Spec.kerMean (Cert.Spec.lin (fun p k => A (ix2 p k)) (fun k j => B (ix2 k j)) (fun j => C (ix1 j))) j := by
  have h := mean0_apply V c j
  have e1 : ft0 V c = fun p k => A (ix2 p k) := by funext p k; unfold ft0; rw [hA]
  have e2 : wt0 V c = fun k j => B (ix2 k j) := by funext k j; unfold wt0; rw [hB]
  have e3 : bs0 V c = fun j => C (ix1 j) := by funext j; unfold bs0; rw [hC]
  rw [e1, e2, e3] at h
  exact h

theorem var0_of (V : (c : Dev nD) → (b : Ref sig .tc) → Buf (Elt Ideal) ((c : Thread nD τ).loc b)) (c : Dev nD)
    {A : FVec Ideal S50000x256 .bf16} {B : FVec Ideal S256x256 .bf16} {C : FVec Ideal S256 .f32}
    (hA : V c main_v41 = A) (hB : V c main_v43 = B) (hC : V c main_v45 = C) (j : Fin 256) :
    (dat0 V c).arrAt 4 cfg0.N (ix1 j)
      = Cert.Spec.kerVar (Cert.Spec.lin (fun p k => A (ix2 p k)) (fun k j => B (ix2 k j)) (fun j => C (ix1 j))) j := by
  have h := var0_apply V c j
  have e1 : ft0 V c = fun p k => A (ix2 p k) := by funext p k; unfold ft0; rw [hA]
  have e2 : wt0 V c = fun k j => B (ix2 k j) := by funext k j; unfold wt0; rw [hB]
  have e3 : bs0 V c = fun j => C (ix1 j) := by funext j; unfold bs0; rw [hC]
  rw [e1, e2, e3] at h
  exact h

/-- Region 2's mean and variance rows from its three input arrays' contents, whatever the rest of the buffers hold. -/
theorem mean2_of (V : (c : Dev nD) → (b : Ref sig .tc) → Buf (Elt Ideal) ((c : Thread nD τ).loc b)) (c : Dev nD)
    {A : FVec Ideal S50000x256 .bf16} {B : FVec Ideal S256x256 .bf16} {C : FVec Ideal S256 .f32}
    (hA : V c main_v56 = A) (hB : V c main_v58 = B) (hC : V c main_v60 = C) (j : Fin 256) :
    (dat2 V c).arrAt 3 cfg2.N (ix1 j)
      = Cert.Spec.kerMean (Cert.Spec.lin (fun p k => A (ix2 p k)) (fun k j => B (ix2 k j)) (fun j => C (ix1 j))) j := by
  have h := mean2_apply V c j
  have e1 : ft2 V c = fun p k => A (ix2 p k) := by funext p k; unfold ft2; rw [hA]
  have e2 : wt2 V c = fun k j => B (ix2 k j) := by funext k j; unfold wt2; rw [hB]
  have e3 : bs2 V c = fun j => C (ix1 j) := by funext j; unfold bs2; rw [hC]
  rw [e1, e2, e3] at h
  exact h

theorem var2_of (V : (c : Dev nD) → (b : Ref sig .tc) → Buf (Elt Ideal) ((c : Thread nD τ).loc b)) (c : Dev nD)
    {A : FVec Ideal S50000x256 .bf16} {B : FVec Ideal S256x256 .bf16} {C : FVec Ideal S256 .f32}
    (hA : V c main_v56 = A) (hB : V c main_v58 = B) (hC : V c main_v60 = C) (j : Fin 256) :
    (dat2 V c).arrAt 4 cfg2.N (ix1 j)
      = Cert.Spec.kerVar (Cert.Spec.lin (fun p k => A (ix2 p k)) (fun k j => B (ix2 k j)) (fun j => C (ix1 j))) j := by
  have h := var2_apply V c j
  have e1 : ft2 V c = fun p k => A (ix2 p k) := by funext p k; unfold ft2; rw [hA]
  have e2 : wt2 V c = fun k j => B (ix2 k j) := by funext k j; unfold wt2; rw [hB]
  have e3 : bs2 V c = fun j => C (ix1 j) := by funext j; unfold bs2; rw [hC]
  rw [e1, e2, e3] at h
  exact h

/-- Region 4's mean and variance rows from its three input arrays' contents, whatever the rest of the buffers hold. -/
theorem mean4_of (V : (c : Dev nD) → (b : Ref sig .tc) → Buf (Elt Ideal) ((c : Thread nD τ).loc b)) (c : Dev nD)
    {A : FVec Ideal S50000x256 .bf16} {B : FVec Ideal S256x256 .bf16} {C : FVec Ideal S256 .f32}
    (hA : V c main_v71 = A) (hB : V c main_v73 = B) (hC : V c main_v75 = C) (j : Fin 256) :
    (dat4 V c).arrAt 3 cfg4.N (ix1 j)
      = Cert.Spec.kerMean (Cert.Spec.lin (fun p k => A (ix2 p k)) (fun k j => B (ix2 k j)) (fun j => C (ix1 j))) j := by
  have h := mean4_apply V c j
  have e1 : ft4 V c = fun p k => A (ix2 p k) := by funext p k; unfold ft4; rw [hA]
  have e2 : wt4 V c = fun k j => B (ix2 k j) := by funext k j; unfold wt4; rw [hB]
  have e3 : bs4 V c = fun j => C (ix1 j) := by funext j; unfold bs4; rw [hC]
  rw [e1, e2, e3] at h
  exact h

theorem var4_of (V : (c : Dev nD) → (b : Ref sig .tc) → Buf (Elt Ideal) ((c : Thread nD τ).loc b)) (c : Dev nD)
    {A : FVec Ideal S50000x256 .bf16} {B : FVec Ideal S256x256 .bf16} {C : FVec Ideal S256 .f32}
    (hA : V c main_v71 = A) (hB : V c main_v73 = B) (hC : V c main_v75 = C) (j : Fin 256) :
    (dat4 V c).arrAt 4 cfg4.N (ix1 j)
      = Cert.Spec.kerVar (Cert.Spec.lin (fun p k => A (ix2 p k)) (fun k j => B (ix2 k j)) (fun j => C (ix1 j))) j := by
  have h := var4_apply V c j
  have e1 : ft4 V c = fun p k => A (ix2 p k) := by funext p k; unfold ft4; rw [hA]
  have e2 : wt4 V c = fun k j => B (ix2 k j) := by funext k j; unfold wt4; rw [hB]
  have e3 : bs4 V c = fun j => C (ix1 j) := by funext j; unfold bs4; rw [hC]
  rw [e1, e2, e3] at h
  exact h

/-! ## The three statistics regions of the run -/

theorem mean0_eq (j : Fin 256) :
    ((DD.r0 (W3 m ρ)).dat c).arrAt 3 (Pipeline.pin (pcfgs (F := Ideal)) adm 0).N (ix1 j)
      = Cert.Spec.kerMean (Cert.Spec.lin (sft (FT0 m c)) (swt (sliceW0 (F := Ideal) (aW m c))) (srow (row0 (F := Ideal) (aB m c)))) j :=
  mean0_of (fun c b => W3 m ρ c b) c (e0_ft m ρ c) (e0_W m ρ c) (e0_b m ρ c) j

theorem var0_eq (j : Fin 256) :
    ((DD.r0 (W3 m ρ)).dat c).arrAt 4 (Pipeline.pin (pcfgs (F := Ideal)) adm 0).N (ix1 j)
      = Cert.Spec.kerVar (Cert.Spec.lin (sft (FT0 m c)) (swt (sliceW0 (F := Ideal) (aW m c))) (srow (row0 (F := Ideal) (aB m c)))) j :=
  var0_of (fun c b => W3 m ρ c b) c (e0_ft m ρ c) (e0_W m ρ c) (e0_b m ρ c) j

theorem mean2_eq (j : Fin 256) :
    ((DD.r2 (W7 m ρ DD)).dat c).arrAt 3 (Pipeline.pin (pcfgs (F := Ideal)) adm 2).N (ix1 j)
      = Cert.Spec.kerMean (Cert.Spec.lin (sft (FT1 m c)) (swt (sliceW1 (F := Ideal) (aW m c))) (srow (row1 (F := Ideal) (aB m c)))) j :=
  mean2_of (fun c b => W7 m ρ DD c b) c (e2_ft m ρ DD c) (e2_W m ρ DD c) (e2_b m ρ DD c) j

theorem var2_eq (j : Fin 256) :
    ((DD.r2 (W7 m ρ DD)).dat c).arrAt 4 (Pipeline.pin (pcfgs (F := Ideal)) adm 2).N (ix1 j)
      = Cert.Spec.kerVar (Cert.Spec.lin (sft (FT1 m c)) (swt (sliceW1 (F := Ideal) (aW m c))) (srow (row1 (F := Ideal) (aB m c)))) j :=
  var2_of (fun c b => W7 m ρ DD c b) c (e2_ft m ρ DD c) (e2_W m ρ DD c) (e2_b m ρ DD c) j

theorem mean4_eq (j : Fin 256) :
    ((DD.r4 (W11 m ρ DD)).dat c).arrAt 3 (Pipeline.pin (pcfgs (F := Ideal)) adm 4).N (ix1 j)
      = Cert.Spec.kerMean (Cert.Spec.lin (sft (FT2 m c)) (swt (sliceW2 (F := Ideal) (aW m c))) (srow (row2 (F := Ideal) (aB m c)))) j :=
  mean4_of (fun c b => W11 m ρ DD c b) c (e4_ft m ρ DD c) (e4_W m ρ DD c) (e4_b m ρ DD c) j

theorem var4_eq (j : Fin 256) :
    ((DD.r4 (W11 m ρ DD)).dat c).arrAt 4 (Pipeline.pin (pcfgs (F := Ideal)) adm 4).N (ix1 j)
      = Cert.Spec.kerVar (Cert.Spec.lin (sft (FT2 m c)) (swt (sliceW2 (F := Ideal) (aW m c))) (srow (row2 (F := Ideal) (aB m c)))) j :=
  var4_of (fun c b => W11 m ρ DD c b) c (e4_ft m ρ DD c) (e4_W m ρ DD c) (e4_b m ρ DD c) j

end Cert.KernelIdeal.Hand

end
-- ==== Proof.Norm1Val.lean ====
import proofs.«115305_j43688407335088_2_alg».proof.Proof.Norm1
import proofs.«115305_j43688407335088_2_alg».proof.Proof.Spec
import Idealize.ShloMosaic.Lib.Pipeline.Value
import Idealize.ShloMosaic.Lib.ValueIdx
import Idealize.ShloMosaic.PureOps.Ideal.Laws

/-! # The array the normalisation kernel of hop 0 leaves (custom_call 1)

Each of the 25 grid points writes its [2000,256] tile back to rows [2000·t, 2000·t + 2000) and columns
[0, 256) of the [50000,768] array. Distinct points write disjoint row bands, so after the run an
element (p, q) with q in that column band holds the tile of point p / 2000 at (p mod 2000, q - 0); every
other column is never written and keeps what the array held when the region was entered. The seven input
arrays are never written back and keep their contents.

On extended reals the tile at (r, j) is ((max(Σₖ ft(r,k)·W(k,j) + b(j), 0) − mean(j))·rsqrt(var(j) + ε))·γ(j) + β(j),
and the blocks are their arrays read at the tile's rows, so the element (p, q) of the band is that expression
of the arrays at row p and column q − 0. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

section AnyFormat

variable {F : FTy → Type} [FloatOps F]
variable (V : (c : Dev nD) → (b : Ref sig .tc) → Buf (Elt F) ((c : Thread nD τ).loc b))

/-! ## The input arrays -/

/-- An input window is never written back, so its array ends as the region found it. -/
theorem final1_in (c : Dev nD) (w : Fin cfg1.W) (hw : (cfg1.win w).isOut = false) :
    (dat1 V c).arrAt w cfg1.N = V c (Pipeline.arrRef spec1 w) := by
  funext i
  rw [(dat1 V c).arrAt_apply_of_forall_not_mem w cfg1.N i (fun t _ hf => by
    rw [(cfg1.win w).flush_in hw] at hf; exact absurd hf Bool.false_ne_true), A_eq1]

/-! ## The output array, block by block -/

/-- What point t writes back: the tile of the seven input blocks at t. -/
theorem flushed1_7 (c : Dev nD) (t : Fin cfg1.N) :
    (dat1 V c).flushed 7 t = (cfg1.win 7).cut (grid1.coords t) (out1_7 (iblk1 V c 0 t) (iblk1 V c 1 t) (iblk1 V c 2 t) (iblk1 V c 3 t) (iblk1 V c 4 t) (iblk1 V c 5 t) (iblk1 V c 6 t)) := by
  show (cfg1.win 7).cut (grid1.coords t) ((dat1 V c).after 7 t) = _
  rw [after1_7]

/-- The output's block index at point t is (t, 0): row band t, column band 0. -/
theorem idx1_7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)

/-- Distinct points have distinct block indices (their row bands differ). -/
theorem idx_inj1_7 : ∀ t t' : Fin cfg1.N, win1_7.index t = win1_7.index t' → t = t' := fun t t' h =>
  Fin.ext (by have e := congrFun h (0 : Fin 2); rw [(idx1_7 t).1, (idx1_7 t').1] at e; exact e)

/-- So two points' blocks share no index of the array. -/
theorem disjoint1_7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (idx_inj1_7 t t' h)

/-- Block t of the final array, read back, is what point t wrote. -/
theorem blocks1_7 (c : Dev nD) (t : Fin cfg1.N) :
    ((cfg1.win 7).blk t).view.read (Elt F) ((dat1 V c).arrAt 7 cfg1.N) = (dat1 V c).flushed 7 t :=
  (dat1 V c).read_blk_arrAt_eq_flushed 7 disjoint1_7 cfg1.N t t.isLt (flush1_7 t)

/-- An index of the array is in point t's block iff each coordinate is in the block's range on its axis. -/
theorem mem_blk1_7 (t : Fin cfg1.N) (i : S50000x768.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v55).slice (win1_7.rect t)).set ↔ _
  rw [View.set_slice_whole, Rect.mem_set_unit]
  exact Iff.rfl

/-- The written indices: in some point's block iff the column is in [0, 256). Every row is in some band. -/
theorem covered_iff1_7 (i : S50000x768.Idx) :
    (∃ t : Fin cfg1.N, (cfg1.win 7).flush t = true ∧ i ∈ ((cfg1.win 7).blk t).view.set) ↔ 0 ≤ (i 1).val ∧ (i 1).val < 256 := by
  constructor
  · rintro ⟨t, -, hi⟩
    rw [mem_blk1_7] at hi
    have b1 : win1_7.index t (1 : Fin 2) * 256 ≤ (i 1).val ∧ (i 1).val < win1_7.index t (1 : Fin 2) * 256 + 256 := hi 1
    obtain ⟨e0, e1⟩ := idx1_7 t
    omega
  · intro h
    have hi0 : (i 0).val < 50000 := (i 0).isLt
    have hN : grid1.N = 25 := N_1
    have ht : (i 0).val / 2000 < cfg1.N := by show _ < grid1.N; omega
    obtain ⟨e0, e1⟩ := idx1_7 ⟨(i 0).val / 2000, ht⟩
    refine ⟨⟨(i 0).val / 2000, ht⟩, flush1_7 _, ?_⟩
    rw [mem_blk1_7]
    intro a
    match a with
    | ⟨0, _⟩ =>
      show win1_7.index ⟨(i 0).val / 2000, ht⟩ (0 : Fin 2) * 2000 ≤ (i 0).val ∧ (i 0).val < win1_7.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win1_7.index ⟨(i 0).val / 2000, ht⟩ (1 : Fin 2) * 256 ≤ (i 1).val ∧ (i 1).val < win1_7.index ⟨(i 0).val / 2000, ht⟩ (1 : Fin 2) * 256 + 256
      rw [e1]; omega

/-! ## The output array, element by element -/

/-- The grid point whose row band holds row p: p / 2000. -/
def pt1 (i : S50000x768.Idx) : Fin cfg1.N :=
  ⟨(i 0).val / 2000, by have hi0 : (i 0).val < 50000 := (i 0).isLt; have hN : grid1.N = 25 := N_1; show _ < grid1.N; omega⟩

/-- The position inside that point's tile: (p mod 2000, q - 0). -/
def sub1 (i : S50000x768.Idx) (h : 0 ≤ (i 1).val ∧ (i 1).val < 256) : S2000x256.Idx := fun a =>
  match a with
  | ⟨0, _⟩ => ⟨(i 0).val % 2000, by show (i 0).val % 2000 < 2000; omega⟩
  | ⟨1, _⟩ => ⟨(i 1).val - 0, by show (i 1).val - 0 < 256; omega⟩

/-- The array after the run: inside the column band, the tile of the point whose row band holds the row;
    elsewhere, what the array held when the region was entered. -/
theorem final1_7 (c : Dev nD) (i : S50000x768.Idx) :
    (dat1 V c).arrAt 7 cfg1.N i =
      if h : 0 ≤ (i 1).val ∧ (i 1).val < 256 then out1_7 (iblk1 V c 0 (pt1 i)) (iblk1 V c 1 (pt1 i)) (iblk1 V c 2 (pt1 i)) (iblk1 V c 3 (pt1 i)) (iblk1 V c 4 (pt1 i)) (iblk1 V c 5 (pt1 i)) (iblk1 V c 6 (pt1 i)) (sub1 i h)
      else V c (Pipeline.arrRef spec1 7) i := by
  by_cases h : 0 ≤ (i 1).val ∧ (i 1).val < 256
  · rw [dif_pos h]
    have hemb : ((cfg1.win 7).blk (pt1 i)).view.emb (sub1 i h) = i := by
      obtain ⟨e0, e1⟩ := idx1_7 (pt1 i)
      funext a; apply Fin.ext
      match a with
      | ⟨0, _⟩ =>
        show win1_7.index (pt1 i) (0 : Fin 2) * 2000 + 1 * ((i 0).val % 2000) = (i 0).val
        rw [e0]; show (i 0).val / 2000 * 2000 + 1 * ((i 0).val % 2000) = (i 0).val; omega
      | ⟨1, _⟩ =>
        show win1_7.index (pt1 i) (1 : Fin 2) * 256 + 1 * ((i 1).val - 0) = (i 1).val
        rw [e1]; omega
    have key := (dat1 V c).arrAt_emb_eq_flushed 7 disjoint1_7 (pt1 i) (flush1_7 _) (sub1 i h)
    rw [hemb] at key
    rw [key, flushed1_7]
    -- the tile itself plays no part in what is left: the cast is along an equation of equal types and the
    -- window is uncut
    generalize out1_7 (iblk1 V c 0 (pt1 i)) (iblk1 V c 1 (pt1 i)) (iblk1 V c 2 (pt1 i)) (iblk1 V c 3 (pt1 i)) (iblk1 V c 4 (pt1 i)) (iblk1 V c 5 (pt1 i)) (iblk1 V c 6 (pt1 i)) = T
    rfl
  · rw [dif_neg h]
    rw [(dat1 V c).arrAt_apply_of_forall_not_mem 7 cfg1.N i (fun t _ hf hi => h ((covered_iff1_7 i).mp ⟨t, hf, hi⟩)), A_eq1]

/-! ## The two cases of the array, separately -/

theorem final1_7_band (c : Dev nD) (i : S50000x768.Idx) (h : 0 ≤ (i 1).val ∧ (i 1).val < 256) :
    (dat1 V c).arrAt 7 cfg1.N i = out1_7 (iblk1 V c 0 (pt1 i)) (iblk1 V c 1 (pt1 i)) (iblk1 V c 2 (pt1 i)) (iblk1 V c 3 (pt1 i)) (iblk1 V c 4 (pt1 i)) (iblk1 V c 5 (pt1 i)) (iblk1 V c 6 (pt1 i)) (sub1 i h) := by
  rw [final1_7, dif_pos h]

theorem final1_7_rest (c : Dev nD) (i : S50000x768.Idx) (h : ¬ (0 ≤ (i 1).val ∧ (i 1).val < 256)) :
    (dat1 V c).arrAt 7 cfg1.N i = V c (Pipeline.arrRef spec1 7) i := by
  rw [final1_7, dif_neg h]

/-! ## The tile is the arithmetic of the seven blocks -/

theorem zeros2_1 : (![0, 0] : Fin 2 → Nat) = fun _ => 0 := funext fun a => by fin_cases a <;> rfl
theorem zeros1_1 : (![0] : Fin 1 → Nat) = fun _ => 0 := funext fun a => by fin_cases a <;> rfl

/-- One store of the whole tile over loads of whole buffers: the tile is the kernel's arithmetic of the
    buffers' contents. -/
theorem out1_7_eq (x0 : Vec F S2000x256 .bf16) (x1 : Vec F S256x256 .bf16) (x2 : Vec F S256 .f32) (x3 : Vec F S256 .f32) (x4 : Vec F S256 .f32) (x5 : Vec F S256 .f32) (x6 : Vec F S256 .f32) : out1_7 x0 x1 x2 x3 x4 x5 x6 = k1_pay1 x0 x1 x2 x3 x4 x5 x6 := by
  unfold out1_7
  rw [View.canon_unit_zero zeros2_1]
  simp only [View.ld_unit_zero (S := S2000x256) zeros2_1, View.ld_unit_zero (S := S256x256) zeros2_1, View.ld_unit_zero (S := S256) zeros1_1]

/-! ## The input blocks, read back into their arrays -/

/-- The input windows' block indices: the feature tile moves down the rows with the point; the weights and the
    five rows are their whole arrays at every point. -/
theorem idxIn1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 1) = 0 ∧ win1_6.index t (0 : Fin 1) = 0 :=
  (by decide +kernel : ∀ t : Fin grid1.N, _)

/-- Row p mod 2000 of the feature tile at point p / 2000 is row p of the feature array. -/
theorem blk1_ft (c : Dev nD) (p : Fin 50000) (q : Fin 768) (hr : p.val % 2000 < 2000) (k : Fin 256) :
    iblk1 V c 0 (pt1 (ix2 p q)) (ix2 (⟨p.val % 2000, hr⟩ : Fin 2000) k) = V c (Pipeline.arrRef spec1 0) (ix2 p k) := by
  obtain ⟨e0, e1, -⟩ := idxIn1 (pt1 (ix2 p q))
  show V c (Pipeline.arrRef spec1 0) (((cfg1.win 0).blk (pt1 (ix2 p q))).view.emb (ix2 (⟨p.val % 2000, hr⟩ : Fin 2000) k)) = _
  congr 1
  funext a; apply Fin.ext
  match a with
  | ⟨0, _⟩ =>
    show win1_0.index (pt1 (ix2 p q)) (0 : Fin 2) * 2000 + 1 * (p.val % 2000) = p.val
    rw [e0]; show p.val / 2000 * 2000 + 1 * (p.val % 2000) = p.val; omega
  | ⟨1, _⟩ =>
    show win1_0.index (pt1 (ix2 p q)) (1 : Fin 2) * 256 + 1 * k.val = k.val
    rw [e1]; omega

/-- The weight block is the weight array. -/
theorem blk1_1 (c : Dev nD) (t : Fin cfg1.N) (k j : Fin 256) :
    iblk1 V c 1 t (ix2 k j) = V c (Pipeline.arrRef spec1 1) (ix2 k j) := by
  obtain ⟨-, -, e0, e1, -⟩ := idxIn1 t
  show V c (Pipeline.arrRef spec1 1) (((cfg1.win 1).blk t).view.emb (ix2 k j)) = _
  congr 1
  funext a; apply Fin.ext
  match a with
  | ⟨0, _⟩ => show win1_1.index t (0 : Fin 2) * 256 + 1 * k.val = k.val; rw [e0]; omega
  | ⟨1, _⟩ => show win1_1.index t (1 : Fin 2) * 256 + 1 * j.val = j.val; rw [e1]; omega

/-! Each of the five row blocks is its array. -/
theorem blk1_2 (c : Dev nD) (t : Fin cfg1.N) (j : Fin 256) :
    iblk1 V c 2 t (ix1 j) = V c (Pipeline.arrRef spec1 2) (ix1 j) := by
  obtain ⟨-, -, -, -, e, -, -, -, -⟩ := idxIn1 t
  show V c (Pipeline.arrRef spec1 2) (((cfg1.win 2).blk t).view.emb (ix1 j)) = _
  congr 1
  funext a; apply Fin.ext
  match a with
  | ⟨0, _⟩ => show win1_2.index t (0 : Fin 1) * 256 + 1 * j.val = j.val; rw [e]; omega
theorem blk1_3 (c : Dev nD) (t : Fin cfg1.N) (j : Fin 256) :
    iblk1 V c 3 t (ix1 j) = V c (Pipeline.arrRef spec1 3) (ix1 j) := by
  obtain ⟨-, -, -, -, -, e, -, -, -⟩ := idxIn1 t
  show V c (Pipeline.arrRef spec1 3) (((cfg1.win 3).blk t).view.emb (ix1 j)) = _
  congr 1
  funext a; apply Fin.ext
  match a with
  | ⟨0, _⟩ => show win1_3.index t (0 : Fin 1) * 256 + 1 * j.val = j.val; rw [e]; omega
theorem blk1_4 (c : Dev nD) (t : Fin cfg1.N) (j : Fin 256) :
    iblk1 V c 4 t (ix1 j) = V c (Pipeline.arrRef spec1 4) (ix1 j) := by
  obtain ⟨-, -, -, -, -, -, e, -, -⟩ := idxIn1 t
  show V c (Pipeline.arrRef spec1 4) (((cfg1.win 4).blk t).view.emb (ix1 j)) = _
  congr 1
  funext a; apply Fin.ext
  match a with
  | ⟨0, _⟩ => show win1_4.index t (0 : Fin 1) * 256 + 1 * j.val = j.val; rw [e]; omega
theorem blk1_5 (c : Dev nD) (t : Fin cfg1.N) (j : Fin 256) :
    iblk1 V c 5 t (ix1 j) = V c (Pipeline.arrRef spec1 5) (ix1 j) := by
  obtain ⟨-, -, -, -, -, -, -, e, -⟩ := idxIn1 t
  show V c (Pipeline.arrRef spec1 5) (((cfg1.win 5).blk t).view.emb (ix1 j)) = _
  congr 1
  funext a; apply Fin.ext
  match a with
  | ⟨0, _⟩ => show win1_5.index t (0 : Fin 1) * 256 + 1 * j.val = j.val; rw [e]; omega
theorem blk1_6 (c : Dev nD) (t : Fin cfg1.N) (j : Fin 256) :
    iblk1 V c 6 t (ix1 j) = V c (Pipeline.arrRef spec1 6) (ix1 j) := by
  obtain ⟨-, -, -, -, -, -, -, -, e⟩ := idxIn1 t
  show V c (Pipeline.arrRef spec1 6) (((cfg1.win 6).blk t).view.emb (ix1 j)) = _
  congr 1
  funext a; apply Fin.ext
  match a with
  | ⟨0, _⟩ => show win1_6.index t (0 : Fin 1) * 256 + 1 * j.val = j.val; rw [e]; omega

end AnyFormat

/-! ## The tile at an index, on extended reals -/

/-- A [256] row viewed [1,256] and repeated down 2000 rows reads, at (r, j), the row at j. -/
theorem rowBcast1_apply {α : Type} (x : S256.Idx → α) (r : Fin 2000) (j : Fin 256) :
    broadcastTo S2000x256 (shapeCast S1x256 (shapeCast S256 x shapeCasts_S256_S256) shapeCasts_S256_S1x256) broadcasts_S1x256_S2000x256 (ix2 r j) = x (ix1 j) := by
  rw [broadcastTo_apply _ broadcasts_S1x256_S2000x256 (ix2 r j) (ix2 (0 : Fin 1) j) (by intro a; match a with | ⟨0, _⟩ => rfl | ⟨1, _⟩ => rfl)]
  rw [shapeCast_self]
  rw [shapeCast_addUnit_apply]
  exact congrArg x (funext fun a => by match a with | ⟨0, _⟩ => rfl)

/-- The same row with a constant e added and the reciprocal square root taken before it is repeated:
    at (r, j) it is rsqrt(x j + e). -/
theorem rsqrtBcast1_apply (x : Vec Ideal S256 .f32) (e : Ideal .f32) (r : Fin 2000) (j : Fin 256) :
    broadcastTo S2000x256 (rsqrt (addf (shapeCast S1x256 (shapeCast S256 x shapeCasts_S256_S256) shapeCasts_S256_S1x256) (broadcast S1x256 e))) broadcasts_S1x256_S2000x256 (ix2 r j)
      = Ideal.rsqrt (x (ix1 j) + e) := by
  rw [broadcastTo_apply _ broadcasts_S1x256_S2000x256 (ix2 r j) (ix2 (0 : Fin 1) j) (by intro a; match a with | ⟨0, _⟩ => rfl | ⟨1, _⟩ => rfl)]
  show Ideal.rsqrt ((shapeCast S1x256 (shapeCast S256 x shapeCasts_S256_S256) shapeCasts_S256_S1x256) (ix2 (0 : Fin 1) j) + e) = _
  rw [shapeCast_self, shapeCast_addUnit_apply]
  exact congrArg (fun z => Ideal.rsqrt (x z + e)) (funext fun a => by match a with | ⟨0, _⟩ => rfl)

/-- The product's operand indices at output (r, j) and contraction coordinate k: (r, k) and (k, j). -/
theorem dotIdx1 (r : Fin 2000) (j k : Fin 256) :
    dot_S2000x256_S256x256_S2000x256_1_0_0_1_n_n.lhsIdx (ix2 r j) ((contrEquiv1 dot_S2000x256_S256x256_S2000x256_1_0_0_1_n_n 256 rfl rfl).symm k) = ix2 r k
    ∧ dot_S2000x256_S256x256_S2000x256_1_0_0_1_n_n.rhsIdx (ix2 r j) ((contrEquiv1 dot_S2000x256_S256x256_S2000x256_1_0_0_1_n_n 256 rfl rfl).symm k) = ix2 k j := by
  constructor
  · funext a; apply Fin.ext; match a with | ⟨0, _⟩ => rfl | ⟨1, _⟩ => rfl
  · funext a; apply Fin.ext; match a with | ⟨0, _⟩ => rfl | ⟨1, _⟩ => rfl

/-- The matrix product into a zero accumulator at (r, j): the sum over k of ft(r,k)·W(k,j). -/
theorem matmul1_apply (x0 : Vec Ideal S2000x256 .bf16) (x1 : Vec Ideal S256x256 .bf16) (r : Fin 2000) (j : Fin 256) :
    matmul (φ₁ := FTy.bf16) (φ₂ := FTy.bf16) dot_S2000x256_S256x256_S2000x256_1_0_0_1_n_n none (shapeCast S2000x256 x0 shapeCasts_S2000x256_S2000x256) (shapeCast S256x256 x1 shapeCasts_S256x256_S256x256)
        (constant (F := Ideal) S2000x256 .f32 0x00000000#32) (ix2 r j)
      = ∑ k : Fin 256, x0 (ix2 r k) * x1 (ix2 k j) := by
  rw [shapeCast_self, shapeCast_self]
  simp only [matmul]
  rw [Ideal.matmul_constant_zero_apply]
  rw [← Equiv.sum_comp (contrEquiv1 dot_S2000x256_S256x256_S2000x256_1_0_0_1_n_n 256 rfl rfl).symm]
  exact Finset.sum_congr rfl fun k _ => by rw [(dotIdx1 r j k).1, (dotIdx1 r j k).2]

/-- The stored tile at (r, j): the rectified affine image of row r, centred, scaled by the reciprocal square
    root of the variance plus ε and by γ, shifted by β. -/
theorem pay1_apply (x0 : Vec Ideal S2000x256 .bf16) (x1 : Vec Ideal S256x256 .bf16) (x2 x3 x4 x5 x6 : Vec Ideal S256 .f32)
    (r : Fin 2000) (j : Fin 256) :
    k1_pay1 (F := Ideal) x0 x1 x2 x3 x4 x5 x6 (ix2 r j)
      = ((max ((∑ k : Fin 256, x0 (ix2 r k) * x1 (ix2 k j)) + x2 (ix1 j)) 0 - x3 (ix1 j)) * Ideal.rsqrt (x4 (ix1 j) + Cert.Spec.eps)) * x5 (ix1 j) + x6 (ix1 j) := by
  unfold k1_pay1
  simp only [addf_apply, mulf_apply, subf_apply, maximumf_apply, broadcast_apply, rowBcast1_apply, rsqrtBcast1_apply, matmul1_apply]
  have hz : (FloatOps.ofBits (F := Ideal) FTy.f32 0x00000000#32) = (0 : EReal) := Ideal.ofBits_zero_f32
  rw [hz]
  rfl

/-! ## The band, element by element, on extended reals -/

-- the blocks' types depend on the grid point; unifying them with plain vectors is long but terminates
set_option maxHeartbeats 4000000 in
/-- After the run, the element (p, q) of the output array: inside the column band it is the normalised
    rectified affine image of feature row p at column q − 0, computed from the arrays as the region found them;
    outside the band it is what the array held. -/
theorem value1 (V : (c : Dev nD) → (b : Ref sig .tc) → Buf (Elt Ideal) ((c : Thread nD τ).loc b)) (c : Dev nD)
    (p : Fin 50000) (q : Fin 768) :
    (dat1 V c).arrAt 7 cfg1.N (ix2 p q) =
      if h : 0 ≤ q.val ∧ q.val < 256 then
        Cert.Spec.kerOut
          (Cert.Spec.lin (fun p k => V c (Pipeline.arrRef spec1 0) (ix2 p k)) (fun k j => V c (Pipeline.arrRef spec1 1) (ix2 k j)) (fun j => V c (Pipeline.arrRef spec1 2) (ix1 j)))
          (fun j => V c (Pipeline.arrRef spec1 3) (ix1 j)) (fun j => V c (Pipeline.arrRef spec1 4) (ix1 j)) (fun j => V c (Pipeline.arrRef spec1 5) (ix1 j)) (fun j => V c (Pipeline.arrRef spec1 6) (ix1 j))
          p ⟨q.val - 0, by omega⟩
      else V c (Pipeline.arrRef spec1 7) (ix2 p q) := by
  by_cases h : 0 ≤ q.val ∧ q.val < 256
  · rw [dif_pos h, final1_7_band V c (ix2 p q) h, out1_7_eq]
    have hr : p.val % 2000 < 2000 := Nat.mod_lt _ (by norm_num)
    have hj : q.val - 0 < 256 := by omega
    have hs : sub1 (ix2 p q) h = ix2 (⟨p.val % 2000, hr⟩ : Fin 2000) (⟨q.val - 0, hj⟩ : Fin 256) := by
      funext a; match a with | ⟨0, _⟩ => rfl | ⟨1, _⟩ => rfl
    rw [hs, pay1_apply]
    simp only [blk1_ft V c p q hr, blk1_1, blk1_2, blk1_3, blk1_4, blk1_5, blk1_6]
    rfl
  · rw [dif_neg h, final1_7_rest V c (ix2 p q) h]

end Cert.KernelIdeal.Hand
-- ==== Proof.Norm3Val.lean ====
import proofs.«115305_j43688407335088_2_alg».proof.Proof.Norm3
import proofs.«115305_j43688407335088_2_alg».proof.Proof.Spec
import Idealize.ShloMosaic.Lib.Pipeline.Value
import Idealize.ShloMosaic.Lib.ValueIdx
import Idealize.ShloMosaic.PureOps.Ideal.Laws

/-! # The array the normalisation kernel of hop 1 leaves (custom_call 3)

Each of the 25 grid points writes its [2000,256] tile back to rows [2000·t, 2000·t + 2000) and columns
[256, 512) of the [50000,768] array. Distinct points write disjoint row bands, so after the run an
element (p, q) with q in that column band holds the tile of point p / 2000 at (p mod 2000, q - 256); every
other column is never written and keeps what the array held when the region was entered. The seven input
arrays are never written back and keep their contents.

On extended reals the tile at (r, j) is ((max(Σₖ ft(r,k)·W(k,j) + b(j), 0) − mean(j))·rsqrt(var(j) + ε))·γ(j) + β(j),
and the blocks are their arrays read at the tile's rows, so the element (p, q) of the band is that expression
of the arrays at row p and column q − 256. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

section AnyFormat

variable {F : FTy → Type} [FloatOps F]
variable (V : (c : Dev nD) → (b : Ref sig .tc) → Buf (Elt F) ((c : Thread nD τ).loc b))

/-! ## The input arrays -/

/-- An input window is never written back, so its array ends as the region found it. -/
theorem final3_in (c : Dev nD) (w : Fin cfg3.W) (hw : (cfg3.win w).isOut = false) :
    (dat3 V c).arrAt w cfg3.N = V c (Pipeline.arrRef spec3 w) := by
  funext i
  rw [(dat3 V c).arrAt_apply_of_forall_not_mem w cfg3.N i (fun t _ hf => by
    rw [(cfg3.win w).flush_in hw] at hf; exact absurd hf Bool.false_ne_true), A_eq3]

/-! ## The output array, block by block -/

/-- What point t writes back: the tile of the seven input blocks at t. -/
theorem flushed3_7 (c : Dev nD) (t : Fin cfg3.N) :
    (dat3 V c).flushed 7 t = (cfg3.win 7).cut (grid3.coords t) (out3_7 (iblk3 V c 0 t) (iblk3 V c 1 t) (iblk3 V c 2 t) (iblk3 V c 3 t) (iblk3 V c 4 t) (iblk3 V c 5 t) (iblk3 V c 6 t)) := by
  show (cfg3.win 7).cut (grid3.coords t) ((dat3 V c).after 7 t) = _
  rw [after3_7]

/-- The output's block index at point t is (t, 1): row band t, column band 1. -/
theorem idx3_7 : ∀ t : Fin cfg3.N, win3_7.index t (0 : Fin 2) = t.val ∧ win3_7.index t (1 : Fin 2) = 1 :=
  (by decide +kernel : ∀ t : Fin grid3.N, win3_7.index t (0 : Fin 2) = t.val ∧ win3_7.index t (1 : Fin 2) = 1)

/-- Distinct points have distinct block indices (their row bands differ). -/
theorem idx_inj3_7 : ∀ t t' : Fin cfg3.N, win3_7.index t = win3_7.index t' → t = t' := fun t t' h =>
  Fin.ext (by have e := congrFun h (0 : Fin 2); rw [(idx3_7 t).1, (idx3_7 t').1] at e; exact e)

/-- So two points' blocks share no index of the array. -/
theorem disjoint3_7 : ∀ t t' : Fin cfg3.N, (cfg3.win 7).flush t = true → (cfg3.win 7).flush t' = true → t ≠ t' →
    Disjoint ((cfg3.win 7).blk t).view.set ((cfg3.win 7).blk t').view.set :=
  fun t t' _ _ hne => (cfg3.win 7).disjoint_blk fun h => hne (idx_inj3_7 t t' h)

/-- Block t of the final array, read back, is what point t wrote. -/
theorem blocks3_7 (c : Dev nD) (t : Fin cfg3.N) :
    ((cfg3.win 7).blk t).view.read (Elt F) ((dat3 V c).arrAt 7 cfg3.N) = (dat3 V c).flushed 7 t :=
  (dat3 V c).read_blk_arrAt_eq_flushed 7 disjoint3_7 cfg3.N t t.isLt (flush3_7 t)

/-- An index of the array is in point t's block iff each coordinate is in the block's range on its axis. -/
theorem mem_blk3_7 (t : Fin cfg3.N) (i : S50000x768.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v70).slice (win3_7.rect t)).set ↔ _
  rw [View.set_slice_whole, Rect.mem_set_unit]
  exact Iff.rfl

/-- The written indices: in some point's block iff the column is in [256, 512). Every row is in some band. -/
theorem covered_iff3_7 (i : S50000x768.Idx) :
    (∃ t : Fin cfg3.N, (cfg3.win 7).flush t = true ∧ i ∈ ((cfg3.win 7).blk t).view.set) ↔ 256 ≤ (i 1).val ∧ (i 1).val < 512 := by
  constructor
  · rintro ⟨t, -, hi⟩
    rw [mem_blk3_7] at hi
    have b1 : win3_7.index t (1 : Fin 2) * 256 ≤ (i 1).val ∧ (i 1).val < win3_7.index t (1 : Fin 2) * 256 + 256 := hi 1
    obtain ⟨e0, e1⟩ := idx3_7 t
    omega
  · intro h
    have hi0 : (i 0).val < 50000 := (i 0).isLt
    have hN : grid3.N = 25 := N_3
    have ht : (i 0).val / 2000 < cfg3.N := by show _ < grid3.N; omega
    obtain ⟨e0, e1⟩ := idx3_7 ⟨(i 0).val / 2000, ht⟩
    refine ⟨⟨(i 0).val / 2000, ht⟩, flush3_7 _, ?_⟩
    rw [mem_blk3_7]
    intro a
    match a with
    | ⟨0, _⟩ =>
      show win3_7.index ⟨(i 0).val / 2000, ht⟩ (0 : Fin 2) * 2000 ≤ (i 0).val ∧ (i 0).val < win3_7.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win3_7.index ⟨(i 0).val / 2000, ht⟩ (1 : Fin 2) * 256 ≤ (i 1).val ∧ (i 1).val < win3_7.index ⟨(i 0).val / 2000, ht⟩ (1 : Fin 2) * 256 + 256
      rw [e1]; omega

/-! ## The output array, element by element -/

/-- The grid point whose row band holds row p: p / 2000. -/
def pt3 (i : S50000x768.Idx) : Fin cfg3.N :=
  ⟨(i 0).val / 2000, by have hi0 : (i 0).val < 50000 := (i 0).isLt; have hN : grid3.N = 25 := N_3; show _ < grid3.N; omega⟩

/-- The position inside that point's tile: (p mod 2000, q - 256). -/
def sub3 (i : S50000x768.Idx) (h : 256 ≤ (i 1).val ∧ (i 1).val < 512) : S2000x256.Idx := fun a =>
  match a with
  | ⟨0, _⟩ => ⟨(i 0).val % 2000, by show (i 0).val % 2000 < 2000; omega⟩
  | ⟨1, _⟩ => ⟨(i 1).val - 256, by show (i 1).val - 256 < 256; omega⟩

/-- The array after the run: inside the column band, the tile of the point whose row band holds the row;
    elsewhere, what the array held when the region was entered. -/
theorem final3_7 (c : Dev nD) (i : S50000x768.Idx) :
    (dat3 V c).arrAt 7 cfg3.N i =
      if h : 256 ≤ (i 1).val ∧ (i 1).val < 512 then out3_7 (iblk3 V c 0 (pt3 i)) (iblk3 V c 1 (pt3 i)) (iblk3 V c 2 (pt3 i)) (iblk3 V c 3 (pt3 i)) (iblk3 V c 4 (pt3 i)) (iblk3 V c 5 (pt3 i)) (iblk3 V c 6 (pt3 i)) (sub3 i h)
      else V c (Pipeline.arrRef spec3 7) i := by
  by_cases h : 256 ≤ (i 1).val ∧ (i 1).val < 512
  · rw [dif_pos h]
    have hemb : ((cfg3.win 7).blk (pt3 i)).view.emb (sub3 i h) = i := by
      obtain ⟨e0, e1⟩ := idx3_7 (pt3 i)
      funext a; apply Fin.ext
      match a with
      | ⟨0, _⟩ =>
        show win3_7.index (pt3 i) (0 : Fin 2) * 2000 + 1 * ((i 0).val % 2000) = (i 0).val
        rw [e0]; show (i 0).val / 2000 * 2000 + 1 * ((i 0).val % 2000) = (i 0).val; omega
      | ⟨1, _⟩ =>
        show win3_7.index (pt3 i) (1 : Fin 2) * 256 + 1 * ((i 1).val - 256) = (i 1).val
        rw [e1]; omega
    have key := (dat3 V c).arrAt_emb_eq_flushed 7 disjoint3_7 (pt3 i) (flush3_7 _) (sub3 i h)
    rw [hemb] at key
    rw [key, flushed3_7]
    -- the tile itself plays no part in what is left: the cast is along an equation of equal types and the
    -- window is uncut
    generalize out3_7 (iblk3 V c 0 (pt3 i)) (iblk3 V c 1 (pt3 i)) (iblk3 V c 2 (pt3 i)) (iblk3 V c 3 (pt3 i)) (iblk3 V c 4 (pt3 i)) (iblk3 V c 5 (pt3 i)) (iblk3 V c 6 (pt3 i)) = T
    rfl
  · rw [dif_neg h]
    rw [(dat3 V c).arrAt_apply_of_forall_not_mem 7 cfg3.N i (fun t _ hf hi => h ((covered_iff3_7 i).mp ⟨t, hf, hi⟩)), A_eq3]

/-! ## The two cases of the array, separately -/

theorem final3_7_band (c : Dev nD) (i : S50000x768.Idx) (h : 256 ≤ (i 1).val ∧ (i 1).val < 512) :
    (dat3 V c).arrAt 7 cfg3.N i = out3_7 (iblk3 V c 0 (pt3 i)) (iblk3 V c 1 (pt3 i)) (iblk3 V c 2 (pt3 i)) (iblk3 V c 3 (pt3 i)) (iblk3 V c 4 (pt3 i)) (iblk3 V c 5 (pt3 i)) (iblk3 V c 6 (pt3 i)) (sub3 i h) := by
  rw [final3_7, dif_pos h]

theorem final3_7_rest (c : Dev nD) (i : S50000x768.Idx) (h : ¬ (256 ≤ (i 1).val ∧ (i 1).val < 512)) :
    (dat3 V c).arrAt 7 cfg3.N i = V c (Pipeline.arrRef spec3 7) i := by
  rw [final3_7, dif_neg h]

/-! ## The tile is the arithmetic of the seven blocks -/

theorem zeros2_3 : (![0, 0] : Fin 2 → Nat) = fun _ => 0 := funext fun a => by fin_cases a <;> rfl
theorem zeros1_3 : (![0] : Fin 1 → Nat) = fun _ => 0 := funext fun a => by fin_cases a <;> rfl

/-- One store of the whole tile over loads of whole buffers: the tile is the kernel's arithmetic of the
    buffers' contents. -/
theorem out3_7_eq (x0 : Vec F S2000x256 .bf16) (x1 : Vec F S256x256 .bf16) (x2 : Vec F S256 .f32) (x3 : Vec F S256 .f32) (x4 : Vec F S256 .f32) (x5 : Vec F S256 .f32) (x6 : Vec F S256 .f32) : out3_7 x0 x1 x2 x3 x4 x5 x6 = k3_pay1 x0 x1 x2 x3 x4 x5 x6 := by
  unfold out3_7
  rw [View.canon_unit_zero zeros2_3]
  simp only [View.ld_unit_zero (S := S2000x256) zeros2_3, View.ld_unit_zero (S := S256x256) zeros2_3, View.ld_unit_zero (S := S256) zeros1_3]

/-! ## The input blocks, read back into their arrays -/

/-- The input windows' block indices: the feature tile moves down the rows with the point; the weights and the
    five rows are their whole arrays at every point. -/
theorem idxIn3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0 ∧ win3_3.index t (0 : Fin 1) = 0 ∧ win3_4.index t (0 : Fin 1) = 0
    ∧ win3_5.index t (0 : Fin 1) = 0 ∧ win3_6.index t (0 : Fin 1) = 0 :=
  (by decide +kernel : ∀ t : Fin grid3.N, _)

/-- Row p mod 2000 of the feature tile at point p / 2000 is row p of the feature array. -/
theorem blk3_ft (c : Dev nD) (p : Fin 50000) (q : Fin 768) (hr : p.val % 2000 < 2000) (k : Fin 256) :
    iblk3 V c 0 (pt3 (ix2 p q)) (ix2 (⟨p.val % 2000, hr⟩ : Fin 2000) k) = V c (Pipeline.arrRef spec3 0) (ix2 p k) := by
  obtain ⟨e0, e1, -⟩ := idxIn3 (pt3 (ix2 p q))
  show V c (Pipeline.arrRef spec3 0) (((cfg3.win 0).blk (pt3 (ix2 p q))).view.emb (ix2 (⟨p.val % 2000, hr⟩ : Fin 2000) k)) = _
  congr 1
  funext a; apply Fin.ext
  match a with
  | ⟨0, _⟩ =>
    show win3_0.index (pt3 (ix2 p q)) (0 : Fin 2) * 2000 + 1 * (p.val % 2000) = p.val
    rw [e0]; show p.val / 2000 * 2000 + 1 * (p.val % 2000) = p.val; omega
  | ⟨1, _⟩ =>
    show win3_0.index (pt3 (ix2 p q)) (1 : Fin 2) * 256 + 1 * k.val = k.val
    rw [e1]; omega

/-- The weight block is the weight array. -/
theorem blk3_1 (c : Dev nD) (t : Fin cfg3.N) (k j : Fin 256) :
    iblk3 V c 1 t (ix2 k j) = V c (Pipeline.arrRef spec3 1) (ix2 k j) := by
  obtain ⟨-, -, e0, e1, -⟩ := idxIn3 t
  show V c (Pipeline.arrRef spec3 1) (((cfg3.win 1).blk t).view.emb (ix2 k j)) = _
  congr 1
  funext a; apply Fin.ext
  match a with
  | ⟨0, _⟩ => show win3_1.index t (0 : Fin 2) * 256 + 1 * k.val = k.val; rw [e0]; omega
  | ⟨1, _⟩ => show win3_1.index t (1 : Fin 2) * 256 + 1 * j.val = j.val; rw [e1]; omega

/-! Each of the five row blocks is its array. -/
theorem blk3_2 (c : Dev nD) (t : Fin cfg3.N) (j : Fin 256) :
    iblk3 V c 2 t (ix1 j) = V c (Pipeline.arrRef spec3 2) (ix1 j) := by
  obtain ⟨-, -, -, -, e, -, -, -, -⟩ := idxIn3 t
  show V c (Pipeline.arrRef spec3 2) (((cfg3.win 2).blk t).view.emb (ix1 j)) = _
  congr 1
  funext a; apply Fin.ext
  match a with
  | ⟨0, _⟩ => show win3_2.index t (0 : Fin 1) * 256 + 1 * j.val = j.val; rw [e]; omega
theorem blk3_3 (c : Dev nD) (t : Fin cfg3.N) (j : Fin 256) :
    iblk3 V c 3 t (ix1 j) = V c (Pipeline.arrRef spec3 3) (ix1 j) := by
  obtain ⟨-, -, -, -, -, e, -, -, -⟩ := idxIn3 t
  show V c (Pipeline.arrRef spec3 3) (((cfg3.win 3).blk t).view.emb (ix1 j)) = _
  congr 1
  funext a; apply Fin.ext
  match a with
  | ⟨0, _⟩ => show win3_3.index t (0 : Fin 1) * 256 + 1 * j.val = j.val; rw [e]; omega
theorem blk3_4 (c : Dev nD) (t : Fin cfg3.N) (j : Fin 256) :
    iblk3 V c 4 t (ix1 j) = V c (Pipeline.arrRef spec3 4) (ix1 j) := by
  obtain ⟨-, -, -, -, -, -, e, -, -⟩ := idxIn3 t
  show V c (Pipeline.arrRef spec3 4) (((cfg3.win 4).blk t).view.emb (ix1 j)) = _
  congr 1
  funext a; apply Fin.ext
  match a with
  | ⟨0, _⟩ => show win3_4.index t (0 : Fin 1) * 256 + 1 * j.val = j.val; rw [e]; omega
theorem blk3_5 (c : Dev nD) (t : Fin cfg3.N) (j : Fin 256) :
    iblk3 V c 5 t (ix1 j) = V c (Pipeline.arrRef spec3 5) (ix1 j) := by
  obtain ⟨-, -, -, -, -, -, -, e, -⟩ := idxIn3 t
  show V c (Pipeline.arrRef spec3 5) (((cfg3.win 5).blk t).view.emb (ix1 j)) = _
  congr 1
  funext a; apply Fin.ext
  match a with
  | ⟨0, _⟩ => show win3_5.index t (0 : Fin 1) * 256 + 1 * j.val = j.val; rw [e]; omega
theorem blk3_6 (c : Dev nD) (t : Fin cfg3.N) (j : Fin 256) :
    iblk3 V c 6 t (ix1 j) = V c (Pipeline.arrRef spec3 6) (ix1 j) := by
  obtain ⟨-, -, -, -, -, -, -, -, e⟩ := idxIn3 t
  show V c (Pipeline.arrRef spec3 6) (((cfg3.win 6).blk t).view.emb (ix1 j)) = _
  congr 1
  funext a; apply Fin.ext
  match a with
  | ⟨0, _⟩ => show win3_6.index t (0 : Fin 1) * 256 + 1 * j.val = j.val; rw [e]; omega

end AnyFormat

/-! ## The tile at an index, on extended reals -/

/-- A [256] row viewed [1,256] and repeated down 2000 rows reads, at (r, j), the row at j. -/
theorem rowBcast3_apply {α : Type} (x : S256.Idx → α) (r : Fin 2000) (j : Fin 256) :
    broadcastTo S2000x256 (shapeCast S1x256 (shapeCast S256 x shapeCasts_S256_S256) shapeCasts_S256_S1x256) broadcasts_S1x256_S2000x256 (ix2 r j) = x (ix1 j) := by
  rw [broadcastTo_apply _ broadcasts_S1x256_S2000x256 (ix2 r j) (ix2 (0 : Fin 1) j) (by intro a; match a with | ⟨0, _⟩ => rfl | ⟨1, _⟩ => rfl)]
  rw [shapeCast_self]
  rw [shapeCast_addUnit_apply]
  exact congrArg x (funext fun a => by match a with | ⟨0, _⟩ => rfl)

/-- The same row with a constant e added and the reciprocal square root taken before it is repeated:
    at (r, j) it is rsqrt(x j + e). -/
theorem rsqrtBcast3_apply (x : Vec Ideal S256 .f32) (e : Ideal .f32) (r : Fin 2000) (j : Fin 256) :
    broadcastTo S2000x256 (rsqrt (addf (shapeCast S1x256 (shapeCast S256 x shapeCasts_S256_S256) shapeCasts_S256_S1x256) (broadcast S1x256 e))) broadcasts_S1x256_S2000x256 (ix2 r j)
      = Ideal.rsqrt (x (ix1 j) + e) := by
  rw [broadcastTo_apply _ broadcasts_S1x256_S2000x256 (ix2 r j) (ix2 (0 : Fin 1) j) (by intro a; match a with | ⟨0, _⟩ => rfl | ⟨1, _⟩ => rfl)]
  show Ideal.rsqrt ((shapeCast S1x256 (shapeCast S256 x shapeCasts_S256_S256) shapeCasts_S256_S1x256) (ix2 (0 : Fin 1) j) + e) = _
  rw [shapeCast_self, shapeCast_addUnit_apply]
  exact congrArg (fun z => Ideal.rsqrt (x z + e)) (funext fun a => by match a with | ⟨0, _⟩ => rfl)

/-- The product's operand indices at output (r, j) and contraction coordinate k: (r, k) and (k, j). -/
theorem dotIdx3 (r : Fin 2000) (j k : Fin 256) :
    dot_S2000x256_S256x256_S2000x256_1_0_0_1_n_n.lhsIdx (ix2 r j) ((contrEquiv1 dot_S2000x256_S256x256_S2000x256_1_0_0_1_n_n 256 rfl rfl).symm k) = ix2 r k
    ∧ dot_S2000x256_S256x256_S2000x256_1_0_0_1_n_n.rhsIdx (ix2 r j) ((contrEquiv1 dot_S2000x256_S256x256_S2000x256_1_0_0_1_n_n 256 rfl rfl).symm k) = ix2 k j := by
  constructor
  · funext a; apply Fin.ext; match a with | ⟨0, _⟩ => rfl | ⟨1, _⟩ => rfl
  · funext a; apply Fin.ext; match a with | ⟨0, _⟩ => rfl | ⟨1, _⟩ => rfl

/-- The matrix product into a zero accumulator at (r, j): the sum over k of ft(r,k)·W(k,j). -/
theorem matmul3_apply (x0 : Vec Ideal S2000x256 .bf16) (x1 : Vec Ideal S256x256 .bf16) (r : Fin 2000) (j : Fin 256) :
    matmul (φ₁ := FTy.bf16) (φ₂ := FTy.bf16) dot_S2000x256_S256x256_S2000x256_1_0_0_1_n_n none (shapeCast S2000x256 x0 shapeCasts_S2000x256_S2000x256) (shapeCast S256x256 x1 shapeCasts_S256x256_S256x256)
        (constant (F := Ideal) S2000x256 .f32 0x00000000#32) (ix2 r j)
      = ∑ k : Fin 256, x0 (ix2 r k) * x1 (ix2 k j) := by
  rw [shapeCast_self, shapeCast_self]
  simp only [matmul]
  rw [Ideal.matmul_constant_zero_apply]
  rw [← Equiv.sum_comp (contrEquiv1 dot_S2000x256_S256x256_S2000x256_1_0_0_1_n_n 256 rfl rfl).symm]
  exact Finset.sum_congr rfl fun k _ => by rw [(dotIdx3 r j k).1, (dotIdx3 r j k).2]

/-- The stored tile at (r, j): the rectified affine image of row r, centred, scaled by the reciprocal square
    root of the variance plus ε and by γ, shifted by β. -/
theorem pay3_apply (x0 : Vec Ideal S2000x256 .bf16) (x1 : Vec Ideal S256x256 .bf16) (x2 x3 x4 x5 x6 : Vec Ideal S256 .f32)
    (r : Fin 2000) (j : Fin 256) :
    k3_pay1 (F := Ideal) x0 x1 x2 x3 x4 x5 x6 (ix2 r j)
      = ((max ((∑ k : Fin 256, x0 (ix2 r k) * x1 (ix2 k j)) + x2 (ix1 j)) 0 - x3 (ix1 j)) * Ideal.rsqrt (x4 (ix1 j) + Cert.Spec.eps)) * x5 (ix1 j) + x6 (ix1 j) := by
  unfold k3_pay1
  simp only [addf_apply, mulf_apply, subf_apply, maximumf_apply, broadcast_apply, rowBcast3_apply, rsqrtBcast3_apply, matmul3_apply]
  have hz : (FloatOps.ofBits (F := Ideal) FTy.f32 0x00000000#32) = (0 : EReal) := Ideal.ofBits_zero_f32
  rw [hz]
  rfl

/-! ## The band, element by element, on extended reals -/

-- the blocks' types depend on the grid point; unifying them with plain vectors is long but terminates
set_option maxHeartbeats 4000000 in
/-- After the run, the element (p, q) of the output array: inside the column band it is the normalised
    rectified affine image of feature row p at column q − 256, computed from the arrays as the region found them;
    outside the band it is what the array held. -/
theorem value3 (V : (c : Dev nD) → (b : Ref sig .tc) → Buf (Elt Ideal) ((c : Thread nD τ).loc b)) (c : Dev nD)
    (p : Fin 50000) (q : Fin 768) :
    (dat3 V c).arrAt 7 cfg3.N (ix2 p q) =
      if h : 256 ≤ q.val ∧ q.val < 512 then
        Cert.Spec.kerOut
          (Cert.Spec.lin (fun p k => V c (Pipeline.arrRef spec3 0) (ix2 p k)) (fun k j => V c (Pipeline.arrRef spec3 1) (ix2 k j)) (fun j => V c (Pipeline.arrRef spec3 2) (ix1 j)))
          (fun j => V c (Pipeline.arrRef spec3 3) (ix1 j)) (fun j => V c (Pipeline.arrRef spec3 4) (ix1 j)) (fun j => V c (Pipeline.arrRef spec3 5) (ix1 j)) (fun j => V c (Pipeline.arrRef spec3 6) (ix1 j))
          p ⟨q.val - 256, by omega⟩
      else V c (Pipeline.arrRef spec3 7) (ix2 p q) := by
  by_cases h : 256 ≤ q.val ∧ q.val < 512
  · rw [dif_pos h, final3_7_band V c (ix2 p q) h, out3_7_eq]
    have hr : p.val % 2000 < 2000 := Nat.mod_lt _ (by norm_num)
    have hj : q.val - 256 < 256 := by omega
    have hs : sub3 (ix2 p q) h = ix2 (⟨p.val % 2000, hr⟩ : Fin 2000) (⟨q.val - 256, hj⟩ : Fin 256) := by
      funext a; match a with | ⟨0, _⟩ => rfl | ⟨1, _⟩ => rfl
    rw [hs, pay3_apply]
    simp only [blk3_ft V c p q hr, blk3_1, blk3_2, blk3_3, blk3_4, blk3_5, blk3_6]
    rfl
  · rw [dif_neg h, final3_7_rest V c (ix2 p q) h]

end Cert.KernelIdeal.Hand
-- ==== Proof.Norm5Val.lean ====
import proofs.«115305_j43688407335088_2_alg».proof.Proof.Norm5
import proofs.«115305_j43688407335088_2_alg».proof.Proof.Spec
import Idealize.ShloMosaic.Lib.Pipeline.Value
import Idealize.ShloMosaic.Lib.ValueIdx
import Idealize.ShloMosaic.PureOps.Ideal.Laws

/-! # The array the normalisation kernel of hop 2 leaves (custom_call 5)

Each of the 25 grid points writes its [2000,256] tile back to rows [2000·t, 2000·t + 2000) and columns
[512, 768) of the [50000,768] array. Distinct points write disjoint row bands, so after the run an
element (p, q) with q in that column band holds the tile of point p / 2000 at (p mod 2000, q - 512); every
other column is never written and keeps what the array held when the region was entered. The seven input
arrays are never written back and keep their contents.

On extended reals the tile at (r, j) is ((max(Σₖ ft(r,k)·W(k,j) + b(j), 0) − mean(j))·rsqrt(var(j) + ε))·γ(j) + β(j),
and the blocks are their arrays read at the tile's rows, so the element (p, q) of the band is that expression
of the arrays at row p and column q − 512. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

section AnyFormat

variable {F : FTy → Type} [FloatOps F]
variable (V : (c : Dev nD) → (b : Ref sig .tc) → Buf (Elt F) ((c : Thread nD τ).loc b))

/-! ## The input arrays -/

/-- An input window is never written back, so its array ends as the region found it. -/
theorem final5_in (c : Dev nD) (w : Fin cfg5.W) (hw : (cfg5.win w).isOut = false) :
    (dat5 V c).arrAt w cfg5.N = V c (Pipeline.arrRef spec5 w) := by
  funext i
  rw [(dat5 V c).arrAt_apply_of_forall_not_mem w cfg5.N i (fun t _ hf => by
    rw [(cfg5.win w).flush_in hw] at hf; exact absurd hf Bool.false_ne_true), A_eq5]

/-! ## The output array, block by block -/

/-- What point t writes back: the tile of the seven input blocks at t. -/
theorem flushed5_7 (c : Dev nD) (t : Fin cfg5.N) :
    (dat5 V c).flushed 7 t = (cfg5.win 7).cut (grid5.coords t) (out5_7 (iblk5 V c 0 t) (iblk5 V c 1 t) (iblk5 V c 2 t) (iblk5 V c 3 t) (iblk5 V c 4 t) (iblk5 V c 5 t) (iblk5 V c 6 t)) := by
  show (cfg5.win 7).cut (grid5.coords t) ((dat5 V c).after 7 t) = _
  rw [after5_7]

/-- The output's block index at point t is (t, 2): row band t, column band 2. -/
theorem idx5_7 : ∀ t : Fin cfg5.N, win5_7.index t (0 : Fin 2) = t.val ∧ win5_7.index t (1 : Fin 2) = 2 :=
  (by decide +kernel : ∀ t : Fin grid5.N, win5_7.index t (0 : Fin 2) = t.val ∧ win5_7.index t (1 : Fin 2) = 2)

/-- Distinct points have distinct block indices (their row bands differ). -/
theorem idx_inj5_7 : ∀ t t' : Fin cfg5.N, win5_7.index t = win5_7.index t' → t = t' := fun t t' h =>
  Fin.ext (by have e := congrFun h (0 : Fin 2); rw [(idx5_7 t).1, (idx5_7 t').1] at e; exact e)

/-- So two points' blocks share no index of the array. -/
theorem disjoint5_7 : ∀ t t' : Fin cfg5.N, (cfg5.win 7).flush t = true → (cfg5.win 7).flush t' = true → t ≠ t' →
    Disjoint ((cfg5.win 7).blk t).view.set ((cfg5.win 7).blk t').view.set :=
  fun t t' _ _ hne => (cfg5.win 7).disjoint_blk fun h => hne (idx_inj5_7 t t' h)

/-- Block t of the final array, read back, is what point t wrote. -/
theorem blocks5_7 (c : Dev nD) (t : Fin cfg5.N) :
    ((cfg5.win 7).blk t).view.read (Elt F) ((dat5 V c).arrAt 7 cfg5.N) = (dat5 V c).flushed 7 t :=
  (dat5 V c).read_blk_arrAt_eq_flushed 7 disjoint5_7 cfg5.N t t.isLt (flush5_7 t)

/-- An index of the array is in point t's block iff each coordinate is in the block's range on its axis. -/
theorem mem_blk5_7 (t : Fin cfg5.N) (i : S50000x768.Idx) :
    i ∈ ((cfg5.win 7).blk t).view.set ↔ ∀ a : Fin 2, win5_7.index t a * S2000x256.size a ≤ (i a).val ∧ (i a).val < win5_7.index t a * S2000x256.size a + S2000x256.size a := by
  show i ∈ ((View.whole main_v85).slice (win5_7.rect t)).set ↔ _
  rw [View.set_slice_whole, Rect.mem_set_unit]
  exact Iff.rfl

/-- The written indices: in some point's block iff the column is in [512, 768). Every row is in some band. -/
theorem covered_iff5_7 (i : S50000x768.Idx) :
    (∃ t : Fin cfg5.N, (cfg5.win 7).flush t = true ∧ i ∈ ((cfg5.win 7).blk t).view.set) ↔ 512 ≤ (i 1).val ∧ (i 1).val < 768 := by
  constructor
  · rintro ⟨t, -, hi⟩
    rw [mem_blk5_7] at hi
    have b1 : win5_7.index t (1 : Fin 2) * 256 ≤ (i 1).val ∧ (i 1).val < win5_7.index t (1 : Fin 2) * 256 + 256 := hi 1
    obtain ⟨e0, e1⟩ := idx5_7 t
    omega
  · intro h
    have hi0 : (i 0).val < 50000 := (i 0).isLt
    have hN : grid5.N = 25 := N_5
    have ht : (i 0).val / 2000 < cfg5.N := by show _ < grid5.N; omega
    obtain ⟨e0, e1⟩ := idx5_7 ⟨(i 0).val / 2000, ht⟩
    refine ⟨⟨(i 0).val / 2000, ht⟩, flush5_7 _, ?_⟩
    rw [mem_blk5_7]
    intro a
    match a with
    | ⟨0, _⟩ =>
      show win5_7.index ⟨(i 0).val / 2000, ht⟩ (0 : Fin 2) * 2000 ≤ (i 0).val ∧ (i 0).val < win5_7.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win5_7.index ⟨(i 0).val / 2000, ht⟩ (1 : Fin 2) * 256 ≤ (i 1).val ∧ (i 1).val < win5_7.index ⟨(i 0).val / 2000, ht⟩ (1 : Fin 2) * 256 + 256
      rw [e1]; omega

/-! ## The output array, element by element -/

/-- The grid point whose row band holds row p: p / 2000. -/
def pt5 (i : S50000x768.Idx) : Fin cfg5.N :=
  ⟨(i 0).val / 2000, by have hi0 : (i 0).val < 50000 := (i 0).isLt; have hN : grid5.N = 25 := N_5; show _ < grid5.N; omega⟩

/-- The position inside that point's tile: (p mod 2000, q - 512). -/
def sub5 (i : S50000x768.Idx) (h : 512 ≤ (i 1).val ∧ (i 1).val < 768) : S2000x256.Idx := fun a =>
  match a with
  | ⟨0, _⟩ => ⟨(i 0).val % 2000, by show (i 0).val % 2000 < 2000; omega⟩
  | ⟨1, _⟩ => ⟨(i 1).val - 512, by show (i 1).val - 512 < 256; omega⟩

/-- The array after the run: inside the column band, the tile of the point whose row band holds the row;
    elsewhere, what the array held when the region was entered. -/
theorem final5_7 (c : Dev nD) (i : S50000x768.Idx) :
    (dat5 V c).arrAt 7 cfg5.N i =
      if h : 512 ≤ (i 1).val ∧ (i 1).val < 768 then out5_7 (iblk5 V c 0 (pt5 i)) (iblk5 V c 1 (pt5 i)) (iblk5 V c 2 (pt5 i)) (iblk5 V c 3 (pt5 i)) (iblk5 V c 4 (pt5 i)) (iblk5 V c 5 (pt5 i)) (iblk5 V c 6 (pt5 i)) (sub5 i h)
      else V c (Pipeline.arrRef spec5 7) i := by
  by_cases h : 512 ≤ (i 1).val ∧ (i 1).val < 768
  · rw [dif_pos h]
    have hemb : ((cfg5.win 7).blk (pt5 i)).view.emb (sub5 i h) = i := by
      obtain ⟨e0, e1⟩ := idx5_7 (pt5 i)
      funext a; apply Fin.ext
      match a with
      | ⟨0, _⟩ =>
        show win5_7.index (pt5 i) (0 : Fin 2) * 2000 + 1 * ((i 0).val % 2000) = (i 0).val
        rw [e0]; show (i 0).val / 2000 * 2000 + 1 * ((i 0).val % 2000) = (i 0).val; omega
      | ⟨1, _⟩ =>
        show win5_7.index (pt5 i) (1 : Fin 2) * 256 + 1 * ((i 1).val - 512) = (i 1).val
        rw [e1]; omega
    have key := (dat5 V c).arrAt_emb_eq_flushed 7 disjoint5_7 (pt5 i) (flush5_7 _) (sub5 i h)
    rw [hemb] at key
    rw [key, flushed5_7]
    -- the tile itself plays no part in what is left: the cast is along an equation of equal types and the
    -- window is uncut
    generalize out5_7 (iblk5 V c 0 (pt5 i)) (iblk5 V c 1 (pt5 i)) (iblk5 V c 2 (pt5 i)) (iblk5 V c 3 (pt5 i)) (iblk5 V c 4 (pt5 i)) (iblk5 V c 5 (pt5 i)) (iblk5 V c 6 (pt5 i)) = T
    rfl
  · rw [dif_neg h]
    rw [(dat5 V c).arrAt_apply_of_forall_not_mem 7 cfg5.N i (fun t _ hf hi => h ((covered_iff5_7 i).mp ⟨t, hf, hi⟩)), A_eq5]

/-! ## The two cases of the array, separately -/

theorem final5_7_band (c : Dev nD) (i : S50000x768.Idx) (h : 512 ≤ (i 1).val ∧ (i 1).val < 768) :
    (dat5 V c).arrAt 7 cfg5.N i = out5_7 (iblk5 V c 0 (pt5 i)) (iblk5 V c 1 (pt5 i)) (iblk5 V c 2 (pt5 i)) (iblk5 V c 3 (pt5 i)) (iblk5 V c 4 (pt5 i)) (iblk5 V c 5 (pt5 i)) (iblk5 V c 6 (pt5 i)) (sub5 i h) := by
  rw [final5_7, dif_pos h]

theorem final5_7_rest (c : Dev nD) (i : S50000x768.Idx) (h : ¬ (512 ≤ (i 1).val ∧ (i 1).val < 768)) :
    (dat5 V c).arrAt 7 cfg5.N i = V c (Pipeline.arrRef spec5 7) i := by
  rw [final5_7, dif_neg h]

/-! ## The tile is the arithmetic of the seven blocks -/

theorem zeros2_5 : (![0, 0] : Fin 2 → Nat) = fun _ => 0 := funext fun a => by fin_cases a <;> rfl
theorem zeros1_5 : (![0] : Fin 1 → Nat) = fun _ => 0 := funext fun a => by fin_cases a <;> rfl

/-- One store of the whole tile over loads of whole buffers: the tile is the kernel's arithmetic of the
    buffers' contents. -/
theorem out5_7_eq (x0 : Vec F S2000x256 .bf16) (x1 : Vec F S256x256 .bf16) (x2 : Vec F S256 .f32) (x3 : Vec F S256 .f32) (x4 : Vec F S256 .f32) (x5 : Vec F S256 .f32) (x6 : Vec F S256 .f32) : out5_7 x0 x1 x2 x3 x4 x5 x6 = k5_pay1 x0 x1 x2 x3 x4 x5 x6 := by
  unfold out5_7
  rw [View.canon_unit_zero zeros2_5]
  simp only [View.ld_unit_zero (S := S2000x256) zeros2_5, View.ld_unit_zero (S := S256x256) zeros2_5, View.ld_unit_zero (S := S256) zeros1_5]

/-! ## The input blocks, read back into their arrays -/

/-- The input windows' block indices: the feature tile moves down the rows with the point; the weights and the
    five rows are their whole arrays at every point. -/
theorem idxIn5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0 ∧ win5_3.index t (0 : Fin 1) = 0 ∧ win5_4.index t (0 : Fin 1) = 0
    ∧ win5_5.index t (0 : Fin 1) = 0 ∧ win5_6.index t (0 : Fin 1) = 0 :=
  (by decide +kernel : ∀ t : Fin grid5.N, _)

/-- Row p mod 2000 of the feature tile at point p / 2000 is row p of the feature array. -/
theorem blk5_ft (c : Dev nD) (p : Fin 50000) (q : Fin 768) (hr : p.val % 2000 < 2000) (k : Fin 256) :
    iblk5 V c 0 (pt5 (ix2 p q)) (ix2 (⟨p.val % 2000, hr⟩ : Fin 2000) k) = V c (Pipeline.arrRef spec5 0) (ix2 p k) := by
  obtain ⟨e0, e1, -⟩ := idxIn5 (pt5 (ix2 p q))
  show V c (Pipeline.arrRef spec5 0) (((cfg5.win 0).blk (pt5 (ix2 p q))).view.emb (ix2 (⟨p.val % 2000, hr⟩ : Fin 2000) k)) = _
  congr 1
  funext a; apply Fin.ext
  match a with
  | ⟨0, _⟩ =>
    show win5_0.index (pt5 (ix2 p q)) (0 : Fin 2) * 2000 + 1 * (p.val % 2000) = p.val
    rw [e0]; show p.val / 2000 * 2000 + 1 * (p.val % 2000) = p.val; omega
  | ⟨1, _⟩ =>
    show win5_0.index (pt5 (ix2 p q)) (1 : Fin 2) * 256 + 1 * k.val = k.val
    rw [e1]; omega

/-- The weight block is the weight array. -/
theorem blk5_1 (c : Dev nD) (t : Fin cfg5.N) (k j : Fin 256) :
    iblk5 V c 1 t (ix2 k j) = V c (Pipeline.arrRef spec5 1) (ix2 k j) := by
  obtain ⟨-, -, e0, e1, -⟩ := idxIn5 t
  show V c (Pipeline.arrRef spec5 1) (((cfg5.win 1).blk t).view.emb (ix2 k j)) = _
  congr 1
  funext a; apply Fin.ext
  match a with
  | ⟨0, _⟩ => show win5_1.index t (0 : Fin 2) * 256 + 1 * k.val = k.val; rw [e0]; omega
  | ⟨1, _⟩ => show win5_1.index t (1 : Fin 2) * 256 + 1 * j.val = j.val; rw [e1]; omega

/-! Each of the five row blocks is its array. -/
theorem blk5_2 (c : Dev nD) (t : Fin cfg5.N) (j : Fin 256) :
    iblk5 V c 2 t (ix1 j) = V c (Pipeline.arrRef spec5 2) (ix1 j) := by
  obtain ⟨-, -, -, -, e, -, -, -, -⟩ := idxIn5 t
  show V c (Pipeline.arrRef spec5 2) (((cfg5.win 2).blk t).view.emb (ix1 j)) = _
  congr 1
  funext a; apply Fin.ext
  match a with
  | ⟨0, _⟩ => show win5_2.index t (0 : Fin 1) * 256 + 1 * j.val = j.val; rw [e]; omega
theorem blk5_3 (c : Dev nD) (t : Fin cfg5.N) (j : Fin 256) :
    iblk5 V c 3 t (ix1 j) = V c (Pipeline.arrRef spec5 3) (ix1 j) := by
  obtain ⟨-, -, -, -, -, e, -, -, -⟩ := idxIn5 t
  show V c (Pipeline.arrRef spec5 3) (((cfg5.win 3).blk t).view.emb (ix1 j)) = _
  congr 1
  funext a; apply Fin.ext
  match a with
  | ⟨0, _⟩ => show win5_3.index t (0 : Fin 1) * 256 + 1 * j.val = j.val; rw [e]; omega
theorem blk5_4 (c : Dev nD) (t : Fin cfg5.N) (j : Fin 256) :
    iblk5 V c 4 t (ix1 j) = V c (Pipeline.arrRef spec5 4) (ix1 j) := by
  obtain ⟨-, -, -, -, -, -, e, -, -⟩ := idxIn5 t
  show V c (Pipeline.arrRef spec5 4) (((cfg5.win 4).blk t).view.emb (ix1 j)) = _
  congr 1
  funext a; apply Fin.ext
  match a with
  | ⟨0, _⟩ => show win5_4.index t (0 : Fin 1) * 256 + 1 * j.val = j.val; rw [e]; omega
theorem blk5_5 (c : Dev nD) (t : Fin cfg5.N) (j : Fin 256) :
    iblk5 V c 5 t (ix1 j) = V c (Pipeline.arrRef spec5 5) (ix1 j) := by
  obtain ⟨-, -, -, -, -, -, -, e, -⟩ := idxIn5 t
  show V c (Pipeline.arrRef spec5 5) (((cfg5.win 5).blk t).view.emb (ix1 j)) = _
  congr 1
  funext a; apply Fin.ext
  match a with
  | ⟨0, _⟩ => show win5_5.index t (0 : Fin 1) * 256 + 1 * j.val = j.val; rw [e]; omega
theorem blk5_6 (c : Dev nD) (t : Fin cfg5.N) (j : Fin 256) :
    iblk5 V c 6 t (ix1 j) = V c (Pipeline.arrRef spec5 6) (ix1 j) := by
  obtain ⟨-, -, -, -, -, -, -, -, e⟩ := idxIn5 t
  show V c (Pipeline.arrRef spec5 6) (((cfg5.win 6).blk t).view.emb (ix1 j)) = _
  congr 1
  funext a; apply Fin.ext
  match a with
  | ⟨0, _⟩ => show win5_6.index t (0 : Fin 1) * 256 + 1 * j.val = j.val; rw [e]; omega

end AnyFormat

/-! ## The tile at an index, on extended reals -/

/-- A [256] row viewed [1,256] and repeated down 2000 rows reads, at (r, j), the row at j. -/
theorem rowBcast5_apply {α : Type} (x : S256.Idx → α) (r : Fin 2000) (j : Fin 256) :
    broadcastTo S2000x256 (shapeCast S1x256 (shapeCast S256 x shapeCasts_S256_S256) shapeCasts_S256_S1x256) broadcasts_S1x256_S2000x256 (ix2 r j) = x (ix1 j) := by
  rw [broadcastTo_apply _ broadcasts_S1x256_S2000x256 (ix2 r j) (ix2 (0 : Fin 1) j) (by intro a; match a with | ⟨0, _⟩ => rfl | ⟨1, _⟩ => rfl)]
  rw [shapeCast_self]
  rw [shapeCast_addUnit_apply]
  exact congrArg x (funext fun a => by match a with | ⟨0, _⟩ => rfl)

/-- The same row with a constant e added and the reciprocal square root taken before it is repeated:
    at (r, j) it is rsqrt(x j + e). -/
theorem rsqrtBcast5_apply (x : Vec Ideal S256 .f32) (e : Ideal .f32) (r : Fin 2000) (j : Fin 256) :
    broadcastTo S2000x256 (rsqrt (addf (shapeCast S1x256 (shapeCast S256 x shapeCasts_S256_S256) shapeCasts_S256_S1x256) (broadcast S1x256 e))) broadcasts_S1x256_S2000x256 (ix2 r j)
      = Ideal.rsqrt (x (ix1 j) + e) := by
  rw [broadcastTo_apply _ broadcasts_S1x256_S2000x256 (ix2 r j) (ix2 (0 : Fin 1) j) (by intro a; match a with | ⟨0, _⟩ => rfl | ⟨1, _⟩ => rfl)]
  show Ideal.rsqrt ((shapeCast S1x256 (shapeCast S256 x shapeCasts_S256_S256) shapeCasts_S256_S1x256) (ix2 (0 : Fin 1) j) + e) = _
  rw [shapeCast_self, shapeCast_addUnit_apply]
  exact congrArg (fun z => Ideal.rsqrt (x z + e)) (funext fun a => by match a with | ⟨0, _⟩ => rfl)

/-- The product's operand indices at output (r, j) and contraction coordinate k: (r, k) and (k, j). -/
theorem dotIdx5 (r : Fin 2000) (j k : Fin 256) :
    dot_S2000x256_S256x256_S2000x256_1_0_0_1_n_n.lhsIdx (ix2 r j) ((contrEquiv1 dot_S2000x256_S256x256_S2000x256_1_0_0_1_n_n 256 rfl rfl).symm k) = ix2 r k
    ∧ dot_S2000x256_S256x256_S2000x256_1_0_0_1_n_n.rhsIdx (ix2 r j) ((contrEquiv1 dot_S2000x256_S256x256_S2000x256_1_0_0_1_n_n 256 rfl rfl).symm k) = ix2 k j := by
  constructor
  · funext a; apply Fin.ext; match a with | ⟨0, _⟩ => rfl | ⟨1, _⟩ => rfl
  · funext a; apply Fin.ext; match a with | ⟨0, _⟩ => rfl | ⟨1, _⟩ => rfl

/-- The matrix product into a zero accumulator at (r, j): the sum over k of ft(r,k)·W(k,j). -/
theorem matmul5_apply (x0 : Vec Ideal S2000x256 .bf16) (x1 : Vec Ideal S256x256 .bf16) (r : Fin 2000) (j : Fin 256) :
    matmul (φ₁ := FTy.bf16) (φ₂ := FTy.bf16) dot_S2000x256_S256x256_S2000x256_1_0_0_1_n_n none (shapeCast S2000x256 x0 shapeCasts_S2000x256_S2000x256) (shapeCast S256x256 x1 shapeCasts_S256x256_S256x256)
        (constant (F := Ideal) S2000x256 .f32 0x00000000#32) (ix2 r j)
      = ∑ k : Fin 256, x0 (ix2 r k) * x1 (ix2 k j) := by
  rw [shapeCast_self, shapeCast_self]
  simp only [matmul]
  rw [Ideal.matmul_constant_zero_apply]
  rw [← Equiv.sum_comp (contrEquiv1 dot_S2000x256_S256x256_S2000x256_1_0_0_1_n_n 256 rfl rfl).symm]
  exact Finset.sum_congr rfl fun k _ => by rw [(dotIdx5 r j k).1, (dotIdx5 r j k).2]

/-- The stored tile at (r, j): the rectified affine image of row r, centred, scaled by the reciprocal square
    root of the variance plus ε and by γ, shifted by β. -/
theorem pay5_apply (x0 : Vec Ideal S2000x256 .bf16) (x1 : Vec Ideal S256x256 .bf16) (x2 x3 x4 x5 x6 : Vec Ideal S256 .f32)
    (r : Fin 2000) (j : Fin 256) :
    k5_pay1 (F := Ideal) x0 x1 x2 x3 x4 x5 x6 (ix2 r j)
      = ((max ((∑ k : Fin 256, x0 (ix2 r k) * x1 (ix2 k j)) + x2 (ix1 j)) 0 - x3 (ix1 j)) * Ideal.rsqrt (x4 (ix1 j) + Cert.Spec.eps)) * x5 (ix1 j) + x6 (ix1 j) := by
  unfold k5_pay1
  simp only [addf_apply, mulf_apply, subf_apply, maximumf_apply, broadcast_apply, rowBcast5_apply, rsqrtBcast5_apply, matmul5_apply]
  have hz : (FloatOps.ofBits (F := Ideal) FTy.f32 0x00000000#32) = (0 : EReal) := Ideal.ofBits_zero_f32
  rw [hz]
  rfl

/-! ## The band, element by element, on extended reals -/

-- the blocks' types depend on the grid point; unifying them with plain vectors is long but terminates
set_option maxHeartbeats 4000000 in
/-- After the run, the element (p, q) of the output array: inside the column band it is the normalised
    rectified affine image of feature row p at column q − 512, computed from the arrays as the region found them;
    outside the band it is what the array held. -/
theorem value5 (V : (c : Dev nD) → (b : Ref sig .tc) → Buf (Elt Ideal) ((c : Thread nD τ).loc b)) (c : Dev nD)
    (p : Fin 50000) (q : Fin 768) :
    (dat5 V c).arrAt 7 cfg5.N (ix2 p q) =
      if h : 512 ≤ q.val ∧ q.val < 768 then
        Cert.Spec.kerOut
          (Cert.Spec.lin (fun p k => V c (Pipeline.arrRef spec5 0) (ix2 p k)) (fun k j => V c (Pipeline.arrRef spec5 1) (ix2 k j)) (fun j => V c (Pipeline.arrRef spec5 2) (ix1 j)))
          (fun j => V c (Pipeline.arrRef spec5 3) (ix1 j)) (fun j => V c (Pipeline.arrRef spec5 4) (ix1 j)) (fun j => V c (Pipeline.arrRef spec5 5) (ix1 j)) (fun j => V c (Pipeline.arrRef spec5 6) (ix1 j))
          p ⟨q.val - 512, by omega⟩
      else V c (Pipeline.arrRef spec5 7) (ix2 p q) := by
  by_cases h : 512 ≤ q.val ∧ q.val < 768
  · rw [dif_pos h, final5_7_band V c (ix2 p q) h, out5_7_eq]
    have hr : p.val % 2000 < 2000 := Nat.mod_lt _ (by norm_num)
    have hj : q.val - 512 < 256 := by omega
    have hs : sub5 (ix2 p q) h = ix2 (⟨p.val % 2000, hr⟩ : Fin 2000) (⟨q.val - 512, hj⟩ : Fin 256) := by
      funext a; match a with | ⟨0, _⟩ => rfl | ⟨1, _⟩ => rfl
    rw [hs, pay5_apply]
    simp only [blk5_ft V c p q hr, blk5_1, blk5_2, blk5_3, blk5_4, blk5_5, blk5_6]
    rfl
  · rw [dif_neg h, final5_7_rest V c (ix2 p q) h]

end Cert.KernelIdeal.Hand
-- ==== Proof.LibERealBridge.lean ====
/-
  The float operations of the extended-real ("ideal") instance, at real arguments, are the real operations.

  An extended real is -∞, +∞ or a real. The instance's exp, tanh and quotient are defined by cases on that, and the sums,
  products and maxima are those of the extended reals; at reals every one of them is the real operation, carried into the
  extended reals by the inclusion. These are the lemmas that move a formula whose inputs are all real from the extended reals
  down to the reals, one operation at a time: the exponential, the hyperbolic tangent, a quotient with a nonzero denominator,
  a finite sum, a finite sum of products, a maximum (of two, and of a nonempty finite family folded from -∞), an absolute
  value written as a maximum with the negation, and the remark that an extended real that is neither infinity is a real.
-/
import Idealize.ShloMosaic.PureOps.Ideal

namespace LibERealBridge

open Idealize.ShloMosaic
open scoped BigOperators

/-- The instance's exponential at a real is the real exponential. -/
theorem exp_coe (r : ℝ) : Ideal.exp (r : EReal) = ((Real.exp r : ℝ) : EReal) := Ideal.exp_coe r

/-- The instance's hyperbolic tangent at a real is the real hyperbolic tangent. -/
theorem tanh_coe (r : ℝ) : Ideal.tanh (r : EReal) = ((Real.tanh r : ℝ) : EReal) := Ideal.tanh_coe r

/-- The instance's quotient of two reals, the second not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The inclusion of the reals carries a finite sum to the sum of the inclusions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- A finite sum of products of reals, taken in the extended reals, is the real sum of the real products. -/
theorem sum_mul_coe {ι : Type*} (t : Finset ι) (f g : ι → ℝ) :
    (∑ i ∈ t, ((f i : ℝ) : EReal) * ((g i : ℝ) : EReal)) = ((∑ i ∈ t, f i * g i : ℝ) : EReal) := by
  rw [coe_finset_sum]
  exact Finset.sum_congr rfl fun i _ => (EReal.coe_mul (f i) (g i)).symm

/-- A finite sum of products of reals, taken in the extended reals, is a real. -/
theorem sum_exists_real {ι : Type*} (t : Finset ι) (f g : ι → ℝ) :
    ∃ r : ℝ, (∑ i ∈ t, ((f i : ℝ) : EReal) * ((g i : ℝ) : EReal)) = (r : EReal) :=
  ⟨∑ i ∈ t, f i * g i, sum_mul_coe t f g⟩

/-- The maximum of two reals, taken in the extended reals, is the real maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum of a real and its negation, taken in the extended reals, is the real absolute value. -/
theorem abs_coe (x : ℝ) : max (x : EReal) (-(x : EReal)) = ((|x| : ℝ) : EReal) := by
  rw [← EReal.coe_neg, max_coe, abs_eq_max_neg]

/-- The maximum of a nonempty finite family of reals, folded in the extended reals from -∞, is the real maximum of the
    family. -/
theorem fold_max_coe {n : ℕ} (f : Fin (n + 1) → ℝ) :
    Finset.univ.fold max (⊥ : EReal) (fun i => (f i : EReal))
      = ((Finset.univ.sup' Finset.univ_nonempty f : ℝ) : EReal) := by
  apply le_antisymm
  · rw [Finset.fold_max_le]
    exact ⟨bot_le, fun i hi => EReal.coe_le_coe_iff.mpr (Finset.le_sup' f hi)⟩
  · obtain ⟨i, hi, h⟩ := Finset.exists_mem_eq_sup' Finset.univ_nonempty f
    rw [h, Finset.le_fold_max]
    exact Or.inr ⟨i, hi, le_rfl⟩

/-- An extended real that is neither infinity is a real. -/
theorem exists_real_of_ne (x : EReal) (h1 : x ≠ ⊤) (h2 : x ≠ ⊥) : ∃ r : ℝ, x = (r : EReal) :=
  ⟨x.toReal, (EReal.coe_toReal h1 h2).symm⟩

end LibERealBridge
-- ==== Proof.LibIsReal.lean ====
/-
  Extended reals that are real numbers, and the operations that keep them so.

  An extended real is -∞, +∞ or a real. A float computation whose inputs are all real and whose operations are sums,
  differences, products, maxima, finite sums, the logistic function, a quotient by a nonzero real, or the reciprocal
  square root of a positive real, has a real result: at reals each of these is the real operation. The predicate
  below names "is a real", and the lemmas are its closure under those operations; they are what lets a formula be
  moved from the extended reals, where distributivity and cancellation fail at the infinities, down to the reals.
-/
import proofs.«115305_j43688407335088_2_alg».proof.Proof.LibERealBridge

open scoped BigOperators

namespace Cert.Alg

open Idealize.ShloMosaic LibERealBridge

/-- The extended real x is (the inclusion of) a real number. -/
def IsReal (x : EReal) : Prop := ∃ r : ℝ, x = (r : EReal)

namespace IsReal

/-- The inclusion of a real is a real. -/
theorem coe (r : ℝ) : IsReal (r : EReal) := ⟨r, rfl⟩

/-- Zero is a real. -/
theorem zero : IsReal 0 := ⟨0, rfl⟩

/-- One is a real. -/
theorem one : IsReal 1 := ⟨1, rfl⟩

/-- Anything equal to a real is a real. -/
theorem of_eq {x : EReal} {r : ℝ} (h : x = (r : EReal)) : IsReal x := ⟨r, h⟩

/-- A real is not +∞. -/
theorem ne_top {x : EReal} (hx : IsReal x) : x ≠ ⊤ := by
  obtain ⟨a, rfl⟩ := hx; exact EReal.coe_ne_top a

/-- A real is not -∞. -/
theorem ne_bot {x : EReal} (hx : IsReal x) : x ≠ ⊥ := by
  obtain ⟨a, rfl⟩ := hx; exact EReal.coe_ne_bot a

/-- An extended real that is neither infinity is a real. -/
theorem of_ne {x : EReal} (h1 : x ≠ ⊤) (h2 : x ≠ ⊥) : IsReal x := exists_real_of_ne x h1 h2

/-- A real is the inclusion of its real part. -/
theorem coe_toReal {x : EReal} (hx : IsReal x) : ((x.toReal : ℝ) : EReal) = x :=
  EReal.coe_toReal hx.ne_top hx.ne_bot

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The negation of a real is a real. -/
theorem neg {x : EReal} (hx : IsReal x) : IsReal (-x) := by
  obtain ⟨a, rfl⟩ := hx; exact ⟨-a, (EReal.coe_neg a).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is a real. -/
theorem max {x y : EReal} (hx : IsReal x) (hy : IsReal y) : IsReal (max x y) := by
  obtain ⟨a, rfl⟩ := hx; obtain ⟨b, rfl⟩ := hy; exact ⟨_, max_coe a b⟩

/-- A finite sum of reals is a real. -/
theorem sum {ι : Type*} (t : Finset ι) (f : ι → EReal) (h : ∀ i ∈ t, IsReal (f i)) : IsReal (∑ i ∈ t, f i) := by
  classical
  induction t using Finset.induction_on with
  | empty => rw [Finset.sum_empty]; exact zero
  | insert a s ha ih =>
    rw [Finset.sum_insert ha]
    exact add (h a (Finset.mem_insert_self a s)) (ih fun i hi => h i (Finset.mem_insert_of_mem hi))

/-- A sum of reals over a finite type is a real. -/
theorem sum_univ {ι : Type*} [Fintype ι] (f : ι → EReal) (h : ∀ i, IsReal (f i)) : IsReal (∑ i, f i) :=
  sum Finset.univ f fun i _ => h i

/-- The logistic function 1 / (1 + e^(-x)) of a real is a real. -/
theorem logistic {x : EReal} (hx : IsReal x) : IsReal (Ideal.logistic x) := by
  obtain ⟨a, rfl⟩ := hx; exact ⟨_, Ideal.logistic_coe a⟩

/-- The exponential of a real is a real. -/
theorem exp {x : EReal} (hx : IsReal x) : IsReal (Ideal.exp x) := by
  obtain ⟨a, rfl⟩ := hx; exact ⟨_, Ideal.exp_coe a⟩

/-- The quotient of a real by a nonzero real is a real. -/
theorem div_coe {x : EReal} (hx : IsReal x) {c : ℝ} (hc : c ≠ 0) : IsReal (Ideal.div x (c : EReal)) := by
  obtain ⟨a, rfl⟩ := hx; exact ⟨a / c, div_coe_coe a c hc⟩

/-- The quotient of a real by a real that is not zero is a real. -/
theorem div {x y : EReal} (hx : IsReal x) (hy : IsReal y) (hy0 : y ≠ 0) : IsReal (Ideal.div x y) := by
  obtain ⟨b, rfl⟩ := hy
  exact div_coe hx (fun hb => hy0 (by rw [hb]; rfl))

/-- The reciprocal square root of a positive real is a real. -/
theorem rsqrt_pos {x : EReal} (hx : IsReal x) (h0 : 0 < x) : IsReal (Ideal.rsqrt x) := by
  obtain ⟨a, rfl⟩ := hx
  have ha : 0 < a := by exact_mod_cast h0
  refine ⟨(Real.sqrt a)⁻¹, ?_⟩
  rw [Ideal.rsqrt_coe, if_neg (not_lt.mpr ha.le), if_neg ha.ne']

/-- The sum of two reals, the first nonnegative and the second positive, is positive. -/
theorem add_pos_of_nonneg_of_pos {x y : EReal} (hx : 0 ≤ x) (hy : 0 < y) : 0 < x + y := by
  calc (0 : EReal) < y := hy
    _ = 0 + y := (zero_add y).symm
    _ ≤ x + y := add_le_add hx le_rfl

end IsReal

end Cert.Alg
-- ==== Proof.LibVariance.lean ====
/-
  The two ways of writing a variance agree on real data.

  For numbers u₁ … u_N with mean μ = (Σ uₙ)/N, the mean of the squared deviations (Σ (uₙ − μ)²)/N equals the mean of
  the squares minus the squared mean, (Σ uₙ²)/N − μ²: expanding the square gives Σ uₙ² − 2μ Σ uₙ + N μ², and
  Σ uₙ = N μ. In the extended reals the expansion needs every uₙ to be a real (∞ − ∞ has no meaning there), so the
  statement assumes that, moves each operation down to the reals, and proves the identity there.
-/
import proofs.«115305_j43688407335088_2_alg».proof.Proof.LibERealBridge
import Mathlib.Tactic.FieldSimp
import Mathlib.Tactic.Ring

open scoped BigOperators

namespace Cert.Alg

open Idealize.ShloMosaic LibERealBridge

/-- On the reals: with c the number of terms, the mean of the squared deviations from the mean is the mean of the
    squares minus the squared mean. -/
theorem real_variance {ι : Type*} [Fintype ι] (v : ι → ℝ) (c : ℝ) (hc : c = (Fintype.card ι : ℝ)) (hc0 : c ≠ 0) :
    (∑ n, (v n - (∑ i, v i) / c) * (v n - (∑ i, v i) / c)) / c
      = (∑ n, v n * v n) / c - ((∑ i, v i) / c) * ((∑ i, v i) / c) := by
  have h1 : ∀ m : ℝ, ∑ n, (v n - m) * (v n - m) = (∑ n, v n * v n) - 2 * m * (∑ n, v n) + c * (m * m) := by
    intro m
    have h : ∀ n, (v n - m) * (v n - m) = v n * v n - 2 * m * v n + m * m := fun n => by ring
    rw [Finset.sum_congr rfl fun n _ => h n, Finset.sum_add_distrib, Finset.sum_sub_distrib, ← Finset.mul_sum,
      Finset.sum_const, Finset.card_univ, nsmul_eq_mul, hc]
  rw [h1]
  field_simp
  ring

/-- On the extended reals, for a family of reals uₙ indexed by a finite type with c elements (c ≠ 0), and with the
    quotient of the float instance: the mean of (uₙ − μ)², μ the mean, is the mean of uₙ² minus μ². -/
theorem variance_identity {ι : Type*} [Fintype ι] (u : ι → EReal) (hu : ∀ n, ∃ r : ℝ, u n = (r : EReal))
    (c : ℝ) (hc : c = (Fintype.card ι : ℝ)) (hc0 : c ≠ 0) :
    Ideal.div (∑ n, (u n - Ideal.div (∑ i, u i) (c : EReal)) * (u n - Ideal.div (∑ i, u i) (c : EReal))) (c : EReal)
      = Ideal.div (∑ n, u n * u n) (c : EReal)
          - Ideal.div (∑ i, u i) (c : EReal) * Ideal.div (∑ i, u i) (c : EReal) := by
  choose v hv using hu
  obtain rfl : u = fun n => (v n : EReal) := funext hv
  have hS : (∑ i, ((v i : ℝ) : EReal)) = ((∑ i, v i : ℝ) : EReal) := (coe_finset_sum _ _).symm
  have hQ : (∑ n, ((v n : ℝ) : EReal) * ((v n : ℝ) : EReal)) = ((∑ n, v n * v n : ℝ) : EReal) := sum_mul_coe _ _ _
  have hD : ∀ m : ℝ, (∑ n, (((v n : ℝ) : EReal) - (m : EReal)) * (((v n : ℝ) : EReal) - (m : EReal)))
      = ((∑ n, (v n - m) * (v n - m) : ℝ) : EReal) := by
    intro m
    rw [coe_finset_sum]
    exact Finset.sum_congr rfl fun n _ => by rw [← EReal.coe_sub, ← EReal.coe_mul]
  rw [hS, hQ, div_coe_coe _ _ hc0, hD, div_coe_coe _ _ hc0, div_coe_coe _ _ hc0, ← EReal.coe_mul, ← EReal.coe_sub,
    real_variance v c hc hc0]

end Cert.Alg
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.LibGraphConvNorm.lean ====
/-
  One graph-convolution layer followed by batch normalisation, in the two arrangements the two programs use, and
  the proof that the arrangements agree on real data.

  THE CONVOLUTION. With `xl = h · W`, `dinv n = deg(n)^(-1/2)`, and edges `e` from `src e` to the node whose number is
  the target word `tgt e`, the symmetric-normalised aggregate at node `n`, column `q`, is

      Σ_{e : tgt e = n} xl(src e, q) · (dinv(src e) · dinv(dst e))  +  (dinv n · dinv n) · xl(n, q)  +  b q.

  The other arrangement scales each row once, `xls = xl · dinv`, sums the scaled rows over the incoming edges, adds the
  node's own scaled row and multiplies by `dinv n` at the end:

      dinv n · ( Σ_{e : tgt e = n} xls(src e, q)  +  xls(n, q) )  +  b q.

  They agree because an edge counted at `n` has `dst e = n`, so the factor `dinv(dst e)` is the constant `dinv n` over
  the sum, and a constant factor moves across a finite sum — a law of the reals that fails at the infinities, which
  is why every factor is required to be a real.

  THE MOMENTS. One arrangement takes the mean and the mean of squared deviations over all `T · R` rows; the other sums
  the entries and their squares block by block (`T` blocks of `R` consecutive rows), adds the block sums, and takes
  `E[u²] − E[u]²`. A sum over `T · R` indices is the sum of its block sums, and on real data the two variances are
  the same number.
-/
import proofs.«115305_j43688407335088_2_alg».proof.Proof.LibIsReal
import proofs.«115305_j43688407335088_2_alg».proof.Proof.LibVariance
import proofs.«115305_j43688407335088_2_alg».proof.Proof.LibSumBlocks
import Idealize.ShloMosaic.PureOps.Ideal

open scoped BigOperators

noncomputable section

namespace Cert.Gnn

open Idealize.ShloMosaic Cert.Alg LibERealBridge

/-! ## The convolution -/

section Conv

variable {N E H : ℕ}

/-- The aggregate with each edge weighted by both end points' factors. -/
def convEdgeWeighted (dinv : Fin N → EReal) (src dst : Fin E → Fin N) (tgt : Fin E → ℤ)
    (xl : Fin N → Fin H → EReal) (b : Fin H → EReal) (n : Fin N) (q : Fin H) : EReal :=
  ((0 + ∑ e : Fin E, if tgt e = (n.val : ℤ) then xl (src e) q * (dinv (src e) * dinv (dst e)) else 0)
      + (dinv n * dinv n) * xl n q) + b q

/-- The aggregate of rows scaled once per node, rescaled at the target. -/
def convRowScaled (dinv : Fin N → EReal) (src : Fin E → Fin N) (tgt : Fin E → ℤ)
    (xl : Fin N → Fin H → EReal) (b : Fin H → EReal) (n : Fin N) (q : Fin H) : EReal :=
  dinv n * ((0 + ∑ e : Fin E, if tgt e = (n.val : ℤ) then xl (src e) q * dinv (src e) else 0) + xl n q * dinv n) + b q

/-- On real factors the two aggregates are equal, entry by entry. The bias is any extended real: it is added last on
    both sides. -/
theorem conv_agree (dinv : Fin N → EReal) (src dst : Fin E → Fin N) (tgt : Fin E → ℤ)
    (xl : Fin N → Fin H → EReal) (b : Fin H → EReal)
    (hd : ∀ n, IsReal (dinv n)) (hx : ∀ n q, IsReal (xl n q))
    (hdst : ∀ e (n : Fin N), tgt e = (n.val : ℤ) → dst e = n) (n : Fin N) (q : Fin H) :
    convRowScaled dinv src tgt xl b n q = convEdgeWeighted dinv src dst tgt xl b n q := by
  choose d hd using hd
  choose x hx using hx
  unfold convRowScaled convEdgeWeighted
  refine congrArg (· + b q) ?_
  have hL : ∀ e : Fin E, (if tgt e = (n.val : ℤ) then xl (src e) q * dinv (src e) else 0)
      = (((if tgt e = (n.val : ℤ) then x (src e) q * d (src e) else 0 : ℝ)) : EReal) := by
    intro e
    split_ifs
    · rw [hx, hd, EReal.coe_mul]
    · rfl
  have hR : ∀ e : Fin E, (if tgt e = (n.val : ℤ) then xl (src e) q * (dinv (src e) * dinv (dst e)) else 0)
      = (((if tgt e = (n.val : ℤ) then x (src e) q * d (src e) else 0 : ℝ) * d n : ℝ) : EReal) := by
    intro e
    split_ifs with h
    · rw [hdst e n h, hx, hd, hd, EReal.coe_mul, EReal.coe_mul, mul_assoc]
    · rw [zero_mul]; rfl
  simp only [hL, hR, ← coe_finset_sum, hx n q, hd n, zero_add]
  rw [← EReal.coe_mul, ← EReal.coe_add, ← EReal.coe_mul, ← EReal.coe_mul, ← EReal.coe_mul, ← EReal.coe_add]
  refine congrArg _ ?_
  rw [← Finset.sum_mul]
  ring

/-- The aggregate of real data, with a real bias, is real. -/
theorem convEdgeWeighted_isReal (dinv : Fin N → EReal) (src dst : Fin E → Fin N) (tgt : Fin E → ℤ)
    (xl : Fin N → Fin H → EReal) (b : Fin H → EReal)
    (hd : ∀ n, IsReal (dinv n)) (hx : ∀ n q, IsReal (xl n q)) (hb : ∀ q, IsReal (b q)) (n : Fin N) (q : Fin H) :
    IsReal (convEdgeWeighted dinv src dst tgt xl b n q) := by
  unfold convEdgeWeighted
  refine IsReal.add (IsReal.add (IsReal.add IsReal.zero (IsReal.sum_univ _ fun e => ?_)) ?_) (hb q)
  · split_ifs
    · exact IsReal.mul (hx _ _) (IsReal.mul (hd _) (hd _))
    · exact IsReal.zero
  · exact IsReal.mul (IsReal.mul (hd n) (hd n)) (hx n q)

end Conv

/-! ## The moments -/

section Moments

variable {T R : ℕ}

/-- Row `r` of block `t`. -/
def blockRow (t : Fin T) (r : Fin R) : Fin (T * R) := ⟨t.val * R + r.val, Cert.LibSumBlocks.block_index_lt t r⟩

/-- The mean over all rows. -/
def meanAll (c : EReal) (u : Fin (T * R) → EReal) : EReal := Ideal.div (∑ n, u n) c

/-- The mean of the squared deviations from the mean, over all rows. -/
def varAll (c : EReal) (u : Fin (T * R) → EReal) : EReal :=
  Ideal.div (∑ n, (u n - meanAll c u) * (u n - meanAll c u)) c

/-- The mean from block sums. -/
def meanBlocks (c : EReal) (u : Fin (T * R) → EReal) : EReal := Ideal.div (∑ t : Fin T, ∑ r : Fin R, u (blockRow t r)) c

/-- The mean of squares from block sums, less the squared mean. -/
def varBlocks (c : EReal) (u : Fin (T * R) → EReal) : EReal :=
  Ideal.div (∑ t : Fin T, ∑ r : Fin R, u (blockRow t r) * u (blockRow t r)) c - meanBlocks c u * meanBlocks c u

theorem meanBlocks_eq (c : EReal) (u : Fin (T * R) → EReal) : meanBlocks c u = meanAll c u := by
  unfold meanBlocks meanAll
  rw [Cert.LibSumBlocks.sum_blocks T R u]
  rfl

/-- On real data, with the divisor the number of rows, the two variances are equal. -/
theorem varBlocks_eq (c : ℝ) (u : Fin (T * R) → EReal) (hu : ∀ n, IsReal (u n))
    (hc : c = ((T * R : ℕ) : ℝ)) (hc0 : c ≠ 0) : varBlocks (c : EReal) u = varAll (c : EReal) u := by
  unfold varBlocks varAll
  rw [meanBlocks_eq]
  unfold meanAll
  rw [variance_identity u hu c (by rw [hc, Fintype.card_fin]) hc0, Cert.LibSumBlocks.sum_blocks T R fun n => u n * u n]
  rfl

/-- The mean of real data is real. -/
theorem meanAll_isReal (c : ℝ) (hc0 : c ≠ 0) (u : Fin (T * R) → EReal) (hu : ∀ n, IsReal (u n)) :
    IsReal (meanAll (c : EReal) u) :=
  IsReal.div_coe (IsReal.sum_univ _ hu) hc0

/-- The variance of real data over a positive count is a real that is not negative. -/
theorem varAll_nonneg (c : ℝ) (hc : 0 < c) (u : Fin (T * R) → EReal) (hu : ∀ n, IsReal (u n)) :
    IsReal (varAll (c : EReal) u) ∧ 0 ≤ varAll (c : EReal) u := by
  obtain ⟨μ, hμ⟩ := meanAll_isReal c hc.ne' u hu
  choose v hv using hu
  unfold varAll
  rw [hμ]
  have hs : (∑ n, (u n - (μ : EReal)) * (u n - (μ : EReal))) = ((∑ n, (v n - μ) * (v n - μ) : ℝ) : EReal) := by
    rw [coe_finset_sum]
    refine Finset.sum_congr rfl fun n _ => ?_
    rw [hv n, ← EReal.coe_sub, ← EReal.coe_mul]
  rw [hs, div_coe_coe _ _ hc.ne']
  refine ⟨⟨_, rfl⟩, ?_⟩
  exact_mod_cast div_nonneg (Finset.sum_nonneg fun n _ => mul_self_nonneg _) hc.le

end Moments

/-! ## Normalisation and rectifier -/

/-- One entry normalised by the column's moments, scaled, shifted and rectified. -/
def normRect (x mean var eps g beta : EReal) : EReal :=
  max (((x - mean) * Ideal.rsqrt (var + eps)) * g + beta) 0

/-- A real entry normalised by real moments, the variance not negative and the epsilon positive, is real. -/
theorem normRect_isReal {x mean var eps g beta : EReal} (hx : IsReal x) (hm : IsReal mean) (hv : IsReal var)
    (hv0 : 0 ≤ var) (he : IsReal eps) (he0 : 0 < eps) (hg : IsReal g) (hb : IsReal beta) :
    IsReal (normRect x mean var eps g beta) :=
  IsReal.max (IsReal.add (IsReal.mul (IsReal.mul (IsReal.sub hx hm)
    (IsReal.rsqrt_pos (IsReal.add hv he) (IsReal.add_pos_of_nonneg_of_pos hv0 he0))) hg) hb) IsReal.zero

end Cert.Gnn

end
-- ==== Proof.LibIdealReal.lean ====
/-
  The ideal float instance on finite values, read as real arithmetic.

  At the ideal instance a float is an extended real and every operation is the exact one.  On values that are
  coercions of reals the operations stay inside the reals: sums, products, differences, maxima, quotients by a
  nonzero real, exponentials and square roots of nonnegative reals all are the coercion of the real operation.
  This file states those facts in the spellings programs use (the scalar field of the instance, the vector
  operation read at an index, the host's variant of the operation), gives the extended reals that four binary32
  words denote, the behaviour of the operations at the bottom element (the value a running maximum starts
  from), and reads a maximum taken by folding `max` from the bottom element over finitely many coerced reals
  as the coercion of the real maximum.

  General: nothing here mentions a program.  It imports only the library's ideal instance (PureOps/Ideal.lean), the laws
  of that instance (PureOps/Ideal/Laws.lean: reductions over one axis as folds and sums) and indices by coordinates
  (Lib/ValueIdx.lean).

  Contents (namespace Cert.IdealReal):
    coe_sum, coe_sum_univ          coercion commutes with finite sums
    coe_mul', coe_add', coe_sub', coe_max'   the arithmetic on coerced reals, oriented towards the reals
    div_coe_coe                    Ideal.div ↑a ↑b = ↑(a / b) for b ≠ 0
    exp_coe', exp_bot', sqrt_coe_nonneg       exponential and square root on coerced reals
    bot_sub_coe, max_bot_left, max_bot_right, coe_sub_bot …    the bottom element
    *_apply                        vector operations read at an index
    ofBits_eps, ofBits_sixteenth, ofBits_neg_inf, ofBits_zero  four binary32 words
    fold_max_bot_coe               the fold of max from ⊥ over coerced reals is the coerced real maximum
    exp_bot_sub_coe, sum_coe_mul_coe, sqrt_sum_mul_self       small compositions of the above
    sup'_univ_split, sum_univ_split, exp_sub_mul_sum_exp, exp_sub_mul_sum_exp_mul
                                   a maximum or sum over a range cut in two; rescaled sums of exponentials
    multiReduction_maximumf_coe, multiReduction_add_coe, hostReduce_maximumf_coe, hostReduceAdd_coe
                                   a maximum / sum reduction over one axis whose source elements are coerced reals
-/
import Idealize.ShloMosaic.PureOps.Ideal
import Idealize.ShloMosaic.PureOps.Ideal.Laws
import Idealize.ShloMosaic.Lib.ValueIdx

noncomputable section

namespace Cert.IdealReal

open Idealize.ShloMosaic

/-! ## Sums -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ i, f i : ℝ) : EReal) = ∑ i, ((f i : ℝ) : EReal) := coe_sum Finset.univ f

/-! ## Arithmetic on coerced reals, oriented towards the reals -/

theorem coe_mul' (a b : ℝ) : ((a : ℝ) : EReal) * ((b : ℝ) : EReal) = ((a * b : ℝ) : EReal) := (EReal.coe_mul a b).symm
theorem coe_add' (a b : ℝ) : ((a : ℝ) : EReal) + ((b : ℝ) : EReal) = ((a + b : ℝ) : EReal) := (EReal.coe_add a b).symm
theorem coe_sub' (a b : ℝ) : ((a : ℝ) : EReal) - ((b : ℝ) : EReal) = ((a - b : ℝ) : EReal) := (EReal.coe_sub a b).symm
theorem coe_max' (a b : ℝ) : max ((a : ℝ) : EReal) ((b : ℝ) : EReal) = ((max a b : ℝ) : EReal) :=
  (EReal.coe_strictMono.monotone.map_max (a := a) (b := b)).symm

/-- The ideal instance's division of a real by a nonzero real is the real quotient. -/
theorem div_coe_coe (a : ℝ) {b : ℝ} (hb : b ≠ 0) : Ideal.div ((a : ℝ) : EReal) ((b : ℝ) : EReal) = ((a / b : ℝ) : EReal) := by
  rw [Ideal.div_coe hb, ← EReal.coe_mul, mul_one_div]

/-- The exponential of a real. -/
theorem exp_coe' (a : ℝ) : Ideal.exp ((a : ℝ) : EReal) = ((Real.exp a : ℝ) : EReal) := rfl
/-- The exponential of the bottom element is zero. -/
theorem exp_bot' : Ideal.exp ⊥ = 0 := rfl
/-- The square root of a nonnegative real. -/
theorem sqrt_coe_nonneg {a : ℝ} (ha : 0 ≤ a) : Ideal.sqrt ((a : ℝ) : EReal) = ((Real.sqrt a : ℝ) : EReal) := by
  rw [Ideal.sqrt_coe, if_neg (not_lt.mpr ha)]

/-! ## The bottom element -/

theorem bot_sub_coe (a : ℝ) : (⊥ : EReal) - ((a : ℝ) : EReal) = ⊥ := EReal.bot_sub _
theorem max_bot_left (x : EReal) : max ⊥ x = x := max_eq_right bot_le
theorem max_bot_right (x : EReal) : max x ⊥ = x := max_eq_left bot_le

/-! ## Vector operations read at an index (the ones Lib/ValueIdx.lean does not list) -/

section Apply
variable {s : Shape} {φ : FTy}

theorem exp_apply (x : FVec Ideal s φ) (i : s.Idx) : exp x i = Ideal.exp (x i) := rfl
theorem sqrt_apply (x : FVec Ideal s φ) (i : s.Idx) : sqrt x i = Ideal.sqrt (x i) := rfl
theorem hostExp_apply (x : FVec Ideal s φ) (i : s.Idx) : Host.exp x i = Ideal.exp (x i) := rfl
theorem hostSqrt_apply (x : FVec Ideal s φ) (i : s.Idx) : Host.sqrt x i = Ideal.sqrt (x i) := rfl
theorem hostDivf_apply (x y : FVec Ideal s φ) (i : s.Idx) : Host.divf x y i = Ideal.div (x i) (y i) := rfl
theorem hostAbsf_apply (x : FVec Ideal s φ) (i : s.Idx) : Host.absf x i = max (x i) (-(x i)) := rfl
theorem broadcast_ofBits_apply (b : BitVec φ.bits) (i : s.Idx) :
    broadcast s (Scalar.ofBits (F := Ideal) φ b) i = Ideal.ofBits φ b := rfl
theorem scalar_ofBits (b : BitVec φ.bits) : Scalar.ofBits (F := Ideal) φ b = Ideal.ofBits φ b := rfl

end Apply

/-! ## Four binary32 words -/

/-- The word 0x2B8CBCCC: exponent field 87, fraction 834764, so (2²³ + 834764) · 2^(87 − 127 − 23) = 9223372 · 2⁻⁶³. -/
theorem ofBits_eps : Ideal.ofBits .f32 0x2B8CBCCC#32 = (((9223372 : ℝ) / 2 ^ 63 : ℝ) : EReal) := by
  simp [Ideal.ofBits, Ideal.ieee, -EReal.coe_mul]; norm_num

/-- The word 0x3D800000: exponent field 123, fraction 0, so 2²³ · 2^(123 − 127 − 23) = 2⁻⁴. -/
theorem ofBits_sixteenth : Ideal.ofBits .f32 0x3D800000#32 = (((1 : ℝ) / 16 : ℝ) : EReal) := by
  simp [Ideal.ofBits, Ideal.ieee, -EReal.coe_mul]; norm_num

/-- The word 0xFF800000 is the negative infinity: the bottom element. -/
theorem ofBits_neg_inf : Ideal.ofBits .f32 0xFF800000#32 = ⊥ := by
  simp [Ideal.ofBits, Ideal.ieee]

/-- The word 0x7F800000 is the positive infinity: the top element. -/
theorem ofBits_pos_inf : Ideal.ofBits .f32 0x7F800000#32 = ⊤ := by
  simp [Ideal.ofBits, Ideal.ieee]

/-- The zero word is zero. -/
theorem ofBits_zero : Ideal.ofBits .f32 0x00000000#32 = 0 := Ideal.ofBits_zero_f32

/-! ## Maxima and sums over one axis, on coerced reals -/

/-- Folding `max` from the bottom element over finitely many coerced reals gives the coercion of their real maximum. -/
theorem fold_max_bot_coe {ι : Type} (s : Finset ι) (hs : s.Nonempty) (f : ι → ℝ) :
    s.fold max (⊥ : EReal) (fun j => ((f j : ℝ) : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

/-- A binary32 maximum reduction over one axis, started from the negative infinity, read at a result index at which
    every source element along the axis is a coerced real: the coercion of the real maximum over the axis. -/
theorem multiReduction_maximumf_coe {s t : Shape} {a : Fin s.rank} (src : FVec Ideal s .f32)
    (h : s.Reduces [a] t) (hφ : FKind.Formats .f32) (hacc : (0xFF800000#32 : BitVec 32) = FKind.maximumf.neutral .f32 hφ) (j : t.Idx)
    (H : (Finset.univ : Finset (Fin (s.size a))).Nonempty) (f : Fin (s.size a) → ℝ)
    (hf : ∀ k, src (h.lift j k) = ((f k : ℝ) : EReal)) :
    multiReduction .maximumf [a] t src 0xFF800000#32 h hφ hacc j = ((Finset.univ.sup' H f : ℝ) : EReal) := by
  rw [Ideal.multiReduction_maximumf_single]
  have e : (src ∘ h.lift j) = fun k => ((f k : ℝ) : EReal) := funext hf
  rw [e, Ideal.ofBits_def, ofBits_neg_inf]
  exact fold_max_bot_coe _ H f

/-- A binary32 sum reduction over one axis, read at a result index at which every source element along the axis is a
    coerced real: the coercion of the real sum over the axis. -/
theorem multiReduction_add_coe {s t : Shape} {a : Fin s.rank} (src : FVec Ideal s .f32)
    (h : s.Reduces [a] t) (hφ : FKind.Formats .f32) (hacc : (0x00000000#32 : BitVec 32) = FKind.add.neutral .f32 hφ) (j : t.Idx)
    (f : Fin (s.size a) → ℝ) (hf : ∀ k, src (h.lift j k) = ((f k : ℝ) : EReal)) :
    multiReduction .add [a] t src 0x00000000#32 h hφ hacc j = ((∑ k, f k : ℝ) : EReal) := by
  rw [Ideal.multiReduction_add_single, coe_sum_univ]
  exact Finset.sum_congr rfl fun k _ => hf k

/-- The host's maximum reduction over one axis from an initial value that is the bottom element, likewise. -/
theorem hostReduce_maximumf_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = ⊥)
    (H : (Finset.univ : Finset (Fin (s.size a))).Nonempty) (f : Fin (s.size a) → ℝ)
    (hf : ∀ k, x (h.lift j k) = ((f k : ℝ) : EReal)) :
    Host.reduce (FloatOps.maximumf (F := Ideal) (φ := .f32)) x init h' hu j = ((Finset.univ.sup' H f : ℝ) : EReal) := by
  rw [Host.reduce_eq_fold_single _ x init h' h hu j]
  have e : (x ∘ h.lift j) = fun k => ((f k : ℝ) : EReal) := funext hf
  rw [e, hinit]
  exact fold_max_bot_coe _ H f

/-- The host's sum reduction over one axis from an initial value that is zero, likewise. -/
theorem hostReduceAdd_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = 0)
    (f : Fin (s.size a) → ℝ) (hf : ∀ k, x (h.lift j k) = ((f k : ℝ) : EReal)) :
    Host.reduceAdd x init h' hu j = ((∑ k, f k : ℝ) : EReal) := by
  unfold Host.reduceAdd
  rw [Ideal.hostReduceAdd_def, Ideal.hostReduceAdd_single h' h, hinit, zero_add, coe_sum_univ]
  exact Finset.sum_congr rfl fun k _ => hf k

/-- The exponential of the bottom element minus a real is zero (the rescaling factor of a running sum whose running
    maximum is still the bottom element). -/
theorem exp_bot_sub_coe (a : ℝ) : Ideal.exp ((⊥ : EReal) - ((a : ℝ) : EReal)) = 0 := by
  rw [bot_sub_coe]; rfl

/-- A sum of products of coerced reals is the coercion of the real sum of products (a contraction read on reals). -/
theorem sum_coe_mul_coe {ι : Type} [Fintype ι] (f g : ι → ℝ) :
    ∑ k, ((f k : ℝ) : EReal) * ((g k : ℝ) : EReal) = ((∑ k, f k * g k : ℝ) : EReal) := by
  rw [coe_sum_univ]; exact Finset.sum_congr rfl fun k _ => coe_mul' _ _

/-- The square root of a coerced sum of squares. -/
theorem sqrt_sum_mul_self {ι : Type} [Fintype ι] (f : ι → ℝ) :
    Ideal.sqrt ((∑ d, f d * f d : ℝ) : EReal) = ((Real.sqrt (∑ d, f d * f d) : ℝ) : EReal) :=
  sqrt_coe_nonneg (Finset.sum_nonneg fun d _ => mul_self_nonneg _)

/-! ## An index range cut in two, and rescaled sums of exponentials (real arithmetic) -/

/-- The maximum over an index range cut in two is the larger of the two parts' maxima. -/
theorem sup'_univ_split {m n N : ℕ} (hN : m + n = N) (f : Fin N → ℝ)
    (H : (Finset.univ : Finset (Fin N)).Nonempty) (H1 : (Finset.univ : Finset (Fin m)).Nonempty)
    (H2 : (Finset.univ : Finset (Fin n)).Nonempty) :
    Finset.univ.sup' H f
      = max (Finset.univ.sup' H1 fun i : Fin m => f ⟨i.val, by omega⟩)
            (Finset.univ.sup' H2 fun i : Fin n => f ⟨m + i.val, by omega⟩) := by
  subst hN
  apply le_antisymm
  · apply Finset.sup'_le
    intro i _
    refine Fin.addCases (motive := fun i => f i ≤ _) (fun i => ?_) (fun i => ?_) i
    · exact le_max_of_le_left (Finset.le_sup' (fun i : Fin m => f ⟨i.val, by omega⟩) (Finset.mem_univ i))
    · exact le_max_of_le_right (Finset.le_sup' (fun i : Fin n => f ⟨m + i.val, by omega⟩) (Finset.mem_univ i))
  · apply max_le
    · apply Finset.sup'_le
      intro i _
      exact Finset.le_sup' f (Finset.mem_univ _)
    · apply Finset.sup'_le
      intro i _
      exact Finset.le_sup' f (Finset.mem_univ _)

/-- A sum over an index range cut in two is the sum of the two parts' sums. -/
theorem sum_univ_split {M : Type} [AddCommMonoid M] {m n N : ℕ} (hN : m + n = N) (f : Fin N → M) :
    ∑ k, f k = (∑ i : Fin m, f ⟨i.val, by omega⟩) + ∑ i : Fin n, f ⟨m + i.val, by omega⟩ := by
  subst hN
  rw [Fin.sum_univ_add]
  rfl

/-- Moving a sum of exponentials from the reference point a to the reference point b multiplies it by exp (a − b). -/
theorem exp_sub_mul_sum_exp {ι : Type} (s : Finset ι) (g : ι → ℝ) (a b : ℝ) :
    Real.exp (a - b) * ∑ j ∈ s, Real.exp (g j - a) = ∑ j ∈ s, Real.exp (g j - b) := by
  rw [Finset.mul_sum]
  refine Finset.sum_congr rfl fun j _ => ?_
  rw [← Real.exp_add]
  congr 1; ring

/-- The same for a sum of exponentials weighted by further factors. -/
theorem exp_sub_mul_sum_exp_mul {ι : Type} (s : Finset ι) (g v : ι → ℝ) (a b : ℝ) :
    Real.exp (a - b) * ∑ j ∈ s, Real.exp (g j - a) * v j = ∑ j ∈ s, Real.exp (g j - b) * v j := by
  rw [Finset.mul_sum]
  refine Finset.sum_congr rfl fun j _ => ?_
  rw [← mul_assoc, ← Real.exp_add]
  congr 2; ring

end Cert.IdealReal

end
-- ==== Proof.LibBnBridge.lean ====
/-
  Batch normalisation of a column, in the two arrangements two programs use, and the proof that they agree on real data.

  A column u₁ … u_N of N = T · R numbers (T blocks of R consecutive rows) is normalised with a scale g and a shift b.

  ONE ARRANGEMENT accumulates, block by block, the sum S of the entries and the sum Q of their squares, and sets

      mean = S / N,    var = max (Q / N − mean · mean, 0),    out_p = ((u_p − mean) · rsqrt (var + ε)) · g + b.

  THE OTHER sums over all rows at once, from zero, takes the mean of the squared deviations with a divisor N − d
  guarded by the test N − d > 0 (d, the "degrees of freedom" correction, is zero here), and divides by a square root:

      mean' = (0 + Σ u_n) / N,    var' = (0 + Σ (u_n − mean')²) / (N − d)   if N − d > 0,
      out'_p = ((u_p − mean') / sqrt (var' + ε)) · g + b.

  On real data they are the same numbers: a sum over T · R rows is the sum of its block sums; the mean of the squares
  minus the squared mean IS the mean of the squared deviations, which is not negative, so the maximum with zero changes
  nothing; the test N > 0 holds; and for y > 0, x · rsqrt y = x / sqrt y. Each of these steps uses a law of the reals
  that fails at the infinities (∞ − ∞, 0 · ∞), which is why every entry u_n is required to be a real. The scale and
  the shift are arbitrary extended reals: they are applied last, to equal numbers.

  The file also states the accumulation itself: adding the blocks one after the other, from zero, gives the sum of
  all blocks — as a statement about the partial sums (what a loop invariant needs) and as a left fold.
-/
import proofs.«115305_j43688407335088_2_alg».proof.Proof.LibGraphConvNorm
import proofs.«115305_j43688407335088_2_alg».proof.Proof.LibIdealReal
import Idealize.ShloMosaic.Lib.ValueIdx

noncomputable section

open scoped BigOperators

namespace Cert.BnBridge

open Idealize.ShloMosaic Idealize.ShloMosaic.ValueIdx Cert.Alg Cert.Gnn

/-! ## Accumulating blocks one after the other -/

section Accumulate
variable {M : Type*} [AddCommMonoid M] {T : ℕ}

/-- The sum of the blocks numbered below n. -/
def prefixSum (blk : Fin T → M) (n : ℕ) : M := ∑ t ∈ Finset.univ.filter (fun t : Fin T => t.val < n), blk t

/-- Before any block the partial sum is zero. -/
theorem prefixSum_zero (blk : Fin T → M) : prefixSum blk 0 = 0 := by
  unfold prefixSum
  rw [Finset.filter_false_of_mem (fun t _ => Nat.not_lt_zero _), Finset.sum_empty]

/-- Adding block t to the sum of the blocks below t gives the sum of the blocks below t + 1. -/
theorem prefixSum_succ (blk : Fin T → M) (t : Fin T) : prefixSum blk (t.val + 1) = prefixSum blk t.val + blk t := by
  unfold prefixSum
  have hset : Finset.univ.filter (fun t' : Fin T => t'.val < t.val + 1)
      = insert t (Finset.univ.filter (fun t' : Fin T => t'.val < t.val)) := by
    ext t'
    simp only [Finset.mem_filter, Finset.mem_univ, true_and, Finset.mem_insert, Fin.ext_iff]
    omega
  rw [hset, Finset.sum_insert (by simp), add_comm]

/-- After the last block the partial sum is the sum of all blocks. -/
theorem prefixSum_all (blk : Fin T → M) : prefixSum blk T = ∑ t, blk t := by
  unfold prefixSum
  rw [Finset.filter_true_of_mem (fun t _ => t.isLt)]

/-- Folding "accumulator + block" over the T blocks from a is a plus the sum of all blocks. -/
theorem foldl_add_eq_sum : ∀ (T : ℕ) (blk : Fin T → M) (a : M),
    Fin.foldl T (fun acc t => acc + blk t) a = a + ∑ t, blk t
  | 0, _, a => by simp
  | T + 1, blk, a => by
    rw [Fin.foldl_succ_last, foldl_add_eq_sum T, Fin.sum_univ_castSucc, add_assoc]

/-- Folding "accumulator + block" over the T blocks from zero is the sum of all blocks. -/
theorem foldl_add_zero_eq_sum (blk : Fin T → M) : Fin.foldl T (fun acc t => acc + blk t) 0 = ∑ t, blk t := by
  rw [foldl_add_eq_sum, zero_add]

end Accumulate

/-! ## The two arrangements -/

section Norm
variable {T R : ℕ}

/-- The sum of the entries of block t. -/
def blockSum (u : Fin (T * R) → EReal) (t : Fin T) : EReal := ∑ r : Fin R, u (blockRow t r)

/-- The sum of the squared entries of block t. -/
def blockSumSq (u : Fin (T * R) → EReal) (t : Fin T) : EReal := ∑ r : Fin R, u (blockRow t r) * u (blockRow t r)

/-- The variance of the block arrangement: mean of squares less squared mean, clipped below at zero. -/
def kernelVar (c : EReal) (u : Fin (T * R) → EReal) : EReal := max (varBlocks c u) 0

/-- The normalised entry of the block arrangement. -/
def kernelOut (c eps g b : EReal) (u : Fin (T * R) → EReal) (p : Fin (T * R)) : EReal :=
  ((u p - meanBlocks c u) * Ideal.rsqrt (kernelVar c u + eps)) * g + b

/-- The mean of the all-rows arrangement: the sum, taken from zero, over the count. -/
def refMean (c : EReal) (u : Fin (T * R) → EReal) : EReal := Ideal.div (0 + ∑ n, u n) c

/-- The variance of the all-rows arrangement: the sum of squared deviations, taken from zero, over the count less the
    correction d, chosen by the test "count less correction is positive" against the value nan. -/
def refVar (c d nan : EReal) (u : Fin (T * R) → EReal) : EReal :=
  Scalar.select (Ideal.cmp .ogt (c - d) 0)
    (Ideal.div (0 + ∑ n, (u n - refMean c u) * (u n - refMean c u)) (c - d)) nan

/-- The normalised entry of the all-rows arrangement. -/
def refOut (c d nan eps g b : EReal) (u : Fin (T * R) → EReal) (p : Fin (T * R)) : EReal :=
  Ideal.div (u p - refMean c u) (Ideal.sqrt (refVar c d nan u + eps)) * g + b

/-- The block arrangement's mean and variance are what the accumulation computes: the quotient by the count of the
    block sums added up, and of the block sums of squares added up. -/
theorem meanBlocks_eq_blockSum (c : EReal) (u : Fin (T * R) → EReal) :
    meanBlocks c u = Ideal.div (∑ t, blockSum u t) c := rfl

theorem varBlocks_eq_blockSumSq (c : EReal) (u : Fin (T * R) → EReal) :
    varBlocks c u = Ideal.div (∑ t, blockSumSq u t) c
      - Ideal.div (∑ t, blockSum u t) c * Ideal.div (∑ t, blockSum u t) c := rfl

/-- For a positive real y, x · rsqrt y is x / sqrt y: here with x a difference of reals and y a sum of a real that is
    not negative and a positive real. -/
theorem sub_mul_rsqrt_eq_div_sqrt (x μ ν e : ℝ) (hν : 0 ≤ ν) (he : 0 < e) :
    ((x : EReal) - (μ : EReal)) * Ideal.rsqrt ((ν : EReal) + (e : EReal))
      = Ideal.div ((x : EReal) - (μ : EReal)) (Ideal.sqrt ((ν : EReal) + (e : EReal))) := by
  have hpos : 0 < ν + e := by linarith
  rw [← EReal.coe_add, ← EReal.coe_sub, Ideal.rsqrt_coe, if_neg (not_lt.mpr hpos.le), if_neg hpos.ne',
    Cert.IdealReal.sqrt_coe_nonneg hpos.le, LibERealBridge.div_coe_coe _ _ (Real.sqrt_pos.mpr hpos).ne',
    ← EReal.coe_mul, div_eq_mul_inv]

/-- The all-rows mean is the mean over all rows. -/
theorem refMean_eq (c : EReal) (u : Fin (T * R) → EReal) : refMean c u = meanAll c u := by
  unfold refMean meanAll
  rw [zero_add]

/-- With a positive count and a zero correction the guard holds, and the all-rows variance is the mean of the squared
    deviations over all rows. -/
theorem refVar_eq (cr : ℝ) (hc0 : 0 < cr) (d nan : EReal) (hd : d = 0) (u : Fin (T * R) → EReal) :
    refVar (cr : EReal) d nan u = varAll (cr : EReal) u := by
  subst hd
  unfold refVar
  rw [sub_zero, refMean_eq, zero_add]
  have hcmp : Ideal.cmp .ogt (cr : EReal) 0 = 1#1 := by
    show BitVec.ofBool (decide ((0 : EReal) < (cr : EReal))) = 1#1
    rw [decide_eq_true (by exact_mod_cast hc0)]
    rfl
  rw [hcmp, select_one]
  rfl

/-- On real data, with the divisor the number of rows, the clipped block variance is the mean of the squared
    deviations over all rows: that mean is not negative, so the clip changes nothing. -/
theorem kernelVar_eq (cr : ℝ) (hc : cr = ((T * R : ℕ) : ℝ)) (hc0 : 0 < cr) (u : Fin (T * R) → EReal)
    (hu : ∀ n, IsReal (u n)) : kernelVar (cr : EReal) u = varAll (cr : EReal) u := by
  unfold kernelVar
  rw [varBlocks_eq cr u hu hc hc0.ne', max_eq_left (varAll_nonneg cr hc0 u hu).2]

/-- THE IDENTITY. On a real column of T · R rows, with the count N = T · R > 0 as divisor, a zero correction and a
    positive real ε, the two arrangements give the same normalised entry at every row, whatever the scale, the shift
    and the value the guard would have chosen. -/
theorem kernelOut_eq_refOut (cr : ℝ) (hc : cr = ((T * R : ℕ) : ℝ)) (hc0 : 0 < cr) (u : Fin (T * R) → EReal)
    (hu : ∀ n, IsReal (u n)) (e : ℝ) (he : 0 < e) (d nan : EReal) (hd : d = 0) (g b : EReal) (p : Fin (T * R)) :
    kernelOut (cr : EReal) (e : EReal) g b u p = refOut (cr : EReal) d nan (e : EReal) g b u p := by
  unfold kernelOut refOut
  rw [kernelVar_eq cr hc hc0 u hu, refVar_eq cr hc0 d nan hd u, meanBlocks_eq, refMean_eq]
  obtain ⟨⟨ν, hν⟩, hv0⟩ := varAll_nonneg cr hc0 u hu
  obtain ⟨μ, hμ⟩ := meanAll_isReal cr hc0.ne' u hu
  obtain ⟨x, hx⟩ := hu p
  have hν0 : 0 ≤ ν := by rw [hν] at hv0; exact_mod_cast hv0
  rw [hν, hμ, hx, sub_mul_rsqrt_eq_div_sqrt x μ ν e hν0 he]

/-- The same with every definition spelt out: the left side accumulates block sums, the right side sums all rows. -/
theorem bn_identity (cr : ℝ) (hc : cr = ((T * R : ℕ) : ℝ)) (hc0 : 0 < cr) (u : Fin (T * R) → EReal)
    (hu : ∀ n, IsReal (u n)) (e : ℝ) (he : 0 < e) (d nan : EReal) (hd : d = 0) (g b : EReal) (p : Fin (T * R)) :
    ((u p - Ideal.div (∑ t : Fin T, ∑ r : Fin R, u (blockRow t r)) (cr : EReal))
        * Ideal.rsqrt (max (Ideal.div (∑ t : Fin T, ∑ r : Fin R, u (blockRow t r) * u (blockRow t r)) (cr : EReal)
              - Ideal.div (∑ t : Fin T, ∑ r : Fin R, u (blockRow t r)) (cr : EReal)
                * Ideal.div (∑ t : Fin T, ∑ r : Fin R, u (blockRow t r)) (cr : EReal)) 0 + (e : EReal))) * g + b
      = Ideal.div (u p - Ideal.div (0 + ∑ n, u n) (cr : EReal))
          (Ideal.sqrt (Scalar.select (Ideal.cmp .ogt ((cr : EReal) - d) 0)
              (Ideal.div (0 + ∑ n, (u n - Ideal.div (0 + ∑ i, u i) (cr : EReal))
                  * (u n - Ideal.div (0 + ∑ i, u i) (cr : EReal))) ((cr : EReal) - d)) nan + (e : EReal))) * g + b :=
  kernelOut_eq_refOut cr hc hc0 u hu e he d nan hd g b p

/-- Both sides are real when the scale and the shift are. -/
theorem refOut_isReal (cr : ℝ) (hc0 : 0 < cr) (u : Fin (T * R) → EReal) (hu : ∀ n, IsReal (u n)) (e : ℝ) (he : 0 < e)
    (d nan : EReal) (hd : d = 0) {g b : EReal} (hg : IsReal g) (hb : IsReal b) (p : Fin (T * R)) :
    IsReal (refOut (cr : EReal) d nan (e : EReal) g b u p) := by
  unfold refOut
  rw [refVar_eq cr hc0 d nan hd u, refMean_eq]
  obtain ⟨⟨ν, hν⟩, hv0⟩ := varAll_nonneg cr hc0 u hu
  obtain ⟨μ, hμ⟩ := meanAll_isReal cr hc0.ne' u hu
  obtain ⟨x, hx⟩ := hu p
  have hν0 : 0 ≤ ν := by rw [hν] at hv0; exact_mod_cast hv0
  have hpos : 0 < ν + e := by linarith
  rw [hν, hμ, hx, ← EReal.coe_add, ← EReal.coe_sub, Cert.IdealReal.sqrt_coe_nonneg hpos.le,
    LibERealBridge.div_coe_coe _ _ (Real.sqrt_pos.mpr hpos).ne']
  exact IsReal.add (IsReal.mul (IsReal.coe _) hg) hb

end Norm

/-! ## The real closed form both arrangements reduce to

  When the column is given as inclusions of reals x₁ … x_N (which is how a sum reduction over real entries comes out),
  the mean, the variance and the normalised entry of either arrangement are inclusions of the real numbers

      m = (Σ x_n) / N,    v = (Σ (x_n − m)²) / N,    ((x_p − m) / √(v + ε)) · γ + β.

  The lemmas below say so piece by piece (the mean and the clipped variance as the block arrangement computes them from
  real block sums; the normalisation step in its two spellings), and for the two whole formulas. -/

section RealForm
variable {T R : ℕ}

/-- The real mean of the column. -/
def realMean (cr : ℝ) (x : Fin (T * R) → ℝ) : ℝ := (∑ n, x n) / cr

/-- The real mean of the squared deviations from the mean. -/
def realVar (cr : ℝ) (x : Fin (T * R) → ℝ) : ℝ := (∑ n, (x n - realMean cr x) * (x n - realMean cr x)) / cr

/-- The real normalised entry. -/
def realOut (cr e γ β : ℝ) (x : Fin (T * R) → ℝ) (p : Fin (T * R)) : ℝ :=
  (x p - realMean cr x) / Real.sqrt (realVar cr x + e) * γ + β

/-- Over a positive count the real variance is not negative. -/
theorem realVar_nonneg (cr : ℝ) (hc0 : 0 < cr) (x : Fin (T * R) → ℝ) : 0 ≤ realVar cr x :=
  div_nonneg (Finset.sum_nonneg fun _ _ => mul_self_nonneg _) hc0.le

/-- A real sum over all rows, block by block. -/
theorem real_sum_blocks (f : Fin (T * R) → ℝ) : ∑ t : Fin T, ∑ r : Fin R, f (blockRow t r) = ∑ n, f n :=
  (Cert.LibSumBlocks.sum_blocks T R f).symm

/-- With the divisor the number of rows, the real variance is the mean of the squares less the squared mean. -/
theorem realVar_eq_moments (cr : ℝ) (hc : cr = ((T * R : ℕ) : ℝ)) (hc0 : cr ≠ 0) (x : Fin (T * R) → ℝ) :
    realVar cr x = (∑ n, x n * x n) / cr - realMean cr x * realMean cr x :=
  real_variance x cr (by rw [hc, Fintype.card_fin]) hc0

/-- The mean over all rows of a column of inclusions is the inclusion of the real mean. -/
theorem meanAll_coe (cr : ℝ) (hc0 : cr ≠ 0) (x : Fin (T * R) → ℝ) :
    meanAll (cr : EReal) (fun n => ((x n : ℝ) : EReal)) = ((realMean cr x : ℝ) : EReal) := by
  unfold meanAll realMean
  rw [← LibERealBridge.coe_finset_sum, LibERealBridge.div_coe_coe _ _ hc0]

/-- The variance over all rows of a column of inclusions is the inclusion of the real variance. -/
theorem varAll_coe (cr : ℝ) (hc0 : cr ≠ 0) (x : Fin (T * R) → ℝ) :
    varAll (cr : EReal) (fun n => ((x n : ℝ) : EReal)) = ((realVar cr x : ℝ) : EReal) := by
  unfold varAll
  rw [meanAll_coe cr hc0 x]
  unfold realVar
  have hs : (∑ n, (((x n : ℝ) : EReal) - ((realMean cr x : ℝ) : EReal)) * (((x n : ℝ) : EReal) - ((realMean cr x : ℝ) : EReal)))
      = ((∑ n, (x n - realMean cr x) * (x n - realMean cr x) : ℝ) : EReal) := by
    rw [LibERealBridge.coe_finset_sum]
    exact Finset.sum_congr rfl fun n _ => by rw [← EReal.coe_sub, ← EReal.coe_mul]
  rw [hs, LibERealBridge.div_coe_coe _ _ hc0]

/-- The block arrangement's mean, from the real sum of the real block sums. -/
theorem kernelMean_coe (cr : ℝ) (hc0 : cr ≠ 0) (x : Fin (T * R) → ℝ) :
    Ideal.div ((∑ t : Fin T, ∑ r : Fin R, x (blockRow t r) : ℝ) : EReal) (cr : EReal) = ((realMean cr x : ℝ) : EReal) := by
  rw [real_sum_blocks, LibERealBridge.div_coe_coe _ _ hc0]
  rfl

/-- The block arrangement's clipped variance, from the real sum of the real block sums of squares and the mean. -/
theorem kernelVar_coe (cr : ℝ) (hc : cr = ((T * R : ℕ) : ℝ)) (hc0 : 0 < cr) (x : Fin (T * R) → ℝ) :
    max (Ideal.div ((∑ t : Fin T, ∑ r : Fin R, x (blockRow t r) * x (blockRow t r) : ℝ) : EReal) (cr : EReal)
          - ((realMean cr x : ℝ) : EReal) * ((realMean cr x : ℝ) : EReal)) 0
      = ((realVar cr x : ℝ) : EReal) := by
  have hsq := real_sum_blocks (T := T) (R := R) (fun n => x n * x n)
  beta_reduce at hsq
  rw [hsq, LibERealBridge.div_coe_coe _ _ hc0.ne', ← EReal.coe_mul, ← EReal.coe_sub,
    ← realVar_eq_moments cr hc hc0.ne' x, ← EReal.coe_zero, LibERealBridge.max_coe,
    max_eq_left (realVar_nonneg cr hc0 x)]

/-- The normalisation step with a reciprocal square root, on reals. -/
theorem normalise_rsqrt_coe (x μ ν e γ β : ℝ) (hν : 0 ≤ ν) (he : 0 < e) :
    (((x : EReal) - (μ : EReal)) * Ideal.rsqrt ((ν : EReal) + (e : EReal))) * (γ : EReal) + (β : EReal)
      = (((x - μ) / Real.sqrt (ν + e) * γ + β : ℝ) : EReal) := by
  have hpos : 0 < ν + e := by linarith
  rw [← EReal.coe_add, ← EReal.coe_sub, Ideal.rsqrt_coe, if_neg (not_lt.mpr hpos.le), if_neg hpos.ne',
    ← EReal.coe_mul, ← EReal.coe_mul, ← EReal.coe_add, div_eq_mul_inv]

/-- The normalisation step with a quotient by a square root, on reals. -/
theorem normalise_div_sqrt_coe (x μ ν e γ β : ℝ) (hν : 0 ≤ ν) (he : 0 < e) :
    Ideal.div ((x : EReal) - (μ : EReal)) (Ideal.sqrt ((ν : EReal) + (e : EReal))) * (γ : EReal) + (β : EReal)
      = (((x - μ) / Real.sqrt (ν + e) * γ + β : ℝ) : EReal) := by
  have hpos : 0 < ν + e := by linarith
  rw [← EReal.coe_add, ← EReal.coe_sub, Cert.IdealReal.sqrt_coe_nonneg hpos.le,
    LibERealBridge.div_coe_coe _ _ (Real.sqrt_pos.mpr hpos).ne', ← EReal.coe_mul, ← EReal.coe_add]

/-- The all-rows arrangement on a column of inclusions, with real scale and shift: the inclusion of the real formula. -/
theorem refOut_coe (cr : ℝ) (hc0 : 0 < cr) (x : Fin (T * R) → ℝ) (e : ℝ) (he : 0 < e) (d nan : EReal) (hd : d = 0)
    (γ β : ℝ) (p : Fin (T * R)) :
    refOut (cr : EReal) d nan (e : EReal) (γ : EReal) (β : EReal) (fun n => ((x n : ℝ) : EReal)) p
      = ((realOut cr e γ β x p : ℝ) : EReal) := by
  unfold refOut
  rw [refVar_eq cr hc0 d nan hd, refMean_eq, meanAll_coe cr hc0.ne' x, varAll_coe cr hc0.ne' x]
  exact normalise_div_sqrt_coe _ _ _ _ _ _ (realVar_nonneg cr hc0 x) he

/-- The block arrangement on a column of inclusions, with real scale and shift: the inclusion of the same formula. -/
theorem kernelOut_coe (cr : ℝ) (hc : cr = ((T * R : ℕ) : ℝ)) (hc0 : 0 < cr) (x : Fin (T * R) → ℝ) (e : ℝ) (he : 0 < e)
    (γ β : ℝ) (p : Fin (T * R)) :
    kernelOut (cr : EReal) (e : EReal) (γ : EReal) (β : EReal) (fun n => ((x n : ℝ) : EReal)) p
      = ((realOut cr e γ β x p : ℝ) : EReal) := by
  rw [kernelOut_eq_refOut cr hc hc0 _ (fun n => ⟨x n, rfl⟩) e he 0 0 rfl, refOut_coe cr hc0 x e he 0 0 rfl]

/-- The block arrangement spelt out from REAL block sums (the mean and the variance as a statistics pass leaves them,
    then the normalisation pass): the inclusion of the real formula. -/
theorem kernel_formula_coe (cr : ℝ) (hc : cr = ((T * R : ℕ) : ℝ)) (hc0 : 0 < cr) (x : Fin (T * R) → ℝ) (e : ℝ)
    (he : 0 < e) (γ β : ℝ) (p : Fin (T * R)) :
    ((((x p : ℝ) : EReal) - Ideal.div ((∑ t : Fin T, ∑ r : Fin R, x (blockRow t r) : ℝ) : EReal) (cr : EReal))
        * Ideal.rsqrt (max (Ideal.div ((∑ t : Fin T, ∑ r : Fin R, x (blockRow t r) * x (blockRow t r) : ℝ) : EReal) (cr : EReal)
              - Ideal.div ((∑ t : Fin T, ∑ r : Fin R, x (blockRow t r) : ℝ) : EReal) (cr : EReal)
                * Ideal.div ((∑ t : Fin T, ∑ r : Fin R, x (blockRow t r) : ℝ) : EReal) (cr : EReal)) 0 + (e : EReal)))
        * (γ : EReal) + (β : EReal)
      = ((realOut cr e γ β x p : ℝ) : EReal) := by
  rw [kernelMean_coe cr hc0.ne' x, kernelVar_coe cr hc hc0 x]
  exact normalise_rsqrt_coe _ _ _ _ _ _ (realVar_nonneg cr hc0 x) he

end RealForm

/-! ## The column of a rectified linear layer -/

section Linear
variable {N K C : ℕ}

/-- Entry (p, q) of max (ft · W + b, 0), the product taken from zero, on real data. -/
def reluLinear (ft : Fin N → Fin K → ℝ) (W : Fin K → Fin C → ℝ) (b : Fin C → ℝ) (p : Fin N) (q : Fin C) : EReal :=
  max ((0 + ∑ k, ((ft p k : ℝ) : EReal) * ((W k q : ℝ) : EReal)) + ((b q : ℝ) : EReal)) 0

/-- It is the inclusion of the real number max (Σ_k ft(p,k) · W(k,q) + b(q), 0). -/
theorem reluLinear_eq (ft : Fin N → Fin K → ℝ) (W : Fin K → Fin C → ℝ) (b : Fin C → ℝ) (p : Fin N) (q : Fin C) :
    reluLinear ft W b p q = ((max (∑ k, ft p k * W k q + b q) 0 : ℝ) : EReal) := by
  unfold reluLinear
  rw [zero_add, LibERealBridge.sum_mul_coe, ← EReal.coe_add, ← EReal.coe_zero, LibERealBridge.max_coe]

/-- So it is a real. -/
theorem reluLinear_isReal (ft : Fin N → Fin K → ℝ) (W : Fin K → Fin C → ℝ) (b : Fin C → ℝ) (p : Fin N) (q : Fin C) :
    IsReal (reluLinear ft W b p q) := ⟨_, reluLinear_eq ft W b p q⟩

/-- The identity for the columns of a rectified linear layer over T · R rows: for real features, weights and bias,
    the block arrangement and the all-rows arrangement normalise column q to the same entries. -/
theorem bn_identity_reluLinear {T R : ℕ} (cr : ℝ) (hc : cr = ((T * R : ℕ) : ℝ)) (hc0 : 0 < cr)
    (ft : Fin (T * R) → Fin K → ℝ) (W : Fin K → Fin C → ℝ) (bias : Fin C → ℝ) (e : ℝ) (he : 0 < e)
    (d nan : EReal) (hd : d = 0) (g b : EReal) (p : Fin (T * R)) (q : Fin C) :
    kernelOut (cr : EReal) (e : EReal) g b (fun n => reluLinear ft W bias n q) p
      = refOut (cr : EReal) d nan (e : EReal) g b (fun n => reluLinear ft W bias n q) p :=
  kernelOut_eq_refOut cr hc hc0 _ (fun n => reluLinear_isReal ft W bias n q) e he d nan hd g b p

end Linear

/-! ## The constants of this normalisation -/

/-- The binary32 word 0x3727C5AC (the rounding of 10⁻⁵): exponent field 110, fraction 2606508, so
    (2²³ + 2606508) · 2^(110 − 127 − 23) = 10995116 · 2⁻⁴⁰, a positive real. -/
theorem ofBits_eps : Ideal.ofBits .f32 0x3727C5AC#32 = (((10995116 : ℝ) / 2 ^ 40 : ℝ) : EReal) := by
  simp [Ideal.ofBits, Ideal.ieee, -EReal.coe_mul]; norm_num

theorem eps_pos : (0 : ℝ) < (10995116 : ℝ) / 2 ^ 40 := by norm_num

/-- The binary32 word 0x47435000 is 50000: exponent field 142, fraction 4411392, so
    (2²³ + 4411392) · 2^(142 − 127 − 23) = 12800000 · 2⁻⁸. -/
theorem ofBits_50000 : Ideal.ofBits .f32 0x47435000#32 = ((50000 : ℝ) : EReal) := by
  simp [Ideal.ofBits, Ideal.ieee, -EReal.coe_mul]; norm_num

/-- 50000 rows are 25 blocks of 2000. -/
theorem count_50000 : (50000 : ℝ) = ((25 * 2000 : ℕ) : ℝ) := by norm_num

end Cert.BnBridge

end
-- ==== Proof.SpecBridge.lean ====
/-
  The two arrangements of one normalised block agree on real data.

  The running column sums after all 25 tiles are the sum over the tiles of the tiles' column sums. With that, the tiled
  arrangement's mean is the column mean over all 50000 rows (a sum over 25 · 2000 rows is the sum of its 25 block sums),
  its clipped variance is the mean square of the centred entries (the mean square less the squared mean is that number
  on real data, and it is not negative, so the clip changes nothing), and the product with the reciprocal square root
  of a positive real is the quotient by its square root. Every step needs the entries to be real numbers; the rectified
  affine image of real features, weights and bias is real, being built from sums, products and a maximum of reals.
-/
import proofs.«115305_j43688407335088_2_alg».proof.Proof.Spec
import proofs.«115305_j43688407335088_2_alg».proof.Proof.LibBnBridge

noncomputable section

open scoped BigOperators

namespace Cert.Spec

open Idealize.ShloMosaic Cert.Alg Cert.Gnn

/-- The running sums after n ≤ 25 tiles are the sum of the first n tiles' column sums. -/
theorem accS_eq_prefixSum (h : Fin 50000 → Fin 256 → EReal) (j : Fin 256) :
    ∀ n, n ≤ 25 → accS h n j = Cert.BnBridge.prefixSum (fun t : Fin 25 => tileSum h t j) n
  | 0, _ => by rw [Cert.BnBridge.prefixSum_zero]; rfl
  | n + 1, hn => by
    have hn' : n < 25 := hn
    have hstep : accS h (n + 1) j = accS h n j + tileSum h ⟨n, hn'⟩ j := by
      show accS h n j + (if hn : n < 25 then tileSum h ⟨n, hn⟩ j else 0) = _
      rw [dif_pos hn']
    rw [hstep, accS_eq_prefixSum h j n (le_of_lt hn')]
    exact (Cert.BnBridge.prefixSum_succ (fun t : Fin 25 => tileSum h t j) ⟨n, hn'⟩).symm

/-- After all 25 tiles the running column sums are the sum over the tiles of the tiles' column sums. -/
theorem accS_all (h : Fin 50000 → Fin 256 → EReal) (j : Fin 256) : accS h 25 j = ∑ t : Fin 25, tileSum h t j := by
  rw [accS_eq_prefixSum h j 25 le_rfl, Cert.BnBridge.prefixSum_all]

/-- The rectified affine image of real features, weights and bias is real. -/
theorem lin_real (ft : Fin 50000 → Fin 256 → EReal) (W : Fin 256 → Fin 256 → EReal) (b : Fin 256 → EReal)
    (hft : Real2 ft) (hW : Real2 W) (hb : Real1 b) : Real2 (lin ft W b) := fun p j =>
  IsReal.max (IsReal.add (IsReal.sum_univ _ fun k => IsReal.mul (hft p k) (hW k j)) (hb j)) IsReal.zero

/-- Row r of tile t, as a row of 25 blocks of 2000. -/
theorem blockRow_eq_rowOf (t : Fin 25) (r : Fin 2000) : (blockRow t r : Fin (25 * 2000)) = rowOf t r :=
  Fin.ext (by show t.val * 2000 + r.val = 2000 * t.val + r.val; omega)

/-- A sum over the tiles' rows, in either numbering of the rows. -/
theorem sum_rowOf_eq (g : Fin 50000 → EReal) :
    (∑ t : Fin 25, ∑ r : Fin 2000, g (rowOf t r)) = ∑ t : Fin 25, ∑ r : Fin 2000, g (blockRow t r) :=
  Finset.sum_congr rfl fun t _ => Finset.sum_congr rfl fun r _ => by rw [blockRow_eq_rowOf]

/-- On a real array the tiled arrangement and the whole-column arrangement normalise every entry alike, whatever the
    scale and the shift. -/
theorem kerOut_eq_refOut (h : Fin 50000 → Fin 256 → EReal) (hreal : Real2 h) (γ β : Fin 256 → EReal)
    (p : Fin 50000) (j : Fin 256) :
    kerOut h (kerMean h) (kerVar h) γ β p j = refOut h (refMean h) (refVar h) γ β p j := by
  let u : Fin (25 * 2000) → EReal := fun n => h n j
  have hu : ∀ n, IsReal (u n) := fun n => hreal n j
  have hcnt : cnt = ((50000 : ℝ) : EReal) := Cert.BnBridge.ofBits_50000
  have heps : eps = (((10995116 : ℝ) / 2 ^ 40 : ℝ) : EReal) := Cert.BnBridge.ofBits_eps
  have hc : (50000 : ℝ) = ((25 * 2000 : ℕ) : ℝ) := Cert.BnBridge.count_50000
  have hc0 : (0 : ℝ) < 50000 := by norm_num
  have hkm : kerMean h j = meanAll cnt u := by
    rw [← meanBlocks_eq]
    show Ideal.div (accS h 25 j) cnt = Ideal.div (∑ t : Fin 25, ∑ r : Fin 2000, u (blockRow t r)) cnt
    rw [accS_all]
    exact congrArg (fun s => Ideal.div s cnt) (sum_rowOf_eq (fun n => h n j))
  have hkv : kerVar h j = Cert.BnBridge.kernelVar cnt u := by
    show max (Ideal.div (accS (fun p j => h p j * h p j) 25 j) cnt - kerMean h j * kerMean h j) 0
      = max (Ideal.div (∑ t : Fin 25, ∑ r : Fin 2000, u (blockRow t r) * u (blockRow t r)) cnt
          - meanBlocks cnt u * meanBlocks cnt u) 0
    rw [accS_all, hkm, meanBlocks_eq]
    exact congrArg (fun s => max (Ideal.div s cnt - meanAll cnt u * meanAll cnt u) 0)
      (sum_rowOf_eq (fun n => h n j * h n j))
  have hrm : refMean h j = meanAll cnt u := rfl
  have hrv : refVar h j = varAll cnt u := rfl
  show ((h p j - kerMean h j) * Ideal.rsqrt (kerVar h j + eps)) * γ j + β j
    = Ideal.div (h p j - refMean h j) (Ideal.sqrt (refVar h j + eps)) * γ j + β j
  rw [hkm, hkv, hrm, hrv, hcnt, Cert.BnBridge.kernelVar_eq 50000 hc hc0 u hu, heps]
  obtain ⟨⟨ν, hν⟩, hv0⟩ := varAll_nonneg 50000 hc0 u hu
  obtain ⟨μ, hμ⟩ := meanAll_isReal 50000 hc0.ne' u hu
  obtain ⟨x, hx⟩ := hu p
  have hν0 : 0 ≤ ν := by rw [hν] at hv0; exact_mod_cast hv0
  have hx' : h p j = (x : EReal) := hx
  rw [hν, hμ, hx', Cert.BnBridge.sub_mul_rsqrt_eq_div_sqrt x μ ν _ hν0 Cert.BnBridge.eps_pos]

/-- One block: on real features, weights and bias the tiled arrangement equals the whole-column arrangement, whatever
    the scale and the shift. -/
theorem kerBn_eq_refBn (ft : Fin 50000 → Fin 256 → EReal) (W : Fin 256 → Fin 256 → EReal) (b γ β : Fin 256 → EReal)
    (hft : Real2 ft) (hW : Real2 W) (hb : Real1 b) : kerBn ft W b γ β = refBn ft W b γ β := by
  funext p j
  exact kerOut_eq_refOut (lin ft W b) (lin_real ft W b hft hW hb) γ β p j

end Cert.Spec

end
-- ==== Proof.LibRealVec.lean ====
/-
  Arrays of extended reals all of whose entries are real numbers, and the array operations that keep them so.

  An extended real is -∞, +∞ or a real. The laws that rearrange a formula (distributivity, cancellation) fail at the
  infinities, so a formula is moved down to the reals first, and for that every intermediate array has to consist of
  reals. This file names "every entry is a real" for a family of extended reals and proves that it is preserved by the
  array operations of a message-passing chain, each stated for arbitrary shapes and arbitrary dimension numbers:
  entrywise sum, difference, product and maximum; a broadcast (of one real, or of a real array along some axes); a
  gather (every result entry IS an operand entry); an accumulating scatter (every result entry is an operand entry plus
  a finite sum of update entries); a contraction (an accumulator entry plus a finite sum of products); a sum
  reduction; and the entrywise quotient by an array of reals none of which is zero, in particular by reals that are
  at least one. It ends with the way in: an entry whose absolute value is below +∞ is a real.
-/
import Idealize.ShloMosaic.PureOps.Ideal
import Idealize.ShloMosaic.PureOps.Ideal.Laws
import Idealize.ShloMosaic.Lib.ValueIdx
import proofs.«115305_j43688407335088_2_alg».proof.Proof.LibIsReal
import proofs.«115305_j43688407335088_2_alg».proof.Proof.LibIdealReal

noncomputable section

open scoped BigOperators

namespace Cert.RealVec

open Idealize.ShloMosaic Idealize.ShloMosaic.ValueIdx Cert.Alg

/-- Every entry of the family is (the inclusion of) a real number. -/
def IsRealV {ι : Type*} (v : ι → EReal) : Prop := ∀ i, ∃ r : ℝ, v i = (r : EReal)

/-- The same, said entry by entry with the scalar predicate. -/
theorem isRealV_iff {ι : Type*} (v : ι → EReal) : IsRealV v ↔ ∀ i, IsReal (v i) := Iff.rfl

/-- A family of inclusions of reals is real. -/
theorem isRealV_coe {ι : Type*} (f : ι → ℝ) : IsRealV (fun i => ((f i : ℝ) : EReal)) := fun i => ⟨f i, rfl⟩

/-- A real family is the family of inclusions of its real parts. -/
theorem IsRealV.exists_real {ι : Type*} {v : ι → EReal} (h : IsRealV v) : ∃ f : ι → ℝ, v = fun i => ((f i : ℝ) : EReal) := by
  choose f hf using h
  exact ⟨f, funext hf⟩

/-- Reading a real family along any map of indices gives a real family. -/
theorem IsRealV.comp {ι κ : Type*} {v : ι → EReal} (h : IsRealV v) (g : κ → ι) : IsRealV (fun j => v (g j)) :=
  fun j => h (g j)

/-! ## Entrywise arithmetic -/

section Entrywise
variable {s : Shape} {φ : FTy}

/-- The entrywise sum of two real arrays is real. -/
theorem IsRealV.addf {a b : FVec Ideal s φ} (ha : IsRealV a) (hb : IsRealV b) : IsRealV (addf a b) :=
  fun i => IsReal.add (ha i) (hb i)

/-- The entrywise difference of two real arrays is real. -/
theorem IsRealV.subf {a b : FVec Ideal s φ} (ha : IsRealV a) (hb : IsRealV b) : IsRealV (subf a b) :=
  fun i => IsReal.sub (ha i) (hb i)

/-- The entrywise product of two real arrays is real. -/
theorem IsRealV.mulf {a b : FVec Ideal s φ} (ha : IsRealV a) (hb : IsRealV b) : IsRealV (mulf a b) :=
  fun i => IsReal.mul (ha i) (hb i)

/-- The entrywise maximum of two real arrays is real. -/
theorem IsRealV.maximumf {a b : FVec Ideal s φ} (ha : IsRealV a) (hb : IsRealV b) : IsRealV (maximumf a b) :=
  fun i => IsReal.max (ha i) (hb i)

/-- The entrywise maximum with a real array is at least that array: a lower clip at 1 gives entries that are at least 1. -/
theorem le_maximumf_left (a b : FVec Ideal s φ) (i : s.Idx) : a i ≤ maximumf a b i := le_max_left _ _

theorem le_maximumf_right (a b : FVec Ideal s φ) (i : s.Idx) : b i ≤ maximumf a b i := le_max_right _ _

/-- The entrywise quotient of a real array by a real array with no zero entry is real. -/
theorem IsRealV.hostDivf {a b : FVec Ideal s φ} (ha : IsRealV a) (hb : IsRealV b) (h0 : ∀ i, b i ≠ 0) :
    IsRealV (Host.divf a b) :=
  fun i => IsReal.div (ha i) (hb i) (h0 i)

/-- The same for the quotient written inside a kernel. -/
theorem IsRealV.divf {a b : FVec Ideal s φ} (ha : IsRealV a) (hb : IsRealV b) (h0 : ∀ i, b i ≠ 0) :
    IsRealV (divf a b) :=
  fun i => IsReal.div (ha i) (hb i) (h0 i)

/-- An extended real that is at least one is not zero. -/
theorem ne_zero_of_one_le {y : EReal} (h : 1 ≤ y) : y ≠ 0 :=
  fun h0 => absurd (h0 ▸ h) (by norm_num)

/-- The entrywise quotient of a real array by a real array whose entries are all at least one is real. -/
theorem IsRealV.hostDivf_of_one_le {a b : FVec Ideal s φ} (ha : IsRealV a) (hb : IsRealV b) (h1 : ∀ i, 1 ≤ b i) :
    IsRealV (Host.divf a b) :=
  ha.hostDivf hb fun i => ne_zero_of_one_le (h1 i)

/-- The quotient of a real that is not negative by a real that is at least one is a real that is not negative. -/
theorem div_nonneg_real {x y : EReal} (hx : IsReal x) (hx0 : 0 ≤ x) (hy : IsReal y) (h1 : 1 ≤ y) :
    ∃ r : ℝ, 0 ≤ r ∧ Ideal.div x y = (r : EReal) := by
  obtain ⟨a, rfl⟩ := hx
  obtain ⟨b, rfl⟩ := hy
  have ha : 0 ≤ a := by exact_mod_cast hx0
  have hb : 1 ≤ b := by exact_mod_cast h1
  have hb0 : b ≠ 0 := by linarith
  exact ⟨a / b, div_nonneg ha (by linarith), LibERealBridge.div_coe_coe a b hb0⟩

end Entrywise

/-! ## Broadcasts -/

section Broadcast
variable {s t : Shape}

/-- The broadcast of one real is a real array. -/
theorem IsRealV.broadcast {x : EReal} (hx : IsReal x) : IsRealV (broadcast t x) := fun _ => hx

/-- The broadcast of a real array along some axes is real: each result entry is an operand entry. -/
theorem IsRealV.broadcastInDim {x : s.Idx → EReal} (hx : IsRealV x) (dims : Fin s.rank → Fin t.rank)
    (h : s.BroadcastsInDim t dims) : IsRealV (broadcastInDim t dims h x) :=
  fun _ => hx _

end Broadcast

/-! ## Gather and accumulating scatter, for arbitrary dimension numbers -/

section Indexing
variable {s si t u : Shape} {w : Nat}

/-- A gather from a real array is real, whatever the dimension numbers and the indices: each result entry is the
    operand's entry at some index. -/
theorem IsRealV.gather (d : GatherDims s si t) {x : s.Idx → EReal} (hx : IsRealV x) (idx : IVec si w) :
    IsRealV (Host.gather d x idx) :=
  fun _ => hx _

/-- An accumulating scatter of real updates into a real operand is real, whatever the dimension numbers and the
    indices: each result entry is the operand's entry plus a finite sum of update entries. -/
theorem IsRealV.idealScatterAdd (d : ScatterDims s si u) {x : s.Idx → EReal} (hx : IsRealV x) (idx : IVec si w)
    {upd : u.Idx → EReal} (hu : IsRealV upd) : IsRealV (Ideal.hostScatterAdd d x idx upd) :=
  fun i => IsReal.add (hx i) (IsReal.sum _ _ fun j _ => hu j)

/-- The same for the operation as a host program writes it. -/
theorem IsRealV.scatterAdd {φ : FTy} (d : ScatterDims s si u) {x : FVec Ideal s φ} (hx : IsRealV x) (idx : IVec si w)
    {upd : FVec Ideal u φ} (hu : IsRealV upd) : IsRealV (Host.scatterAdd d x idx upd) :=
  IsRealV.idealScatterAdd d hx idx hu

end Indexing

/-! ## Contractions and sum reductions -/

section Contract

/-- A contraction of two real arrays onto a real accumulator is real: each result entry is an accumulator entry plus
    a finite sum of products. -/
theorem IsRealV.matmul {sl sr so : Shape} (d : DotDims sl sr so) {lhs : sl.Idx → EReal} {rhs : sr.Idx → EReal}
    {acc : so.Idx → EReal} (hl : IsRealV lhs) (hr : IsRealV rhs) (ha : IsRealV acc) :
    IsRealV (Ideal.matmul d lhs rhs acc) :=
  fun j => IsReal.add (ha j) (IsReal.sum _ _ fun k _ => IsReal.mul (hl _) (hr _))

/-- The host's sum reduction of a real array from a real initial value is real. -/
theorem IsRealV.hostReduceAdd {s t : Shape} {axes : List (Fin s.rank)} (h : s.ReducesTo axes t) {x : s.Idx → EReal}
    (hx : IsRealV x) {init : EReal} (hi : IsReal init) : IsRealV (Ideal.hostReduceAdd h x init) :=
  fun _ => IsReal.add hi (IsReal.sum _ _ fun i _ => hx i)

end Contract

/-! ## A message-passing hop, composed

  The node factor is 1 / max (1, degree), the degree a scatter of ones into zeros; one hop gathers the rows of the
  feature array along the edges' sources, scales each by its edge weight, scatters the scaled rows into zeros along
  the edges' targets and rescales each node's row by the node factor. Every array on the way is real when the feature
  array and the weights are. The statements take the constant arrays (zeros, ones) as any arrays with those entries,
  and the broadcast weights and factors as any real arrays, so they apply whatever chain of broadcasts produced them. -/

section Chain
variable {φ : FTy}

/-- The binary32 word 0x3F800000 is one. -/
theorem ofBits_one : Ideal.ofBits .f32 0x3F800000#32 = 1 := by
  have h : Ideal.ofBits .f32 0x3F800000#32 = (((1 : ℝ) : ℝ) : EReal) := by
    simp [Ideal.ofBits, Ideal.ieee, -EReal.coe_mul]; norm_num
  rw [h, EReal.coe_one]

/-- The zero word and the one word denote reals. -/
theorem isReal_ofBits_zero : IsReal (Ideal.ofBits .f32 0x00000000#32) := by
  rw [Cert.IdealReal.ofBits_zero]; exact IsReal.zero

theorem isReal_ofBits_one : IsReal (Ideal.ofBits .f32 0x3F800000#32) := by
  rw [ofBits_one]; exact IsReal.one

/-- The node factor 1 / max (1, degree) is a real array: the degree is a scatter of real updates into a real
    operand, the clip at one keeps it real and makes every entry at least one, and the quotient of a real array by
    such an array is real. -/
theorem isRealV_degInv {sN sI sE : Shape} {w : Nat} (dS : ScatterDims sN sI sE) (idx : IVec sI w)
    {zero num one : FVec Ideal sN φ} {ones : FVec Ideal sE φ}
    (hz : IsRealV zero) (ho : IsRealV ones) (h1 : ∀ i, one i = 1) (hnum : IsRealV num) :
    IsRealV (Host.divf num (maximumf one (Host.scatterAdd dS zero idx ones))) := by
  have hone : IsRealV one := fun i => ⟨1, by rw [h1 i, EReal.coe_one]⟩
  refine hnum.hostDivf_of_one_le (hone.maximumf (hz.scatterAdd dS idx ho)) fun i => ?_
  have := le_maximumf_left one (Host.scatterAdd dS zero idx ones) i
  rwa [h1 i] at this

/-- One hop keeps the feature array real: gather along the sources, scale by the (broadcast) edge weights, scatter
    into a real array along the targets, rescale by the (broadcast) node factor. -/
theorem isRealV_hop {sH sIs sId sM : Shape} {w w' : Nat} (dG : GatherDims sH sIs sM) (dS : ScatterDims sH sId sM)
    (idxS : IVec sIs w) (idxD : IVec sId w') {h zero dB : FVec Ideal sH φ} {wB : FVec Ideal sM φ}
    (hh : IsRealV h) (hw : IsRealV wB) (hz : IsRealV zero) (hd : IsRealV dB) :
    IsRealV (mulf (Host.scatterAdd dS zero idxD (mulf (Host.gather dG h idxS) wB)) dB) :=
  (hz.scatterAdd dS idxD (IsRealV.mulf (hh.gather dG idxS) hw)).mulf hd

end Chain

/-! ## The way in: an entry of absolute value below +∞ is a real -/

/-- An extended real whose absolute value (the maximum of it and its negation) is below +∞ is a real. -/
theorem isReal_of_abs_lt_top {x : EReal} (h : max x (-x) < ⊤) : IsReal x := by
  induction x using EReal.rec with
  | bot => exact absurd h (by simp)
  | coe r => exact ⟨r, rfl⟩
  | top => exact absurd h (by simp)

/-- The same with the comparison as a float program makes it: the test "|x| < +∞", +∞ given by its binary32 word,
    answers true. -/
theorem isReal_of_cmp_abs_lt_inf {x : EReal}
    (h : Ideal.cmp .olt (max x (-x)) (Ideal.ofBits .f32 0x7F800000#32) = 1#1) : IsReal x := by
  have h' : BitVec.ofBool (decide (max x (-x) < Ideal.ofBits .f32 0x7F800000#32)) = 1#1 := h
  rw [Cert.IdealReal.ofBits_pos_inf] at h'
  by_cases hlt : max x (-x) < ⊤
  · exact isReal_of_abs_lt_top hlt
  · rw [decide_eq_false hlt] at h'
    exact absurd h' (by decide)

/-- An array every entry of which passes the test "|x| < +∞" against an array of +∞ words is real. -/
theorem isRealV_of_finite {s : Shape} (x inf : FVec Ideal s .f32)
    (hinf : ∀ i, inf i = Ideal.ofBits .f32 0x7F800000#32)
    (h : ∀ i, cmpf .olt (Host.absf x) inf i = 1#1) : IsRealV x := by
  intro i
  have hi : Ideal.cmp .olt (max (x i) (-(x i))) (inf i) = 1#1 := h i
  rw [hinf i] at hi
  exact isReal_of_cmp_abs_lt_inf hi

end Cert.RealVec

end
-- ==== Proof.HopsReal.lean ====
/-
  The features after one and after two hops are arrays of real numbers when the input features and the edge weights are.

  The node factor is one over the in-degree clipped below at one. The in-degree is a sum of ones (one per edge ending
  at the node) added into zeros, so it is real; the clip keeps it real and makes it at least one, so the quotient of one
  by it is real. One hop gathers rows of the features (each entry of the result is an entry of the features), multiplies
  them by the edge weights, adds the products into zeros at the edges' destinations (each entry of the result is a finite
  sum of such products) and multiplies every node's row by the node factor: sums and products of reals throughout.
-/
import proofs.«115305_j43688407335088_2_alg».proof.Proof.RefRunDefs
import proofs.«115305_j43688407335088_2_alg».proof.Proof.LibRealVec

noncomputable section

namespace Cert.ReferenceIdeal.Hand

open Cert.ReferenceIdeal Cert.ReferenceIdeal.Gen Idealize.ShloMosaic Cert.RealVec Cert.Alg

/-- An array of zero words is real. -/
theorem zeros_isRealV {s : Shape} (hb : S_.BroadcastsInDim s (![] : Fin 0 → Fin s.rank)) :
    IsRealV (broadcastInDim (α := Ideal .f32) s ![] hb (constant (F := Ideal) S_ .f32 0x00000000#32)) :=
  IsRealV.broadcastInDim (fun _ => isReal_ofBits_zero) _ _

/-- An array of one words is real, and every entry of it is one. -/
theorem ones_isRealV {s : Shape} (hb : S_.BroadcastsInDim s (![] : Fin 0 → Fin s.rank)) :
    IsRealV (broadcastInDim (α := Ideal .f32) s ![] hb (constant (F := Ideal) S_ .f32 0x3F800000#32)) :=
  IsRealV.broadcastInDim (fun _ => isReal_ofBits_one) _ _

theorem ones_apply {s : Shape} (hb : S_.BroadcastsInDim s (![] : Fin 0 → Fin s.rank)) (i : s.Idx) :
    broadcastInDim (α := Ideal .f32) s ![] hb (constant (F := Ideal) S_ .f32 0x3F800000#32) i = 1 :=
  ofBits_one

/-- The node factor, one over the in-degree clipped below at one, is real at every node. -/
theorem dIn_isRealV (dst : (⟨S800000, .i32⟩ : BufTy).Contents (Elt Ideal)) : IsRealV (dIn (F := Ideal) dst) := by
  unfold dIn deg
  exact isRealV_degInv _ _ (zeros_isRealV _) (ones_isRealV _) (ones_apply _) (ones_isRealV _)

/-- One hop over real features with real edge weights and a real node factor gives real features. -/
theorem hopStep_isRealV (h : (⟨S50000x256, .f32⟩ : BufTy).Contents (Elt Ideal))
    (w : (⟨S800000, .f32⟩ : BufTy).Contents (Elt Ideal)) (src dst : (⟨S800000, .i32⟩ : BufTy).Contents (Elt Ideal))
    (dinv : (⟨S50000, .f32⟩ : BufTy).Contents (Elt Ideal))
    (hh : IsRealV h) (hw : IsRealV w) (hd : IsRealV dinv) : IsRealV (hopStep (F := Ideal) h w src dst dinv) := by
  unfold hopStep
  exact isRealV_hop _ _ _ _ hh ((hw.broadcastInDim _ _).broadcastInDim _ _) (zeros_isRealV _)
    ((hd.broadcastInDim _ _).broadcastInDim _ _)

/-- The features after one hop are real when the input features and the edge weights are. -/
theorem hop1_isRealV (x : (⟨S50000x256, .f32⟩ : BufTy).Contents (Elt Ideal))
    (w : (⟨S800000, .f32⟩ : BufTy).Contents (Elt Ideal)) (src dst : (⟨S800000, .i32⟩ : BufTy).Contents (Elt Ideal))
    (hx : IsRealV x) (hw : IsRealV w) : IsRealV (hop1 (F := Ideal) x w src dst) :=
  hopStep_isRealV x w src dst _ hx hw (dIn_isRealV dst)

/-- The features after two hops are real when the input features and the edge weights are. -/
theorem hop2_isRealV (x : (⟨S50000x256, .f32⟩ : BufTy).Contents (Elt Ideal))
    (w : (⟨S800000, .f32⟩ : BufTy).Contents (Elt Ideal)) (src dst : (⟨S800000, .i32⟩ : BufTy).Contents (Elt Ideal))
    (hx : IsRealV x) (hw : IsRealV w) : IsRealV (hop2 (F := Ideal) x w src dst) :=
  hopStep_isRealV _ w src dst _ (hop1_isRealV x w src dst hx hw) hw (dIn_isRealV dst)

end Cert.ReferenceIdeal.Hand

end
-- ==== Proof.PreReal.lean ====
/-
  From the precondition to real inputs.

  The precondition says that a printed predicate of the eight argument arrays is true. The predicate is the conjunction,
  over the six float arrays, of "every entry has absolute value below +∞": for each array the entrywise test |x| < +∞
  (+∞ given by its binary32 word) folded by "and" over all axes from true. A conjunction that is true has both parts
  true; a fold by "and" into one result that is true met only true entries; and an extended real whose absolute value is
  below +∞ is neither infinity, so it is a real number. Hence every entry of each of the six float arrays is real.
-/
import proofs.«115305_j43688407335088_2_alg».proof.Defs
import Idealize.ShloMosaic.Lib.ReduceAll
import proofs.«115305_j43688407335088_2_alg».proof.Proof.LibRealVec

noncomputable section

namespace Cert.PreReal

open Idealize.ShloMosaic Idealize.SL.Sem Cert.RealVec Cert.Pre_finite_inputs

/-- The shape with no axes has one index. -/
instance : Subsingleton S_.Idx := ⟨fun a b => funext fun d => d.elim0⟩

variable [hP : Cert.Pre_finite_inputs.Facts]
open Cert.Pre_finite_inputs.Facts

/-- One array: the test "|x| < +∞" folded by "and" over all axes, from true, is true only if every entry is real. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32))) init hr hu
        ValueIdx.ix0 = 1#1) : IsRealV x :=
  isRealV_of_finite x _ (fun _ => rfl) (Host.reduce_andi_all _ init hr hu ValueIdx.ix0 e)

/-- The printed predicate is true only if each of the six float arrays is real. -/
theorem real_of_fn (a0 : FVec Ideal S50000x256 .f32) (a1 : FVec Ideal S800000 .f32) (a2 : FVec Ideal S3x256x256 .f32)
    (a3 a4 a5 : FVec Ideal S3x256 .f32) (a6 a7 : IVec S800000 32)
    (h : Cert.Pre_finite_inputs.fn (F := Ideal) a0 a1 a2 a3 a4 a5 a6 a7 = (fun _ => 1#1)) :
    IsRealV a0 ∧ IsRealV a1 ∧ IsRealV a2 ∧ IsRealV a3 ∧ IsRealV a4 ∧ IsRealV a5 := by
  have h0 := congrFun h ValueIdx.ix0
  dsimp only [Cert.Pre_finite_inputs.fn, Cert.Pre_finite_inputs.fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ _ e0, real_of_all a1 _ _ _ _ e1, real_of_all a2 _ _ _ _ e2,
    real_of_all a3 _ _ _ _ e3, real_of_all a4 _ _ _ _ e4, real_of_all a5 _ _ _ _ e5⟩

/-- Under the precondition, on every device, each of the six float argument arrays of the idealized kernel is real. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    IsRealV (m ((c.tc : Thread Cert.KernelIdeal.nD Cert.KernelIdeal.τ).loc Cert.KernelIdeal.main_arg0) : FVec Ideal S50000x256 .f32)
    ∧ IsRealV (m ((c.tc : Thread Cert.KernelIdeal.nD Cert.KernelIdeal.τ).loc Cert.KernelIdeal.main_arg1) : FVec Ideal S800000 .f32)
    ∧ IsRealV (m ((c.tc : Thread Cert.KernelIdeal.nD Cert.KernelIdeal.τ).loc Cert.KernelIdeal.main_arg2) : FVec Ideal S3x256x256 .f32)
    ∧ IsRealV (m ((c.tc : Thread Cert.KernelIdeal.nD Cert.KernelIdeal.τ).loc Cert.KernelIdeal.main_arg3) : FVec Ideal S3x256 .f32)
    ∧ IsRealV (m ((c.tc : Thread Cert.KernelIdeal.nD Cert.KernelIdeal.τ).loc Cert.KernelIdeal.main_arg4) : FVec Ideal S3x256 .f32)
    ∧ IsRealV (m ((c.tc : Thread Cert.KernelIdeal.nD Cert.KernelIdeal.τ).loc Cert.KernelIdeal.main_arg5) : FVec Ideal S3x256 .f32) :=
  real_of_fn _ _ _ _ _ _ _ _ (hpre c)

end Cert.PreReal

end
-- ==== Proof.LibRealMoves.lean ====
/-
  More array operations that keep every entry a real number: the ones that only move or relabel entries, and the
  changes of float format, which at the exact instance are the identity.

  A slice, a reshape, or a change of format of an array has, at each index, an entry of the operand; so it is real when
  the operand is. The file also passes between the two ways of saying "every entry is real" for an array of rank two
  or one: over the array's own indices, and over pairs (or single) coordinates.
-/
import proofs.«115305_j43688407335088_2_alg».proof.Proof.LibRealVec

noncomputable section

namespace Cert.RealVec

open Idealize.ShloMosaic Idealize.ShloMosaic.ValueIdx Cert.Alg

section Moves
variable {s t : Shape}

/-- A slice of a real array is real. -/
theorem IsRealV.extractStridedSlice {x : s.Idx → EReal} (hx : IsRealV x) (off : Fin s.rank → Nat) (h : s.Slices off t) :
    IsRealV (extractStridedSlice t off x h) :=
  fun _ => hx _

/-- A reshape of a real array is real. -/
theorem IsRealV.shapeCast {x : s.Idx → EReal} (hx : IsRealV x) (h : s.ShapeCasts t) : IsRealV (shapeCast t x h) :=
  fun _ => hx _

/-- A real array narrowed to a shorter float format is real: at the exact instance the change of format is the identity. -/
theorem IsRealV.truncf {φ ψ : FTy} {x : FVec Ideal s φ} (hx : IsRealV x) (h : ψ.bits < φ.bits) :
    IsRealV (truncf ψ x h : FVec Ideal s ψ) :=
  fun i => hx i

/-- A real array widened to a longer float format is real. -/
theorem IsRealV.extf {φ ψ : FTy} {x : FVec Ideal s φ} (hx : IsRealV x) (h : φ.bits < ψ.bits) :
    IsRealV (extf ψ x h : FVec Ideal s ψ) :=
  fun i => hx i

end Moves

section Coordinates

/-- A real array of rank two, said over pairs of coordinates. -/
theorem IsRealV.at2 {n0 n1 : Nat} {v : (⟨2, ![n0, n1]⟩ : Shape).Idx → EReal} (hv : IsRealV v) (a : Fin n0) (b : Fin n1) :
    ∃ r : ℝ, v (ix2 a b) = (r : EReal) := hv (ix2 a b)

/-- An array of rank two whose entry at every pair of coordinates is real is real. -/
theorem isRealV_of_ix2 {n0 n1 : Nat} {v : (⟨2, ![n0, n1]⟩ : Shape).Idx → EReal}
    (h : ∀ (a : Fin n0) (b : Fin n1), ∃ r : ℝ, v (ix2 a b) = (r : EReal)) : IsRealV v := fun i => by
  rw [eq_ix2 i]; exact h _ _

/-- A real array of rank one, said over its coordinate. -/
theorem IsRealV.at1 {n : Nat} {v : (⟨1, ![n]⟩ : Shape).Idx → EReal} (hv : IsRealV v) (a : Fin n) :
    ∃ r : ℝ, v (ix1 a) = (r : EReal) := hv (ix1 a)

/-- An array of rank one whose entry at every coordinate is real is real. -/
theorem isRealV_of_ix1 {n : Nat} {v : (⟨1, ![n]⟩ : Shape).Idx → EReal}
    (h : ∀ a : Fin n, ∃ r : ℝ, v (ix1 a) = (r : EReal)) : IsRealV v := fun i => by
  rw [eq_ix1 i]; exact h _

/-- A real array of rank three, said over triples of coordinates. -/
theorem IsRealV.at3 {n0 n1 n2 : Nat} {v : (⟨3, ![n0, n1, n2]⟩ : Shape).Idx → EReal} (hv : IsRealV v)
    (a : Fin n0) (b : Fin n1) (c : Fin n2) : ∃ r : ℝ, v (ix3 a b c) = (r : EReal) := hv (ix3 a b c)

end Coordinates

end Cert.RealVec

end
-- ==== Proof.Glue.lean ====
/-
  Small facts that connect the pieces: realness in coordinates, realness of the layer slices of the weight and bias
  tables, and, packaged, every realness fact the normalisation of the three blocks needs, from the precondition.

  An array of rank two all of whose entries are real is, read over pairs of coordinates, a table of reals; likewise for
  rank one. A slice followed by a reshape only relabels entries, so the layer slices of real tables are real. Under the
  precondition the float inputs are real; the features after one and after two hops are then real, being sums and
  products of reals; so every table the three normalised blocks are computed from is a table of reals.
-/
import proofs.«115305_j43688407335088_2_alg».proof.Proof.RefRunDefs
import proofs.«115305_j43688407335088_2_alg».proof.Proof.HopsReal
import proofs.«115305_j43688407335088_2_alg».proof.Proof.PreReal
import proofs.«115305_j43688407335088_2_alg».proof.Proof.Spec
import proofs.«115305_j43688407335088_2_alg».proof.Proof.SpecBridge
import proofs.«115305_j43688407335088_2_alg».proof.Proof.LibRealMoves
import Idealize.ShloMosaic.Lib.ValueIdx

noncomputable section

namespace Cert.Glue

open Cert.ReferenceIdeal Cert.ReferenceIdeal.Gen Cert.ReferenceIdeal.Hand Idealize.ShloMosaic Idealize.ShloMosaic.ValueIdx
  Idealize.SL.Sem Cert.RealVec Cert.Alg

/-! ## G1: realness in coordinates -/

/-- A real array of 50000 rows of 256, read over (row, column), is a table of reals. -/
theorem real2_of_isRealV_50000x256 (v : FVec Ideal S50000x256 .f32) (hv : IsRealV v) :
    Cert.Spec.Real2 (fun (p : Fin 50000) (k : Fin 256) => v (ValueIdx.ix2 p k)) :=
  fun p k => hv (ValueIdx.ix2 p k)

/-- A real array of 256 rows of 256, read over (row, column), is a table of reals. -/
theorem real2_of_isRealV_256x256 (v : FVec Ideal S256x256 .f32) (hv : IsRealV v) :
    Cert.Spec.Real2 (fun (k : Fin 256) (j : Fin 256) => v (ValueIdx.ix2 k j)) :=
  fun k j => hv (ValueIdx.ix2 k j)

/-- A real row of 256, read over its coordinate, is a row of reals. -/
theorem real1_of_isRealV_256 (v : FVec Ideal S256 .f32) (hv : IsRealV v) :
    Cert.Spec.Real1 (fun (j : Fin 256) => v (ValueIdx.ix1 j)) :=
  fun j => hv (ValueIdx.ix1 j)

/-! ## G2: the layer slices of real tables are real -/

theorem sliceW0_isRealV (Wt : (⟨S3x256x256, .f32⟩ : BufTy).Contents (Elt Ideal)) (h : IsRealV Wt) :
    IsRealV (sliceW0 (F := Ideal) Wt) := by
  unfold sliceW0; exact (h.extractStridedSlice _ _).shapeCast _

theorem sliceW1_isRealV (Wt : (⟨S3x256x256, .f32⟩ : BufTy).Contents (Elt Ideal)) (h : IsRealV Wt) :
    IsRealV (sliceW1 (F := Ideal) Wt) := by
  unfold sliceW1; exact (h.extractStridedSlice _ _).shapeCast _

theorem sliceW2_isRealV (Wt : (⟨S3x256x256, .f32⟩ : BufTy).Contents (Elt Ideal)) (h : IsRealV Wt) :
    IsRealV (sliceW2 (F := Ideal) Wt) := by
  unfold sliceW2; exact (h.extractStridedSlice _ _).shapeCast _

theorem row0_isRealV (t : (⟨S3x256, .f32⟩ : BufTy).Contents (Elt Ideal)) (h : IsRealV t) :
    IsRealV (row0 (F := Ideal) t) := by
  unfold row0; exact (h.extractStridedSlice _ _).shapeCast _

theorem row1_isRealV (t : (⟨S3x256, .f32⟩ : BufTy).Contents (Elt Ideal)) (h : IsRealV t) :
    IsRealV (row1 (F := Ideal) t) := by
  unfold row1; exact (h.extractStridedSlice _ _).shapeCast _

theorem row2_isRealV (t : (⟨S3x256, .f32⟩ : BufTy).Contents (Elt Ideal)) (h : IsRealV t) :
    IsRealV (row2 (F := Ideal) t) := by
  unfold row2; exact (h.extractStridedSlice _ _).shapeCast _

/-! ## G5: every realness fact the three normalised blocks need, packaged -/

/-- For features x, edge weights w, the weight table Wt, the bias table b and the edge lists: the input features, the
    features after one hop and after two hops, the three layers of the weights and the three rows of the bias are
    tables of reals. (The scale and the shift need no realness: they are applied last.) -/
structure LaunchReal (x : (⟨S50000x256, .f32⟩ : BufTy).Contents (Elt Ideal))
    (w : (⟨S800000, .f32⟩ : BufTy).Contents (Elt Ideal)) (Wt : (⟨S3x256x256, .f32⟩ : BufTy).Contents (Elt Ideal))
    (b : (⟨S3x256, .f32⟩ : BufTy).Contents (Elt Ideal)) (src dst : (⟨S800000, .i32⟩ : BufTy).Contents (Elt Ideal)) :
    Prop where
  x_real : Cert.Spec.Real2 (fun (p : Fin 50000) (k : Fin 256) => x (ValueIdx.ix2 p k))
  hop1_real : Cert.Spec.Real2 (fun (p : Fin 50000) (k : Fin 256) => hop1 (F := Ideal) x w src dst (ValueIdx.ix2 p k))
  hop2_real : Cert.Spec.Real2 (fun (p : Fin 50000) (k : Fin 256) => hop2 (F := Ideal) x w src dst (ValueIdx.ix2 p k))
  W0_real : Cert.Spec.Real2 (fun (k : Fin 256) (j : Fin 256) => sliceW0 (F := Ideal) Wt (ValueIdx.ix2 k j))
  W1_real : Cert.Spec.Real2 (fun (k : Fin 256) (j : Fin 256) => sliceW1 (F := Ideal) Wt (ValueIdx.ix2 k j))
  W2_real : Cert.Spec.Real2 (fun (k : Fin 256) (j : Fin 256) => sliceW2 (F := Ideal) Wt (ValueIdx.ix2 k j))
  b0_real : Cert.Spec.Real1 (fun (j : Fin 256) => row0 (F := Ideal) b (ValueIdx.ix1 j))
  b1_real : Cert.Spec.Real1 (fun (j : Fin 256) => row1 (F := Ideal) b (ValueIdx.ix1 j))
  b2_real : Cert.Spec.Real1 (fun (j : Fin 256) => row2 (F := Ideal) b (ValueIdx.ix1 j))

/-- From real features, edge weights, weight table and bias table. -/
theorem launchReal_of_isRealV (x : (⟨S50000x256, .f32⟩ : BufTy).Contents (Elt Ideal))
    (w : (⟨S800000, .f32⟩ : BufTy).Contents (Elt Ideal)) (Wt : (⟨S3x256x256, .f32⟩ : BufTy).Contents (Elt Ideal))
    (b : (⟨S3x256, .f32⟩ : BufTy).Contents (Elt Ideal)) (src dst : (⟨S800000, .i32⟩ : BufTy).Contents (Elt Ideal))
    (hx : IsRealV x) (hw : IsRealV w) (hWt : IsRealV Wt) (hb : IsRealV b) : LaunchReal x w Wt b src dst where
  x_real := fun p k => hx (ValueIdx.ix2 p k)
  hop1_real := fun p k => hop1_isRealV x w src dst hx hw (ValueIdx.ix2 p k)
  hop2_real := fun p k => hop2_isRealV x w src dst hx hw (ValueIdx.ix2 p k)
  W0_real := fun k j => sliceW0_isRealV Wt hWt (ValueIdx.ix2 k j)
  W1_real := fun k j => sliceW1_isRealV Wt hWt (ValueIdx.ix2 k j)
  W2_real := fun k j => sliceW2_isRealV Wt hWt (ValueIdx.ix2 k j)
  b0_real := fun j => row0_isRealV b hb (ValueIdx.ix1 j)
  b1_real := fun j => row1_isRealV b hb (ValueIdx.ix1 j)
  b2_real := fun j => row2_isRealV b hb (ValueIdx.ix1 j)

/-- Under the precondition, for the idealized kernel program's argument arrays on device c. -/
theorem launchReal_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    LaunchReal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  obtain ⟨h0, h1, h2, h3, _, _⟩ := Cert.PreReal.real_of_pre m hpre c
  exact launchReal_of_isRealV _ _ _ _ _ _ h0 h1 h2 h3

end Cert.Glue

end
-- ==== Proof.RefValue.lean ====
import proofs.«115305_j43688407335088_2_alg».proof.Proof.RefRunDefs
import proofs.«115305_j43688407335088_2_alg».proof.Proof.Spec
import Idealize.ShloMosaic.Lib.IdealHost
import Idealize.ShloMosaic.Lib.Pipeline.Value
import Idealize.ShloMosaic.Lib.StackMember

noncomputable section

namespace Cert.ReferenceIdeal.Hand

open Cert.ReferenceIdeal Cert.ReferenceIdeal.Gen Idealize.ShloMosaic Idealize.ShloMosaic.ValueIdx
open scoped BigOperators

/-! The reference's pieces read entry by entry at the exact instance, against the common entry-level
    specification: one block's normalisation is `Cert.Spec.refBn` of its operands' entries, and the
    concatenation reads the block the column falls in. -/

/-- The row count's word is the real number 50000. -/
theorem cnt_eq : Ideal.ofBits .f32 0x47435000#32 = ((50000 : ℝ) : EReal) := by
  simp [Ideal.ofBits, Ideal.ieee, -EReal.coe_mul]; norm_num

theorem cnt_spec : Cert.Spec.cnt = ((50000 : ℝ) : EReal) := cnt_eq

/-- The zero word read anywhere is zero. -/
theorem zero_const_apply {s : Shape} (i : s.Idx) : constant (F := Ideal) s .f32 0x00000000#32 i = 0 := by
  rw [constant_apply]; exact Ideal.ofBits_zero_f32

/-- A row repeated down the rows, read at an entry: the row's entry in that column. -/
theorem bcastRow_apply (r : (⟨S256, .f32⟩ : BufTy).Contents (Elt Ideal)) (p : Fin 50000) (j : Fin 256) :
    bcastRow r (ix2 p j) = r (ix1 j) := by
  unfold bcastRow
  rw [broadcastInDim_apply _ _ _ (ix2 p j) (ix2 (0 : Fin 1) j) (fun a => by
    match a with
    | ⟨0, _⟩ => rfl
    | ⟨1, _⟩ => rfl)]
  rw [broadcastInDim_apply _ _ _ (ix2 (0 : Fin 1) j) (ix1 j) (fun a => by
    match a with
    | ⟨0, _⟩ => rfl)]

/-- The rectified affine image read at an entry. -/
theorem linRelu_apply (ft : (⟨S50000x256, .f32⟩ : BufTy).Contents (Elt Ideal)) (Wi : (⟨S256x256, .f32⟩ : BufTy).Contents (Elt Ideal)) (bi : (⟨S256, .f32⟩ : BufTy).Contents (Elt Ideal)) (p : Fin 50000) (j : Fin 256) :
    linRelu ft Wi bi (ix2 p j)
      = Cert.Spec.lin (fun p k => ft (ix2 p k)) (fun k j => Wi (ix2 k j)) (fun j => bi (ix1 j)) p j := by
  unfold linRelu Cert.Spec.lin
  rw [maximumf_apply, addf_apply, bcastRow_apply, broadcastInDim_scalar_apply, zero_const_apply]
  congr 2
  exact StackMember.dotGeneral_plain_apply none ft Wi p j

/-- A column sum read at a column: the sum of the column's entries. -/
theorem colSum_apply (h : (⟨S50000x256, .f32⟩ : BufTy).Contents (Elt Ideal)) (j : Fin 256) :
    colSum h (ix1 j) = ∑ p : Fin 50000, h (ix2 p j) := by
  unfold colSum
  have hr : S50000x256.Reduces [0] S256 := by decide
  rw [hostReduceAdd_apply, Ideal.hostReduceAdd_single _ hr, zero_const_apply, zero_add]
  refine Finset.sum_congr rfl fun k _ => congrArg h ?_
  funext c
  apply Fin.ext
  match c with
  | ⟨0, _⟩ => rfl
  | ⟨1, _⟩ => rfl

/-- The column mean read at a column. -/
theorem colMean_apply (h : (⟨S50000x256, .f32⟩ : BufTy).Contents (Elt Ideal)) (j : Fin 256) :
    colMean h (ix1 j) = Cert.Spec.refMean (fun p j => h (ix2 p j)) j := by
  unfold colMean Cert.Spec.refMean Cert.Spec.cnt
  rw [hostDivf_apply, colSum_apply, broadcastInDim_scalar_apply, constant_apply]

/-- The features centred as the variance centres them, read at an entry. -/
theorem varCentre_apply (h : (⟨S50000x256, .f32⟩ : BufTy).Contents (Elt Ideal)) (p : Fin 50000) (j : Fin 256) :
    varCentre h (ix2 p j) = h (ix2 p j) - Cert.Spec.refMean (fun p j => h (ix2 p j)) j := by
  unfold varCentre Cert.Spec.refMean Cert.Spec.cnt
  rw [subf_apply]
  rw [broadcastInDim_apply _ _ _ (ix2 p j) (ix2 (0 : Fin 1) j) (fun a => by
    match a with
    | ⟨0, _⟩ => rfl
    | ⟨1, _⟩ => rfl)]
  rw [hostDivf_apply, broadcastInDim_scalar_apply, constant_apply]
  rw [broadcastInDim_apply _ _ _ (ix2 (0 : Fin 1) j) (ix1 j) (fun a => by
    match a with
    | ⟨0, _⟩ => rfl)]
  rw [colSum_apply]

/-- The variance's divisor is the row count: no degree of freedom is taken off. -/
theorem varCount_apply : varCount (F := Ideal) ix0 = Cert.Spec.cnt := by
  unfold varCount Cert.Spec.cnt
  rw [subf_apply, constant_apply, sitofp_apply]
  show Ideal.ofBits .f32 0x47435000#32 - (((constantI S_ 32 0#32 ix0 : BitVec 32).toInt : ℝ) : EReal) = _
  simp [constantI]

/-- The divisor is positive, so the select keeps the quotient. -/
theorem varCount_pos : FloatOps.cmpf .ogt (varCount (F := Ideal) ix0) (constant (F := Ideal) S_ .f32 0x00000000#32 ix0) = 1#1 := by
  rw [varCount_apply, zero_const_apply, cnt_spec]
  show Ideal.cmp .ogt ((50000 : ℝ) : EReal) 0 = 1#1
  unfold Ideal.cmp
  have : (0 : EReal) < ((50000 : ℝ) : EReal) := by exact_mod_cast (by norm_num : (0 : ℝ) < 50000)
  simp [this]

/-- The column variance read at a column. -/
theorem colVar_apply (h : (⟨S50000x256, .f32⟩ : BufTy).Contents (Elt Ideal)) (j : Fin 256) :
    colVar h (ix1 j) = Cert.Spec.refVar (fun p j => h (ix2 p j)) j := by
  unfold colVar Cert.Spec.refVar
  rw [select_apply, broadcastInDim_scalar_apply, cmpf_apply, varCount_pos, select_one]
  rw [hostDivf_apply, colSum_apply, broadcastInDim_scalar_apply, varCount_apply]
  refine congrArg (fun s => Ideal.div s Cert.Spec.cnt) (Finset.sum_congr rfl fun p _ => ?_)
  rw [mulf_apply, varCentre_apply]

/-- One block read at an entry: the whole-column arrangement of the entry-level specification. -/
theorem bnRef_apply (ft : (⟨S50000x256, .f32⟩ : BufTy).Contents (Elt Ideal)) (Wi : (⟨S256x256, .f32⟩ : BufTy).Contents (Elt Ideal)) (bi gi βi : (⟨S256, .f32⟩ : BufTy).Contents (Elt Ideal)) (p : Fin 50000) (j : Fin 256) :
    bnRef (F := Ideal) ft Wi bi gi βi (ix2 p j)
      = Cert.Spec.refBn (fun p k => ft (ix2 p k)) (fun k j => Wi (ix2 k j)) (fun j => bi (ix1 j))
          (fun j => gi (ix1 j)) (fun j => βi (ix1 j)) p j := by
  have hl : (fun p j => linRelu ft Wi bi (ix2 p j))
      = Cert.Spec.lin (fun p k => ft (ix2 p k)) (fun k j => Wi (ix2 k j)) (fun j => bi (ix1 j)) := by
    funext p j; exact linRelu_apply ft Wi bi p j
  unfold bnRef Cert.Spec.refBn Cert.Spec.refOut Cert.Spec.eps
  rw [addf_apply, mulf_apply, hostDivf_apply, subf_apply, bcastRow_apply, bcastRow_apply, bcastRow_apply, bcastRow_apply]
  rw [colMean_apply, hl]
  show Ideal.div _ (Ideal.sqrt (addf (colVar (linRelu ft Wi bi)) _ (ix1 j))) * _ + _ = _
  rw [addf_apply, colVar_apply, hl, broadcastInDim_scalar_apply, constant_apply, linRelu_apply]

end Cert.ReferenceIdeal.Hand

end
-- ==== Proof.RefSide.lean ====
import proofs.«115305_j43688407335088_2_alg».proof.Proof.RefValue
import Idealize.ShloMosaic.Lib.ValueLayout

noncomputable section

namespace Cert.ReferenceIdeal.Hand

open Cert.ReferenceIdeal Cert.ReferenceIdeal.Gen Idealize.ShloMosaic Idealize.ShloMosaic.ValueIdx
open scoped BigOperators

/-! The concatenation read at an entry — the block the column falls in, at the column counted from the
    block's first — and with it the reference's value at an entry, block by block, as the whole-column
    arrangement of the entry-level specification. -/

section Cat
variable {F : FTy → Type} [FloatOps F]

/-- A column below 256 reads the first block. -/
theorem catBlocks_lt256 (a b c : (⟨S50000x256, .f32⟩ : BufTy).Contents (Elt F)) (p : Fin 50000) (q : Fin 768) (h : q.val < 256) :
    catBlocks a b c (ix2 p q) = a (ix2 p ⟨q.val, h⟩) := by
  unfold catBlocks
  exact concatenate_apply_piece _ _ _ (ix2 p q) 0 (by simp) S50000x256 a rfl rfl 0 rfl (ix2 p ⟨q.val, h⟩)
    (fun ax hax => by
      match ax with
      | ⟨0, _⟩ => rfl
      | ⟨1, _⟩ => exact absurd rfl hax)
    (Nat.zero_add _)

/-- A column from 256 to below 512 reads the second block. -/
theorem catBlocks_lt512 (a b c : (⟨S50000x256, .f32⟩ : BufTy).Contents (Elt F)) (p : Fin 50000) (q : Fin 768) (h1 : 256 ≤ q.val) (h2 : q.val < 512) :
    catBlocks a b c (ix2 p q) = b (ix2 p ⟨q.val - 256, by omega⟩) := by
  unfold catBlocks
  exact concatenate_apply_piece _ _ _ (ix2 p q) 1 (by simp) S50000x256 b rfl rfl 256 rfl (ix2 p ⟨q.val - 256, by omega⟩)
    (fun ax hax => by
      match ax with
      | ⟨0, _⟩ => rfl
      | ⟨1, _⟩ => exact absurd rfl hax)
    (by show 256 + (q.val - 256) = q.val; omega)

/-- A column from 512 on reads the third block. -/
theorem catBlocks_ge512 (a b c : (⟨S50000x256, .f32⟩ : BufTy).Contents (Elt F)) (p : Fin 50000) (q : Fin 768) (h1 : 512 ≤ q.val) :
    catBlocks a b c (ix2 p q) = c (ix2 p ⟨q.val - 512, by have := q.isLt; omega⟩) := by
  unfold catBlocks
  exact concatenate_apply_piece _ _ _ (ix2 p q) 2 (by simp) S50000x256 c rfl rfl 512 rfl
    (ix2 p ⟨q.val - 512, by have := q.isLt; omega⟩)
    (fun ax hax => by
      match ax with
      | ⟨0, _⟩ => rfl
      | ⟨1, _⟩ => exact absurd rfl hax)
    (by show 512 + (q.val - 512) = q.val; omega)

/-- The three blocks side by side, read at an entry. -/
theorem catBlocks_apply (a b c : (⟨S50000x256, .f32⟩ : BufTy).Contents (Elt F)) (p : Fin 50000) (q : Fin 768) :
    catBlocks a b c (ix2 p q)
      = if h : q.val < 256 then a (ix2 p ⟨q.val, h⟩)
        else if h2 : q.val < 512 then b (ix2 p ⟨q.val - 256, by omega⟩)
        else c (ix2 p ⟨q.val - 512, by have := q.isLt; omega⟩) := by
  by_cases h : q.val < 256
  · rw [dif_pos h]; exact catBlocks_lt256 a b c p q h
  · rw [dif_neg h]
    by_cases h2 : q.val < 512
    · rw [dif_pos h2]; exact catBlocks_lt512 a b c p q (by omega) h2
    · rw [dif_neg h2]; exact catBlocks_ge512 a b c p q (by omega)

end Cat

/-! ### The reference's value at an entry, block by block (at the exact instance) -/

/-- Columns below 256: block 0, over the input features. -/
theorem refVal_block0 (x : (⟨S50000x256, .f32⟩ : BufTy).Contents (Elt Ideal)) (w : (⟨S800000, .f32⟩ : BufTy).Contents (Elt Ideal)) (Wt : (⟨S3x256x256, .f32⟩ : BufTy).Contents (Elt Ideal)) (b g β : (⟨S3x256, .f32⟩ : BufTy).Contents (Elt Ideal))
    (src dst : (⟨S800000, .i32⟩ : BufTy).Contents (Elt Ideal)) (p : Fin 50000) (q : Fin 768) (h : q.val < 256) :
    refVal (F := Ideal) x w Wt b g β src dst (ix2 p q)
      = Cert.Spec.refBn (fun p k => x (ix2 p k)) (fun k j => sliceW0 Wt (ix2 k j)) (fun j => row0 b (ix1 j))
          (fun j => row0 g (ix1 j)) (fun j => row0 β (ix1 j)) p ⟨q.val, h⟩ := by
  unfold refVal
  rw [catBlocks_lt256 _ _ _ p q h, bnRef_apply]

/-- Columns from 256 to below 512: block 1, over the features after one hop. -/
theorem refVal_block1 (x : (⟨S50000x256, .f32⟩ : BufTy).Contents (Elt Ideal)) (w : (⟨S800000, .f32⟩ : BufTy).Contents (Elt Ideal)) (Wt : (⟨S3x256x256, .f32⟩ : BufTy).Contents (Elt Ideal)) (b g β : (⟨S3x256, .f32⟩ : BufTy).Contents (Elt Ideal))
    (src dst : (⟨S800000, .i32⟩ : BufTy).Contents (Elt Ideal)) (p : Fin 50000) (q : Fin 768) (h1 : 256 ≤ q.val) (h2 : q.val < 512) :
    refVal (F := Ideal) x w Wt b g β src dst (ix2 p q)
      = Cert.Spec.refBn (fun p k => hop1 x w src dst (ix2 p k)) (fun k j => sliceW1 Wt (ix2 k j)) (fun j => row1 b (ix1 j))
          (fun j => row1 g (ix1 j)) (fun j => row1 β (ix1 j)) p ⟨q.val - 256, by omega⟩ := by
  unfold refVal
  rw [catBlocks_lt512 _ _ _ p q h1 h2, bnRef_apply]

/-- Columns from 512 on: block 2, over the features after two hops. -/
theorem refVal_block2 (x : (⟨S50000x256, .f32⟩ : BufTy).Contents (Elt Ideal)) (w : (⟨S800000, .f32⟩ : BufTy).Contents (Elt Ideal)) (Wt : (⟨S3x256x256, .f32⟩ : BufTy).Contents (Elt Ideal)) (b g β : (⟨S3x256, .f32⟩ : BufTy).Contents (Elt Ideal))
    (src dst : (⟨S800000, .i32⟩ : BufTy).Contents (Elt Ideal)) (p : Fin 50000) (q : Fin 768) (h1 : 512 ≤ q.val) :
    refVal (F := Ideal) x w Wt b g β src dst (ix2 p q)
      = Cert.Spec.refBn (fun p k => hop2 x w src dst (ix2 p k)) (fun k j => sliceW2 Wt (ix2 k j)) (fun j => row2 b (ix1 j))
          (fun j => row2 g (ix1 j)) (fun j => row2 β (ix1 j)) p ⟨q.val - 512, by have := q.isLt; omega⟩ := by
  unfold refVal
  rw [catBlocks_ge512 _ _ _ p q h1, bnRef_apply]

/-! ### A layer of the weights and a row of a parameter table at an entry (any float values) -/

section Slices
variable {F : FTy → Type} [FloatOps F]

theorem sliceW0_apply (Wt : (⟨S3x256x256, .f32⟩ : BufTy).Contents (Elt F)) (k j : Fin 256) :
    sliceW0 Wt (ix2 k j) = Wt (ix3 (0 : Fin 3) k j) := by
  unfold sliceW0
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem row0_apply (t : (⟨S3x256, .f32⟩ : BufTy).Contents (Elt F)) (j : Fin 256) :
    row0 t (ix1 j) = t (ix2 (0 : Fin 3) j) := by
  unfold row0
  rw [shapeCast_1a_a_apply]
  exact extractStridedSlice_apply _ _ _ _ _ (fun ax => by
    match ax with
    | ⟨0, _⟩ => rfl
    | ⟨1, _⟩ => exact (Nat.zero_add _).symm)

theorem sliceW1_apply (Wt : (⟨S3x256x256, .f32⟩ : BufTy).Contents (Elt F)) (k j : Fin 256) :
    sliceW1 Wt (ix2 k j) = Wt (ix3 (1 : Fin 3) k j) := by
  unfold sliceW1
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem row1_apply (t : (⟨S3x256, .f32⟩ : BufTy).Contents (Elt F)) (j : Fin 256) :
    row1 t (ix1 j) = t (ix2 (1 : Fin 3) j) := by
  unfold row1
  rw [shapeCast_1a_a_apply]
  exact extractStridedSlice_apply _ _ _ _ _ (fun ax => by
    match ax with
    | ⟨0, _⟩ => rfl
    | ⟨1, _⟩ => exact (Nat.zero_add _).symm)

theorem sliceW2_apply (Wt : (⟨S3x256x256, .f32⟩ : BufTy).Contents (Elt F)) (k j : Fin 256) :
    sliceW2 Wt (ix2 k j) = Wt (ix3 (2 : Fin 3) k j) := by
  unfold sliceW2
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem row2_apply (t : (⟨S3x256, .f32⟩ : BufTy).Contents (Elt F)) (j : Fin 256) :
    row2 t (ix1 j) = t (ix2 (2 : Fin 3) j) := by
  unfold row2
  rw [shapeCast_1a_a_apply]
  exact extractStridedSlice_apply _ _ _ _ _ (fun ax => by
    match ax with
    | ⟨0, _⟩ => rfl
    | ⟨1, _⟩ => exact (Nat.zero_add _).symm)

end Slices

end Cert.ReferenceIdeal.Hand

end
-- ==== Proof.AlgWrap.lean ====
/-
  The algebraic claim from one equation: at the exact instance, under the precondition, the kernel program's result
  array at the end of its run — the last valuation read at the result's buffer — is the reference's value of the
  argument arrays. The kernel program's run gives the first half (its result, its arguments unchanged), the reference's
  run the second, its arguments being the kernel's.
-/
import proofs.«115305_j43688407335088_2_alg».proof.Defs
import proofs.«115305_j43688407335088_2_alg».proof.Proof.Gen.Pre_finite_inputs
import proofs.«115305_j43688407335088_2_alg».proof.Proof.Inst
import proofs.«115305_j43688407335088_2_alg».proof.Proof.RefRun

noncomputable section

namespace Cert.Proof

open Idealize.ShloMosaic Idealize.ShloMosaic.TcCoe Idealize.SL.Sem
open Cert.KernelIdeal.Hand

/-- The reference's value of the kernel program's launch arrays on core c. -/
def target (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v85) :=
  Cert.ReferenceIdeal.Hand.refVal (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))

theorem algebraic_of
    (hval : ∀ (m : (ℓ : Loc Cert.KernelIdeal.nD Cert.KernelIdeal.τ Cert.KernelIdeal.sig) → Buf (Elt Ideal) ℓ) (ρ : Dev Cert.KernelIdeal.nD → PrngReg),
      Cert.Pre_KernelIdeal (hPre_finite_inputs := Cert.Pre_finite_inputs.Gen.facts) m → ∀ c : Dev Cert.KernelIdeal.nD,
        W14 m ρ (D6 (F := Ideal)) c (Proc.devRef .tc Cert.KernelIdeal.main_v85) = target m c) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨target m, ?_, ?_⟩
  · refine (θ_run Cert.KernelIdeal.defs _ _).mono (fun r h c => ⟨?_, ?_⟩) (run_all m ρ (D6 (F := Ideal)))
    · exact (h c _ (mem_uc Cert.KernelIdeal.main_v85 (by decide))).trans (hval m ρ hpre c)
    · exact ⟨(h c _ (mem_uc Cert.KernelIdeal.main_arg0 (by decide))).trans (W14_kept m ρ _ c Cert.KernelIdeal.main_arg0 (by decide) (by decide) (by decide) (by decide) (by decide) (by decide) (by decide) (by decide) (by decide) (by decide) (by decide) (by decide) (by decide) (by decide)),
        (h c _ (mem_uc Cert.KernelIdeal.main_arg1 (by decide))).trans (W14_kept m ρ _ c Cert.KernelIdeal.main_arg1 (by decide) (by decide) (by decide) (by decide) (by decide) (by decide) (by decide) (by decide) (by decide) (by decide) (by decide) (by decide) (by decide) (by decide)),
        (h c _ (mem_uc Cert.KernelIdeal.main_arg2 (by decide))).trans (W14_kept m ρ _ c Cert.KernelIdeal.main_arg2 (by decide) (by decide) (by decide) (by decide) (by decide) (by decide) (by decide) (by decide) (by decide) (by decide) (by decide) (by decide) (by decide) (by decide)),
        (h c _ (mem_uc Cert.KernelIdeal.main_arg3 (by decide))).trans (W14_kept m ρ _ c Cert.KernelIdeal.main_arg3 (by decide) (by decide) (by decide) (by decide) (by decide) (by decide) (by decide) (by decide) (by decide) (by decide) (by decide) (by decide) (by decide) (by decide)),
        (h c _ (mem_uc Cert.KernelIdeal.main_arg4 (by decide))).trans (W14_kept m ρ _ c Cert.KernelIdeal.main_arg4 (by decide) (by decide) (by decide) (by decide) (by decide) (by decide) (by decide) (by decide) (by decide) (by decide) (by decide) (by decide) (by decide) (by decide)),
        (h c _ (mem_uc Cert.KernelIdeal.main_arg5 (by decide))).trans (W14_kept m ρ _ c Cert.KernelIdeal.main_arg5 (by decide) (by decide) (by decide) (by decide) (by decide) (by decide) (by decide) (by decide) (by decide) (by decide) (by decide) (by decide) (by decide) (by decide)),
        (h c _ (mem_uc Cert.KernelIdeal.main_arg6 (by decide))).trans (W14_kept m ρ _ c Cert.KernelIdeal.main_arg6 (by decide) (by decide) (by decide) (by decide) (by decide) (by decide) (by decide) (by decide) (by decide) (by decide) (by decide) (by decide) (by decide) (by decide)),
        (h c _ (mem_uc Cert.KernelIdeal.main_arg7 (by decide))).trans (W14_kept m ρ _ c Cert.KernelIdeal.main_arg7 (by decide) (by decide) (by decide) (by decide) (by decide) (by decide) (by decide) (by decide) (by decide) (by decide) (by decide) (by decide) (by decide) (by decide))⟩
  · refine (θ_run Cert.ReferenceIdeal.defs _ _).mono (fun r h c => ⟨?_, (h c).2⟩) (Cert.ReferenceIdeal.Hand.run (F := Ideal) m' ρ')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2]
    rfl

end Cert.Proof

end
-- ==== Proof.KernelValue.lean ====
/-
  The kernel program's result, block by block, at the exact instance. Column block i of the result array is written by
  the i-th normalisation region and left alone by the later ones (each starts from a copy of the array its predecessor
  left and overwrites only its own column block), so an entry of block i is what that region's tile arithmetic gives:
  the rectified affine image of the block's features, less the mean row and times the reciprocal square root of the
  variance row plus epsilon — the rows the preceding statistics region left, the tiled mean and variance of the same
  image — times the scale row, plus the shift row. On real data that is the reference's block (the centred second
  moment is the mean square less the squared mean; a reciprocal square root multiplies as a square root divides), and
  the precondition makes every float argument, hence the features after each hop, real.
-/
import proofs.«115305_j43688407335088_2_alg».proof.Proof.KernelStats
import proofs.«115305_j43688407335088_2_alg».proof.Proof.Norm1Val
import proofs.«115305_j43688407335088_2_alg».proof.Proof.Norm3Val
import proofs.«115305_j43688407335088_2_alg».proof.Proof.Norm5Val
import proofs.«115305_j43688407335088_2_alg».proof.Proof.SpecBridge
import proofs.«115305_j43688407335088_2_alg».proof.Proof.Glue
import proofs.«115305_j43688407335088_2_alg».proof.Proof.RefSide
import proofs.«115305_j43688407335088_2_alg».proof.Proof.AlgWrap

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.ReferenceIdeal.Hand (hop1 hop2 sliceW0 sliceW1 sliceW2 row0 row1 row2)

/-! ## A normalisation region from its arrays' contents -/

/-- Region 1's column block of the output from its seven input arrays' contents. -/
theorem norm1_band (V : (c : Dev nD) → (b : Ref sig .tc) → Buf (Elt Ideal) ((c : Thread nD τ).loc b)) (c : Dev nD)
    {A0 : FVec Ideal S50000x256 .bf16} {A1 : FVec Ideal S256x256 .bf16} {A2 A3 A4 A5 A6 : FVec Ideal S256 .f32}
    (h0 : V c (Pipeline.arrRef spec1 0) = A0) (h1 : V c (Pipeline.arrRef spec1 1) = A1) (h2 : V c (Pipeline.arrRef spec1 2) = A2)
    (h3 : V c (Pipeline.arrRef spec1 3) = A3) (h4 : V c (Pipeline.arrRef spec1 4) = A4) (h5 : V c (Pipeline.arrRef spec1 5) = A5)
    (h6 : V c (Pipeline.arrRef spec1 6) = A6) (p : Fin 50000) (q : Fin 768) (hq : 0 ≤ q.val ∧ q.val < 256) :
    (dat1 V c).arrAt 7 cfg1.N (ix2 p q)
      = Cert.Spec.kerOut (Cert.Spec.lin (fun p k => A0 (ix2 p k)) (fun k j => A1 (ix2 k j)) (fun j => A2 (ix1 j)))
          (fun j => A3 (ix1 j)) (fun j => A4 (ix1 j)) (fun j => A5 (ix1 j)) (fun j => A6 (ix1 j)) p ⟨q.val - 0, by omega⟩ := by
  subst h0 h1 h2 h3 h4 h5 h6
  exact (value1 V c p q).trans (dif_pos hq)

/-- Outside its column block region 1 leaves the output array as it found it. -/
theorem norm1_rest (V : (c : Dev nD) → (b : Ref sig .tc) → Buf (Elt Ideal) ((c : Thread nD τ).loc b)) (c : Dev nD) {A7 : FVec Ideal S50000x768 .f32}
    (h7 : V c (Pipeline.arrRef spec1 7) = A7) (p : Fin 50000) (q : Fin 768) (hq : ¬ (0 ≤ q.val ∧ q.val < 256)) :
    (dat1 V c).arrAt 7 cfg1.N (ix2 p q) = A7 (ix2 p q) := by
  subst h7
  exact (value1 V c p q).trans (dif_neg hq)

/-- Region 3's column block of the output from its seven input arrays' contents. -/
theorem norm3_band (V : (c : Dev nD) → (b : Ref sig .tc) → Buf (Elt Ideal) ((c : Thread nD τ).loc b)) (c : Dev nD)
    {A0 : FVec Ideal S50000x256 .bf16} {A1 : FVec Ideal S256x256 .bf16} {A2 A3 A4 A5 A6 : FVec Ideal S256 .f32}
    (h0 : V c (Pipeline.arrRef spec3 0) = A0) (h1 : V c (Pipeline.arrRef spec3 1) = A1) (h2 : V c (Pipeline.arrRef spec3 2) = A2)
    (h3 : V c (Pipeline.arrRef spec3 3) = A3) (h4 : V c (Pipeline.arrRef spec3 4) = A4) (h5 : V c (Pipeline.arrRef spec3 5) = A5)
    (h6 : V c (Pipeline.arrRef spec3 6) = A6) (p : Fin 50000) (q : Fin 768) (hq : 256 ≤ q.val ∧ q.val < 512) :
    (dat3 V c).arrAt 7 cfg3.N (ix2 p q)
      = Cert.Spec.kerOut (Cert.Spec.lin (fun p k => A0 (ix2 p k)) (fun k j => A1 (ix2 k j)) (fun j => A2 (ix1 j)))
          (fun j => A3 (ix1 j)) (fun j => A4 (ix1 j)) (fun j => A5 (ix1 j)) (fun j => A6 (ix1 j)) p ⟨q.val - 256, by omega⟩ := by
  subst h0 h1 h2 h3 h4 h5 h6
  exact (value3 V c p q).trans (dif_pos hq)

/-- Outside its column block region 3 leaves the output array as it found it. -/
theorem norm3_rest (V : (c : Dev nD) → (b : Ref sig .tc) → Buf (Elt Ideal) ((c : Thread nD τ).loc b)) (c : Dev nD) {A7 : FVec Ideal S50000x768 .f32}
    (h7 : V c (Pipeline.arrRef spec3 7) = A7) (p : Fin 50000) (q : Fin 768) (hq : ¬ (256 ≤ q.val ∧ q.val < 512)) :
    (dat3 V c).arrAt 7 cfg3.N (ix2 p q) = A7 (ix2 p q) := by
  subst h7
  exact (value3 V c p q).trans (dif_neg hq)

/-- Region 5's column block of the output from its seven input arrays' contents. -/
theorem norm5_band (V : (c : Dev nD) → (b : Ref sig .tc) → Buf (Elt Ideal) ((c : Thread nD τ).loc b)) (c : Dev nD)
    {A0 : FVec Ideal S50000x256 .bf16} {A1 : FVec Ideal S256x256 .bf16} {A2 A3 A4 A5 A6 : FVec Ideal S256 .f32}
    (h0 : V c (Pipeline.arrRef spec5 0) = A0) (h1 : V c (Pipeline.arrRef spec5 1) = A1) (h2 : V c (Pipeline.arrRef spec5 2) = A2)
    (h3 : V c (Pipeline.arrRef spec5 3) = A3) (h4 : V c (Pipeline.arrRef spec5 4) = A4) (h5 : V c (Pipeline.arrRef spec5 5) = A5)
    (h6 : V c (Pipeline.arrRef spec5 6) = A6) (p : Fin 50000) (q : Fin 768) (hq : 512 ≤ q.val ∧ q.val < 768) :
    (dat5 V c).arrAt 7 cfg5.N (ix2 p q)
      = Cert.Spec.kerOut (Cert.Spec.lin (fun p k => A0 (ix2 p k)) (fun k j => A1 (ix2 k j)) (fun j => A2 (ix1 j)))
          (fun j => A3 (ix1 j)) (fun j => A4 (ix1 j)) (fun j => A5 (ix1 j)) (fun j => A6 (ix1 j)) p ⟨q.val - 512, by omega⟩ := by
  subst h0 h1 h2 h3 h4 h5 h6
  exact (value5 V c p q).trans (dif_pos hq)

/-- Outside its column block region 5 leaves the output array as it found it. -/
theorem norm5_rest (V : (c : Dev nD) → (b : Ref sig .tc) → Buf (Elt Ideal) ((c : Thread nD τ).loc b)) (c : Dev nD) {A7 : FVec Ideal S50000x768 .f32}
    (h7 : V c (Pipeline.arrRef spec5 7) = A7) (p : Fin 50000) (q : Fin 768) (hq : ¬ (512 ≤ q.val ∧ q.val < 768)) :
    (dat5 V c).arrAt 7 cfg5.N (ix2 p q) = A7 (ix2 p q) := by
  subst h7
  exact (value5 V c p q).trans (dif_neg hq)

/-! ## The three blocks of the run's result -/

variable (m : (ℓ : Loc nD τ sig) → Buf (Elt Ideal) ℓ) (ρ : Dev nD → PrngReg) (c : Dev nD)

/-- Block 2 of the result: the tiled normalisation of the rectified affine image of the block's features. -/
theorem block2 (p : Fin 50000) (q : Fin 768) (hq : 512 ≤ q.val ∧ q.val < 768) :
    (W14 m ρ DD c (Proc.devRef .tc main_v85) : FVec Ideal S50000x768 .f32) (ix2 p q)
      = Cert.Spec.kerBn (sft (FT2 m c)) (swt (sliceW2 (F := Ideal) (aW m c))) (srow (row2 (F := Ideal) (aB m c)))
          (srow (row2 (F := Ideal) (aG m c))) (srow (row2 (F := Ideal) (aBe m c))) p ⟨q.val - 512, by omega⟩ := by
  have s0 := congrFun (out_eq m ρ DD c) (ix2 p q)

  have sb := norm5_band (fun c b => W13 m ρ DD c b) c (e5_ft m ρ DD c) (e5_W m ρ DD c) (e5_b m ρ DD c)
    (e5_mean m ρ DD c) (e5_var m ρ DD c) (e5_g m ρ DD c) (e5_be m ρ DD c) p q hq
  have hm : (fun j : Fin 256 => ((DD.r4 (W11 m ρ DD)).dat c).arrAt 3 (Pipeline.pin (pcfgs (F := Ideal)) adm 4).N (ix1 j))
      = Cert.Spec.kerMean (Cert.Spec.lin (sft (FT2 m c)) (swt (sliceW2 (F := Ideal) (aW m c))) (srow (row2 (F := Ideal) (aB m c)))) :=
    funext fun j => mean4_eq m ρ c j
  have hv : (fun j : Fin 256 => ((DD.r4 (W11 m ρ DD)).dat c).arrAt 4 (Pipeline.pin (pcfgs (F := Ideal)) adm 4).N (ix1 j))
      = Cert.Spec.kerVar (Cert.Spec.lin (sft (FT2 m c)) (swt (sliceW2 (F := Ideal) (aW m c))) (srow (row2 (F := Ideal) (aB m c)))) :=
    funext fun j => var4_eq m ρ c j
  rw [hm, hv] at sb
  exact s0.trans sb

/-- Block 1 of the result: the tiled normalisation of the rectified affine image of the block's features. -/
theorem block1 (p : Fin 50000) (q : Fin 768) (hq : 256 ≤ q.val ∧ q.val < 512) :
    (W14 m ρ DD c (Proc.devRef .tc main_v85) : FVec Ideal S50000x768 .f32) (ix2 p q)
      = Cert.Spec.kerBn (sft (FT1 m c)) (swt (sliceW1 (F := Ideal) (aW m c))) (srow (row1 (F := Ideal) (aB m c)))
          (srow (row1 (F := Ideal) (aG m c))) (srow (row1 (F := Ideal) (aBe m c))) p ⟨q.val - 256, by omega⟩ := by
  have s0 := congrFun (out_eq m ρ DD c) (ix2 p q)
  have s1 := norm5_rest (fun c b => W13 m ρ DD c b) c (e5_prev m ρ DD c) p q (by omega)
  have sb := norm3_band (fun c b => W9 m ρ DD c b) c (e3_ft m ρ DD c) (e3_W m ρ DD c) (e3_b m ρ DD c)
    (e3_mean m ρ DD c) (e3_var m ρ DD c) (e3_g m ρ DD c) (e3_be m ρ DD c) p q hq
  have hm : (fun j : Fin 256 => ((DD.r2 (W7 m ρ DD)).dat c).arrAt 3 (Pipeline.pin (pcfgs (F := Ideal)) adm 2).N (ix1 j))
      = Cert.Spec.kerMean (Cert.Spec.lin (sft (FT1 m c)) (swt (sliceW1 (F := Ideal) (aW m c))) (srow (row1 (F := Ideal) (aB m c)))) :=
    funext fun j => mean2_eq m ρ c j
  have hv : (fun j : Fin 256 => ((DD.r2 (W7 m ρ DD)).dat c).arrAt 4 (Pipeline.pin (pcfgs (F := Ideal)) adm 2).N (ix1 j))
      = Cert.Spec.kerVar (Cert.Spec.lin (sft (FT1 m c)) (swt (sliceW1 (F := Ideal) (aW m c))) (srow (row1 (F := Ideal) (aB m c)))) :=
    funext fun j => var2_eq m ρ c j
  rw [hm, hv] at sb
  exact s0.trans (s1.trans sb)

/-- Block 0 of the result: the tiled normalisation of the rectified affine image of the block's features. -/
theorem block0 (p : Fin 50000) (q : Fin 768) (hq : 0 ≤ q.val ∧ q.val < 256) :
    (W14 m ρ DD c (Proc.devRef .tc main_v85) : FVec Ideal S50000x768 .f32) (ix2 p q)
      = Cert.Spec.kerBn (sft (FT0 m c)) (swt (sliceW0 (F := Ideal) (aW m c))) (srow (row0 (F := Ideal) (aB m c)))
          (srow (row0 (F := Ideal) (aG m c))) (srow (row0 (F := Ideal) (aBe m c))) p ⟨q.val - 0, by omega⟩ := by
  have s0 := congrFun (out_eq m ρ DD c) (ix2 p q)
  have s1 := norm5_rest (fun c b => W13 m ρ DD c b) c (e5_prev m ρ DD c) p q (by omega)
  have s2 := norm3_rest (fun c b => W9 m ρ DD c b) c (e3_prev m ρ DD c) p q (by omega)
  have sb := norm1_band (fun c b => W5 m ρ DD c b) c (e1_ft m ρ DD c) (e1_W m ρ DD c) (e1_b m ρ DD c)
    (e1_mean m ρ DD c) (e1_var m ρ DD c) (e1_g m ρ DD c) (e1_be m ρ DD c) p q hq
  have hm : (fun j : Fin 256 => ((DD.r0 (W3 m ρ)).dat c).arrAt 3 (Pipeline.pin (pcfgs (F := Ideal)) adm 0).N (ix1 j))
      = Cert.Spec.kerMean (Cert.Spec.lin (sft (FT0 m c)) (swt (sliceW0 (F := Ideal) (aW m c))) (srow (row0 (F := Ideal) (aB m c)))) :=
    funext fun j => mean0_eq m ρ c j
  have hv : (fun j : Fin 256 => ((DD.r0 (W3 m ρ)).dat c).arrAt 4 (Pipeline.pin (pcfgs (F := Ideal)) adm 0).N (ix1 j))
      = Cert.Spec.kerVar (Cert.Spec.lin (sft (FT0 m c)) (swt (sliceW0 (F := Ideal) (aW m c))) (srow (row0 (F := Ideal) (aB m c)))) :=
    funext fun j => var0_eq m ρ c j
  rw [hm, hv] at sb
  exact s0.trans (s1.trans (s2.trans sb))

/-! ## The result is the reference's value -/

/-- Under the precondition the kernel program's result array is the reference's value of the argument arrays: block
    by block the tiled normalisation is the whole-column one, every entry being real. -/
theorem kernel_value (hpre : Cert.Pre_KernelIdeal (hPre_finite_inputs := Cert.Pre_finite_inputs.Gen.facts) m) :
    W14 m ρ DD c (Proc.devRef .tc main_v85) = Cert.Proof.target m c := by
  have R := Cert.Glue.launchReal_of_pre (hP := Cert.Pre_finite_inputs.Gen.facts) m hpre c
  refine funext (f := (W14 m ρ DD c (Proc.devRef .tc main_v85) : FVec Ideal S50000x768 .f32))
    (g := (Cert.Proof.target m c : FVec Ideal S50000x768 .f32)) fun i => ?_
  obtain ⟨p, q, rfl⟩ : ∃ (p : Fin 50000) (q : Fin 768), i = ix2 p q := ⟨i 0, i 1, eq_ix2 i⟩
  unfold Cert.Proof.target
  by_cases h0 : q.val < 256
  · calc (W14 m ρ DD c (Proc.devRef .tc main_v85) : FVec Ideal S50000x768 .f32) (ix2 p q)
        = Cert.Spec.kerBn (sft (FT0 m c)) (swt (sliceW0 (F := Ideal) (aW m c))) (srow (row0 (F := Ideal) (aB m c))) (srow (row0 (F := Ideal) (aG m c))) (srow (row0 (F := Ideal) (aBe m c))) p ⟨q.val - 0, by omega⟩ := block0 m ρ c p q ⟨Nat.zero_le _, h0⟩
      _ = Cert.Spec.refBn (sft (FT0 m c)) (swt (sliceW0 (F := Ideal) (aW m c))) (srow (row0 (F := Ideal) (aB m c))) (srow (row0 (F := Ideal) (aG m c))) (srow (row0 (F := Ideal) (aBe m c))) p ⟨q.val - 0, by omega⟩ := by
          rw [Cert.Spec.kerBn_eq_refBn (sft (FT0 m c)) (swt (sliceW0 (F := Ideal) (aW m c))) (srow (row0 (F := Ideal) (aB m c))) (srow (row0 (F := Ideal) (aG m c))) (srow (row0 (F := Ideal) (aBe m c))) R.x_real R.W0_real R.b0_real]
      _ = Cert.Spec.refBn (sft (FT0 m c)) (swt (sliceW0 (F := Ideal) (aW m c))) (srow (row0 (F := Ideal) (aB m c))) (srow (row0 (F := Ideal) (aG m c))) (srow (row0 (F := Ideal) (aBe m c))) p ⟨q.val, h0⟩ :=
          congrArg (Cert.Spec.refBn (sft (FT0 m c)) (swt (sliceW0 (F := Ideal) (aW m c))) (srow (row0 (F := Ideal) (aB m c))) (srow (row0 (F := Ideal) (aG m c))) (srow (row0 (F := Ideal) (aBe m c))) p) (Fin.ext (Nat.sub_zero q.val))
      _ = _ := (Cert.ReferenceIdeal.Hand.refVal_block0 (aX m c) (aEw m c) (aW m c) (aB m c) (aG m c) (aBe m c) (aSrc m c) (aDst m c) p q h0).symm
  · by_cases h1 : q.val < 512
    · calc (W14 m ρ DD c (Proc.devRef .tc main_v85) : FVec Ideal S50000x768 .f32) (ix2 p q)
          = Cert.Spec.kerBn (sft (FT1 m c)) (swt (sliceW1 (F := Ideal) (aW m c))) (srow (row1 (F := Ideal) (aB m c))) (srow (row1 (F := Ideal) (aG m c))) (srow (row1 (F := Ideal) (aBe m c))) p ⟨q.val - 256, by omega⟩ := block1 m ρ c p q ⟨by omega, h1⟩
        _ = Cert.Spec.refBn (sft (FT1 m c)) (swt (sliceW1 (F := Ideal) (aW m c))) (srow (row1 (F := Ideal) (aB m c))) (srow (row1 (F := Ideal) (aG m c))) (srow (row1 (F := Ideal) (aBe m c))) p ⟨q.val - 256, by omega⟩ := by
            rw [Cert.Spec.kerBn_eq_refBn (sft (FT1 m c)) (swt (sliceW1 (F := Ideal) (aW m c))) (srow (row1 (F := Ideal) (aB m c))) (srow (row1 (F := Ideal) (aG m c))) (srow (row1 (F := Ideal) (aBe m c))) R.hop1_real R.W1_real R.b1_real]
        _ = _ := (Cert.ReferenceIdeal.Hand.refVal_block1 (aX m c) (aEw m c) (aW m c) (aB m c) (aG m c) (aBe m c) (aSrc m c) (aDst m c) p q (by omega) h1).symm
    · have hq := q.isLt
      calc (W14 m ρ DD c (Proc.devRef .tc main_v85) : FVec Ideal S50000x768 .f32) (ix2 p q)
          = Cert.Spec.kerBn (sft (FT2 m c)) (swt (sliceW2 (F := Ideal) (aW m c))) (srow (row2 (F := Ideal) (aB m c))) (srow (row2 (F := Ideal) (aG m c))) (srow (row2 (F := Ideal) (aBe m c))) p ⟨q.val - 512, by omega⟩ := block2 m ρ c p q ⟨by omega, hq⟩
        _ = Cert.Spec.refBn (sft (FT2 m c)) (swt (sliceW2 (F := Ideal) (aW m c))) (srow (row2 (F := Ideal) (aB m c))) (srow (row2 (F := Ideal) (aG m c))) (srow (row2 (F := Ideal) (aBe m c))) p ⟨q.val - 512, by omega⟩ := by
            rw [Cert.Spec.kerBn_eq_refBn (sft (FT2 m c)) (swt (sliceW2 (F := Ideal) (aW m c))) (srow (row2 (F := Ideal) (aB m c))) (srow (row2 (F := Ideal) (aG m c))) (srow (row2 (F := Ideal) (aBe m c))) R.hop2_real R.W2_real R.b2_real]
        _ = _ := (Cert.ReferenceIdeal.Hand.refVal_block2 (aX m c) (aEw m c) (aW m c) (aB m c) (aG m c) (aBe m c) (aSrc m c) (aDst m c) p q (by omega)).symm

end Cert.KernelIdeal.Hand

end
-- ==== Proof.lean ====
/-
  The certificate of a graph-convolution layer of order two with batch normalisation: three blocks of features (the
  input, and the input after one and after two hops of weighted mean aggregation over the in-edges), each sent through
  an affine map and a rectifier and normalised over the 50000 nodes, side by side in one array of 768 columns.
  The kernel program computes each block's column mean and variance in a first pass over 25 row tiles, from the running
  sums of the entries and of their squares, and normalises in a second pass with the reciprocal square root; the
  reference takes the centred second moment and divides by the square root. The frames: every program runs to its end
  and leaves its arguments as launched — for the kernel programs through the run of their fourteen segments (host
  operations and six kernel regions), for the reference through the run of its host operations. The algebraic claim: block by block the kernel program's result is
  the reference's value, the two arrangements of the normalisation agreeing on real data, which the precondition gives.
-/
import proofs.«115305_j43688407335088_2_alg».proof.Defs
import proofs.«115305_j43688407335088_2_alg».proof.Proof.Gen.Kernel
import proofs.«115305_j43688407335088_2_alg».proof.Proof.Gen.KernelIdeal
import proofs.«115305_j43688407335088_2_alg».proof.Proof.Gen.ReferenceIdeal
import proofs.«115305_j43688407335088_2_alg».proof.Proof.Gen.Pre_finite_inputs
import proofs.«115305_j43688407335088_2_alg».proof.Proof.Inst
import proofs.«115305_j43688407335088_2_alg».proof.Proof.KInst
import proofs.«115305_j43688407335088_2_alg».proof.Proof.RefRun
import proofs.«115305_j43688407335088_2_alg».proof.Proof.KernelValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ Cert.Kernel.Hand.D6

theorem frame_ki : Cert.frame_KernelIdeal (hKernelIdeal := Cert.KernelIdeal.Gen.facts) (hPre_finite_inputs := Cert.Pre_finite_inputs.Gen.facts) :=
  fun m ρ _ => Cert.KernelIdeal.Hand.frame m ρ Cert.KernelIdeal.Hand.D6

theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- At the exact instance the two programs, run from memories agreeing on the arguments, end with equal results: the
    kernel program's last valuation at its result buffer is the reference's value of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  algebraic_of fun m ρ hpre c => Cert.KernelIdeal.Hand.kernel_value m ρ c hpre

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
